-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x600 : Shape := ⟨2, ![16384, 600]⟩
abbrev S16384 : Shape := ⟨1, ![16384]⟩
abbrev S_ : Shape := ⟨0, ![]⟩

class Facts : Prop where
  bcast_S_S16384x600 : S_.BroadcastsInDim S16384x600 (![] : Fin 0 → Fin S16384x600.rank)
  reducesTo_S16384x600_S_d0_1 : S16384x600.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x600 .f32) (main_arg1 : FVec F S16384x600 .f32) (main_arg2 : IVec S16384 32) : IVec S_ 1 :=
  let main_v0 : FVec F S16384x600 .f32 := Host.absf main_arg0
  let main_cst : FVec F S_ .f32 := constant S_ .f32 0x7F800000#32
  let main_v1 : FVec F S16384x600 .f32 := broadcastInDim S16384x600 ![] bcast_S_S16384x600 main_cst
  let main_v2 : IVec S16384x600 1 := cmpf .olt main_v0 main_v1
  let main_c : IVec S_ 1 := constantI S_ 1 1#1
  let main_v3 : IVec S_ 1 := (fun x v => Host.reduce IntOp.andi x v reducesTo_S16384x600_S_d0_1 h_S_) main_v2 main_c
  let main_v4 : FVec F S16384x600 .f32 := Host.absf main_arg1
  let main_cst_0 : FVec F S_ .f32 := constant S_ .f32 0x7F800000#32
  let main_v5 : FVec F S16384x600 .f32 := broadcastInDim S16384x600 ![] bcast_S_S16384x600 main_cst_0
  let main_v6 : IVec S16384x600 1 := cmpf .olt main_v4 main_v5
  let main_c_1 : IVec S_ 1 := constantI S_ 1 1#1
  let main_v7 : IVec S_ 1 := (fun x v => Host.reduce IntOp.andi x v reducesTo_S16384x600_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 599#32
  let main_v11 : IVec S16384 32 := broadcastInDim S16384 ![] bcast_S_S16384 main_c_3
  let main_v12 : IVec S16384 1 := cmpi .sle main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x600 : Shape := ⟨2, ![16384, 600]⟩
abbrev S16384 : Shape := ⟨1, ![16384]⟩
abbrev S512 : Shape := ⟨1, ![512]⟩
abbrev S2x64x600 : Shape := ⟨3, ![2, 64, 600]⟩
abbrev S2 : Shape := ⟨1, ![2]⟩
abbrev S_ : Shape := ⟨0, ![]⟩
abbrev S1x64x600 : Shape := ⟨3, ![1, 64, 600]⟩
abbrev S64x600 : Shape := ⟨2, ![64, 600]⟩
abbrev S1 : Shape := ⟨1, ![1]⟩
abbrev S16 : Shape := ⟨1, ![16]⟩
abbrev S128x128 : Shape := ⟨2, ![128, 128]⟩
abbrev S1x1 : Shape := ⟨2, ![1, 1]⟩
abbrev S2048x600 : Shape := ⟨2, ![2048, 600]⟩
abbrev S16x128 : Shape := ⟨2, ![16, 128]⟩
abbrev S2048 : Shape := ⟨1, ![2048]⟩
abbrev S16x128x600 : Shape := ⟨3, ![16, 128, 600]⟩
abbrev S16x128x1 : Shape := ⟨3, ![16, 128, 1]⟩
abbrev S1x16x128 : Shape := ⟨3, ![1, 16, 128]⟩
abbrev S1x1x1 : Shape := ⟨3, ![1, 1, 1]⟩

abbrev nBuf : Table → Nat
  | .hbm => 9
  | .local .tc .vmem => 6
  | .local .tc .smem => 1
  | .local .scVector .vmem => 3
  | _ => 0

abbrev bufTy : (tb : Table) → Fin (nBuf tb) → BufTy
  | .hbm, ⟨0, _⟩ => ⟨S16384x600, .f32⟩
  | .hbm, ⟨1, _⟩ => ⟨S16384x600, .f32⟩
  | .hbm, ⟨2, _⟩ => ⟨S16384, .i32⟩
  | .hbm, ⟨3, _⟩ => ⟨S16384, .f32⟩
  | .hbm, ⟨4, _⟩ => ⟨S128x128, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local .tc .vmem, ⟨0, _⟩ => ⟨S2048x600, .f32⟩
  | .local .tc .vmem, ⟨1, _⟩ => ⟨S2048x600, .f32⟩
  | .local .tc .vmem, ⟨2, _⟩ => ⟨S16x128, .i32⟩
  | .local .tc .vmem, ⟨3, _⟩ => ⟨S16x128, .i32⟩
  | .local .tc .vmem, ⟨4, _⟩ => ⟨S2048, .f32⟩
  | .local .tc .vmem, ⟨5, _⟩ => ⟨S2048, .f32⟩
  | .local .tc .smem, ⟨0, _⟩ => ⟨S1x1, .f32⟩
  | .local .scVector .vmem, ⟨0, _⟩ => ⟨S512, .i32⟩
  | .local .scVector .vmem, ⟨1, _⟩ => ⟨S2x64x600, .f32⟩
  | .local .scVector .vmem, ⟨2, _⟩ => ⟨S512, .f32⟩
  | _, _ => ⟨S16384x600, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_arg2_scv : Ref sig .scVector := ⟨.hbm, 2, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_4 : BitVec 32 := 0#32
  ![v3.toNat, 0]

def k0_chk1 (v32 : IVec S16 32) (v33 : IVec S16 32) : Prop :=
  (∀ a x, ((![v32, v33] : Fin 2 → IVec S16 32) a x).toNat < S64x600.size a)
instance k0_chk1.dec : ∀ (v32 : IVec S16 32) (v33 : IVec S16 32), Decidable (k0_chk1 v32 v33) := fun v32 v33 => decidable_of_iff' _ (Iff.of_eq (k0_chk1.eq_1 v32 v33))
theorem k0_idx1_inb : ∀ (v32 : IVec S16 32) (v33 : IVec S16 32) (k0_hw1 : k0_chk1 v32 v33), ∀ a x, ((![v32, v33] : Fin 2 → IVec S16 32) a x).toNat < S64x600.size a := fun v32 v33 k0_hw1 => k0_hw1

def k0_chk2 (v40 : IVec S16 32) (v41 : IVec S16 32) : Prop :=
  (∀ a x, ((![v40, v41] : Fin 2 → IVec S16 32) a x).toNat < S64x600.size a)
instance k0_chk2.dec : ∀ (v40 : IVec S16 32) (v41 : IVec S16 32), Decidable (k0_chk2 v40 v41) := fun v40 v41 => decidable_of_iff' _ (Iff.of_eq (k0_chk2.eq_1 v40 v41))
theorem k0_idx2_inb : ∀ (v40 : IVec S16 32) (v41 : IVec S16 32) (k0_hw2 : k0_chk2 v40 v41), ∀ a x, ((![v40, v41] : Fin 2 → IVec S16 32) a x).toNat < S64x600.size a := fun v40 v41 k0_hw2 => k0_hw2

def k0_chk3 (v48 : IVec S16 32) (v49 : IVec S16 32) : Prop :=
  (∀ a x, ((![v48, v49] : Fin 2 → IVec S16 32) a x).toNat < S64x600.size a)
instance k0_chk3.dec : ∀ (v48 : IVec S16 32) (v49 : IVec S16 32), Decidable (k0_chk3 v48 v49) := fun v48 v49 => decidable_of_iff' _ (Iff.of_eq (k0_chk3.eq_1 v48 v49))
theorem k0_idx3_inb : ∀ (v48 : IVec S16 32) (v49 : IVec S16 32) (k0_hw3 : k0_chk3 v48 v49), ∀ a x, ((![v48, v49] : Fin 2 → IVec S16 32) a x).toNat < S64x600.size a := fun v48 v49 k0_hw3 => k0_hw3

def k0_chk4 (v56 : IVec S16 32) (v57 : IVec S16 32) : Prop :=
  (∀ a x, ((![v56, v57] : Fin 2 → IVec S16 32) a x).toNat < S64x600.size a)
instance k0_chk4.dec : ∀ (v56 : IVec S16 32) (v57 : IVec S16 32), Decidable (k0_chk4 v56 v57) := fun v56 v57 => decidable_of_iff' _ (Iff.of_eq (k0_chk4.eq_1 v56 v57))
theorem k0_idx4_inb : ∀ (v56 : IVec S16 32) (v57 : IVec S16 32) (k0_hw4 : k0_chk4 v56 v57), ∀ a x, ((![v56, v57] : Fin 2 → IVec S16 32) a x).toNat < S64x600.size a := fun v56 v57 k0_hw4 => k0_hw4
def k0_off3 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v62 : BitVec 32 := Scalar.addi v2 c128_i32
  let c0_i32_45 : BitVec 32 := 0#32
  ![v62.toNat, 0]

def k0_chk5 (v82 : IVec S16 32) (v83 : IVec S16 32) : Prop :=
  (∀ a x, ((![v82, v83] : Fin 2 → IVec S16 32) a x).toNat < S64x600.size a)
instance k0_chk5.dec : ∀ (v82 : IVec S16 32) (v83 : IVec S16 32), Decidable (k0_chk5 v82 v83) := fun v82 v83 => decidable_of_iff' _ (Iff.of_eq (k0_chk5.eq_1 v82 v83))
theorem k0_idx5_inb : ∀ (v82 : IVec S16 32) (v83 : IVec S16 32) (k0_hw5 : k0_chk5 v82 v83), ∀ a x, ((![v82, v83] : Fin 2 → IVec S16 32) a x).toNat < S64x600.size a := fun v82 v83 k0_hw5 => k0_hw5

def k0_chk6 (v90 : IVec S16 32) (v91 : IVec S16 32) : Prop :=
  (∀ a x, ((![v90, v91] : Fin 2 → IVec S16 32) a x).toNat < S64x600.size a)
instance k0_chk6.dec : ∀ (v90 : IVec S16 32) (v91 : IVec S16 32), Decidable (k0_chk6 v90 v91) := fun v90 v91 => decidable_of_iff' _ (Iff.of_eq (k0_chk6.eq_1 v90 v91))
theorem k0_idx6_inb : ∀ (v90 : IVec S16 32) (v91 : IVec S16 32) (k0_hw6 : k0_chk6 v90 v91), ∀ a x, ((![v90, v91] : Fin 2 → IVec S16 32) a x).toNat < S64x600.size a := fun v90 v91 k0_hw6 => k0_hw6

def k0_chk7 (v98 : IVec S16 32) (v99 : IVec S16 32) : Prop :=
  (∀ a x, ((![v98, v99] : Fin 2 → IVec S16 32) a x).toNat < S64x600.size a)
instance k0_chk7.dec : ∀ (v98 : IVec S16 32) (v99 : IVec S16 32), Decidable (k0_chk7 v98 v99) := fun v98 v99 => decidable_of_iff' _ (Iff.of_eq (k0_chk7.eq_1 v98 v99))
theorem k0_idx7_inb : ∀ (v98 : IVec S16 32) (v99 : IVec S16 32) (k0_hw7 : k0_chk7 v98 v99), ∀ a x, ((![v98, v99] : Fin 2 → IVec S16 32) a x).toNat < S64x600.size a := fun v98 v99 k0_hw7 => k0_hw7

def k0_chk8 (v106 : IVec S16 32) (v107 : IVec S16 32) : Prop :=
  (∀ a x, ((![v106, v107] : Fin 2 → IVec S16 32) a x).toNat < S64x600.size a)
instance k0_chk8.dec : ∀ (v106 : IVec S16 32) (v107 : IVec S16 32), Decidable (k0_chk8 v106 v107) := fun v106 v107 => decidable_of_iff' _ (Iff.of_eq (k0_chk8.eq_1 v106 v107))
theorem k0_idx8_inb : ∀ (v106 : IVec S16 32) (v107 : IVec S16 32) (k0_hw8 : k0_chk8 v106 v107), ∀ a x, ((![v106, v107] : Fin 2 → IVec S16 32) a x).toNat < S64x600.size a := fun v106 v107 k0_hw8 => k0_hw8
def k0_off4 (i : grid0.Coords) (c192_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v112 : BitVec 32 := Scalar.addi v2 c192_i32
  let c0_i32_82 : BitVec 32 := 0#32
  ![v112.toNat, 0]

def k0_chk9 (v132 : IVec S16 32) (v133 : IVec S16 32) : Prop :=
  (∀ a x, ((![v132, v133] : Fin 2 → IVec S16 32) a x).toNat < S64x600.size a)
instance k0_chk9.dec : ∀ (v132 : IVec S16 32) (v133 : IVec S16 32), Decidable (k0_chk9 v132 v133) := fun v132 v133 => decidable_of_iff' _ (Iff.of_eq (k0_chk9.eq_1 v132 v133))
theorem k0_idx9_inb : ∀ (v132 : IVec S16 32) (v133 : IVec S16 32) (k0_hw9 : k0_chk9 v132 v133), ∀ a x, ((![v132, v133] : Fin 2 → IVec S16 32) a x).toNat < S64x600.size a := fun v132 v133 k0_hw9 => k0_hw9

def k0_chk10 (v140 : IVec S16 32) (v141 : IVec S16 32) : Prop :=
  (∀ a x, ((![v140, v141] : Fin 2 → IVec S16 32) a x).toNat < S64x600.size a)
instance k0_chk10.dec : ∀ (v140 : IVec S16 32) (v141 : IVec S16 32), Decidable (k0_chk10 v140 v141) := fun v140 v141 => decidable_of_iff' _ (Iff.of_eq (k0_chk10.eq_1 v140 v141))
theorem k0_idx10_inb : ∀ (v140 : IVec S16 32) (v141 : IVec S16 32) (k0_hw10 : k0_chk10 v140 v141), ∀ a x, ((![v140, v141] : Fin 2 → IVec S16 32) a x).toNat < S64x600.size a := fun v140 v141 k0_hw10 => k0_hw10

def k0_chk11 (v148 : IVec S16 32) (v149 : IVec S16 32) : Prop :=
  (∀ a x, ((![v148, v149] : Fin 2 → IVec S16 32) a x).toNat < S64x600.size a)
instance k0_chk11.dec : ∀ (v148 : IVec S16 32) (v149 : IVec S16 32), Decidable (k0_chk11 v148 v149) := fun v148 v149 => decidable_of_iff' _ (Iff.of_eq (k0_chk11.eq_1 v148 v149))
theorem k0_idx11_inb : ∀ (v148 : IVec S16 32) (v149 : IVec S16 32) (k0_hw11 : k0_chk11 v148 v149), ∀ a x, ((![v148, v149] : Fin 2 → IVec S16 32) a x).toNat < S64x600.size a := fun v148 v149 k0_hw11 => k0_hw11

def k0_chk12 (v156 : IVec S16 32) (v157 : IVec S16 32) : Prop :=
  (∀ a x, ((![v156, v157] : Fin 2 → IVec S16 32) a x).toNat < S64x600.size a)
instance k0_chk12.dec : ∀ (v156 : IVec S16 32) (v157 : IVec S16 32), Decidable (k0_chk12 v156 v157) := fun v156 v157 => decidable_of_iff' _ (Iff.of_eq (k0_chk12.eq_1 v156 v157))
theorem k0_idx12_inb : ∀ (v156 : IVec S16 32) (v157 : IVec S16 32) (k0_hw12 : k0_chk12 v156 v157), ∀ a x, ((![v156, v157] : Fin 2 → IVec S16 32) a x).toNat < S64x600.size a := fun v156 v157 k0_hw12 => k0_hw12
def k0_off5 (i : grid0.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v162 : BitVec 32 := Scalar.addi v2 c256_i32
  let c0_i32_119 : BitVec 32 := 0#32
  ![v162.toNat, 0]

def k0_chk13 (v182 : IVec S16 32) (v183 : IVec S16 32) : Prop :=
  (∀ a x, ((![v182, v183] : Fin 2 → IVec S16 32) a x).toNat < S64x600.size a)
instance k0_chk13.dec : ∀ (v182 : IVec S16 32) (v183 : IVec S16 32), Decidable (k0_chk13 v182 v183) := fun v182 v183 => decidable_of_iff' _ (Iff.of_eq (k0_chk13.eq_1 v182 v183))
theorem k0_idx13_inb : ∀ (v182 : IVec S16 32) (v183 : IVec S16 32) (k0_hw13 : k0_chk13 v182 v183), ∀ a x, ((![v182, v183] : Fin 2 → IVec S16 32) a x).toNat < S64x600.size a := fun v182 v183 k0_hw13 => k0_hw13

def k0_chk14 (v190 : IVec S16 32) (v191 : IVec S16 32) : Prop :=
  (∀ a x, ((![v190, v191] : Fin 2 → IVec S16 32) a x).toNat < S64x600.size a)
instance k0_chk14.dec : ∀ (v190 : IVec S16 32) (v191 : IVec S16 32), Decidable (k0_chk14 v190 v191) := fun v190 v191 => decidable_of_iff' _ (Iff.of_eq (k0_chk14.eq_1 v190 v191))
theorem k0_idx14_inb : ∀ (v190 : IVec S16 32) (v191 : IVec S16 32) (k0_hw14 : k0_chk14 v190 v191), ∀ a x, ((![v190, v191] : Fin 2 → IVec S16 32) a x).toNat < S64x600.size a := fun v190 v191 k0_hw14 => k0_hw14

def k0_chk15 (v198 : IVec S16 32) (v199 : IVec S16 32) : Prop :=
  (∀ a x, ((![v198, v199] : Fin 2 → IVec S16 32) a x).toNat < S64x600.size a)
instance k0_chk15.dec : ∀ (v198 : IVec S16 32) (v199 : IVec S16 32), Decidable (k0_chk15 v198 v199) := fun v198 v199 => decidable_of_iff' _ (Iff.of_eq (k0_chk15.eq_1 v198 v199))
theorem k0_idx15_inb : ∀ (v198 : IVec S16 32) (v199 : IVec S16 32) (k0_hw15 : k0_chk15 v198 v199), ∀ a x, ((![v198, v199] : Fin 2 → IVec S16 32) a x).toNat < S64x600.size a := fun v198 v199 k0_hw15 => k0_hw15

def k0_chk16 (v206 : IVec S16 32) (v207 : IVec S16 32) : Prop :=
  (∀ a x, ((![v206, v207] : Fin 2 → IVec S16 32) a x).toNat < S64x600.size a)
instance k0_chk16.dec : ∀ (v206 : IVec S16 32) (v207 : IVec S16 32), Decidable (k0_chk16 v206 v207) := fun v206 v207 => decidable_of_iff' _ (Iff.of_eq (k0_chk16.eq_1 v206 v207))
theorem k0_idx16_inb : ∀ (v206 : IVec S16 32) (v207 : IVec S16 32) (k0_hw16 : k0_chk16 v206 v207), ∀ a x, ((![v206, v207] : Fin 2 → IVec S16 32) a x).toNat < S64x600.size a := fun v206 v207 k0_hw16 => k0_hw16
def k0_off6 (i : grid0.Coords) (c320_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v212 : BitVec 32 := Scalar.addi v2 c320_i32
  let c0_i32_156 : BitVec 32 := 0#32
  ![v212.toNat, 0]

def k0_chk17 (v232 : IVec S16 32) (v233 : IVec S16 32) : Prop :=
  (∀ a x, ((![v232, v233] : Fin 2 → IVec S16 32) a x).toNat < S64x600.size a)
instance k0_chk17.dec : ∀ (v232 : IVec S16 32) (v233 : IVec S16 32), Decidable (k0_chk17 v232 v233) := fun v232 v233 => decidable_of_iff' _ (Iff.of_eq (k0_chk17.eq_1 v232 v233))
theorem k0_idx17_inb : ∀ (v232 : IVec S16 32) (v233 : IVec S16 32) (k0_hw17 : k0_chk17 v232 v233), ∀ a x, ((![v232, v233] : Fin 2 → IVec S16 32) a x).toNat < S64x600.size a := fun v232 v233 k0_hw17 => k0_hw17

def k0_chk18 (v240 : IVec S16 32) (v241 : IVec S16 32) : Prop :=
  (∀ a x, ((![v240, v241] : Fin 2 → IVec S16 32) a x).toNat < S64x600.size a)
instance k0_chk18.dec : ∀ (v240 : IVec S16 32) (v241 : IVec S16 32), Decidable (k0_chk18 v240 v241) := fun v240 v241 => decidable_of_iff' _ (Iff.of_eq (k0_chk18.eq_1 v240 v241))
theorem k0_idx18_inb : ∀ (v240 : IVec S16 32) (v241 : IVec S16 32) (k0_hw18 : k0_chk18 v240 v241), ∀ a x, ((![v240, v241] : Fin 2 → IVec S16 32) a x).toNat < S64x600.size a := fun v240 v241 k0_hw18 => k0_hw18

def k0_chk19 (v248 : IVec S16 32) (v249 : IVec S16 32) : Prop :=
  (∀ a x, ((![v248, v249] : Fin 2 → IVec S16 32) a x).toNat < S64x600.size a)
instance k0_chk19.dec : ∀ (v248 : IVec S16 32) (v249 : IVec S16 32), Decidable (k0_chk19 v248 v249) := fun v248 v249 => decidable_of_iff' _ (Iff.of_eq (k0_chk19.eq_1 v248 v249))
theorem k0_idx19_inb : ∀ (v248 : IVec S16 32) (v249 : IVec S16 32) (k0_hw19 : k0_chk19 v248 v249), ∀ a x, ((![v248, v249] : Fin 2 → IVec S16 32) a x).toNat < S64x600.size a := fun v248 v249 k0_hw19 => k0_hw19

def k0_chk20 (v256 : IVec S16 32) (v257 : IVec S16 32) : Prop :=
  (∀ a x, ((![v256, v257] : Fin 2 → IVec S16 32) a x).toNat < S64x600.size a)
instance k0_chk20.dec : ∀ (v256 : IVec S16 32) (v257 : IVec S16 32), Decidable (k0_chk20 v256 v257) := fun v256 v257 => decidable_of_iff' _ (Iff.of_eq (k0_chk20.eq_1 v256 v257))
theorem k0_idx20_inb : ∀ (v256 : IVec S16 32) (v257 : IVec S16 32) (k0_hw20 : k0_chk20 v256 v257), ∀ a x, ((![v256, v257] : Fin 2 → IVec S16 32) a x).toNat < S64x600.size a := fun v256 v257 k0_hw20 => k0_hw20
def k0_off7 (i : grid0.Coords) (c384_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v262 : BitVec 32 := Scalar.addi v2 c384_i32
  let c0_i32_193 : BitVec 32 := 0#32
  ![v262.toNat, 0]

def k0_chk21 (v282 : IVec S16 32) (v283 : IVec S16 32) : Prop :=
  (∀ a x, ((![v282, v283] : Fin 2 → IVec S16 32) a x).toNat < S64x600.size a)
instance k0_chk21.dec : ∀ (v282 : IVec S16 32) (v283 : IVec S16 32), Decidable (k0_chk21 v282 v283) := fun v282 v283 => decidable_of_iff' _ (Iff.of_eq (k0_chk21.eq_1 v282 v283))
theorem k0_idx21_inb : ∀ (v282 : IVec S16 32) (v283 : IVec S16 32) (k0_hw21 : k0_chk21 v282 v283), ∀ a x, ((![v282, v283] : Fin 2 → IVec S16 32) a x).toNat < S64x600.size a := fun v282 v283 k0_hw21 => k0_hw21

def k0_chk22 (v290 : IVec S16 32) (v291 : IVec S16 32) : Prop :=
  (∀ a x, ((![v290, v291] : Fin 2 → IVec S16 32) a x).toNat < S64x600.size a)
instance k0_chk22.dec : ∀ (v290 : IVec S16 32) (v291 : IVec S16 32), Decidable (k0_chk22 v290 v291) := fun v290 v291 => decidable_of_iff' _ (Iff.of_eq (k0_chk22.eq_1 v290 v291))
theorem k0_idx22_inb : ∀ (v290 : IVec S16 32) (v291 : IVec S16 32) (k0_hw22 : k0_chk22 v290 v291), ∀ a x, ((![v290, v291] : Fin 2 → IVec S16 32) a x).toNat < S64x600.size a := fun v290 v291 k0_hw22 => k0_hw22

def k0_chk23 (v298 : IVec S16 32) (v299 : IVec S16 32) : Prop :=
  (∀ a x, ((![v298, v299] : Fin 2 → IVec S16 32) a x).toNat < S64x600.size a)
instance k0_chk23.dec : ∀ (v298 : IVec S16 32) (v299 : IVec S16 32), Decidable (k0_chk23 v298 v299) := fun v298 v299 => decidable_of_iff' _ (Iff.of_eq (k0_chk23.eq_1 v298 v299))
theorem k0_idx23_inb : ∀ (v298 : IVec S16 32) (v299 : IVec S16 32) (k0_hw23 : k0_chk23 v298 v299), ∀ a x, ((![v298, v299] : Fin 2 → IVec S16 32) a x).toNat < S64x600.size a := fun v298 v299 k0_hw23 => k0_hw23

def k0_chk24 (v306 : IVec S16 32) (v307 : IVec S16 32) : Prop :=
  (∀ a x, ((![v306, v307] : Fin 2 → IVec S16 32) a x).toNat < S64x600.size a)
instance k0_chk24.dec : ∀ (v306 : IVec S16 32) (v307 : IVec S16 32), Decidable (k0_chk24 v306 v307) := fun v306 v307 => decidable_of_iff' _ (Iff.of_eq (k0_chk24.eq_1 v306 v307))
theorem k0_idx24_inb : ∀ (v306 : IVec S16 32) (v307 : IVec S16 32) (k0_hw24 : k0_chk24 v306 v307), ∀ a x, ((![v306, v307] : Fin 2 → IVec S16 32) a x).toNat < S64x600.size a := fun v306 v307 k0_hw24 => k0_hw24
def k0_off8 (i : grid0.Coords) (c448_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v312 : BitVec 32 := Scalar.addi v2 c448_i32
  let c0_i32_230 : BitVec 32 := 0#32
  ![v312.toNat, 0]

def k0_chk25 (v332 : IVec S16 32) (v333 : IVec S16 32) : Prop :=
  (∀ a x, ((![v332, v333] : Fin 2 → IVec S16 32) a x).toNat < S64x600.size a)
instance k0_chk25.dec : ∀ (v332 : IVec S16 32) (v333 : IVec S16 32), Decidable (k0_chk25 v332 v333) := fun v332 v333 => decidable_of_iff' _ (Iff.of_eq (k0_chk25.eq_1 v332 v333))
theorem k0_idx25_inb : ∀ (v332 : IVec S16 32) (v333 : IVec S16 32) (k0_hw25 : k0_chk25 v332 v333), ∀ a x, ((![v332, v333] : Fin 2 → IVec S16 32) a x).toNat < S64x600.size a := fun v332 v333 k0_hw25 => k0_hw25

def k0_chk26 (v340 : IVec S16 32) (v341 : IVec S16 32) : Prop :=
  (∀ a x, ((![v340, v341] : Fin 2 → IVec S16 32) a x).toNat < S64x600.size a)
instance k0_chk26.dec : ∀ (v340 : IVec S16 32) (v341 : IVec S16 32), Decidable (k0_chk26 v340 v341) := fun v340 v341 => decidable_of_iff' _ (Iff.of_eq (k0_chk26.eq_1 v340 v341))
theorem k0_idx26_inb : ∀ (v340 : IVec S16 32) (v341 : IVec S16 32) (k0_hw26 : k0_chk26 v340 v341), ∀ a x, ((![v340, v341] : Fin 2 → IVec S16 32) a x).toNat < S64x600.size a := fun v340 v341 k0_hw26 => k0_hw26

def k0_chk27 (v348 : IVec S16 32) (v349 : IVec S16 32) : Prop :=
  (∀ a x, ((![v348, v349] : Fin 2 → IVec S16 32) a x).toNat < S64x600.size a)
instance k0_chk27.dec : ∀ (v348 : IVec S16 32) (v349 : IVec S16 32), Decidable (k0_chk27 v348 v349) := fun v348 v349 => decidable_of_iff' _ (Iff.of_eq (k0_chk27.eq_1 v348 v349))
theorem k0_idx27_inb : ∀ (v348 : IVec S16 32) (v349 : IVec S16 32) (k0_hw27 : k0_chk27 v348 v349), ∀ a x, ((![v348, v349] : Fin 2 → IVec S16 32) a x).toNat < S64x600.size a := fun v348 v349 k0_hw27 => k0_hw27

def k0_chk28 (v356 : IVec S16 32) (v357 : IVec S16 32) : Prop :=
  (∀ a x, ((![v356, v357] : Fin 2 → IVec S16 32) a x).toNat < S64x600.size a)
instance k0_chk28.dec : ∀ (v356 : IVec S16 32) (v357 : IVec S16 32), Decidable (k0_chk28 v356 v357) := fun v356 v357 => decidable_of_iff' _ (Iff.of_eq (k0_chk28.eq_1 v356 v357))
theorem k0_idx28_inb : ∀ (v356 : IVec S16 32) (v357 : IVec S16 32) (k0_hw28 : k0_chk28 v356 v357), ∀ a x, ((![v356, v357] : Fin 2 → IVec S16 32) a x).toNat < S64x600.size a := fun v356 v357 k0_hw28 => k0_hw28
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c448_i32_263 : BitVec 32 := 448#32
  let v362 : BitVec 32 := Scalar.addi v2 c448_i32_263
  let c0_i32_268 : BitVec 32 := 0#32
  ![v362.toNat, 0]

def k0_chk29 (v373 : IVec S16 32) (v374 : IVec S16 32) : Prop :=
  (∀ a x, ((![v373, v374] : Fin 2 → IVec S16 32) a x).toNat < S64x600.size a)
instance k0_chk29.dec : ∀ (v373 : IVec S16 32) (v374 : IVec S16 32), Decidable (k0_chk29 v373 v374) := fun v373 v374 => decidable_of_iff' _ (Iff.of_eq (k0_chk29.eq_1 v373 v374))
theorem k0_idx29_inb : ∀ (v373 : IVec S16 32) (v374 : IVec S16 32) (k0_hw29 : k0_chk29 v373 v374), ∀ a x, ((![v373, v374] : Fin 2 → IVec S16 32) a x).toNat < S64x600.size a := fun v373 v374 k0_hw29 => k0_hw29

def k0_chk30 (v381 : IVec S16 32) (v382 : IVec S16 32) : Prop :=
  (∀ a x, ((![v381, v382] : Fin 2 → IVec S16 32) a x).toNat < S64x600.size a)
instance k0_chk30.dec : ∀ (v381 : IVec S16 32) (v382 : IVec S16 32), Decidable (k0_chk30 v381 v382) := fun v381 v382 => decidable_of_iff' _ (Iff.of_eq (k0_chk30.eq_1 v381 v382))
theorem k0_idx30_inb : ∀ (v381 : IVec S16 32) (v382 : IVec S16 32) (k0_hw30 : k0_chk30 v381 v382), ∀ a x, ((![v381, v382] : Fin 2 → IVec S16 32) a x).toNat < S64x600.size a := fun v381 v382 k0_hw30 => k0_hw30

def k0_chk31 (v389 : IVec S16 32) (v390 : IVec S16 32) : Prop :=
  (∀ a x, ((![v389, v390] : Fin 2 → IVec S16 32) a x).toNat < S64x600.size a)
instance k0_chk31.dec : ∀ (v389 : IVec S16 32) (v390 : IVec S16 32), Decidable (k0_chk31 v389 v390) := fun v389 v390 => decidable_of_iff' _ (Iff.of_eq (k0_chk31.eq_1 v389 v390))
theorem k0_idx31_inb : ∀ (v389 : IVec S16 32) (v390 : IVec S16 32) (k0_hw31 : k0_chk31 v389 v390), ∀ a x, ((![v389, v390] : Fin 2 → IVec S16 32) a x).toNat < S64x600.size a := fun v389 v390 k0_hw31 => k0_hw31

def k0_chk32 (v397 : IVec S16 32) (v398 : IVec S16 32) : Prop :=
  (∀ a x, ((![v397, v398] : Fin 2 → IVec S16 32) a x).toNat < S64x600.size a)
instance k0_chk32.dec : ∀ (v397 : IVec S16 32) (v398 : IVec S16 32), Decidable (k0_chk32 v397 v398) := fun v397 v398 => decidable_of_iff' _ (Iff.of_eq (k0_chk32.eq_1 v397 v398))
theorem k0_idx32_inb : ∀ (v397 : IVec S16 32) (v398 : IVec S16 32) (k0_hw32 : k0_chk32 v397 v398), ∀ a x, ((![v397, v398] : Fin 2 → IVec S16 32) a x).toNat < S64x600.size a := fun v397 v398 k0_hw32 => k0_hw32
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x64x600_S1x64x600_0_0_0 : ∀ a, (![0, 0, 0] : Fin 3 → Nat) a + S1x64x600.size a ≤ S2x64x600.size a
  squeezes_S1x64x600_S64x600 : S1x64x600.Squeezes S64x600
  inb_S2_S1_0 : ∀ a, (![0] : Fin 1 → Nat) a + S1.size a ≤ S2.size a
  squeezes_S1_S_ : S1.Squeezes S_
  inb_S2x64x600_S1x64x600_1_0_0 : ∀ a, (![1, 0, 0] : Fin 3 → Nat) a + S1x64x600.size a ≤ S2x64x600.size a
  inb_S2_S1_1 : ∀ a, (![1] : Fin 1 → Nat) a + S1.size a ≤ S2.size a
  iota_S16_d0_w32_scVector : S16.Iotas .scVector 32 [0]
  inb_S512_S16_0 : ∀ a, (![0] : Fin 1 → Nat) a + S16.size a ≤ S512.size a
  h_S16 : 0 < S16.numel
  h_S64x600 : 0 < S64x600.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S16384_S128x128 : S16384.ShapeCasts S128x128
  inb_S1x1_S1x1_0_0 : ∀ a, (![0, 0] : Fin 2 → Nat) a + S1x1.size a ≤ S1x1.size a
  numel1_S1x1 : S1x1.numel = 1
  inb_S2048x600_S2048x600_0_0 : ∀ a, (![0, 0] : Fin 2 → Nat) a + S2048x600.size a ≤ S2048x600.size a
  h_S2048x600 : 0 < S2048x600.numel
  shapeCasts_S2048x600_S16x128x600 : S2048x600.ShapeCasts S16x128x600
  iota_S16x128x600_d2_w32 : S16x128x600.Iotas .tc 32 [2]
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  broadcasts_S16x128x1_S16x128x600 : S16x128x1.Broadcasts S16x128x600
  reduces_S16x128x600_S16x128 : S16x128x600.Reduces [2] S16x128
  inb_S2048_S2048_0 : ∀ a, (![0] : Fin 1 → Nat) a + S2048.size a ≤ S2048.size a
  h_S2048 : 0 < S2048.numel
  shapeCasts_S2048_S2048 : S2048.ShapeCasts S2048
  shapeCasts_S2048_S16x128 : S2048.ShapeCasts S16x128
  shapeCasts_S16x128_S1x16x128 : S16x128.ShapeCasts S1x16x128
  reduces_S1x16x128_S1 : S1x16x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hcc0_scratch3 : 0 + S2.numel ≤ 11
  hcc0_scoped0 : 2 + S_.numel ≤ 11
  hcc0_scoped1 : 3 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 2), ∀ a, (k0_off2 i (BitVec.ofNat 32 (64 * r.val))) a + S64x600.size a ≤ S16384x600.size a
  k0_off3_inb : ∀ i : grid0.Coords, ∀ (r : Fin 2), ∀ a, (k0_off3 i (BitVec.ofNat 32 (64 + 64 * r.val))) a + S64x600.size a ≤ S16384x600.size a
  k0_off4_inb : ∀ i : grid0.Coords, ∀ (r : Fin 2), ∀ a, (k0_off4 i (BitVec.ofNat 32 (128 + 64 * r.val))) a + S64x600.size a ≤ S16384x600.size a
  k0_off5_inb : ∀ i : grid0.Coords, ∀ (r : Fin 2), ∀ a, (k0_off5 i (BitVec.ofNat 32 (192 + 64 * r.val))) a + S64x600.size a ≤ S16384x600.size a
  k0_off6_inb : ∀ i : grid0.Coords, ∀ (r : Fin 2), ∀ a, (k0_off6 i (BitVec.ofNat 32 (256 + 64 * r.val))) a + S64x600.size a ≤ S16384x600.size a
  k0_off7_inb : ∀ i : grid0.Coords, ∀ (r : Fin 2), ∀ a, (k0_off7 i (BitVec.ofNat 32 (320 + 64 * r.val))) a + S64x600.size a ≤ S16384x600.size a
  k0_off8_inb : ∀ i : grid0.Coords, ∀ (r : Fin 2), ∀ a, (k0_off8 i (BitVec.ofNat 32 (384 + 64 * r.val))) a + S64x600.size a ≤ S16384x600.size a
  k0_off9_inb : ∀ i : grid0.Coords, ∀ a, (k0_off9 i) a + S64x600.size a ≤ S16384x600.size a
  k0_off10_inb : ∀ i : grid0.Coords, ∀ a, (k0_off10 i) a + S512.size a ≤ S16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x600.size a ≤ S16384x600.size a
  hwx1_0 : ∀ i : grid1.Coords, EltTy.bits .f32 = 32 ∨ (Rect.block (s := S16384x600) S2048x600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S128x128.size a
  hwx1_1 : ∀ i : grid1.Coords, EltTy.bits .i32 = 32 ∨ (Rect.block (s := S128x128) S16x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S16384.size a
  hwx1_2 : ∀ i : grid1.Coords, EltTy.bits .f32 = 32 ∨ (Rect.block (s := S16384) S2048.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev cc0_scratch3 : DmaSems sig S2 := SemArray.consecutive 0 S2 hcc0_scratch3
abbrev cc0_scoped0 : DmaSems sig S_ := SemArray.consecutive 2 S_ hcc0_scoped0
abbrev cc0_scoped1 : DmaSems sig S_ := SemArray.consecutive 3 S_ hcc0_scoped1

abbrev win1_0 : Pipeline.Window sig grid1 :=
  Pipeline.Window.ofSpec (Memref.whole main_arg0) S2048x600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x600 : Shape := ⟨2, ![16384, 600]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 96
  | .vmem => 0
  | .smem => 0
  | _ => 0

abbrev bufTy : (tb : Table) → Fin (tcTables nBuf tb) → BufTy
  | .hbm, ⟨0, _⟩ => ⟨S16384x600, .f32⟩
  | .hbm, ⟨1, _⟩ => ⟨S16384x600, .f32⟩
  | .hbm, ⟨2, _⟩ => ⟨S16384, .i32⟩
  | .hbm, ⟨3, _⟩ => ⟨S16384, .i32⟩
  | .hbm, ⟨4, _⟩ => ⟨S_, .f32⟩
  | .hbm, ⟨5, _⟩ => ⟨S16384x600, .f32⟩
  | .hbm, ⟨6, _⟩ => ⟨S16384x600, .f32⟩
  | .hbm, ⟨7, _⟩ => ⟨S16384x600, .f32⟩
  | .hbm, ⟨8, _⟩ => ⟨S_, .f32⟩
  | .hbm, ⟨9, _⟩ => ⟨S16384x600, .f32⟩
  | .hbm, ⟨10, _⟩ => ⟨S16384x600, .f32⟩
  | .hbm, ⟨11, _⟩ => ⟨S_, .f32⟩
  | .hbm, ⟨12, _⟩ => ⟨S16384x600, .f32⟩
  | .hbm, ⟨13, _⟩ => ⟨S16384x600, .f32⟩
  | .hbm, ⟨14, _⟩ => ⟨S_, .i1⟩
  | .hbm, ⟨15, _⟩ => ⟨S16384x600, .i1⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1, .i32⟩
  | .hbm, ⟨32, _⟩ => ⟨S16384x2, .i32⟩
  | .hbm, ⟨33, _⟩ => ⟨S_, .i1⟩
  | .hbm, ⟨34, _⟩ => ⟨S16384, .i1⟩
  | .hbm, ⟨35, _⟩ => ⟨S16384x600, .i1⟩
  | .hbm, ⟨36, _⟩ => ⟨S_, .f32⟩
  | .hbm, ⟨37, _⟩ => ⟨S16384x600, .f32⟩
  | .hbm, ⟨38, _⟩ => ⟨S16384x600, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x600, .f32⟩
  | .hbm, ⟨46, _⟩ => ⟨S16384x600, .f32⟩
  | .hbm, ⟨47, _⟩ => ⟨S16384x600, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x1, .f32⟩
  | .hbm, ⟨52, _⟩ => ⟨S16384x600, .f32⟩
  | .hbm, ⟨53, _⟩ => ⟨S16384x600, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384x1, .i32⟩
  | .hbm, ⟨70, _⟩ => ⟨S16384x2, .i32⟩
  | .hbm, ⟨71, _⟩ => ⟨S16384, .f32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S_, .i32⟩
  | .hbm, ⟨80, _⟩ => ⟨S16384, .i32⟩
  | .hbm, ⟨81, _⟩ => ⟨S16384, .i1⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384, .i32⟩
  | .hbm, ⟨86, _⟩ => ⟨S16384x1, .i32⟩
  | .hbm, ⟨87, _⟩ => ⟨S16384x1, .i32⟩
  | .hbm, ⟨88, _⟩ => ⟨S16384x2, .i32⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S16384x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_call0_v0 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v25 : Ref sig .tc := ⟨.hbm, 53, rfl⟩
abbrev main_c_8 : Ref sig .tc := ⟨.hbm, 54, rfl⟩
abbrev main_v26 : Ref sig .tc := ⟨.hbm, 55, rfl⟩
abbrev main_v27 : Ref sig .tc := ⟨.hbm, 56, rfl⟩
abbrev main_c_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_10 : Ref sig .tc := ⟨.hbm, 61, rfl⟩
abbrev main_v31 : Ref sig .tc := ⟨.hbm, 62, rfl⟩
abbrev main_v32 : Ref sig .tc := ⟨.hbm, 63, rfl⟩
abbrev main_c_11 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_c_13 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_14 : Ref sig .tc := ⟨.hbm, 79, rfl⟩
abbrev main_v45 : Ref sig .tc := ⟨.hbm, 80, rfl⟩
abbrev main_v46 : Ref sig .tc := ⟨.hbm, 81, rfl⟩
abbrev main_c_15 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_cst_17 : Ref sig .tc := ⟨.hbm, 94, rfl⟩
abbrev main_v57 : Ref sig .tc := ⟨.hbm, 95, rfl⟩

abbrev nD : Nat := 1
abbrev τ : Topo := Topo.v7x

variable {F : FTy → Type} [FloatOps F]

class Facts₀ : Prop where
  bcast_S_S16384x600 : S_.BroadcastsInDim S16384x600 (![] : Fin 0 → Fin S16384x600.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x600_S16384_d1 : S16384x600.ReducesTo [1] S16384
  h_S_ : 0 < S_.numel
  bcast_S16384x1_S16384x600_0_1 : S16384x1.BroadcastsInDim S16384x600 (![0, 1] : Fin 2 → Fin S16384x600.rank)
  reducesTo_S16384_S_d0 : S16384.ReducesTo [0] S_
  scatter_S16384x600_S16384x2_S16384_n_01_01_1_wf : ScatterDims.WF S16384x600 S16384x2 S16384 [] [0, 1] [0, 1] 1
  gather_S16384x600_S16384x2_S16384_n_01_n_n_01_1_11_wf : GatherDims.WF S16384x600 S16384x2 S16384 [] [0, 1] [] [0, 1] [] 1 ![1, 1]

variable [Facts₀]

def scatter_S16384x600_S16384x2_S16384_n_01_01_1 : ScatterDims S16384x600 S16384x2 S16384 where
  updateWindowDims := []
  insertedWindowDims := [0, 1]
  scatterDimsToOperandDims := [0, 1]
  indexVectorDim := 1
  wf := scatter_S16384x600_S16384x2_S16384_n_01_01_1_wf
def gather_S16384x600_S16384x2_S16384_n_01_n_n_01_1_11 : GatherDims S16384x600 S16384x2 S16384 where
  offsetDims := []
  collapsedSliceDims := [0, 1]
  operandBatchingDims := []
  startIndicesBatchingDims := []
  startIndexMap := [0, 1]
  indexVectorDim := 1
  sliceSizes := ![1, 1]
  wf := gather_S16384x600_S16384x2_S16384_n_01_n_n_01_1_11_wf

class Facts : Prop extends Facts₀ where

variable [Facts]
-- ==== Proof.Setup.lean ====
import proofs.«215473_g55439437856794_cont_9to1_m_142_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215473_g55439437856794_cont_9to1_m_142_25_alg».proof.Proof.Gen.KernelIdeal
import proofs.«215473_g55439437856794_cont_9to1_m_142_25_alg».proof.Proof.Gen.KernelIdeal.Skeleton
import proofs.«215473_g55439437856794_cont_9to1_m_142_25_alg».proof.Proof.Gen.KernelIdeal.Launch
import proofs.«215473_g55439437856794_cont_9to1_m_142_25_alg».proof.Proof.Gen.KernelIdeal.Points

/-!
The program as its launch sees it: one vector-subcore call (the gather of one similarity per row) followed, on the
TensorCore, by one pipelined region (the weighted cross-entropy accumulated over eight blocks of rows). This module
fixes the ghost state shared by the parts of the proof: the handshakes' rounds, the rounds of the region's staging
semaphores, and a copy of the transfer counters for the copies each vector subcore makes and waits for itself.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the region's staging semaphores. -/
abbrev UK : Type := URounds (GSem nD τ sig) Unit
/-- Handshakes, staging cells, and the transfer counters (found by instance in the right factor). -/
abbrev UU : Type := UH × (UK × Counters)

abbrev 𝕄T (F : FTy → Type) : Type := MT nD τ sig (HIx 1) (Elt F) ℕ UU ℕ

/-- The handshakes' rounds library: the left factor. -/
abbrev EH : Emb UH (𝕄T F) := embL
/-- The staging cells' rounds library: the left factor of the right factor. -/
def ER : Emb UK (𝕄T F) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance ER_landsIn : (ER : Emb UK (𝕄T F)).LandsIn (upEmb : UEmb _ (𝕄T F)) := by unfold ER; infer_instance

end Cert.Proof.KI

end
-- ==== Proof.Parts.lean ====
import proofs.«215473_g55439437856794_cont_9to1_m_142_25_alg».proof.Proof.Setup

/-!
The result array in 32 parts of 512 entries: part `w` is what the tile numbered `w = 2 s + c` (subcore `s` of
SparseCore `c`) writes. The parts are pairwise disjoint and cover the array, and the slice the kernel computes for a
tile from its two coordinates is that tile's part.
-/

noncomputable section

namespace Cert.Proof.KI

open Cert.KernelIdeal Cert.KernelIdeal.Gen
open Idealize.ShloMosaic
open Idealize.SL Idealize.SL.RA Idealize.SL.BI
open scoped Idealize.SL.BI

theorem hdiv32 : 32 ∣ S16384.size 0 := ⟨512, rfl⟩

/-- Part `w` of the result array: entries `[512 w, 512 w + 512)`. -/
abbrev oPart (w : Fin 32) : Rect S16384 := Rect.part (s := S16384) (a₀ := 0) hdiv32 w
abbrev oSetP (w : Fin 32) : Finset S16384.Idx := ((View.whole (main_v0_scv : Ref sig .scVector)).slice (oPart w)).set

/-- The number of the tile at coordinates `L`. -/
def widOf (L : grid0.Coords) : Fin 32 := ⟨2 * (L 1).val + (L 0).val, by
  have h0 : (L 0).val < 2 := (L 0).isLt
  have h1 : (L 1).val < 16 := (L 1).isLt
  omega⟩

theorem oSetP_eq (w : Fin 32) : oSetP w = (oPart w).set := by
  show ((View.whole (main_v0_scv : Ref sig .scVector)).slice (oPart w)).set = _
  rw [View.set_slice]; exact Finset.map_refl

theorem oParts_disjoint : ∀ i ∈ (Finset.univ : Finset (Fin 32)), ∀ j ∈ (Finset.univ : Finset (Fin 32)), i ≠ j → Disjoint (oSetP i) (oSetP j) :=
  fun i _ j _ h => by rw [oSetP_eq, oSetP_eq]; exact Rect.part_disjoint hdiv32 h

theorem oParts_cover : (Finset.univ : Finset (Fin 32)).biUnion oSetP = Finset.univ :=
  (Finset.biUnion_congr rfl fun i _ => oSetP_eq i).trans (Rect.biUnion_part hdiv32)

/-- The slice the kernel computes from a tile's coordinates is the tile's part. -/
theorem oRect_eq (L : grid0.Coords) :
    Rect.unit (s := S16384) (k0_off10 L) S512.size (k0_off10_inb L) = oPart (widOf L) := by
  unfold oPart Rect.part Rect.block
  congr 1 <;> funext a
  · rw [k0_off10_eq]
    match a with
    | 0 => simp [Shape.partIx, Shape.partSize, widOf]; omega
  · match a with
    | 0 => simp [Shape.partSize]

end Cert.Proof.KI

end
-- ==== Proof.Spec.lean ====
import Idealize.ShloMosaic.PureOps.Ideal
import Idealize.ShloMosaic.PureOps.Ideal.Laws
import Idealize.ShloMosaic.Lib.ValueIdx

/-! The loss as one closed formula over the extended reals.

For logits `x`, similarities `sim` (both 16384 × 600) and one class word `t n` per row:
the row maximum `M n = max_k x n k` (folded from −∞), the row sum `S n = ∑_k exp (x n k − M n)`,
the weight `W n = 10 / (1 + exp (4 · sim n (t n)))`, and
`loss = (∑_n −(W n · ((x n (t n) − M n) − log (S n)))) / 16384`. -/

noncomputable section

namespace Cert.Proof.Spec

open Idealize.ShloMosaic
open scoped BigOperators

/-- The column a class word names (total: the word's value modulo 600; the value itself when below 600). -/
def col (w : BitVec 32) : Fin 600 := ⟨w.toNat % 600, Nat.mod_lt _ (by decide)⟩

theorem col_val_of_lt {w : BitVec 32} (h : w.toNat < 600) : (col w).val = w.toNat := Nat.mod_eq_of_lt h

/-- The row maximum, folded from −∞. -/
def rowMax (x : Fin 16384 → Fin 600 → EReal) (n : Fin 16384) : EReal :=
  (Finset.univ : Finset (Fin 600)).fold max ⊥ (fun k => x n k)

/-- The row's sum of exponentials of the logits shifted by the row maximum. -/
def rowSum (x : Fin 16384 → Fin 600 → EReal) (n : Fin 16384) : EReal :=
  ∑ k : Fin 600, Ideal.exp (x n k - rowMax x n)

/-- The weight of row `n`: `10 / (1 + exp (4 · sim n (t n)))`. -/
def weight (sim : Fin 16384 → Fin 600 → EReal) (t : Fin 16384 → BitVec 32) (n : Fin 16384) : EReal :=
  Ideal.div 10 (1 + Ideal.exp (4 * sim n (col (t n))))

/-- The weighted cross-entropy, averaged over the rows. -/
def loss (x sim : Fin 16384 → Fin 600 → EReal) (t : Fin 16384 → BitVec 32) : EReal :=
  Ideal.div (∑ n : Fin 16384, -(weight sim t n * ((x n (col (t n)) - rowMax x n) - Ideal.log (rowSum x n)))) 16384

/-! The literal words of the two programs as extended reals. -/

/-- A real numeral, as an extended real, is the extended-real numeral. -/
theorem coe_ofNat (n : ℕ) [n.AtLeastTwo] : (((OfNat.ofNat n : ℝ)) : EReal) = (OfNat.ofNat n : EReal) := by
  rw [← Nat.cast_ofNat (R := ℝ)]; rfl

theorem ofBits_four : Ideal.ofBits .f32 0x40800000#32 = 4 := by
  rw [← coe_ofNat]
  simp [Ideal.ofBits, Ideal.ieee]
  norm_cast
  norm_num
theorem ofBits_one : Ideal.ofBits .f32 0x3F800000#32 = 1 := by
  rw [← EReal.coe_one]
  simp [Ideal.ofBits, Ideal.ieee]
  norm_cast
  norm_num
theorem ofBits_ten : Ideal.ofBits .f32 0x41200000#32 = 10 := by
  rw [← coe_ofNat]
  simp [Ideal.ofBits, Ideal.ieee]
  norm_cast
  norm_num
theorem ofBits_16384 : Ideal.ofBits .f32 0x46800000#32 = 16384 := by
  rw [← coe_ofNat]
  simp [Ideal.ofBits, Ideal.ieee]
  norm_cast
  norm_num
theorem ofBits_negInf : Ideal.ofBits .f32 0xFF800000#32 = ⊥ := by
  simp [Ideal.ofBits, Ideal.ieee]
theorem ofBits_zero : Ideal.ofBits .f32 0x00000000#32 = 0 := Ideal.ofBits_zero_f32

end Cert.Proof.Spec

end
-- ==== Proof.Gather.lean ====
import proofs.«215473_g55439437856794_cont_9to1_m_142_25_alg».proof.Proof.Setup
import proofs.«215473_g55439437856794_cont_9to1_m_142_25_alg».proof.Proof.Spec
import Idealize.ShloMosaic.Lib.ValueIdx

/-!
What the vector subcores leave in the intermediate array: entry `n` is the similarity of row `n` at the column its
class word names.
-/

noncomputable section

namespace Cert.Proof.KI

open Cert.KernelIdeal Cert.KernelIdeal.Gen
open Idealize.ShloMosaic

variable {F : FTy → Type}

/-- The class words, the similarity table and the intermediate array, as locations of device `d`. -/
abbrev tLoc (d : Dev nD) : Loc nD τ sig := (SparseCore.T d).loc main_arg2
abbrev sLoc (d : Dev nD) : Loc nD τ sig := (SparseCore.T d).loc main_arg1
abbrev oLoc (d : Dev nD) : Loc nD τ sig := (SparseCore.T d).loc main_v0

/-- Row `n` (an index of the 16384-array), as a number below 16384. -/
def rowOf (j : S16384.Idx) : Fin 16384 := ⟨(j 0).val, (j 0).isLt⟩

/-- The entry of the table that row `j`'s class word `w` names. -/
def pick (w : BitVec 32) (j : S16384.Idx) : S16384x600.Idx := ValueIdx.ix2 (rowOf j) (Cert.Proof.Spec.col w)

/-- The gathered array as ONE function of the launch memory: entry `j` is the table at `(j, col (t j))`. -/
def Gv (m : (ℓ : Loc nD τ sig) → Buf (Elt F) ℓ) (d : Dev nD) : Buf (Elt F) (oLoc d) :=
  fun j => m (sLoc d) (pick (m (tLoc d) j) j)

end Cert.Proof.KI

end
-- ==== Proof.Split.lean ====
import proofs.«215473_g55439437856794_cont_9to1_m_142_25_alg».proof.Proof.Parts
import proofs.«215473_g55439437856794_cont_9to1_m_142_25_alg».proof.Proof.Gather
import Idealize.ShloMosaic.Lib.Transfers

/-!
How the TensorCore's arrays are dealt to the two SparseCores and their sixteen tiles each, and put back: the result
array in its 32 parts, grouped by SparseCore and subcore.
-/

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => 𝕄T F

/-- The tiles, numbered `2 i + c` for subcore `i` of SparseCore `c`, are the 32 parts' numbers. -/
def widE : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- A family over the 32 parts, grouped by SparseCore and subcore. -/
theorem parts_regroup (Φ : Fin 32 → sProp 𝕄) :
    bigSep Finset.univ Φ = bigSep Finset.univ fun c : Fin 2 => bigSep Finset.univ fun i : Fin 16 => Φ (widE (c, i)) := by
  rw [BI.bigSep_univ_equiv widE Φ, BI.bigSep_univ_prod]

/-- The result array whole is its 32 parts. -/
theorem oPts_parts (d : Dev nD) (f : Buf (Elt F) (oLoc d)) :
    (oLoc d ↦{fullShare} f : sProp 𝕄) = bigSep Finset.univ fun w : Fin 32 => oLoc d ↦[oSetP w]{fullShare} f := by
  rw [← pointsTo_biUnion Finset.univ (ℓ := oLoc d) oSetP oParts_disjoint, oParts_cover]; try rfl

end Cert.Proof.KI

end
-- ==== Proof.TileLemmas.lean ====
import proofs.«215473_g55439437856794_cont_9to1_m_142_25_alg».proof.Proof.Setup
import proofs.«215473_g55439437856794_cont_9to1_m_142_25_alg».proof.Proof.Parts
import proofs.«215473_g55439437856794_cont_9to1_m_142_25_alg».proof.Proof.Gather
import Idealize.ShloMosaic.Lib.Writes
import Idealize.ShloMosaic.Lib.Exec.Geometry
import Idealize.ShloMosaic.Lib.Pipeline.FrameBody
import Idealize.ShloMosaic.Lib.ValueIdx

/-!
One tile's data movement, lemma by lemma over variables: what a copied chunk of the table holds at (row, column), what
the copied class words hold at an entry, what the row numbers of a gather are, and what one gathered vector of sixteen
entries is: the table at each of its rows, at the column that row's class word names.
-/

noncomputable section

namespace Cert.Proof.KI

open Cert.KernelIdeal Cert.KernelIdeal.Gen
open Idealize.ShloMosaic Idealize.ShloMosaic.ValueIdx

variable {F : FTy → Type} [FloatOps F]
variable (m : (ℓ : Loc nD τ sig) → Buf (Elt F) ℓ) (d : Dev nD)

/-- The first row of tile `L`: 1024 s + 512 c. -/
def baseOf (L : grid0.Coords) : Nat := 1024 * (L 1).val + 512 * (L 0).val

theorem baseOf_le (L : grid0.Coords) : baseOf L + 512 ≤ 16384 := by
  have h0 : (L 0).val < 2 := (L 0).isLt
  have h1 : (L 1).val < 16 := (L 1).isLt
  unfold baseOf; omega

/-- A chunk of 64 rows of the table, copied from row `r0` on, holds at (r, c) the table's entry (r0 + r, c). -/
theorem chunk_apply (off : Fin 2 → Nat) (inb : ∀ a, off a + S64x600.size a ≤ S16384x600.size a) (hs)
    (r0 : Nat) (h0 : off = ![r0, 0]) (j : S64x600.Idx) (hr : r0 + (j 0).val < 16384) :
    ReadAs.same.apply (View.read (Elt F) ((Memref.whole (main_arg1_scv : Ref sig .scVector)).slice
        (Rect.unit (s := S16384x600) off S64x600.size inb) hs).view (m (sLoc d))) j
      = m (sLoc d) (ix2 (⟨r0 + (j 0).val, hr⟩ : Fin 16384) (⟨(j 1).val, idx2_lt1 j⟩ : Fin 600)) := by
  subst h0
  show View.read (Elt F) ((View.whole (main_arg1_scv : Ref sig .scVector)).slice (Rect.unit (s := S16384x600) ![r0, 0] S64x600.size inb)) (m (sLoc d)) j = _
  rw [View.read_apply]
  show m (sLoc d) _ = _
  refine congrArg (m (sLoc d)) ?_
  funext a; apply Fin.ext
  match a with
  | ⟨0, _⟩ => show r0 + 1 * (j 0).val = r0 + (j 0).val; omega
  | ⟨1, _⟩ => show 0 + 1 * (j 1).val = (j 1).val; omega

/-- The tile's class words, copied from entry `b0` on into the scratch and read sixteen at a time from entry `o`:
    lane `x` holds class word `b0 + o + x`. -/
theorem cols_apply (off1 : Fin 1 → Nat) (inb1 : ∀ a, off1 a + S512.size a ≤ S16384.size a) (hs1)
    (b0 : Nat) (h0 : off1 = ![b0])
    (f5 : (Memref.whole (cc0_scratch0 : Ref sig .scVector)).view.ty.Contents (Elt F))
    (o : Nat) (inbo : ∀ a, (![o] : Fin 1 → Nat) a + S16.size a ≤ S512.size a) (x : S16.Idx) (hb : b0 + o + (x 0).val < 16384) :
    View.readAt (Elt F) (Memref.whole (cc0_scratch0 : Ref sig .scVector)).view (Rect.unit (s := S512) ![o] S16.size inbo).toLoadRect
        (View.write (Elt F) (Memref.whole (cc0_scratch0 : Ref sig .scVector)).view f5
          (ReadAs.same.apply (View.read (Elt F) ((Memref.whole (main_arg2_scv : Ref sig .scVector)).slice
            (Rect.unit (s := S16384) off1 S512.size inb1) hs1).view (m (tLoc d))))
          Finset.univ) x
      = m (tLoc d) (ix1 (⟨b0 + o + (x 0).val, hb⟩ : Fin 16384)) := by
  subst h0
  rw [View.readAt_apply]
  show View.read (Elt F) (View.whole (cc0_scratch0 : Ref sig .scVector))
    (View.write (Elt F) (View.whole (cc0_scratch0 : Ref sig .scVector)) f5 _ Finset.univ) _ = _
  rw [View.write_whole_univ, View.read_whole]
  show View.read (Elt F) ((View.whole (main_arg2_scv : Ref sig .scVector)).slice (Rect.unit (s := S16384) ![b0] S512.size inb1)) (m (tLoc d)) _ = _
  rw [View.read_apply]
  show m (tLoc d) _ = _
  refine congrArg (m (tLoc d)) ?_
  funext a; apply Fin.ext
  match a with
  | ⟨0, _⟩ => show b0 + 1 * (o + 1 * (x 0).val) = b0 + o + (x 0).val; omega

/-- The row numbers of one gather: the lane number plus a constant. -/
theorem rows_apply (h : S16.Iotas .scVector 32 [0]) (c : Nat) (hc : c < 64) (x : S16.Idx) :
    ((addi (iota .scVector S16 32 [0] h) (broadcast S16 (BitVec.ofNat 32 c))) x).toNat = (x 0).val + c := by
  have hx : (x 0).val < 16 := (x 0).isLt
  show (BitVec.ofNat 32 (0 * 16 + (x 0).val) + BitVec.ofNat 32 c).toNat = _
  rw [BitVec.toNat_add, BitVec.toNat_ofNat, BitVec.toNat_ofNat]
  omega

/-- What the slice of the result holds after the one copy that fills it: the copy's payload. -/
theorem out_apply {sig' : RefSig} {κ : Kind} {sp : Space} {s : Shape} {e : EltTy} {Val : EltTy → Type}
    (v : View sig' κ sp s e) (f : v.ty.Contents Val) (P : s.Idx → Val e) (y : s.Idx) :
    v.read Val (v.writes Val f [⟨Rect.whole s, P⟩]) y = P y :=
  congrFun (View.read_writes_whole v f P) y

/-- What tile `L`'s slice of the result must hold at its own entry `y`: the picked entry of row `baseOf L + y`. -/
def Gt (L : grid0.Coords) : S512.Idx → F .f32 := fun y =>
  Gv m d (ix1 (⟨baseOf L + (y 0).val, by
    have := baseOf_le L; have hy : (y 0).val < 512 := (y 0).isLt; omega⟩ : Fin 16384))

theorem vec2_eq {a b : Nat} (h : a = b) : (![a, 0] : Fin 2 → Nat) = ![b, 0] := by rw [h]
theorem vec1_eq {a b : Nat} (h : a = b) : (![a] : Fin 1 → Nat) = ![b] := by rw [h]

/-! The offsets of the tile's copies, from its first row. -/
theorem off1_base (L : grid0.Coords) : k0_off1 L = ![baseOf L] := k0_off1_eq L
theorem off10_base (L : grid0.Coords) : k0_off10 L = ![baseOf L] := k0_off10_eq L
theorem off2_0 (L : grid0.Coords) : k0_off2 L 0#32 = ![baseOf L + 0, 0] :=
  (k0_off2_eq L ⟨0, by decide⟩).trans (vec2_eq (by unfold baseOf; show _ + 64 * 0 = _; omega))
theorem off2_1 (L : grid0.Coords) : k0_off2 L 64#32 = ![baseOf L + 64, 0] :=
  (k0_off2_eq L ⟨1, by decide⟩).trans (vec2_eq (by unfold baseOf; show _ + 64 * 1 = _; omega))
theorem off3_1 (L : grid0.Coords) : k0_off3 L 128#32 = ![baseOf L + 128, 0] :=
  (k0_off3_eq L ⟨1, by decide⟩).trans (vec2_eq (by unfold baseOf; show _ + 64 * 1 + 64 = _; omega))
theorem off4_1 (L : grid0.Coords) : k0_off4 L 192#32 = ![baseOf L + 192, 0] :=
  (k0_off4_eq L ⟨1, by decide⟩).trans (vec2_eq (by unfold baseOf; show _ + 64 * 1 + 128 = _; omega))
theorem off5_1 (L : grid0.Coords) : k0_off5 L 256#32 = ![baseOf L + 256, 0] :=
  (k0_off5_eq L ⟨1, by decide⟩).trans (vec2_eq (by unfold baseOf; show _ + 64 * 1 + 192 = _; omega))
theorem off6_1 (L : grid0.Coords) : k0_off6 L 320#32 = ![baseOf L + 320, 0] :=
  (k0_off6_eq L ⟨1, by decide⟩).trans (vec2_eq (by unfold baseOf; show _ + 64 * 1 + 256 = _; omega))
theorem off7_1 (L : grid0.Coords) : k0_off7 L 384#32 = ![baseOf L + 384, 0] :=
  (k0_off7_eq L ⟨1, by decide⟩).trans (vec2_eq (by unfold baseOf; show _ + 64 * 1 + 320 = _; omega))
theorem off8_1 (L : grid0.Coords) : k0_off8 L 448#32 = ![baseOf L + 448, 0] :=
  (k0_off8_eq L ⟨1, by decide⟩).trans (vec2_eq (by unfold baseOf; show _ + 64 * 1 + 384 = _; omega))

/-- One gathered vector of sixteen entries: from the chunk of 64 rows that starts `c0` rows into the tile, at the rows
    `jo + lane` of the chunk and the columns the class words `o + lane` of the tile name (`o = c0 + jo`), lane `x` is the
    picked entry of the tile's row `o + x`. -/
theorem piece_full (L : grid0.Coords) (hpre : ∀ j : S16384.Idx, (m (tLoc d) j).toNat < 600)
    {sp : Space} (v6 : View sig .scVector sp S64x600 .f32) (rest : List (View.Piece (Elt F) S64x600 .f32))
    (off : Fin 2 → Nat) (inb : ∀ a, off a + S64x600.size a ≤ S16384x600.size a) (hs) (c0 : Nat) (h0 : off = ![baseOf L + c0, 0])
    (hi : S16.Iotas .scVector 32 [0]) (jo : Nat) (hjo : jo < 64)
    (off1 : Fin 1 → Nat) (inb1 : ∀ a, off1 a + S512.size a ≤ S16384.size a) (hs1) (h1 : off1 = ![baseOf L])
    (f5 : (Memref.whole (cc0_scratch0 : Ref sig .scVector)).view.ty.Contents (Elt F))
    (o : Nat) (inbo : ∀ a, (![o] : Fin 1 → Nat) a + S16.size a ≤ S512.size a) (ho : o = c0 + jo) (hlt : o + 16 ≤ 512)
    (h) (x : S16.Idx) :
    loadIdx (v6.readCov (⟨Rect.whole S64x600, ReadAs.same.apply (View.read (Elt F) ((Memref.whole (main_arg1_scv : Ref sig .scVector)).slice
          (Rect.unit (s := S16384x600) off S64x600.size inb) hs).view (m (sLoc d)))⟩ :: rest) (LoadRect.whole S64x600))
        ![addi (iota .scVector S16 32 [0] hi) (broadcast S16 (BitVec.ofNat 32 jo)),
          View.readAt (Elt F) (Memref.whole (cc0_scratch0 : Ref sig .scVector)).view (Rect.unit (s := S512) ![o] S16.size inbo).toLoadRect
            (View.write (Elt F) (Memref.whole (cc0_scratch0 : Ref sig .scVector)).view f5
              (ReadAs.same.apply (View.read (Elt F) ((Memref.whole (main_arg2_scv : Ref sig .scVector)).slice
                (Rect.unit (s := S16384) off1 S512.size inb1) hs1).view (m (tLoc d))))
              Finset.univ)] h x
      = Gt m d L ((Rect.unit (s := S512) ![o] S16.size inbo).emb x) := by
  have hx : (x 0).val < 16 := (x 0).isLt
  have hbl := baseOf_le L
  have hrow := rows_apply hi jo hjo x
  have hcol := cols_apply m d off1 inb1 hs1 (baseOf L) h1 f5 o inbo x (by omega)
  unfold loadIdx idxAt
  refine (congrFun (View.readCov_cons_toLoadRect v6 (Rect.whole S64x600) _ rest) _).trans ?_
  rw [chunk_apply m d off inb hs (baseOf L + c0) h0 _ (by
    show baseOf L + c0 + ((addi (iota .scVector S16 32 [0] hi) (broadcast S16 (BitVec.ofNat 32 jo))) x).toNat < 16384
    rw [hrow]; omega)]
  unfold Gt Gv pick rowOf
  refine congrArg (m (sLoc d)) ?_
  funext a; apply Fin.ext
  match a with
  | ⟨0, _⟩ =>
    show baseOf L + c0 + ((addi (iota .scVector S16 32 [0] hi) (broadcast S16 (BitVec.ofNat 32 jo))) x).toNat
      = baseOf L + (o + 1 * (x 0).val)
    rw [hrow]; omega
  | ⟨1, _⟩ =>
    refine (congrArg BitVec.toNat hcol).trans ?_
    show _ = (Spec.col (m (tLoc d) _)).val
    rw [Spec.col_val_of_lt (hpre _)]
    refine congrArg (fun j => (m (tLoc d) j).toNat) ?_
    funext b; apply Fin.ext
    match b with
    | ⟨0, _⟩ => show baseOf L + o + (x 0).val = baseOf L + (o + 1 * (x 0).val); omega

end Cert.Proof.KI
end
-- ==== Proof.Tile.lean ====
import proofs.«215473_g55439437856794_cont_9to1_m_142_25_alg».proof.Proof.Setup
import proofs.«215473_g55439437856794_cont_9to1_m_142_25_alg».proof.Proof.Parts
import proofs.«215473_g55439437856794_cont_9to1_m_142_25_alg».proof.Proof.Gather
import proofs.«215473_g55439437856794_cont_9to1_m_142_25_alg».proof.Proof.TileLemmas

/-!
One vector subcore's task. Tile (c, s) owns rows [512 (2 s + c), 512 (2 s + c) + 512): it copies its 512 class words into
a scratch, streams its rows of the similarity table through two 64-row slots (one copy outstanding per slot's semaphore,
the other slot being read meanwhile), picks from each landed row the entry its class word names, and copies the 512 picked
entries out to its slice of the result.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT Cert.KernelIdeal.nD Cert.KernelIdeal.τ Cert.KernelIdeal.sig (HIx 1) (Elt F) ℕ UU ℕ

variable (m : (ℓ : Loc nD τ sig) → Buf (Elt F) ℓ)

-- the kernel's memrefs, spelt as the body table passes them
local notation "tW" => (Memref.whole Cert.KernelIdeal.main_arg2_scv : Memref Cert.KernelIdeal.sig Kind.scVector Space.hbm Cert.KernelIdeal.S16384 EltTy.i32)
local notation "sW" => (Memref.whole Cert.KernelIdeal.main_arg1_scv : Memref Cert.KernelIdeal.sig Kind.scVector Space.hbm Cert.KernelIdeal.S16384x600 EltTy.f32)
local notation "oW" => (Memref.whole Cert.KernelIdeal.main_v0_scv : Memref Cert.KernelIdeal.sig Kind.scVector Space.hbm Cert.KernelIdeal.S16384 EltTy.f32)
local notation "b5" => (Memref.whole Cert.KernelIdeal.cc0_scratch0 : Memref Cert.KernelIdeal.sig Kind.scVector Space.vmem Cert.KernelIdeal.S512 EltTy.i32)
local notation "b6" => (Memref.whole Cert.KernelIdeal.cc0_scratch1 : Memref Cert.KernelIdeal.sig Kind.scVector Space.vmem Cert.KernelIdeal.S2x64x600 EltTy.f32)
local notation "b7" => (Memref.whole Cert.KernelIdeal.cc0_scratch2 : Memref Cert.KernelIdeal.sig Kind.scVector Space.vmem Cert.KernelIdeal.S512 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The tile's slice of the result, as the kernel slices it. -/
abbrev oSl (L : grid0.Coords) : Memref sig .scVector .hbm S512 .f32 :=
  (oW).slice (Rect.unit (s := S16384) (k0_off10 L) S512.size (k0_off10_inb L)) (fun _ => rfl)

/-- The four DMA semaphores of a tile: the two slots', the two one-shot copies'. -/
abbrev sem0 : DmaSem sig := ((cc0_scratch3.slice (Rect.unit (s := S2) ![0] S1.size inb_S2_S1_0)).squeeze S_ squeezes_S1_S_).sem
abbrev sem1 : DmaSem sig := ((cc0_scratch3.slice (Rect.unit (s := S2) ![1] S1.size inb_S2_S1_1)).squeeze S_ squeezes_S1_S_).sem
abbrev semA : DmaSem sig := cc0_scoped0.sem
abbrev semB : DmaSem sig := cc0_scoped1.sem
abbrev g0 (d : Dev nD) (L : grid0.Coords) : GSem nD τ sig := (thrV d L, .dma sem0)
abbrev g1 (d : Dev nD) (L : grid0.Coords) : GSem nD τ sig := (thrV d L, .dma sem1)
abbrev gA (d : Dev nD) (L : grid0.Coords) : GSem nD τ sig := (thrV d L, .dma semA)
abbrev gB (d : Dev nD) (L : grid0.Coords) : GSem nD τ sig := (thrV d L, .dma semB)

omit F in
theorem cells_ne : (sem1 : DmaSem sig) ≠ sem0 ∧ (semA : DmaSem sig) ≠ sem0 ∧ (semA : DmaSem sig) ≠ sem1
    ∧ (semB : DmaSem sig) ≠ sem0 ∧ (semB : DmaSem sig) ≠ sem1 ∧ (semB : DmaSem sig) ≠ semA := by decide

/-- The tile's four DMA semaphores are among its own cells: they are them, at zero, and the rest. -/
theorem ownSems0_V :
    (ownSems0 (thrV d L) : sProp 𝕄)
      = iprop(semVal (g0 d L) 0 ∗ semVal (g1 d L) 0 ∗ semVal (gA d L) 0 ∗ semVal (gB d L) 0
          ∗ bigSep (((((ownCells (thrV d L)).erase (g0 d L)).erase (g1 d L)).erase (gA d L)).erase (gB d L)) fun g => semVal g 0) := by
  have hne := cells_ne
  have hs : ∀ sm : DmaSem sig, (SemLoc.dma sm : SemLoc sig).isScoped .scVector = true → ((thrV d L, SemLoc.dma sm) : GSem nD τ sig) ∈ ownCells (thrV d L) :=
    fun sm h => (mem_ownCells (g := (thrV d L, SemLoc.dma sm))).mpr ⟨rfl, h⟩
  have hn : ∀ a b : DmaSem sig, a ≠ b → ((thrV d L, SemLoc.dma a) : GSem nD τ sig) ≠ (thrV d L, SemLoc.dma b) :=
    fun a b h e => h (SemLoc.dma.inj (congrArg Prod.snd e))
  unfold SparseCore.Cfg.ownSems0
  rw [SparseCore.bigSep_erase' (hs sem0 (by decide)),
    SparseCore.bigSep_erase' (Finset.mem_erase.mpr ⟨hn _ _ hne.1, hs sem1 (by decide)⟩),
    SparseCore.bigSep_erase' (Finset.mem_erase.mpr ⟨hn _ _ hne.2.2.1, Finset.mem_erase.mpr ⟨hn _ _ hne.2.1, hs semA (by decide)⟩⟩),
    SparseCore.bigSep_erase' (Finset.mem_erase.mpr ⟨hn _ _ hne.2.2.2.2.2, Finset.mem_erase.mpr ⟨hn _ _ hne.2.2.2.2.1,
      Finset.mem_erase.mpr ⟨hn _ _ hne.2.2.2.1, hs semB (by decide)⟩⟩⟩)]

/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What the proof asks of the launch memory: every class word names a column of the table. -/
def PreT : Prop := ∀ (d : Dev nD) (j : S16384.Idx), (m (tLoc d) j).toNat < 600

omit F in
/-- Every check of the body has this shape: the row words below 64, the column words below 600. -/
theorem chk_of (r tv : IVec S16 32) (hr : ∀ x, (r x).toNat < 64) (ht : ∀ x, (tv x).toNat < 600) :
    ∀ a x, ((![r, tv] : Fin 2 → IVec S16 32) a x).toNat < S64x600.size a := by
  intro a x
  match a with
  | 0 => exact hr x
  | 1 => exact ht x

omit F in
theorem set_oSl : (oSl L).view.set = oSetP (widOf L) := by
  show ((View.whole (main_v0_scv : Ref sig .scVector)).slice (Rect.unit (s := S16384) (k0_off10 L) S512.size (k0_off10_inb L))).set
    = ((View.whole (main_v0_scv : Ref sig .scVector)).slice (oPart (widOf L))).set
  rw [oRect_eq]

/-! ## The two slots of the row scratch -/

abbrev slot0 : Memref sig .scVector .vmem S64x600 .f32 :=
  ((b6).slice (Rect.unit (s := S2x64x600) ![0, 0, 0] S1x64x600.size inb_S2x64x600_S1x64x600_0_0_0) (fun _ => rfl)).squeeze S64x600 squeezes_S1x64x600_S64x600
abbrev slot1 : Memref sig .scVector .vmem S64x600 .f32 :=
  ((b6).slice (Rect.unit (s := S2x64x600) ![1, 0, 0] S1x64x600.size inb_S2x64x600_S1x64x600_1_0_0) (fun _ => rfl)).squeeze S64x600 squeezes_S1x64x600_S64x600

omit F in
theorem hdiv2 : 2 ∣ S2x64x600.size 0 := ⟨1, rfl⟩
abbrev slotRect (i : Fin 2) : Rect S2x64x600 := Rect.part (s := S2x64x600) (a₀ := 0) hdiv2 i
abbrev slotSet (i : Fin 2) : Finset S2x64x600.Idx := ((View.whole (cc0_scratch1 : Ref sig .scVector)).slice (slotRect i)).set

omit F in
theorem slotSet_eq (i : Fin 2) : slotSet i = (slotRect i).set := by
  show ((View.whole (cc0_scratch1 : Ref sig .scVector)).slice (slotRect i)).set = _
  rw [View.set_slice]; exact Finset.map_refl
omit F in
theorem slots_disjoint : ∀ i ∈ (Finset.univ : Finset (Fin 2)), ∀ j ∈ (Finset.univ : Finset (Fin 2)), i ≠ j → Disjoint (slotSet i) (slotSet j) :=
  fun i _ j _ h => by rw [slotSet_eq, slotSet_eq]; exact Rect.part_disjoint hdiv2 h
omit F in
theorem slots_cover : (Finset.univ : Finset (Fin 2)).biUnion slotSet = Finset.univ :=
  (Finset.biUnion_congr rfl fun i _ => slotSet_eq i).trans (Rect.biUnion_part hdiv2)

omit F in
theorem slotRect0_eq : Rect.unit (s := S2x64x600) ![0, 0, 0] S1x64x600.size inb_S2x64x600_S1x64x600_0_0_0 = slotRect 0 := by
  unfold slotRect Rect.part Rect.block
  congr 1 <;> funext a <;> fin_cases a <;> simp [Shape.partIx, Shape.partSize]
omit F in
theorem slotRect1_eq : Rect.unit (s := S2x64x600) ![1, 0, 0] S1x64x600.size inb_S2x64x600_S1x64x600_1_0_0 = slotRect 1 := by
  unfold slotRect Rect.part Rect.block
  congr 1 <;> funext a <;> fin_cases a <;> simp [Shape.partIx, Shape.partSize]

omit F in
theorem set_slot0 : (slot0).view.set = slotSet 0 := by
  show (((View.whole (cc0_scratch1 : Ref sig .scVector)).slice (Rect.unit (s := S2x64x600) ![0, 0, 0] S1x64x600.size inb_S2x64x600_S1x64x600_0_0_0)).reshape S64x600
      squeezes_S1x64x600_S64x600.numel_eq).set = _
  rw [View.set_reshape]
  have h : ∀ r r' : Rect S2x64x600, r = r' → ((View.whole (cc0_scratch1 : Ref sig .scVector)).slice r).set = ((View.whole (cc0_scratch1 : Ref sig .scVector)).slice r').set := by
    intro r r' e; subst e; rfl
  exact h _ _ slotRect0_eq
omit F in
theorem set_slot1 : (slot1).view.set = slotSet 1 := by
  show (((View.whole (cc0_scratch1 : Ref sig .scVector)).slice (Rect.unit (s := S2x64x600) ![1, 0, 0] S1x64x600.size inb_S2x64x600_S1x64x600_1_0_0)).reshape S64x600
      squeezes_S1x64x600_S64x600.numel_eq).set = _
  rw [View.set_reshape]
  have h : ∀ r r' : Rect S2x64x600, r = r' → ((View.whole (cc0_scratch1 : Ref sig .scVector)).slice r).set = ((View.whole (cc0_scratch1 : Ref sig .scVector)).slice r').set := by
    intro r r' e; subst e; rfl
  exact h _ _ slotRect1_eq

variable [FloatOps F]

theorem pts_t (q : PosShare TreeShare) (f : Buf (Elt F) (tLoc d)) :
    ((tW).view.loc (thrV d L) ↦{q} f : sProp 𝕄) = tLoc d ↦{q} f := rfl
theorem pts_s (q : PosShare TreeShare) (f : Buf (Elt F) (sLoc d)) :
    ((sW).view.loc (thrV d L) ↦{q} f : sProp 𝕄) = sLoc d ↦{q} f := rfl
theorem pts_o (f : Buf (Elt F) (oLoc d)) :
    ((oSl L).view.loc (thrV d L) ↦[(oSl L).view.set]{fullShare} f : sProp 𝕄) = oLoc d ↦[oSetP (widOf L)]{fullShare} f := by
  rw [set_oSl]
theorem pts_b5 (f : Buf (Elt F) ((thrV d L).loc cc0_scratch0)) :
    ((b5).view.loc (thrV d L) ↦{fullShare} f : sProp 𝕄) = (thrV d L).loc cc0_scratch0 ↦{fullShare} f := rfl
theorem pts_b6 (f : Buf (Elt F) ((thrV d L).loc cc0_scratch1)) :
    ((b6).view.loc (thrV d L) ↦{fullShare} f : sProp 𝕄) = (thrV d L).loc cc0_scratch1 ↦{fullShare} f := rfl
theorem pts_b7 (f : Buf (Elt F) ((thrV d L).loc cc0_scratch2)) :
    ((b7).view.loc (thrV d L) ↦{fullShare} f : sProp 𝕄) = (thrV d L).loc cc0_scratch2 ↦{fullShare} f := rfl

/-- The row scratch held whole is its two slots held apart, each as the kernel slices it. -/
theorem b6_split (f : Buf (Elt F) ((thrV d L).loc cc0_scratch1)) :
    ((thrV d L).loc cc0_scratch1 ↦{fullShare} f : sProp 𝕄)
      = iprop(((slot0).view.loc (thrV d L) ↦[(slot0).view.set]{fullShare} f) ∗ ((slot1).view.loc (thrV d L) ↦[(slot1).view.set]{fullShare} f)) := by
  rw [set_slot0, set_slot1]
  show ((thrV d L).loc cc0_scratch1 ↦{fullShare} f : sProp 𝕄)
      = iprop(((thrV d L).loc cc0_scratch1 ↦[slotSet 0]{fullShare} f) ∗ ((thrV d L).loc cc0_scratch1 ↦[slotSet 1]{fullShare} f))
  have h : ((thrV d L).loc cc0_scratch1 ↦{fullShare} f : sProp 𝕄) = bigSep Finset.univ fun i : Fin 2 => (thrV d L).loc cc0_scratch1 ↦[slotSet i]{fullShare} f := by
    rw [← pointsTo_biUnion Finset.univ (ℓ := (thrV d L).loc cc0_scratch1) slotSet slots_disjoint, slots_cover]; try rfl
  rw [h, show (Finset.univ : Finset (Fin 2)) = {0, 1} by decide, SparseCore.bigSep_insert' (by decide), bigSep_singleton]

/-- The two slots, whatever each holds, are the row scratch held whole at some contents. -/
theorem b6_join (fa fb : Buf (Elt F) ((thrV d L).loc cc0_scratch1)) :
    iprop(((slot0).view.loc (thrV d L) ↦[(slot0).view.set]{fullShare} fa) ∗ ((slot1).view.loc (thrV d L) ↦[(slot1).view.set]{fullShare} fb))
      ⊢ (iprop(∃ f, (thrV d L).loc cc0_scratch1 ↦{fullShare} f) : sProp 𝕄) := by
  rw [set_slot0, set_slot1]
  show iprop(((thrV d L).loc cc0_scratch1 ↦[slotSet 0]{fullShare} fa) ∗ ((thrV d L).loc cc0_scratch1 ↦[slotSet 1]{fullShare} fb)) ⊢ _
  have hb : (bigSep Finset.univ fun i : Fin 2 => ((thrV d L).loc cc0_scratch1 ↦[slotSet i]{fullShare} (![fa, fb] i) : sProp 𝕄))
      = iprop(((thrV d L).loc cc0_scratch1 ↦[slotSet 0]{fullShare} fa) ∗ ((thrV d L).loc cc0_scratch1 ↦[slotSet 1]{fullShare} fb)) := by
    rw [show (Finset.univ : Finset (Fin 2)) = {0, 1} by decide, SparseCore.bigSep_insert' (by decide), bigSep_singleton]; rfl
  rw [← hb]
  iintro H
  ihave H' := (pointsTo_biUnion_join Finset.univ slotSet (![fa, fb]) fa slots_disjoint) $$ H
  icases H' with ⟨%g, -, Hg⟩
  rw [slots_cover]
  iexists g; iexact Hg

set_option maxHeartbeats 4000000 in
theorem tile_body (hF : (K (F := F)).Facts) (hpre : PreT m) (q₂ qa qb : PosShare TreeShare)
    (O : CellTallies nD τ sig (HIx 1)) (W : Waits sig (HIx 1)) (hO : ∀ g, O g none = 0) :
    iprop(levAts (K (F := F)).L (K (F := F)).lev ∗ emp
        ∗ (((tLoc d ↦{q₂} m (tLoc d)) : sProp 𝕄) ∗ (sLoc d ↦{qa} m (sLoc d)) ∗ (sLoc d ↦{qb} m (sLoc d))
            ∗ (oLoc d ↦[oSetP (widOf L)]{fullShare} m (oLoc d)))
        ∗ scopedBufs (thrV d L) ∗ scopedSems0 (thrV d L) ∗ owes (thrV d L) O W)
      ⊢ wp frame (wpE (defs₀ (F := F)) 𝒱₀ (thrV d L) none) Set.univ
          (cc0_sc_extract L tW (Memref.isWhole_whole _) sW (Memref.isWhole_whole _) oW (Memref.isWhole_whole _)
            b5 (Memref.isWhole_whole _) b6 (Memref.isWhole_whole _) b7 (Memref.isWhole_whole _) cc0_scratch3 cc0_scoped0 cc0_scoped1)
          fun _ => iprop(((tLoc d ↦{q₂} m (tLoc d)) ∗ (sLoc d ↦{qa} m (sLoc d)) ∗ (sLoc d ↦{qb} m (sLoc d))
            ∗ (oLoc d ↦[oSetP (widOf L)]{fullShare} Gv m d))
            ∗ scopedBufs (thrV d L) ∗ scopedSems0 (thrV d L)
            ∗ ∃ W', ⌜∀ p ∈ W', p ∈ W ∨ p.2 = none⌝ ∗ owes (thrV d L) O W') := by
  simp only [cc0_sc_extract_eq_skeleton]; unfold cc0_sc_extract_skel
  rw [(K (F := F)).scopedBufs_V hF d (cV L) (jV L), SparseCore.Cfg.scopedSems0_V (Val := Elt F) d (cV L) (jV L), ownSems0_V, ownBufs_V]
  iintro ⟨#Hlv, -, ⟨Ht, Hsa, Hsb, Ho⟩, ⟨⟨%f5, H5⟩, ⟨%f6, H6⟩, ⟨%f7, H7⟩, Hbufs⟩, ⟨Hs0, Hs1, HsA, HsB, Hsems⟩, HO⟩
  ihave Hmw := ((K (F := F)).mayWaits_none (thr := thrV d L) hO) $$ Hlv
  ihave Ht' := (Entails.of_eq (pts_t (F := F) d L _ _).symm) $$ Ht
  ihave Hsa' := (Entails.of_eq (pts_s (F := F) d L _ _).symm) $$ Hsa
  ihave Hsb' := (Entails.of_eq (pts_s (F := F) d L _ _).symm) $$ Hsb
  ihave Ho' := (Entails.of_eq (pts_o (F := F) d L _).symm) $$ Ho
  ihave H5' := (Entails.of_eq (pts_b5 (F := F) d L _).symm) $$ H5
  ihave H6s := (Entails.of_eq (b6_split (F := F) d L _)) $$ H6
  icases H6s with ⟨H6a, H6b⟩
  ihave H7' := (Entails.of_eq (pts_b7 (F := F) d L _).symm) $$ H7
  sl_exec_parts
  have hdma : ∀ j, ((tile_body.sl.dma0 m d L) j).toNat < 600 := by
    intro j; unfold tile_body.sl.dma0; exact hpre d _
  have hW : ∀ i : S512.Idx,
      ((View.read (Elt F) (Memref.whole cc0_scratch0).view (View.write (Elt F) (Memref.whole cc0_scratch0).view f5 (tile_body.sl.dma0 m d L) Finset.univ)) i).toNat < 600 := by
    intro i
    show (((View.whole (cc0_scratch0 : Ref sig .scVector)).write (Elt F) f5 (tile_body.sl.dma0 m d L) Finset.univ) _).toNat < 600
    rw [View.write_whole_univ]; exact hdma _
  have hchk1 : k0_chk1 (addi tile_body.sl.v30 tile_body.sl.v31)
      (View.readAt (Elt F) (Memref.whole cc0_scratch0).view (Rect.unit (s := S512) ![0] S16.size inb_S512_S16_0).toLoadRect
        (View.write (Elt F) (Memref.whole cc0_scratch0).view f5 (tile_body.sl.dma0 m d L) Finset.univ)) :=
    chk_of _ _ (by decide +kernel) (fun x => hW _)
  sl_exec_parts (disch := (exact chk_of _ _ (by decide +kernel) (fun x => hW _)))
  repeat (rw [SparseCore.vectorLoadIdx_bind (c := thrV d L)]; sl_exec_parts (disch := (exact chk_of _ _ (by decide +kernel) (fun x => hW _))))
  -- the slice of the result now holds what the last copy carried: on the tile's part that is the picked entries
  have hval : ∀ i ∈ oSetP (widOf L),
      ((oSl L).view.writes (Elt F) (m (oLoc d)) [⟨Rect.whole S512, tile_body.sl.dma3_6 m d L f5 f7 hW hchk1⟩]) i = Gv m d i := by
    intro i hi
    rw [← set_oSl] at hi
    obtain ⟨y, -, rfl⟩ := Finset.mem_map.mp hi
    have hemb : (oSl L).view.emb y = ValueIdx.ix1 (⟨baseOf L + (y 0).val, by
        have := baseOf_le L; have hy : (y 0).val < 512 := (y 0).isLt; omega⟩ : Fin 16384) := by
      funext a; apply Fin.ext
      match a with
      | ⟨0, _⟩ =>
        show k0_off10 L 0 + 1 * (y 0).val = baseOf L + (y 0).val
        rw [off10_base]; show baseOf L + 1 * (y 0).val = _; omega
    have hP : tile_body.sl.dma3_6 m d L f5 f7 hW hchk1 y = Gt m d L y := by
      unfold tile_body.sl.dma3_6
      show View.read (Elt F) (Memref.whole cc0_scratch2).view
        ((Memref.whole cc0_scratch2).view.writes (Elt F) f7 (tile_body.sl.H7'_32 m d L f5 hW hchk1)) y = _
      refine View.read_writes_apply_of_pieces (Val := Elt F) (e := EltTy.f32) (Memref.whole cc0_scratch2).view f7 (Gt m d L) _ ?_ y ?_
      · unfold tile_body.sl.H7'_32 tile_body.sl.H7'_26 tile_body.sl.H7'_24 tile_body.sl.H7'_21 tile_body.sl.H7'_16 tile_body.sl.H7'_14 tile_body.sl.H7'_12 tile_body.sl.H7'_9 tile_body.sl.H7'_8 tile_body.sl.H7'_4 tile_body.sl.H7'_3
        simp only [List.forall_mem_cons, List.not_mem_nil, IsEmpty.forall_iff, implies_true, and_true]
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
        · intro x; exact piece_full (F := F) m d L (hpre d) _ _ _ _ _ 448 (off8_1 L) _ 48 (by decide) _ _ _ (off1_base L) _ 496 _ rfl (by decide) _ x
        · intro x; exact piece_full (F := F) m d L (hpre d) _ _ _ _ _ 448 (off8_1 L) _ 32 (by decide) _ _ _ (off1_base L) _ 480 _ rfl (by decide) _ x
        · intro x; exact piece_full (F := F) m d L (hpre d) _ _ _ _ _ 448 (off8_1 L) _ 16 (by decide) _ _ _ (off1_base L) _ 464 _ rfl (by decide) _ x
        · intro x; exact piece_full (F := F) m d L (hpre d) _ _ _ _ _ 448 (off8_1 L) _ 0 (by decide) _ _ _ (off1_base L) _ 448 _ rfl (by decide) _ x
        · intro x; exact piece_full (F := F) m d L (hpre d) _ _ _ _ _ 384 (off7_1 L) _ 48 (by decide) _ _ _ (off1_base L) _ 432 _ rfl (by decide) _ x
        · intro x; exact piece_full (F := F) m d L (hpre d) _ _ _ _ _ 384 (off7_1 L) _ 32 (by decide) _ _ _ (off1_base L) _ 416 _ rfl (by decide) _ x
        · intro x; exact piece_full (F := F) m d L (hpre d) _ _ _ _ _ 384 (off7_1 L) _ 16 (by decide) _ _ _ (off1_base L) _ 400 _ rfl (by decide) _ x
        · intro x; exact piece_full (F := F) m d L (hpre d) _ _ _ _ _ 384 (off7_1 L) _ 0 (by decide) _ _ _ (off1_base L) _ 384 _ rfl (by decide) _ x
        · intro x; exact piece_full (F := F) m d L (hpre d) _ _ _ _ _ 320 (off6_1 L) _ 48 (by decide) _ _ _ (off1_base L) _ 368 _ rfl (by decide) _ x
        · intro x; exact piece_full (F := F) m d L (hpre d) _ _ _ _ _ 320 (off6_1 L) _ 32 (by decide) _ _ _ (off1_base L) _ 352 _ rfl (by decide) _ x
        · intro x; exact piece_full (F := F) m d L (hpre d) _ _ _ _ _ 320 (off6_1 L) _ 16 (by decide) _ _ _ (off1_base L) _ 336 _ rfl (by decide) _ x
        · intro x; exact piece_full (F := F) m d L (hpre d) _ _ _ _ _ 320 (off6_1 L) _ 0 (by decide) _ _ _ (off1_base L) _ 320 _ rfl (by decide) _ x
        · intro x; exact piece_full (F := F) m d L (hpre d) _ _ _ _ _ 256 (off5_1 L) _ 48 (by decide) _ _ _ (off1_base L) _ 304 _ rfl (by decide) _ x
        · intro x; exact piece_full (F := F) m d L (hpre d) _ _ _ _ _ 256 (off5_1 L) _ 32 (by decide) _ _ _ (off1_base L) _ 288 _ rfl (by decide) _ x
        · intro x; exact piece_full (F := F) m d L (hpre d) _ _ _ _ _ 256 (off5_1 L) _ 16 (by decide) _ _ _ (off1_base L) _ 272 _ rfl (by decide) _ x
        · intro x; exact piece_full (F := F) m d L (hpre d) _ _ _ _ _ 256 (off5_1 L) _ 0 (by decide) _ _ _ (off1_base L) _ 256 _ rfl (by decide) _ x
        · intro x; exact piece_full (F := F) m d L (hpre d) _ _ _ _ _ 192 (off4_1 L) _ 48 (by decide) _ _ _ (off1_base L) _ 240 _ rfl (by decide) _ x
        · intro x; exact piece_full (F := F) m d L (hpre d) _ _ _ _ _ 192 (off4_1 L) _ 32 (by decide) _ _ _ (off1_base L) _ 224 _ rfl (by decide) _ x
        · intro x; exact piece_full (F := F) m d L (hpre d) _ _ _ _ _ 192 (off4_1 L) _ 16 (by decide) _ _ _ (off1_base L) _ 208 _ rfl (by decide) _ x
        · intro x; exact piece_full (F := F) m d L (hpre d) _ _ _ _ _ 192 (off4_1 L) _ 0 (by decide) _ _ _ (off1_base L) _ 192 _ rfl (by decide) _ x
        · intro x; exact piece_full (F := F) m d L (hpre d) _ _ _ _ _ 128 (off3_1 L) _ 48 (by decide) _ _ _ (off1_base L) _ 176 _ rfl (by decide) _ x
        · intro x; exact piece_full (F := F) m d L (hpre d) _ _ _ _ _ 128 (off3_1 L) _ 32 (by decide) _ _ _ (off1_base L) _ 160 _ rfl (by decide) _ x
        · intro x; exact piece_full (F := F) m d L (hpre d) _ _ _ _ _ 128 (off3_1 L) _ 16 (by decide) _ _ _ (off1_base L) _ 144 _ rfl (by decide) _ x
        · intro x; exact piece_full (F := F) m d L (hpre d) _ _ _ _ _ 128 (off3_1 L) _ 0 (by decide) _ _ _ (off1_base L) _ 128 _ rfl (by decide) _ x
        · intro x; exact piece_full (F := F) m d L (hpre d) _ _ _ _ _ 64 (off2_1 L) _ 48 (by decide) _ _ _ (off1_base L) _ 112 _ rfl (by decide) _ x
        · intro x; exact piece_full (F := F) m d L (hpre d) _ _ _ _ _ 64 (off2_1 L) _ 32 (by decide) _ _ _ (off1_base L) _ 96 _ rfl (by decide) _ x
        · intro x; exact piece_full (F := F) m d L (hpre d) _ _ _ _ _ 64 (off2_1 L) _ 16 (by decide) _ _ _ (off1_base L) _ 80 _ rfl (by decide) _ x
        · intro x; exact piece_full (F := F) m d L (hpre d) _ _ _ _ _ 64 (off2_1 L) _ 0 (by decide) _ _ _ (off1_base L) _ 64 _ rfl (by decide) _ x
        · intro x; exact piece_full (F := F) m d L (hpre d) _ _ _ _ _ 0 (off2_0 L) _ 48 (by decide) _ _ _ (off1_base L) _ 48 _ rfl (by decide) _ x
        · intro x; exact piece_full (F := F) m d L (hpre d) _ _ _ _ _ 0 (off2_0 L) _ 32 (by decide) _ _ _ (off1_base L) _ 32 _ rfl (by decide) _ x
        · intro x; exact piece_full (F := F) m d L (hpre d) _ _ _ _ _ 0 (off2_0 L) _ 16 (by decide) _ _ _ (off1_base L) _ 16 _ rfl (by decide) _ x
        · intro x; exact piece_full (F := F) m d L (hpre d) _ _ _ _ _ 0 (off2_0 L) _ 0 (by decide) _ _ _ (off1_base L) _ 0 _ rfl (by decide) _ x
      · exact View.cover_of_tiled _ ![16] rfl y
    refine Eq.trans (show _ = tile_body.sl.dma3_6 m d L f5 f7 hW hchk1 y from out_apply (oSl L).view (m (oLoc d)) _ y) ?_
    rw [hP]
    unfold Gt
    rw [hemb]
  sl_step
  isplitl [Ht' Hsa' Hsb' Ho']
  · isplitl [Ht']; · iapply (Entails.of_eq (pts_t (F := F) d L _ _)); iexact Ht'
    isplitl [Hsa']; · iapply (Entails.of_eq (pts_s (F := F) d L _ _)); iexact Hsa'
    isplitl [Hsb']; · iapply (Entails.of_eq (pts_s (F := F) d L _ _)); iexact Hsb'
    ihave Ho := (Entails.of_eq ((pts_o (F := F) d L _).trans (pointsTo_congr hval))) $$ Ho'
    iexact Ho
  isplitl [H5' H6a H6b H7' Hbufs]
  · isplitl [H5']; · iexists _; iapply (Entails.of_eq (pts_b5 (F := F) d L _)); iexact H5'
    isplitl [H6a H6b]
    · iapply (b6_join (F := F) d L _ _); isplitl [H6a] <;> iassumption
    isplitl [H7']; · iexists _; iapply (Entails.of_eq (pts_b7 (F := F) d L _)); iexact H7'
    iexact Hbufs
  isplitl [Hs0 Hs1 HsA HsB Hsems]
  · isplitl [Hs0]; · iexact Hs0
    isplitl [Hs1]; · iexact Hs1
    isplitl [HsA]; · iexact HsA
    isplitl [HsB]; · iexact HsB
    iexact Hsems
  iexists _; isplitr
  rotate_left
  · iexact HO
  · ipureintro; intro p hp
    repeat (rcases Finset.mem_insert.mp hp with h | hp; · exact .inr (h ▸ rfl))
    exact .inl hp

end Tile

end Cert.Proof.KI

end
-- ==== Proof.Call.lean ====
import proofs.«215473_g55439437856794_cont_9to1_m_142_25_alg».proof.Proof.Tile

/-!
The vector-subcore call as the launch sees it: what the TensorCore hands each SparseCore (a read token of the class words
and of the similarity table, and the sixteen parts of the result its tiles write), what a SparseCore hands each tile (a
token of its tokens, and the tile's part), and what comes back (the same, the parts now holding the picked entries).
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks)

variable {F : FTy → Type}

local notation "𝕄" => MT Cert.KernelIdeal.nD Cert.KernelIdeal.τ Cert.KernelIdeal.sig (HIx 1) (Elt F) ℕ UU ℕ

variable (m : (ℓ : Loc nD τ sig) → Buf (Elt F) ℓ)

/-- SparseCore `c`'s read token, and tile `i`'s token of it. -/
abbrev qCore (c : Fin 2) : PosShare TreeShare := shareTok fullShare 2 c
abbrev qTile (c : Fin 2) (i : Fin 16) : PosShare TreeShare := shareTok (qCore c) 16 i

/-- The number of the tile at SparseCore `c`, subcore `i`. -/
def wid (c : Fin 2) (i : Fin 16) : Fin 32 := ⟨2 * i.val + c.val, by have := c.isLt; have := i.isLt; omega⟩

abbrev tPts (d : Dev nD) (q : PosShare TreeShare) : sProp 𝕄 := tLoc d ↦{q} m (tLoc d)
abbrev sPts (d : Dev nD) (q : PosShare TreeShare) : sProp 𝕄 := sLoc d ↦{q} m (sLoc d)
abbrev oPts (d : Dev nD) (w : Fin 32) (f : Buf (Elt F) (oLoc d)) : sProp 𝕄 := oLoc d ↦[oSetP w]{fullShare} f

/-- What the call hands a tile, and what the tile hands back. -/
abbrev goRes (d : Dev nD) (c : Fin 2) (i : Fin 16) : sProp 𝕄 :=
  iprop(tPts m d (qTile c i) ∗ sPts m d (qTile c i) ∗ oPts d (wid c i) (m (oLoc d)))
abbrev tdRes (d : Dev nD) (c : Fin 2) (i : Fin 16) : sProp 𝕄 :=
  iprop(tPts m d (qTile c i) ∗ sPts m d (qTile c i) ∗ oPts d (wid c i) (Gv m d))
/-- What the call hands a SparseCore, and what it hands back. -/
abbrev stRes (d : Dev nD) (c : Fin 2) : sProp 𝕄 :=
  iprop(tPts m d (qCore c) ∗ sPts m d (qCore c) ∗ bigSep Finset.univ fun i : Fin 16 => oPts d (wid c i) (m (oLoc d)))
abbrev dnRes (d : Dev nD) (c : Fin 2) : sProp 𝕄 :=
  iprop(tPts m d (qCore c) ∗ sPts m d (qCore c) ∗ bigSep Finset.univ fun i : Fin 16 => oPts d (wid c i) (Gv m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdRes m d (Fin.cast nCore_zero c) (Fin.cast nSub_zero i)))

theorem P_x (q : Fin 1) (thr : Thread nD τ) : (P (F := F) m).x q thr = iprop(emp) := rfl

/-! ## The launch theorem's obligations -/

section Obl

variable [FloatOps F]

-- the kernel's memrefs, spelt as the body table passes them
local notation "tW" => (Memref.whole Cert.KernelIdeal.main_arg2_scv : Memref Cert.KernelIdeal.sig Kind.scVector Space.hbm Cert.KernelIdeal.S16384 EltTy.i32)
local notation "sW" => (Memref.whole Cert.KernelIdeal.main_arg1_scv : Memref Cert.KernelIdeal.sig Kind.scVector Space.hbm Cert.KernelIdeal.S16384x600 EltTy.f32)
local notation "oW" => (Memref.whole Cert.KernelIdeal.main_v0_scv : Memref Cert.KernelIdeal.sig Kind.scVector Space.hbm Cert.KernelIdeal.S16384 EltTy.f32)
local notation "b5" => (Memref.whole Cert.KernelIdeal.cc0_scratch0 : Memref Cert.KernelIdeal.sig Kind.scVector Space.vmem Cert.KernelIdeal.S512 EltTy.i32)
local notation "b6" => (Memref.whole Cert.KernelIdeal.cc0_scratch1 : Memref Cert.KernelIdeal.sig Kind.scVector Space.vmem Cert.KernelIdeal.S2x64x600 EltTy.f32)
local notation "b7" => (Memref.whole Cert.KernelIdeal.cc0_scratch2 : Memref Cert.KernelIdeal.sig Kind.scVector Space.vmem Cert.KernelIdeal.S512 EltTy.f32)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_extract (coordsV c s)
          tW (Memref.isWhole_whole _) sW (Memref.isWhole_whole _) oW (Memref.isWhole_whole _)
          b5 (Memref.isWhole_whole _) b6 (Memref.isWhole_whole _) b7 (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- A token held whole is its two halves, one for each of the two copies a tile keeps in flight. -/
theorem sPts_halves (d : Dev nD) (q : PosShare TreeShare) :
    (sPts m d q : sProp 𝕄) ⊣⊢ iprop(sPts m d q.left ∗ sPts m d q.right) :=
  pointsTo_share (PosShare.mem_left_op_right q)

theorem tileObl (hF : (K (F := F)).Facts) (hpre : PreT m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widOf (coordsV ⟨_, hc.1⟩ ⟨_, hc.2⟩) = wid (Fin.cast nCore_zero c) (Fin.cast nSub_zero i) := Fin.ext rfl
  show iprop(_ ∗ emp ∗ goRes m d (Fin.cast nCore_zero c) (Fin.cast nSub_zero i) ∗ _)
    ⊢ wp _ _ _ _ (fun _ => iprop(tdRes m d (Fin.cast nCore_zero c) (Fin.cast nSub_zero i) ∗ _))
  unfold goRes tdRes
  refine BIBase.Entails.trans ?_ ((tile_body m d (coordsV ⟨_, hc.1⟩ ⟨_, hc.2⟩) hF hpre
    (qTile (Fin.cast nCore_zero c) (Fin.cast nSub_zero i)) (qTile (Fin.cast nCore_zero c) (Fin.cast nSub_zero i)).left
    (qTile (Fin.cast nCore_zero c) (Fin.cast nSub_zero i)).right O W hO).trans (wp_mono frame _ _ fun _ => ?_))
  · rw [hw]
    iintro ⟨Hlv, Hx, ⟨Ht, Hs, Ho⟩, Hsb, Hss, HO⟩
    ihave Hs' := (sPts_halves (F := F) m d _).1 $$ Hs
    icases Hs' with ⟨Hsa, Hsb'⟩
    isplitl [Hlv]; · iexact Hlv
    isplitl [Hx]; · iexact Hx
    isplitl [Ht Hsa Hsb' Ho]
    · isplitl [Ht]; · iexact Ht
      isplitl [Hsa]; · iexact Hsa
      isplitl [Hsb']; · iexact Hsb'
      iexact Ho
    isplitl [Hsb]; · iexact Hsb
    isplitl [Hss]; · iexact Hss
    iexact HO
  · rw [hw]
    refine BIBase.Entails.trans ?_ obl_post
    iintro ⟨⟨Ht, Hsa, Hsb', Ho⟩, Hsb, Hss, HW⟩
    isplitl [Ht Hsa Hsb' Ho]
    · isplitl [Ht]; · iexact Ht
      isplitl [Hsa Hsb']
      · iapply (sPts_halves (F := F) m d _).2; isplitl [Hsa] <;> iassumption
      iexact Ho
    isplitl [Hsb]; · iexact Hsb
    isplitl [Hss]; · iexact Hss
    iexact HW

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  unfold goRes tdRes stRes dnRes
  rw [bigSep_sep', bigSep_sep', bigSep_sep', bigSep_sep']
  iintro ⟨Ht, Hs, Ho⟩
  ihave Ht2 := (pointsTo_toks (qCore (Fin.cast nCore_zero c)) 16).1 $$ Ht
  icases Ht2 with ⟨Htd, Htt⟩
  ihave Hs2 := (pointsTo_toks (qCore (Fin.cast nCore_zero c)) 16).1 $$ Hs
  icases Hs2 with ⟨Hsd, Hst⟩
  imodintro
  isplitl [Htt Hst Ho]
  · isplitl [Htt]; · iexact Htt
    isplitl [Hst]; · iexact Hst
    iexact Ho
  iintro ⟨Htt, Hst, Ho⟩
  isplitl [Htd Htt]
  · iapply (pointsTo_toks (qCore (Fin.cast nCore_zero c)) 16).2; isplitl [Htd] <;> iassumption
  isplitl [Hsd Hst]
  · iapply (pointsTo_toks (qCore (Fin.cast nCore_zero c)) 16).2; isplitl [Hsd] <;> iassumption
  iexact Ho

end Obl

end Cert.Proof.KI

end
-- ==== Proof.Region.lean ====
import proofs.«215473_g55439437856794_cont_9to1_m_142_25_alg».proof.Proof.Setup
import Idealize.ShloMosaic.Lib.Pipeline.Regions
import Idealize.ShloMosaic.Lib.Pipeline.FrameBody
import Idealize.ShloMosaic.Lib.Pipeline.Value
import Idealize.ShloMosaic.Lib.Tactic

/-!
The pipelined region of the program: eight blocks of 2048 rows, each adding its weighted cross-entropy terms to a
one-word accumulator that stays in its staging word between the blocks and is written back after the last one.
-/

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => 𝕄T F

/-- The region prefetches no table. -/
abbrev adm : (p : Fin 1) → (pcfgs (F := F) p).Adm := fun p => (cfgs p).toPCfg_adm

/-- The four arrays of the region as one family over its windows: the logits, the class words as 128 × 128, the
    gathered similarities, the one-word result. -/
abbrev Arrs (F : FTy → Type) (c : Dev nD) : Type := (w : Fin cfg1.W) → Buf (Elt F) ((cfg1.win w).arr.view.loc (c.tc : Thread nD τ))

/-- Window `w`'s block at point `t`, read off its array. -/
def iblk {c : Dev nD} (A : Arrs F c) (w : Fin cfg1.W) (t : Fin cfg1.N) : ((cfg1.win w).xblock (cfg1.grid.coords t)).Idx → Elt F (cfg1.win w).elt :=
  ((cfg1.win w).blk t).view.read (Elt F) (A w)

/-- The accumulator after the first `k` blocks: zero, then one block's sum of weighted terms added per block. -/
def accA {c : Dev nD} (A : Arrs F c) : ℕ → F .f32
  | 0 => Scalar.ofBits .f32 0x00000000#32
  | k + 1 => if h : k < cfg1.N then k1_pay1 (iblk A 0 ⟨k, h⟩) (iblk A 1 ⟨k, h⟩) (iblk A 2 ⟨k, h⟩) (accA A k) else accA A k

theorem accA_zero {c : Dev nD} (A : Arrs F c) : accA A 0 = Scalar.ofBits .f32 0x00000000#32 := rfl

theorem accA_succ {c : Dev nD} (A : Arrs F c) (t : Fin cfg1.N) :
    accA A (t.val + 1) = k1_pay1 (iblk A 0 t) (iblk A 1 t) (iblk A 2 t) (accA A t.val) := by
  rw [accA, dif_pos t.isLt]

/-! ## The proof data -/

section Data

variable (O : CellTallies nD τ sig (HIx 1)) (B : Set (SemLoc sig × HIx 1)) (A : (c : Dev nD) → Arrs F c)

/-- The proof data: the arrays as the region finds them; after the body at point `t` each input's buffer at its
    block and the result's word at the accumulator after `t + 1` blocks; nothing of the body's own between points;
    the core owing `O` throughout. -/
def dats (_ : Fin 1) (c : Dev nD) : Dat τ (Elt F) (HIx 1) ℕ UU ℕ cfg1 c where
  A w := A c w
  after w t := match w with
    | ⟨0, _⟩ => iblk (A c) 0 t
    | ⟨1, _⟩ => iblk (A c) 1 t
    | ⟨2, _⟩ => iblk (A c) 2 t
    | ⟨3, _⟩ => fun _ => accA (A c) (t.val + 1)
  Φ _ := Pipeline.scopedRest (Ix := HIx 1) (Name := ℕ) (U := UU) (Lvl := ℕ) (Val := Elt F) (Pipeline.pin (pcfgs (F := F)) adm 0).spec c
  q _ := fullShare
  owed _ := O
  recorded _ := B

theorem Φ_eq (c : Dev nD) (t : Fin (cfg1.N + 1)) : (dats O B A 0 c).Φ t
    = Pipeline.scopedRest (Ix := HIx 1) (Name := ℕ) (U := UU) (Lvl := ℕ) (Val := Elt F) (Pipeline.pin (pcfgs (F := F)) adm 0).spec c := by dsimp only [dats]
theorem after_0 (c : Dev nD) (t : Fin cfg1.N) : (dats O B A 0 c).after 0 t = iblk (A c) 0 t := by dsimp only [dats]
theorem after_1 (c : Dev nD) (t : Fin cfg1.N) : (dats O B A 0 c).after 1 t = iblk (A c) 1 t := by dsimp only [dats]
theorem after_2 (c : Dev nD) (t : Fin cfg1.N) : (dats O B A 0 c).after 2 t = iblk (A c) 2 t := by dsimp only [dats]
theorem after_3 (c : Dev nD) (t : Fin cfg1.N) : (dats O B A 0 c).after 3 t = fun _ => accA (A c) (t.val + 1) := by dsimp only [dats]

theorem before_0 (c : Dev nD) (t : Fin cfg1.N) (d) : (dats O B A 0 c).before 0 t d = iblk (A c) 0 t :=
  ((dats O B A 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg1.N) (d) : (dats O B A 0 c).before 1 t d = iblk (A c) 1 t :=
  ((dats O B A 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg1.N) (d) : (dats O B A 0 c).before 2 t d = iblk (A c) 2 t :=
  ((dats O B A 0 c).before_in_eq_fetched 2 rfl (fun _ => rfl) (fun _ _ _ => rfl) (fun t => by rw [after_2]; unfold Dat.blockOf iblk; rfl) t d).trans
    (by unfold Dat.fetched Dat.blockOf iblk; rfl)

/-- At the first point the result's staging word holds anything. -/
theorem before_3_zero (c : Dev nD) (t : Fin cfg1.N) (h0 : t.val = 0) (d) : (dats O B A 0 c).before 3 t d = d :=
  (dats O B A 0 c).before_out_reset 3 rfl t (.inl h0) d

/-- At a later point it holds the accumulator the point before left: it is written back after the last point only. -/
theorem before_3_pos (c : Dev nD) (t : Fin cfg1.N) (h0 : t.val ≠ 0) (d) : (dats O B A 0 c).before 3 t d = fun _ => accA (A c) t.val := by
  have hN : t.val < 8 := lt_of_lt_of_eq t.isLt (show cfg1.N = 8 from N_1)
  rw [Dat.before_out_kept _ 3 rfl t h0 (Bool.eq_false_iff.mpr fun h => by have := (flush1_3 _).mp h; dsimp only at this; omega)
    (fun _ => rfl) (fun _ _ => rfl), after_3]
  dsimp only
  rw [Nat.sub_add_cancel (Nat.pos_of_ne_zero h0)]

end Data

/-! ## The body, once per case of its one conditional -/

/-- The condition of the body's `scf.if`: the grid coordinate is zero. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

theorem hz2 : (![0, 0] : Fin 2 → Nat) = fun _ => 0 := funext fun a => by fin_cases a <;> rfl
theorem hz1 : (![0] : Fin 1 → Nat) = fun _ => 0 := funext fun a => by fin_cases a; rfl

set_option maxHeartbeats 1000000 in
/-- At a later point the body adds the block's sum to the accumulator it finds. -/
theorem runB (c : Dev nD) (i : grid1.Coords) (arg1 : Memref sig .tc .vmem S2048x600 .f32) (harg1 : arg1.IsWhole) (arg2 : Memref sig .tc .vmem S16x128 .i32) (harg2 : arg2.IsWhole) (arg3 : Memref sig .tc .vmem S2048 .f32) (harg3 : arg3.IsWhole) (arg4 : Memref sig .tc .smem S1x1 .f32) (harg4 : arg4.IsWhole)
    (hc : ¬ cond1 i) (x0 : Vec F S2048x600 .f32) (x1 : Vec F S16x128 .i32) (x2 : Vec F S2048 .f32) (a : F .f32)
    (E : Set ℕ) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare (fun _ => a)
        ∗ (iprop(owns (c : Thread nD τ) arg1 fullShare x0 ∗ owns (c : Thread nD τ) arg2 fullShare x1 ∗ owns (c : Thread nD τ) arg3 fullShare x2
            ∗ owns (c : Thread nD τ) arg4 fullShare (fun _ => k1_pay1 x0 x1 x2 a)) -∗ Kc ⟨⟩))
      ⊢ wp frame (wpE (defs₀ (F := F)) Variants.none c none) E (cc1_body i arg1 harg1 arg2 harg2 arg3 harg3 arg4 harg4) Kc := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (fun y => ⟨_, List.Mem.head _, View.mem_set_unit_zero hz2 inb_S1x1_S1x1_0_0 y⟩)]
  rw [View.canon_unit_zero hz2]
  sl_unfold_words
  simp only [View.readAt_eq_ld, harg1.read_unread, harg2.read_unread, harg3.read_unread, harg4.read_unread, View.ld_unit_zero (S := S2048x600) hz2, View.ld_unit_zero (S := S16x128) hz2, View.ld_unit_zero (S := S2048) hz1, View.ld_unit_zero (S := S1x1) hz2]
  rfl

set_option maxHeartbeats 1000000 in
/-- At the first point the body zeroes the word, whatever it held, and adds the block's sum. -/
theorem runA (c : Dev nD) (i : grid1.Coords) (arg1 : Memref sig .tc .vmem S2048x600 .f32) (harg1 : arg1.IsWhole) (arg2 : Memref sig .tc .vmem S16x128 .i32) (harg2 : arg2.IsWhole) (arg3 : Memref sig .tc .vmem S2048 .f32) (harg3 : arg3.IsWhole) (arg4 : Memref sig .tc .smem S1x1 .f32) (harg4 : arg4.IsWhole)
    (hc : cond1 i) (x0 : Vec F S2048x600 .f32) (x1 : Vec F S16x128 .i32) (x2 : Vec F S2048 .f32) (y : Vec F S1x1 .f32)
    (E : Set ℕ) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y
        ∗ (iprop(owns (c : Thread nD τ) arg1 fullShare x0 ∗ owns (c : Thread nD τ) arg2 fullShare x1 ∗ owns (c : Thread nD τ) arg3 fullShare x2
            ∗ owns (c : Thread nD τ) arg4 fullShare (fun _ => k1_pay1 x0 x1 x2 (Scalar.ofBits .f32 0x00000000#32))) -∗ Kc ⟨⟩))
      ⊢ wp frame (wpE (defs₀ (F := F)) Variants.none c none) E (cc1_body i arg1 harg1 arg2 harg2 arg3 harg3 arg4 harg4) Kc := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (fun y => ⟨_, List.Mem.head _, View.mem_set_unit_zero hz2 inb_S1x1_S1x1_0_0 y⟩)]
  rw [View.canon_cons_unit_zero hz2]
  sl_unfold_words
  simp only [View.readAt_eq_ld, harg1.read_unread, harg2.read_unread, harg3.read_unread, View.ld_unit_zero (S := S2048x600) hz2, View.ld_unit_zero (S := S16x128) hz2, View.ld_unit_zero (S := S2048) hz1]
  rfl

/-! ## The body obligation -/

section Obligation

variable (O : CellTallies nD τ sig (HIx 1)) (B : Set (SemLoc sig × HIx 1)) (A : (c : Dev nD) → Arrs F c)

/-- What the body is called with at point `t`, the windows one by one, -/
def bodyPre (c : Dev nD) (t : Fin cfg1.N) : sProp 𝕄 :=
  iprop((dats O B A 0 c).Φ t.castSucc ∗ (dats O B A 0 c).owesAt none t.castSucc
    ∗ (∃ d, owns (c : Thread nD τ) (st1_0 t) fullShare ((dats O B A 0 c).before 0 t d))
    ∗ (∃ d, owns (c : Thread nD τ) (st1_1 t) fullShare ((dats O B A 0 c).before 1 t d))
    ∗ (∃ d, owns (c : Thread nD τ) (st1_2 t) fullShare ((dats O B A 0 c).before 2 t d))
    ∗ (∃ d, owns (c : Thread nD τ) (st1_3 t) fullShare ((dats O B A 0 c).before 3 t d)))

/-- and what it returns. -/
def bodyPost (c : Dev nD) (t : Fin cfg1.N) : sProp 𝕄 :=
  iprop((dats O B A 0 c).Φ t.succ ∗ (dats O B A 0 c).owesAt none t.succ
    ∗ owns (c : Thread nD τ) (st1_0 t) fullShare ((dats O B A 0 c).after 0 t)
    ∗ owns (c : Thread nD τ) (st1_1 t) fullShare ((dats O B A 0 c).after 1 t)
    ∗ owns (c : Thread nD τ) (st1_2 t) fullShare ((dats O B A 0 c).after 2 t)
    ∗ owns (c : Thread nD τ) (st1_3 t) fullShare ((dats O B A 0 c).after 3 t))

set_option maxHeartbeats 800000 in
/-- The body at any point: the inputs' buffers hold their blocks; at the first point the word holds anything and is
    zeroed, at a later one it holds the accumulator so far; either way it ends at the accumulator one block on. -/
theorem sound_body (c : Dev nD) (t : Fin cfg1.N) :
    bodyPre O B A c t ⊢ wp frame (wpE (defs₀ (F := F)) Variants.none c none) Set.univ (bodyAt1 t) (fun _ => bodyPost O B A c t) := by
  unfold bodyPre bodyPost bodyAt1
  simp only [before_0, before_1, before_2]
  rw [show (dats O B A 0 c).Φ t.succ = (dats O B A 0 c).Φ t.castSucc from rfl,
    show (dats O B A 0 c).owesAt none t.succ = (dats O B A 0 c).owesAt none t.castSucc from rfl,
    after_0, after_1, after_2, after_3, accA_succ]
  by_cases h0 : t.val = 0
  · simp only [before_3_zero O B A c t h0]
    rw [h0, accA_zero]
    iintro ⟨HΦ, Ho, ⟨%d0, H0⟩, ⟨%d1, H1⟩, ⟨%d2, H2⟩, ⟨%d3, H3⟩⟩
    iapply (runA c (grid1.coords t) _ _ _ _ _ _ _ _ ((hcond1 t).mpr h0) (iblk (A c) 0 t) (iblk (A c) 1 t) (iblk (A c) 2 t) d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3_pos O B A c t h0]
    iintro ⟨HΦ, Ho, ⟨%d0, H0⟩, ⟨%d1, H1⟩, ⟨%d2, H2⟩, ⟨%d3, H3⟩⟩
    iapply (runB c (grid1.coords t) _ _ _ _ _ _ _ _ (fun h => h0 ((hcond1 t).mp h)) (iblk (A c) 0 t) (iblk (A c) 1 t) (iblk (A c) 2 t) (accA (A c) t.val) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) O B A 0 c) (defs₀ (F := F)) Variants.none none Set.univ := fun t => by
  rw [bigSep_W1, bigSep_W1]
  exact sound_body O B A c t

end Obligation

/-! ## The region as a segment of @main -/

section Segment

variable (O : CellTallies nD τ sig (HIx 1)) (B : Set (SemLoc sig × HIx 1)) (A : (c : Dev nD) → Arrs F c)

/-- The arrays after the region: the three inputs as they were, the result at the accumulator after all eight blocks. -/
def Afin (c : Dev nD) : Arrs F c := fun w => match w with
  | ⟨0, _⟩ => A c 0
  | ⟨1, _⟩ => A c 1
  | ⟨2, _⟩ => A c 2
  | ⟨3, _⟩ => fun _ => accA (A c) 8

/-- The one write-back, after the last point, writes the accumulator after eight blocks. -/
theorem flushed_3 (c : Dev nD) (t : Fin cfg1.N) (hf : (cfg1.win 3).flush t = true) :
    (dats O B A 0 c).flushed 3 t = ((cfg1.win 3).blk t).view.read (Elt F) (fun _ => accA (A c) 8) := by
  have hN : cfg1.N = 8 := N_1
  have h7 : t.val = 7 := by have := (flush1_3 t).mp hf; have := t.isLt; omega
  obtain rfl : t = t1_7 := Fin.ext h7
  show (cfg1.win 3).cut (grid1.coords t1_7) ((dats O B A 0 c).after 3 t1_7) = _
  rw [after_3]
  funext j
  rw [View.read_apply]
  rfl

/-- So the result array ends holding it: the last point's block is the whole array. -/
theorem arrAt_3 (c : Dev nD) : (dats O B A 0 c).arrAt 3 cfg1.N = fun _ => accA (A c) 8 :=
  (dats O B A 0 c).arrAt_eq_of_cover 3 (fun _ => accA (A c) 8) (flushed_3 O B A c) fun i =>
    ⟨t1_7, (flush1_3 t1_7).mpr rfl, by
      show i ∈ ((View.whole main_v2).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega⟩

/-- The arrays after every write-back. -/
theorem arrAt_fin (c : Dev nD) : (fun w => (dats O B A 0 c).arrAt w cfg1.N) = Afin A c := by
  funext w
  match w with
  | ⟨0, _⟩ => exact (dats O B A 0 c).arrAt_in 0 rfl _
  | ⟨1, _⟩ => exact (dats O B A 0 c).arrAt_in 1 rfl _
  | ⟨2, _⟩ => exact (dats O B A 0 c).arrAt_in 2 rfl _
  | ⟨3, _⟩ => exact arrAt_3 O B A c

/-- What the region is entered from: the four arrays whole, and the core owing `O` with its recorded pairs in `B`. -/
def regPre (c : Dev nD) : sProp 𝕄 := iprop((dats O B A 0 c).arrays (A c) ∗ Pipeline.owesWithin c O B)
/-- What it leaves: the arrays at their final contents, the core owing `O`, its recorded pairs in `B` or the staging
    semaphores' at the index no call uses. -/
def regPost (c : Dev nD) : sProp 𝕄 := iprop((dats O B A 0 c).arrays (Afin A c) ∗ Pipeline.owesWithin c O (B ∪ cfg1.waitPairs none))

set_option backward.isDefEq.respectTransparency.types false in
/-- The region: the launch's layout of the staging storage, no semaphore of the body's own, the body obligation; the waits on the staging
    semaphores sit at the index no call uses, below everything the core owes. -/
def reg1 (hO : ∀ g, O g none = 0) (lv : GSem nD τ sig → HIx 1 → ℕ) (hlv : (K (F := F)).Refines lv) :
    Pipeline.RegionSeg (pcfgs (F := F)) adm (dats O B A) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation O B A c).loose
  hwaits c := Pipeline.cellsWaits_intro (Pipeline.pin (pcfgs (F := F)) adm) (dats O B A) none 0 c fun w s t =>
    (K (F := F)).mayWait_none _ hO lv hlv
  pre c := regPre O B A c
  post c := regPost O B A c
  X _ := iprop(emp)
  Y _ := iprop(emp)
  Z _ := iprop(emp)
  hentry c := by
    unfold regPre
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr <;> iempintro
  hin c := by
    rw [Φ_eq O B A c _]
    iintro ⟨-, -, Hr⟩
    iexact Hr
  hout c := by
    rw [Pipeline.ownSems0_none nD τ sig (Elt F) (HIx 1) ℕ UU ℕ c]
    rw [Φ_eq O B A c _]
    iintro Hr
    isplitr; · iempintro
    isplitr; · iempintro
    iexact Hr
  hexit c := by
    unfold regPost
    rw [arrAt_fin]
    iintro ⟨Ha, HO, -, -⟩
    imodintro
    isplitl [Ha]; · iexact Ha
    iexact HO

theorem reg1_pre (hO : ∀ g, O g none = 0) (lv : GSem nD τ sig → HIx 1 → ℕ) (hlv : (K (F := F)).Refines lv) (c : Dev nD) :
    (reg1 O B A hO lv hlv).pre c = regPre O B A c := rfl
theorem reg1_post (hO : ∀ g, O g none = 0) (lv : GSem nD τ sig → HIx 1 → ℕ) (hlv : (K (F := F)).Refines lv) (c : Dev nD) :
    (reg1 O B A hO lv hlv).post c = regPost O B A c := rfl

set_option backward.isDefEq.respectTransparency.types false in
/-- THE REGION inside @main: from the region boundary, the four arrays, what the core owes, the level facts and the
    staging cells' launch ghost state, the call runs to the boundary and the arrays at their final contents. -/
theorem region_wp (hO : ∀ g, O g none = 0) (lv : GSem nD τ sig → HIx 1 → ℕ) (hlv : (K (F := F)).Refines lv) (d : Dev nD) {α : Type}
    (k : PUnit → Prog (TpuEff nD τ sig (Elt F) (SparseCore.Sig (ΛP (F := F)) 1) Proc.tc) α) (Φ : α → sProp 𝕄) :
    iprop(boundary (T d : Thread nD τ) ∗ regPre O B A d ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ) ∗ regPost O B A d) -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  have h := Pipeline.RegionSeg.wp (pcfgs (F := F)) adm (dats O B A) none cellOf_inj ER defs₀ 𝒱₀ (K (F := F)).L lv
    (reg1 O B A hO lv hlv) d none (fun _ h => nomatch h) (fun r => Prog.ret r)
    (fun r => wp frame (wpE ((K (F := F)).defs (D (F := F))) 𝒱 (T d) none) Set.univ (k r) Φ)
  have hl := (K (F := F)).wp_liftProg (D (F := F)) 𝒱 (T d) (Set.univ : Set ℕ) none
    (Prog.op (TpuEff.customCall (Pipeline.entry 0) ()) fun r => Prog.ret r)
    (fun r => wp frame (wpE ((K (F := F)).defs (D (F := F))) 𝒱 (T d) none) Set.univ (k r) Φ)
  rw [reg1_pre, reg1_post] at h
  rw [show (Prog.lift (.customCall (SparseCore.inner (Pipeline.entry 0)) ()) >>= k)
      = (SparseCore.liftProg (Prog.op (TpuEff.customCall (Pipeline.entry 0) ()) fun r => Prog.ret r) >>= k) from rfl, wp_bind]
  refine BIBase.Entails.trans ?_ hl
  refine BIBase.Entails.trans ?_ h
  iintro ⟨Hb, Hpre, Hl, Hg, Ht, Hk⟩
  isplitl [Hk]
  · iintro H
    rw [wp_ret]
    imodintro
    iapply Hk
    iexact H
  isplitl [Hb]; · iexact Hb
  isplitl [Hpre]; · iexact Hpre
  isplitl [Hl]; · iexact Hl
  isplitl [Hg]; · iexact Hg
  iexact Ht

end Segment

end Cert.Proof.KI
end
-- ==== Proof.RegionUse.lean ====
import proofs.«215473_g55439437856794_cont_9to1_m_142_25_alg».proof.Proof.Region

/-!
The region's lemma as @main's proof uses it: the arrays as four points-to assertions, the recorded pairs as the
handshakes' level bound, and the blocks of the arrays read at an index.
-/

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => 𝕄T F

section Use

variable (O : CellTallies nD τ sig (HIx 1)) (B : Set (SemLoc sig × HIx 1)) (A : (c : Dev nD) → Arrs F c)

/-- The pipeline's arrays, whole and at the full share, one by one. -/
theorem arrays_four (c : Dev nD) (G : Arrs F c) :
    ((dats O B A 0 c).arrays G : sProp 𝕄)
      = iprop((((c.tc : Thread nD τ).loc main_arg0) ↦{fullShare} G 0) ∗ (((c.tc : Thread nD τ).loc main_v1) ↦{fullShare} G 1)
          ∗ (((c.tc : Thread nD τ).loc main_v0) ↦{fullShare} G 2) ∗ (((c.tc : Thread nD τ).loc main_v2) ↦{fullShare} G 3)) := by
  rw [Pipeline.arrays_eq cfgs (dats O B A) 0 c launch1.arr_whole ((dats O B A 0 c).share_full fun _ => rfl) G, bigSep_W1]

/-- Recorded pairs within a level bound or at the staging semaphores' unused index are within the bound. -/
theorem wbelow_of_bound (d : Dev nD) (b : ℕ) (W : Waits sig (HIx 1))
    (h : (↑W : Set (SemLoc sig × HIx 1)) ⊆ {p | (K (F := F)).lev ((T d : Thread nD τ), p.1) p.2 ≤ b} ∪ cfg1.waitPairs none) :
    (K (F := F)).WBelow (T d) W b := by
  intro p hp
  rcases h hp with h | ⟨w, s, rfl⟩
  · exact h
  · exact Nat.zero_le _

end Use

/-! ## The blocks read at an index -/

section Blocks

variable {c : Dev nD} (A : Arrs F c)

/-- The block indices of the three inputs at point `t`: block `t` of rows. -/
theorem index_0 : ∀ t : Fin cfg1.N, (cfg1.win 0).index t = ![t.val, 0] :=
  (by decide +kernel : ∀ t : Fin grid1.N, win1_0.index t = ![t.val, 0])
theorem index_1 : ∀ t : Fin cfg1.N, (cfg1.win 1).index t = ![t.val, 0] :=
  (by decide +kernel : ∀ t : Fin grid1.N, win1_1.index t = ![t.val, 0])
theorem index_2 : ∀ t : Fin cfg1.N, (cfg1.win 2).index t = ![t.val] :=
  (by decide +kernel : ∀ t : Fin grid1.N, win1_2.index t = ![t.val])

/-- Row `j 0` of block `t` of the logits is row `2048 t + j 0` of the array. -/
theorem iblk0_apply (t : Fin cfg1.N) (j : S2048x600.Idx) (i : S16384x600.Idx)
    (h0 : (i 0 : ℕ) = 2048 * t.val + j 0) (h1 : (i 1 : ℕ) = j 1) :
    (iblk A 0 t j : F .f32) = (A 0 : S16384x600.Idx → F .f32) i := by
  unfold iblk
  rw [View.read_apply]
  show (A 0 : S16384x600.Idx → F .f32) (((cfg1.win 0).rect t).emb j) = _
  refine congrArg (A 0 : S16384x600.Idx → F .f32) ?_
  funext a
  apply Fin.ext
  have e := (cfg1.win 0).rect_emb_val t j a
  rw [index_0 t] at e
  match a with
  | ⟨0, _⟩ => exact e.trans (by show t.val * 2048 + (j 0 : ℕ) = (i 0 : ℕ); omega)
  | ⟨1, _⟩ => exact e.trans (by show 0 * 600 + (j 1 : ℕ) = (i 1 : ℕ); omega)

/-- Row `j 0` of block `t` of the class words, seen as 128 × 128, is row `16 t + j 0`. -/
theorem iblk1_apply (t : Fin cfg1.N) (j : S16x128.Idx) (i : S128x128.Idx)
    (h0 : (i 0 : ℕ) = 16 * t.val + j 0) (h1 : (i 1 : ℕ) = j 1) :
    (iblk A 1 t j : BitVec 32) = (A 1 : S128x128.Idx → BitVec 32) i := by
  unfold iblk
  rw [View.read_apply]
  show (A 1 : S128x128.Idx → BitVec 32) (((cfg1.win 1).rect t).emb j) = _
  refine congrArg (A 1 : S128x128.Idx → BitVec 32) ?_
  funext a
  apply Fin.ext
  have e := (cfg1.win 1).rect_emb_val t j a
  rw [index_1 t] at e
  match a with
  | ⟨0, _⟩ => exact e.trans (by show t.val * 16 + (j 0 : ℕ) = (i 0 : ℕ); omega)
  | ⟨1, _⟩ => exact e.trans (by show 0 * 128 + (j 1 : ℕ) = (i 1 : ℕ); omega)

/-- Entry `j 0` of block `t` of the gathered similarities is entry `2048 t + j 0`. -/
theorem iblk2_apply (t : Fin cfg1.N) (j : S2048.Idx) (i : S16384.Idx)
    (h0 : (i 0 : ℕ) = 2048 * t.val + j 0) :
    (iblk A 2 t j : F .f32) = (A 2 : S16384.Idx → F .f32) i := by
  unfold iblk
  rw [View.read_apply]
  show (A 2 : S16384.Idx → F .f32) (((cfg1.win 2).rect t).emb j) = _
  refine congrArg (A 2 : S16384.Idx → F .f32) ?_
  funext a
  apply Fin.ext
  have e := (cfg1.win 2).rect_emb_val t j a
  rw [index_2 t] at e
  match a with
  | ⟨0, _⟩ => exact e.trans (by show t.val * 2048 + (j 0 : ℕ) = (i 0 : ℕ); omega)

end Blocks

/-! ## The lemma over the TensorCore's handshake state -/

section Packaged

variable (A : (c : Dev nD) → Arrs F c)

/-- The TensorCore owes nothing at the index no call uses. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The level bound on recorded pairs, as a set. -/
abbrev Bnd (d : Dev nD) (b : ℕ) : Set (SemLoc sig × HIx 1) := {p | (K (F := F)).lev ((T d : Thread nD τ), p.1) p.2 ≤ b}

/-- THE REGION inside @main, over the TensorCore's state before call `n`: the four arrays one by one, what it owes
    with its recorded pairs at or below level `b`. -/
theorem region_wp' (lv : GSem nD τ sig → HIx 1 → ℕ) (hlv : (K (F := F)).Refines lv) (d : Dev nD) (n b : ℕ) {α : Type}
    (k : PUnit → Prog (TpuEff nD τ sig (Elt F) (SparseCore.Sig (ΛP (F := F)) 1) Proc.tc) α) (Φ : α → sProp 𝕄) :
    iprop(boundary (T d : Thread nD τ)
        ∗ ((((T d : Thread nD τ).loc main_arg0) ↦{fullShare} A d 0) ∗ (((T d : Thread nD τ).loc main_v1) ↦{fullShare} A d 1)
          ∗ (((T d : Thread nD τ).loc main_v0) ↦{fullShare} A d 2) ∗ (((T d : Thread nD τ).loc main_v2) ↦{fullShare} A d 3))
        ∗ (∃ W, ⌜(K (F := F)).WBelow (T d) W b⌝ ∗ owes (T d : Thread nD τ) ((K (F := F)).Otc d n) W)
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
            ∗ ((((T d : Thread nD τ).loc main_arg0) ↦{fullShare} A d 0) ∗ (((T d : Thread nD τ).loc main_v1) ↦{fullShare} A d 1)
              ∗ (((T d : Thread nD τ).loc main_v0) ↦{fullShare} A d 2) ∗ (((T d : Thread nD τ).loc main_v2) ↦{fullShare} (fun _ => accA (A d) 8 : Buf (Elt F) ((T d : Thread nD τ).loc main_v2))))
            ∗ (∃ W, ⌜(K (F := F)).WBelow (T d) W b⌝ ∗ owes (T d : Thread nD τ) ((K (F := F)).Otc d n) W))
          -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  refine BIBase.Entails.trans ?_ (region_wp ((K (F := F)).Otc d n) (Bnd (F := F) d b) A (Otc_none d n) lv hlv d k Φ)
  unfold regPre regPost Pipeline.owesWithin
  rw [arrays_four, arrays_four]
  iintro ⟨Hb, Ha, ⟨%W, %hW, HO⟩, Hl, Hg, Ht, Hk⟩
  isplitl [Hb]; · iexact Hb
  isplitl [Ha HO]
  · isplitl [Ha]; · iexact Ha
    iexists W; isplitr; · ipureintro; exact fun p hp => hW p (Finset.mem_coe.mp hp)
    iexact HO
  isplitl [Hl]; · iexact Hl
  isplitl [Hg]; · iexact Hg
  isplitl [Ht]; · iexact Ht
  iintro ⟨Hb, Ha, ⟨%W', %hW', HO⟩⟩
  iapply Hk
  isplitl [Hb]; · iexact Hb
  isplitl [Ha]; · iexact Ha
  iexists W'; isplitr; · ipureintro; exact wbelow_of_bound d b W' hW'
  iexact HO

end Packaged

/-! ## The staging cells' launch ghost state -/

section Ghost

/-- From the rounds library's launch element at the region's staging cells and transfers: each device's cells' launch
    state and duty tokens, as the region's lemma takes them. -/
theorem fund_region :
    BI.own ((ER : Emb UK (𝕄T F)) (initOf (Pipeline.cells (Pipeline.pin (pcfgs (F := F)) adm) cellOf_inj)
        (Pipeline.launchToks (Pipeline.pin (pcfgs (F := F)) adm) cellOf_inj)))
      ⊢ iprop(|==> bigSep Finset.univ fun d : Dev nD =>
          iprop(Pipeline.cellsGhost (Pipeline.pin (pcfgs (F := F)) adm) (ER : Emb UK (𝕄T F)) 0 d
            ∗ Pipeline.toksInit (Pipeline.pin (pcfgs (F := F)) adm) (ER : Emb UK (𝕄T F)) 0 d)) := by
  have h := Pipeline.fund_ghost (Pipeline.pin (pcfgs (F := F)) adm) (ER : Emb UK (𝕄T F)) cellOf_inj
  refine BIBase.Entails.trans h ?_
  have h1 : (Finset.univ : Finset (Fin 1)) = {0} := by decide
  simp only [h1, BI.bigSep_singleton]
  exact BIBase.Entails.refl

end Ghost

end Cert.Proof.KI

end
-- ==== Proof.MainTail.lean ====
import proofs.«215473_g55439437856794_cont_9to1_m_142_25_alg».proof.Proof.RegionUse
import proofs.«215473_g55439437856794_cont_9to1_m_142_25_alg».proof.Proof.Gather

/-!
@main on the TensorCore after the vector-subcore call: the class words seen as 128 × 128, the pipelined region, and
the three host operations that turn its one-word result into the mean.
-/

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window BodyObligation cellOf)

variable {F : FTy → Type} [FloatOps F]

local notation "𝕄" => 𝕄T F

/-! ## The program after the call -/

abbrev opR1 : HloOp τ sig (Elt F) := StableHlo.reshape main_arg2 main_v1 rfl shapeCasts_S16384_S128x128
abbrev opR2 : HloOp τ sig (Elt F) := StableHlo.reshape main_v2 main_v3 rfl shapeCasts_S1x1_S_
abbrev opC : HloOp τ sig (Elt F) := StableHlo.nullary main_cst (constant S_ .f32 0x46800000#32)
abbrev opD : HloOp τ sig (Elt F) := StableHlo.binary main_v3 main_cst main_v4
  (Host.divf : (⟨S_, .f32⟩ : BufTy).Contents (Elt F) → (⟨S_, .f32⟩ : BufTy).Contents (Elt F) → (⟨S_, .f32⟩ : BufTy).Contents (Elt F))

/-- @main after its first line. -/
def mainTail (d : Dev nD) : Prog (TpuEff nD τ sig (Elt F) (SparseCore.Sig (ΛP (F := F)) 1) .tc) PUnit := do
  hlo rfl (opR1 (F := F)) (fun _ => .ret ⟨⟩)
  Prog.lift (.customCall (SparseCore.inner (Pipeline.entry 0)) ())
  hlo rfl (opR2 (F := F)) (fun _ => .ret ⟨⟩)
  hlo rfl (opC (F := F)) (fun _ => .ret ⟨⟩)
  hlo rfl (opD (F := F)) (fun _ => .ret ⟨⟩)
  pure ⟨⟩

theorem main_eq (d : Dev nD) : main (F := F) d = ((K (F := F)).run d 0 >>= fun _ => mainTail d) := rfl

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev cst' : DevRef τ sig := Proc.devRef .tc (main_cst : Ref sig .tc)
abbrev v4' : DevRef τ sig := Proc.devRef .tc (main_v4 : Ref sig .tc)

abbrev S9 : Finset (DevRef τ sig) := {a0', a1', a2', v0', v1', v2', v3', cst', v4'}

omit [FloatOps F] in
theorem held_S9 (d : Dev nD) (W : Valuation τ sig (Elt F)) :
    (held (T d) S9 W : sProp 𝕄) = iprop(((T d : Thread nD τ).loc main_arg0 ↦{fullShare} W a0') ∗ ((T d : Thread nD τ).loc main_arg1 ↦{fullShare} W a1')
      ∗ ((T d : Thread nD τ).loc main_arg2 ↦{fullShare} W a2') ∗ ((T d : Thread nD τ).loc main_v0 ↦{fullShare} W v0')
      ∗ ((T d : Thread nD τ).loc main_v1 ↦{fullShare} W v1') ∗ ((T d : Thread nD τ).loc main_v2 ↦{fullShare} W v2')
      ∗ ((T d : Thread nD τ).loc main_v3 ↦{fullShare} W v3') ∗ ((T d : Thread nD τ).loc main_cst ↦{fullShare} W cst')
      ∗ ((T d : Thread nD τ).loc main_v4 ↦{fullShare} W v4')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem hR1 : (opR1 (F := F)).bufs ⊆ S9 := show ({a2', v1'} : Finset (DevRef τ sig)) ⊆ S9 by decide
theorem hR2 : (opR2 (F := F)).bufs ⊆ S9 := show ({v2', v3'} : Finset (DevRef τ sig)) ⊆ S9 by decide
theorem hC : (opC (F := F)).bufs ⊆ S9 := show ({cst'} : Finset (DevRef τ sig)) ⊆ S9 by decide
theorem hD : (opD (F := F)).bufs ⊆ S9 := show ({v3', cst', v4'} : Finset (DevRef τ sig)) ⊆ S9 by decide

section Tail

variable (m : (ℓ : Loc nD τ sig) → Buf (Elt F) ℓ)

/-- The four arrays of the region as the class words' reshape leaves them. -/
def Atail (d : Dev nD) : (c : Dev nD) → Arrs F c := fun _ w => match w with
  | ⟨0, _⟩ => m ((T d : Thread nD τ).loc main_arg0)
  | ⟨1, _⟩ => shapeCast S128x128 (m (tLoc d)) shapeCasts_S16384_S128x128
  | ⟨2, _⟩ => Gv m d
  | ⟨3, _⟩ => m ((T d : Thread nD τ).loc main_v2)

/-- The mean the host operations compute from the region's word. -/
def meanV (d : Dev nD) : Buf (Elt F) ((T d : Thread nD τ).loc main_v4) :=
  Host.divf (F := F) (φ := .f32) (shapeCast S_ (fun _ : S1x1.Idx => accA (Atail m d d) 8) shapeCasts_S1x1_S_) (constant S_ .f32 0x46800000#32)

/-- The region's step with the rest of the program as its postcondition. -/
theorem region_step (A : (c : Dev nD) → Arrs F c) (lv : GSem nD τ sig → HIx 1 → ℕ) (hlv : (K (F := F)).Refines lv) (d : Dev nD) (n b : ℕ)
    (Ψ : PUnit → sProp 𝕄) :
    iprop(boundary (T d : Thread nD τ)
        ∗ ((((T d : Thread nD τ).loc main_arg0) ↦{fullShare} A d 0) ∗ (((T d : Thread nD τ).loc main_v1) ↦{fullShare} A d 1)
          ∗ (((T d : Thread nD τ).loc main_v0) ↦{fullShare} A d 2) ∗ (((T d : Thread nD τ).loc main_v2) ↦{fullShare} A d 3))
        ∗ (∃ W, ⌜(K (F := F)).WBelow (T d) W b⌝ ∗ owes (T d : Thread nD τ) ((K (F := F)).Otc d n) W)
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
            ∗ ((((T d : Thread nD τ).loc main_arg0) ↦{fullShare} A d 0) ∗ (((T d : Thread nD τ).loc main_v1) ↦{fullShare} A d 1)
              ∗ (((T d : Thread nD τ).loc main_v0) ↦{fullShare} A d 2) ∗ (((T d : Thread nD τ).loc main_v2) ↦{fullShare} (fun _ => accA (A d) 8 : Buf (Elt F) ((T d : Thread nD τ).loc main_v2))))
            ∗ (∃ W, ⌜(K (F := F)).WBelow (T d) W b⌝ ∗ owes (T d : Thread nD τ) ((K (F := F)).Otc d n) W))
          -∗ Ψ ⟨⟩))
      ⊢ wp frame (wpE ((K (F := F)).defs (D (F := F))) 𝒱 (T d) none) Set.univ
          (Prog.lift (.customCall (SparseCore.inner (Pipeline.entry 0)) ())) Ψ := by
  have h := region_wp' A lv hlv d n b (fun r => Prog.ret r) Ψ
  rw [show (Prog.lift (TpuEff.customCall (SparseCore.inner (Pipeline.entry 0)) ()) >>= fun r => Prog.ret r)
      = (Prog.lift (TpuEff.customCall (SparseCore.inner (Pipeline.entry 0)) ()) : Prog (TpuEff nD τ sig (Elt F) (SparseCore.Sig (ΛP (F := F)) 1) Proc.tc) PUnit) from rfl] at h
  refine BIBase.Entails.trans ?_ h
  iintro ⟨Hb, Ha, HO, Hl, Hg, Ht, Hk⟩
  isplitl [Hb]; · iexact Hb
  isplitl [Ha]; · iexact Ha
  isplitl [HO]; · iexact HO
  isplitl [Hl]; · iexact Hl
  isplitl [Hg]; · iexact Hg
  isplitl [Ht]; · iexact Ht
  iintro H
  rw [wp_ret]
  imodintro
  iapply Hk
  iexact H

end Tail

section Run

variable (m : (ℓ : Loc nD τ sig) → Buf (Elt F) ℓ)

/-- The launch valuation with the intermediate array at what the call left; -/
def W0 (d : Dev nD) : Valuation τ sig (Elt F) := Function.update (fun b => m (d, b)) v0' (Gv m d)
/-- after the class words' reshape; -/
def W1 (d : Dev nD) : Valuation τ sig (Elt F) := (opR1 (F := F)).result (W0 m d)
/-- after the region; -/
def W2 (d : Dev nD) : Valuation τ sig (Elt F) := Function.update (W1 m d) v2' (fun _ => accA (Atail m d d) 8)
/-- after the three host operations. -/
def W5 (d : Dev nD) : Valuation τ sig (Elt F) := (opD (F := F)).result ((opC (F := F)).result ((opR2 (F := F)).result (W2 m d)))

theorem W0_v0 (d : Dev nD) : W0 m d v0' = Gv m d := Function.update_self _ _ _
theorem W0_ne (d : Dev nD) (b : DevRef τ sig) (h : b ≠ v0') : W0 m d b = m (d, b) := Function.update_of_ne h _ _

theorem W1_a0 (d : Dev nD) : W1 m d a0' = m ((T d : Thread nD τ).loc main_arg0) :=
  ((opR1 (F := F)).result_of_not_mem (W0 m d) (b := a0') (show a0' ∉ ({v1'} : Finset (DevRef τ sig)) by decide)).trans (W0_ne m d a0' (by decide))
theorem W1_a1 (d : Dev nD) : W1 m d a1' = m (sLoc d) :=
  ((opR1 (F := F)).result_of_not_mem (W0 m d) (b := a1') (show a1' ∉ ({v1'} : Finset (DevRef τ sig)) by decide)).trans (W0_ne m d a1' (by decide))
theorem W1_a2 (d : Dev nD) : W1 m d a2' = m (tLoc d) :=
  ((opR1 (F := F)).result_of_not_mem (W0 m d) (b := a2') (show a2' ∉ ({v1'} : Finset (DevRef τ sig)) by decide)).trans (W0_ne m d a2' (by decide))
theorem W1_v0 (d : Dev nD) : W1 m d v0' = Gv m d :=
  ((opR1 (F := F)).result_of_not_mem (W0 m d) (b := v0') (show v0' ∉ ({v1'} : Finset (DevRef τ sig)) by decide)).trans (W0_v0 m d)
theorem W1_v2 (d : Dev nD) : W1 m d v2' = m ((T d : Thread nD τ).loc main_v2) :=
  ((opR1 (F := F)).result_of_not_mem (W0 m d) (b := v2') (show v2' ∉ ({v1'} : Finset (DevRef τ sig)) by decide)).trans (W0_ne m d v2' (by decide))
theorem W1_v1 (d : Dev nD) : W1 m d v1' = Atail m d d 1 := by
  unfold W1
  rw [StableHlo.reshape_result, W0_ne m d a2' (by decide)]
  rfl

theorem W2_v2 (d : Dev nD) : W2 m d v2' = (fun _ => accA (Atail m d d) 8) := Function.update_self _ _ _
theorem W2_ne (d : Dev nD) (b : DevRef τ sig) (h : b ≠ v2') : W2 m d b = W1 m d b := Function.update_of_ne h _ _

/-- The three host operations leave every array but their results as it was. -/
theorem W5_ne (d : Dev nD) (b : DevRef τ sig) (h4 : b ∉ ({v4'} : Finset (DevRef τ sig))) (hc : b ∉ ({cst'} : Finset (DevRef τ sig)))
    (h3 : b ∉ ({v3'} : Finset (DevRef τ sig))) : W5 m d b = W2 m d b :=
  ((opD (F := F)).result_of_not_mem _ (b := b) h4).trans (((opC (F := F)).result_of_not_mem _ (b := b) hc).trans
    ((opR2 (F := F)).result_of_not_mem _ (b := b) h3))
theorem W5_a0 (d : Dev nD) : W5 m d a0' = m ((T d : Thread nD τ).loc main_arg0) :=
  (W5_ne m d a0' (by decide) (by decide) (by decide)).trans ((W2_ne m d a0' (by decide)).trans (W1_a0 m d))
theorem W5_a1 (d : Dev nD) : W5 m d a1' = m (sLoc d) :=
  (W5_ne m d a1' (by decide) (by decide) (by decide)).trans ((W2_ne m d a1' (by decide)).trans (W1_a1 m d))
theorem W5_a2 (d : Dev nD) : W5 m d a2' = m (tLoc d) :=
  (W5_ne m d a2' (by decide) (by decide) (by decide)).trans ((W2_ne m d a2' (by decide)).trans (W1_a2 m d))
theorem W5_v4 (d : Dev nD) : W5 m d v4' = meanV m d := by
  unfold W5
  rw [StableHlo.binary_result, StableHlo.nullary_result,
    (opC (F := F)).result_of_not_mem _ (b := v3') (show v3' ∉ ({cst'} : Finset (DevRef τ sig)) by decide), StableHlo.reshape_result, W2_v2]
  rfl

/-- What @main leaves the claim: the three arguments as launched, the result at the mean. -/
def FIN (d : Dev nD) : sProp 𝕄 :=
  iprop(((T d : Thread nD τ).loc main_arg0 ↦{fullShare} m ((T d : Thread nD τ).loc main_arg0)) ∗ ((T d : Thread nD τ).loc main_arg1 ↦{fullShare} m (sLoc d))
    ∗ ((T d : Thread nD τ).loc main_arg2 ↦{fullShare} m (tLoc d)) ∗ ((T d : Thread nD τ).loc main_v4 ↦{fullShare} meanV m d))

end Run

section Main

variable (m : (ℓ : Loc nD τ sig) → Buf (Elt F) ℓ)

set_option maxHeartbeats 1000000 in
/-- @main after the call: the reshape, the region, the three host operations; the arguments kept, the mean left. -/
theorem main_tail (P : (K (F := F)).Pay (nD := nD) (Val := Elt F) (Name := ℕ) (U := UU)) (κ : GSem nD τ sig → ℕ) (d : Dev nD) :
    iprop((K (F := F)).ctx EH P κ ∗ (K (F := F)).tcSt EH d 1 ∗ boundary (T d : Thread nD τ)
        ∗ (((T d : Thread nD τ).loc main_arg0 ↦{fullShare} m ((T d : Thread nD τ).loc main_arg0)) ∗ ((T d : Thread nD τ).loc main_arg1 ↦{fullShare} m (sLoc d))
          ∗ ((T d : Thread nD τ).loc main_arg2 ↦{fullShare} m (tLoc d)) ∗ ((T d : Thread nD τ).loc main_v0 ↦{fullShare} Gv m d)
          ∗ ((T d : Thread nD τ).loc main_v1 ↦{fullShare} m ((T d : Thread nD τ).loc main_v1)) ∗ ((T d : Thread nD τ).loc main_v2 ↦{fullShare} m ((T d : Thread nD τ).loc main_v2))
          ∗ ((T d : Thread nD τ).loc main_v3 ↦{fullShare} m ((T d : Thread nD τ).loc main_v3)) ∗ ((T d : Thread nD τ).loc main_cst ↦{fullShare} m ((T d : Thread nD τ).loc main_cst))
          ∗ ((T d : Thread nD τ).loc main_v4 ↦{fullShare} m ((T d : Thread nD τ).loc main_v4)))
        ∗ Pipeline.cellsGhost (Pipeline.pin (pcfgs (F := F)) adm) ER 0 d ∗ Pipeline.toksInit (Pipeline.pin (pcfgs (F := F)) adm) ER 0 d)
      ⊢ wp frame (wpE ((K (F := F)).defs (D (F := F))) 𝒱 (T d) none) Set.univ (mainTail d)
          fun _ => iprop((K (F := F)).tcSt EH d 1 ∗ FIN m d) := by
  unfold mainTail SparseCore.Cfg.tcSt
  simp only [wp_bind, wp_pure]
  iintro ⟨#Hctx, ⟨HO, Hrest⟩, Hb, ⟨Ha0, Ha1, Ha2, Hv0, Hv1, Hv2, Hv3, Hc, Hv4⟩, Hg, Ht⟩
  ihave Hlev := (SparseCore.Cfg.ctx_levAts (K := K (F := F)) (EH := EH) (P := P) κ) $$ Hctx
  -- the class words as 128 × 128
  iapply (wp_hlo_within 𝒱 (T d) none Set.univ (op := opR1 (F := F)) (S := S9) hR1 (V := W0 m d)) $$ [Hb Ha0 Ha1 Ha2 Hv0 Hv1 Hv2 Hv3 Hc Hv4]
  · isplitl [Hb]; · iexact Hb
    rw [held_S9, W0_v0, W0_ne m d a0' (by decide), W0_ne m d a1' (by decide), W0_ne m d a2' (by decide), W0_ne m d v1' (by decide),
      W0_ne m d v2' (by decide), W0_ne m d v3' (by decide), W0_ne m d cst' (by decide), W0_ne m d v4' (by decide)]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  iintro ⟨Hb, Hheld⟩
  rw [wp_ret]; imodintro
  -- the region
  ihave Hh := (Entails.of_eq (show (held (T d) S9 ((opR1 (F := F)).result (W0 m d)) : sProp 𝕄) = _ from held_S9 (F := F) d (W1 m d))) $$ Hheld
  rw [W1_a0, W1_a1, W1_a2, W1_v0, W1_v1, W1_v2]
  icases Hh with ⟨Ha0, Ha1, Ha2, Hv0, Hv1, Hv2, Hv3, Hc, Hv4⟩
  iapply (region_step (Atail m d) (K (F := F)).lev (K (F := F)).refines_self d 1 (8 * 1) _) $$ [Hb Ha0 Hv1 Hv0 Hv2 HO Hlev Hg Ht Ha1 Ha2 Hv3 Hc Hv4 Hrest]
  isplitl [Hb]; · iexact Hb
  isplitl [Ha0 Hv1 Hv0 Hv2]
  · isplitl [Ha0]; · iexact Ha0
    isplitl [Hv1]; · iexact Hv1
    isplitl [Hv0]; · iexact Hv0
    iexact Hv2
  isplitl [HO]; · iexact HO
  isplitl [Hlev]; · iexact Hlev
  isplitl [Hg]; · iexact Hg
  isplitl [Ht]; · iexact Ht
  iintro ⟨Hb, ⟨Ha0, Hv1, Hv0, Hv2⟩, HO⟩
  -- the three host operations
  iapply (wp_hlo_within 𝒱 (T d) none Set.univ (op := opR2 (F := F)) (S := S9) hR2 (V := W2 m d)) $$ [Hb Ha0 Ha1 Ha2 Hv0 Hv1 Hv2 Hv3 Hc Hv4]
  · isplitl [Hb]; · iexact Hb
    rw [held_S9, W2_v2, W2_ne m d a0' (by decide), W2_ne m d a1' (by decide), W2_ne m d a2' (by decide), W2_ne m d v0' (by decide),
      W2_ne m d v1' (by decide), W2_ne m d v3' (by decide), W2_ne m d cst' (by decide), W2_ne m d v4' (by decide),
      W1_a0, W1_a1, W1_a2, W1_v0, W1_v1]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  iintro ⟨Hb, Hheld⟩
  rw [wp_ret]; imodintro
  iapply (wp_hlo_within 𝒱 (T d) none Set.univ (op := opC (F := F)) (S := S9) hC (V := (opR2 (F := F)).result (W2 m d))) $$ [Hb Hheld]
  · isplitl [Hb]; · iexact Hb
    iexact Hheld
  iintro ⟨Hb, Hheld⟩
  rw [wp_ret]; imodintro
  iapply (wp_hlo_within 𝒱 (T d) none Set.univ (op := opD (F := F)) (S := S9) hD (V := (opC (F := F)).result ((opR2 (F := F)).result (W2 m d)))) $$ [Hb Hheld]
  · isplitl [Hb]; · iexact Hb
    iexact Hheld
  iintro ⟨Hb, Hheld⟩
  rw [wp_ret]; imodintro; imodintro
  ihave Hh := (Entails.of_eq (show (held (T d) S9 ((opD (F := F)).result ((opC (F := F)).result ((opR2 (F := F)).result (W2 m d)))) : sProp 𝕄) = _ from held_S9 (F := F) d (W5 m d))) $$ Hheld
  rw [W5_a0, W5_a1, W5_a2, W5_v4]
  icases Hh with ⟨Ha0, Ha1, Ha2, -, -, -, -, -, Hv4⟩
  isplitl [HO Hrest]
  · isplitl [HO]; · iexact HO
    iexact Hrest
  unfold FIN
  isplitl [Ha0]; · iexact Ha0
  isplitl [Ha1]; · iexact Ha1
  isplitl [Ha2]; · iexact Ha2
  iexact Hv4

/-- What the claim reads of the final memory: the three arguments as launched, the result at the mean. -/
def fq (d : Dev nD) (s' : Phys nD τ sig (Elt F)) : Prop :=
  s'.mem.mem ((T d : Thread nD τ).loc main_arg0) = m ((T d : Thread nD τ).loc main_arg0) ∧ s'.mem.mem (sLoc d) = m (sLoc d)
    ∧ s'.mem.mem (tLoc d) = m (tLoc d) ∧ s'.mem.mem ((T d : Thread nD τ).loc main_v4) = meanV m d

theorem hfin (d : Dev nD) (s' : Phys nD τ sig (Elt F)) : iprop(FIN m d ∗ SI s') ⊢ (⌜fq m d s'⌝ : sProp 𝕄) := by
  unfold FIN
  iintro ⟨⟨H0, H1, H2, H4⟩, HSI⟩
  icombine HSI H0 gives %h0
  icombine HSI H1 gives %h1
  icombine HSI H2 gives %h2
  icombine HSI H4 gives %h4
  ipureintro
  exact ⟨funext fun i => h0 i (Finset.mem_univ i), funext fun i => h1 i (Finset.mem_univ i), funext fun i => h2 i (Finset.mem_univ i),
    funext fun i => h4 i (Finset.mem_univ i)⟩

end Main

end Cert.Proof.KI
end
-- ==== Proof.LaunchElem.lean ====
import proofs.«215473_g55439437856794_cont_9to1_m_142_25_alg».proof.Proof.RegionUse

/-!
The launch element: what the proof's resource algebra holds when the program starts, and how it is dealt. The
handshakes' rounds go to the launch theorem; the rounds of the region's staging cells fund, for each device, the cells'
launch state and the duties' tokens the region's lemma takes; the copy of the transfer counters starts at its unit and
is not dealt.
-/

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => 𝕄T F

/-- The launch element: every handshake cell and every staging cell at round 0 with its duties' tokens, the counters'
    copy at its unit. -/
def u₀ : UU :=
  (initOf (K (F := F)).hsCells (K (F := F)).hsToks,
    (initOf (Pipeline.cells (Pipeline.pin (pcfgs (F := F)) adm) cellOf_inj)
        (Pipeline.launchToks (Pipeline.pin (pcfgs (F := F)) adm) cellOf_inj),
      (1 : Counters)))

/-- What each device's TensorCore is dealt: its staging cells' launch state and the duties' tokens. -/
def G (d : Dev nD) : sProp 𝕄 :=
  iprop(Pipeline.cellsGhost (Pipeline.pin (pcfgs (F := F)) adm) (ER : Emb UK (𝕄T F)) 0 d
    ∗ Pipeline.toksInit (Pipeline.pin (pcfgs (F := F)) adm) (ER : Emb UK (𝕄T F)) 0 d)

omit [FloatOps F] in
/-- A triple of the three components is owned component by component: the handshakes' through the left embedding, the
    staging cells' through the left of the right. -/
theorem own_triple (h : UH) (a : UK) (c : Counters) :
    (ownU ((h, (a, c)) : UU) : sProp 𝕄) ⊢ iprop(BI.own ((EH : Emb UH (𝕄T F)) h) ∗ BI.own ((ER : Emb UK (𝕄T F)) a)) := by
  iintro Hu
  ihave H := (ownU_pair _ _) $$ Hu
  icases H with ⟨HH, HR⟩
  ihave H2 := (own_pair_emb _ _ _) $$ HR
  icases H2 with ⟨HA, -⟩
  isplitl [HH]; · iexact HH
  iexact HA

omit [FloatOps F] in
theorem bigSep_emp' {I : Type} (s : Finset I) : (bigSep s fun _ => iprop(emp)) = (iprop(emp) : sProp 𝕄) := bigSep_emp_const s

/-- The launch theorem's element obligation, for any payload record that deals the threads nothing of its own. -/
theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own ((EH : Emb UH (𝕄T F)) (initOf (K (F := F)).hsCells (K (F := F)).hsToks))
          ∗ bigSep Finset.univ (G (F := F))
          ∗ bigSep Finset.univ fun thr : Thread nD τ => bigSep Finset.univ fun q : Fin 1 => P.x q thr) := by
  unfold u₀
  iintro ⟨Hu, -, -⟩
  ihave H := (own_triple _ _ _) $$ Hu
  icases H with ⟨HH, HR⟩
  imod (fund_region (F := F)) $$ HR with HG
  imodintro
  isplitl [HH]; · iexact HH
  isplitl [HG]; · unfold G; iexact HG
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.Launch.lean ====
import proofs.«215473_g55439437856794_cont_9to1_m_142_25_alg».proof.Proof.Split
import proofs.«215473_g55439437856794_cont_9to1_m_142_25_alg».proof.Proof.Call
import proofs.«215473_g55439437856794_cont_9to1_m_142_25_alg».proof.Proof.MainTail
import proofs.«215473_g55439437856794_cont_9to1_m_142_25_alg».proof.Proof.LaunchElem

/-!
@main on the TensorCore from the launch: the arrays dealt to the two SparseCores for the call and put back, then the
rest of the program; and the launch theorem applied.
-/

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => 𝕄T F

variable (m : (ℓ : Loc nD τ sig) → Buf (Elt F) ℓ) (ρ : Dev nD → PrngReg)

omit [FloatOps F] in
/-- The TensorCore's unscoped arrays, one by one. -/
theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1)
      ∗ ((T d : Thread nD τ).loc main_arg2 ↦{fullShare} W main_arg2) ∗ ((T d : Thread nD τ).loc main_v0 ↦{fullShare} W main_v0)
      ∗ ((T d : Thread nD τ).loc main_v1 ↦{fullShare} W main_v1) ∗ ((T d : Thread nD τ).loc main_v2 ↦{fullShare} W main_v2)
      ∗ ((T d : Thread nD τ).loc main_v3 ↦{fullShare} W main_v3) ∗ ((T d : Thread nD τ).loc main_cst ↦{fullShare} W main_cst)
      ∗ ((T d : Thread nD τ).loc main_v4 ↦{fullShare} W main_v4)) := by
  unfold unscopedBufs
  rw [show (Finset.univ.filter fun b : Ref sig .tc => ¬ b.isScoped) = {main_arg0, main_arg1, main_arg2, main_v0, main_v1, main_v2, main_v3, main_cst, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem wid_eq (c : Fin 2) (i : Fin 16) : wid c i = widE (c, i) := rfl

omit [FloatOps F] in
/-- What the call takes for the two SparseCores: a token of the class words and of the table each, and the result's
    32 parts; -/
theorem st0_eq (d : Dev nD) : (bigSep Finset.univ fun c : Fin ((K (F := F)).nCore 0) => (P m).st 0 d c)
    = iprop((bigSep Finset.univ fun c : Fin 2 => tPts m d (qCore c)) ∗ (bigSep Finset.univ fun c : Fin 2 => sPts m d (qCore c))
        ∗ bigSep Finset.univ fun c : Fin 2 => bigSep Finset.univ fun i : Fin 16 => oLoc d ↦[oSetP (widE (c, i))]{fullShare} m (oLoc d)) := by
  show (bigSep (Finset.univ : Finset (Fin 2)) fun c => stRes m d c) = _
  rw [bigSep_sep', bigSep_sep']
  rfl

omit [FloatOps F] in
/-- and what it hands back: the same, the parts at the picked entries. -/
theorem dn0_eq (d : Dev nD) : (bigSep Finset.univ fun c : Fin ((K (F := F)).nCore 0) => (P m).dn 0 d c)
    = iprop((bigSep Finset.univ fun c : Fin 2 => tPts m d (qCore c)) ∗ (bigSep Finset.univ fun c : Fin 2 => sPts m d (qCore c))
        ∗ bigSep Finset.univ fun c : Fin 2 => bigSep Finset.univ fun i : Fin 16 => oLoc d ↦[oSetP (widE (c, i))]{fullShare} Gv m d) := by
  show (bigSep (Finset.univ : Finset (Fin 2)) fun c => dnRes m d c) = _
  rw [bigSep_sep', bigSep_sep']
  rfl

set_option maxHeartbeats 1000000 in
/-- @main on device `d`'s TensorCore: the call from read tokens of the class words and the table and the result's parts,
    all put back after it; then the rest of the program. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d) := by
  unfold SparseCore.Cfg.tcRes G
  rw [unscopedBufs_eq, main_eq, wp_bind]
  iintro ⟨#Hctx, Hst, ⟨Hb, ⟨Ha0, Ha1, Ha2, Hv0, Hv1, Hv2, Hv3, Hc, Hv4⟩, -, -⟩, ⟨Hg, Htk⟩⟩
  ihave Ht := (pointsTo_toks_split fullShare 2) $$ Ha2
  icases Ht with ⟨Htd, Htt⟩
  ihave Hs := (pointsTo_toks_split fullShare 2) $$ Ha1
  icases Hs with ⟨Hsd, Hss⟩
  ihave Ho := (Entails.of_eq ((oPts_parts (F := F) d (m (oLoc d))).trans (parts_regroup _))) $$ Hv0
  iapply ((K (F := F)).wp_run (D (F := F)) 𝒱 (EH := EH) (P := P m) κ d 0) $$ [Hst Htt Hss Ho Hb Ha0 Hv1 Hv2 Hv3 Hc Hv4 Htd Hsd Hg Htk]
  isplitr; · iexact Hctx
  isplitl [Hst]; · iexact Hst
  isplitl [Htt Hss Ho]
  · rw [st0_eq]
    isplitl [Htt]; · iexact Htt
    isplitl [Hss]; · iexact Hss
    iexact Ho
  iintro ⟨Hst, Hdn⟩
  ihave Hdn' := (Entails.of_eq (dn0_eq m d)) $$ Hdn
  icases Hdn' with ⟨Htt, Hss, Ho⟩
  ihave Ha2 := (pointsTo_toks_join fullShare 2) $$ [Htd Htt]
  · isplitl [Htd]; · iexact Htd
    iexact Htt
  ihave Ha1 := (pointsTo_toks_join fullShare 2) $$ [Hsd Hss]
  · isplitl [Hsd]; · iexact Hsd
    iexact Hss
  ihave Hv0 := (Entails.of_eq ((oPts_parts (F := F) d (Gv m d)).trans (parts_regroup _)).symm) $$ Ho
  iapply (main_tail m (P m) κ d) $$ [Hst Hb Ha0 Ha1 Ha2 Hv0 Hv1 Hv2 Hv3 Hc Hv4 Hg Htk]
  isplitr; · iexact Hctx
  isplitl [Hst]; · iexact Hst
  isplitl [Hb]; · iexact Hb
  isplitl [Ha0 Ha1 Ha2 Hv0 Hv1 Hv2 Hv3 Hc Hv4]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  isplitl [Hg]; · iexact Hg
  iexact Htk

/-! ## The program's run -/

/-- At the compiled mesh, from any memory whose class words name columns and whose semaphores read zero: every weakly
    fair execution of the TensorCore, the sequencers and the tiles terminates, and every final memory has the three
    arguments as launched and the result at the mean of the accumulated word. -/
theorem run_main [∀ e, Nonempty (Elt F e)] (hpre : PreT m) :
    θ_run (Cert.KernelIdeal.defs (F := F)) (Cert.KernelIdeal.threads (F := F)) ⟨m, fun _ => 0, ρ⟩
      (fun r => ∀ c : Dev nD, r.2.mem ((T c : Thread nD τ).loc main_arg0) = m ((T c : Thread nD τ).loc main_arg0) ∧ r.2.mem (sLoc c) = m (sLoc c)
        ∧ r.2.mem (tLoc c) = m (tLoc c) ∧ r.2.mem ((T c : Thread nD τ).loc main_v4) = meanV m c) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (hu₀ (P m) (P_x m)) (hmain m ρ) (fq m) (hfin m) _ (fun _ h => h)

end Cert.Proof.KI
end
-- ==== Proof.SetupK.lean ====
import proofs.«215473_g55439437856794_cont_9to1_m_142_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215473_g55439437856794_cont_9to1_m_142_25_alg».proof.Proof.Gen.Kernel
import proofs.«215473_g55439437856794_cont_9to1_m_142_25_alg».proof.Proof.Gen.Kernel.Skeleton
import proofs.«215473_g55439437856794_cont_9to1_m_142_25_alg».proof.Proof.Gen.Kernel.Launch
import proofs.«215473_g55439437856794_cont_9to1_m_142_25_alg».proof.Proof.Gen.Kernel.Points

/-!
The program as its launch sees it: one vector-subcore call (the gather of one similarity per row) followed, on the
TensorCore, by one pipelined region (the weighted cross-entropy accumulated over eight blocks of rows). This module
fixes the ghost state shared by the parts of the proof: the handshakes' rounds, the rounds of the region's staging
semaphores, and a copy of the transfer counters for the copies each vector subcore makes and waits for itself.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the region's staging semaphores. -/
abbrev UK : Type := URounds (GSem nD τ sig) Unit
/-- Handshakes, staging cells, and the transfer counters (found by instance in the right factor). -/
abbrev UU : Type := UH × (UK × Counters)

abbrev 𝕄T (F : FTy → Type) : Type := MT nD τ sig (HIx 1) (Elt F) ℕ UU ℕ

/-- The handshakes' rounds library: the left factor. -/
abbrev EH : Emb UH (𝕄T F) := embL
/-- The staging cells' rounds library: the left factor of the right factor. -/
def ER : Emb UK (𝕄T F) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance ER_landsIn : (ER : Emb UK (𝕄T F)).LandsIn (upEmb : UEmb _ (𝕄T F)) := by unfold ER; infer_instance

end Cert.Proof.KB

end
-- ==== Proof.PartsK.lean ====
import proofs.«215473_g55439437856794_cont_9to1_m_142_25_alg».proof.Proof.SetupK

/-!
The result array in 32 parts of 512 entries: part `w` is what the tile numbered `w = 2 s + c` (subcore `s` of
SparseCore `c`) writes. The parts are pairwise disjoint and cover the array, and the slice the kernel computes for a
tile from its two coordinates is that tile's part.
-/

noncomputable section

namespace Cert.Proof.KB

open Cert.Kernel Cert.Kernel.Gen
open Idealize.ShloMosaic
open Idealize.SL Idealize.SL.RA Idealize.SL.BI
open scoped Idealize.SL.BI

theorem hdiv32 : 32 ∣ S16384.size 0 := ⟨512, rfl⟩

/-- Part `w` of the result array: entries `[512 w, 512 w + 512)`. -/
abbrev oPart (w : Fin 32) : Rect S16384 := Rect.part (s := S16384) (a₀ := 0) hdiv32 w
abbrev oSetP (w : Fin 32) : Finset S16384.Idx := ((View.whole (main_v0_scv : Ref sig .scVector)).slice (oPart w)).set

/-- The number of the tile at coordinates `L`. -/
def widOf (L : grid0.Coords) : Fin 32 := ⟨2 * (L 1).val + (L 0).val, by
  have h0 : (L 0).val < 2 := (L 0).isLt
  have h1 : (L 1).val < 16 := (L 1).isLt
  omega⟩

theorem oSetP_eq (w : Fin 32) : oSetP w = (oPart w).set := by
  show ((View.whole (main_v0_scv : Ref sig .scVector)).slice (oPart w)).set = _
  rw [View.set_slice]; exact Finset.map_refl

theorem oParts_disjoint : ∀ i ∈ (Finset.univ : Finset (Fin 32)), ∀ j ∈ (Finset.univ : Finset (Fin 32)), i ≠ j → Disjoint (oSetP i) (oSetP j) :=
  fun i _ j _ h => by rw [oSetP_eq, oSetP_eq]; exact Rect.part_disjoint hdiv32 h

theorem oParts_cover : (Finset.univ : Finset (Fin 32)).biUnion oSetP = Finset.univ :=
  (Finset.biUnion_congr rfl fun i _ => oSetP_eq i).trans (Rect.biUnion_part hdiv32)

/-- The slice the kernel computes from a tile's coordinates is the tile's part. -/
theorem oRect_eq (L : grid0.Coords) :
    Rect.unit (s := S16384) (k0_off10 L) S512.size (k0_off10_inb L) = oPart (widOf L) := by
  unfold oPart Rect.part Rect.block
  congr 1 <;> funext a
  · rw [k0_off10_eq]
    match a with
    | 0 => simp [Shape.partIx, Shape.partSize, widOf]; omega
  · match a with
    | 0 => simp [Shape.partSize]

end Cert.Proof.KB

end
-- ==== Proof.GatherK.lean ====
import proofs.«215473_g55439437856794_cont_9to1_m_142_25_alg».proof.Proof.SetupK
import proofs.«215473_g55439437856794_cont_9to1_m_142_25_alg».proof.Proof.Spec
import Idealize.ShloMosaic.Lib.ValueIdx

/-!
What the vector subcores leave in the intermediate array: entry `n` is the similarity of row `n` at the column its
class word names.
-/

noncomputable section

namespace Cert.Proof.KB

open Cert.Kernel Cert.Kernel.Gen
open Idealize.ShloMosaic

variable {F : FTy → Type}

/-- The class words, the similarity table and the intermediate array, as locations of device `d`. -/
abbrev tLoc (d : Dev nD) : Loc nD τ sig := (SparseCore.T d).loc main_arg2
abbrev sLoc (d : Dev nD) : Loc nD τ sig := (SparseCore.T d).loc main_arg1
abbrev oLoc (d : Dev nD) : Loc nD τ sig := (SparseCore.T d).loc main_v0

/-- Row `n` (an index of the 16384-array), as a number below 16384. -/
def rowOf (j : S16384.Idx) : Fin 16384 := ⟨(j 0).val, (j 0).isLt⟩

/-- The entry of the table that row `j`'s class word `w` names. -/
def pick (w : BitVec 32) (j : S16384.Idx) : S16384x600.Idx := ValueIdx.ix2 (rowOf j) (Cert.Proof.Spec.col w)

/-- The gathered array as ONE function of the launch memory: entry `j` is the table at `(j, col (t j))`. -/
def Gv (m : (ℓ : Loc nD τ sig) → Buf (Elt F) ℓ) (d : Dev nD) : Buf (Elt F) (oLoc d) :=
  fun j => m (sLoc d) (pick (m (tLoc d) j) j)

end Cert.Proof.KB

end
-- ==== Proof.SplitK.lean ====
import proofs.«215473_g55439437856794_cont_9to1_m_142_25_alg».proof.Proof.PartsK
import proofs.«215473_g55439437856794_cont_9to1_m_142_25_alg».proof.Proof.GatherK
import Idealize.ShloMosaic.Lib.Transfers

/-!
How the TensorCore's arrays are dealt to the two SparseCores and their sixteen tiles each, and put back: the result
array in its 32 parts, grouped by SparseCore and subcore.
-/

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => 𝕄T F

/-- The tiles, numbered `2 i + c` for subcore `i` of SparseCore `c`, are the 32 parts' numbers. -/
def widE : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- A family over the 32 parts, grouped by SparseCore and subcore. -/
theorem parts_regroup (Φ : Fin 32 → sProp 𝕄) :
    bigSep Finset.univ Φ = bigSep Finset.univ fun c : Fin 2 => bigSep Finset.univ fun i : Fin 16 => Φ (widE (c, i)) := by
  rw [BI.bigSep_univ_equiv widE Φ, BI.bigSep_univ_prod]

/-- The result array whole is its 32 parts. -/
theorem oPts_parts (d : Dev nD) (f : Buf (Elt F) (oLoc d)) :
    (oLoc d ↦{fullShare} f : sProp 𝕄) = bigSep Finset.univ fun w : Fin 32 => oLoc d ↦[oSetP w]{fullShare} f := by
  rw [← pointsTo_biUnion Finset.univ (ℓ := oLoc d) oSetP oParts_disjoint, oParts_cover]; try rfl

end Cert.Proof.KB

end
-- ==== Proof.TileLemmasK.lean ====
import proofs.«215473_g55439437856794_cont_9to1_m_142_25_alg».proof.Proof.SetupK
import proofs.«215473_g55439437856794_cont_9to1_m_142_25_alg».proof.Proof.PartsK
import proofs.«215473_g55439437856794_cont_9to1_m_142_25_alg».proof.Proof.GatherK
import Idealize.ShloMosaic.Lib.Writes
import Idealize.ShloMosaic.Lib.Exec.Geometry
import Idealize.ShloMosaic.Lib.Pipeline.FrameBody
import Idealize.ShloMosaic.Lib.ValueIdx

/-!
One tile's data movement, lemma by lemma over variables: what a copied chunk of the table holds at (row, column), what
the copied class words hold at an entry, what the row numbers of a gather are, and what one gathered vector of sixteen
entries is: the table at each of its rows, at the column that row's class word names.
-/

noncomputable section

namespace Cert.Proof.KB

open Cert.Kernel Cert.Kernel.Gen
open Idealize.ShloMosaic Idealize.ShloMosaic.ValueIdx

variable {F : FTy → Type} [FloatOps F]
variable (m : (ℓ : Loc nD τ sig) → Buf (Elt F) ℓ) (d : Dev nD)

/-- The first row of tile `L`: 1024 s + 512 c. -/
def baseOf (L : grid0.Coords) : Nat := 1024 * (L 1).val + 512 * (L 0).val

theorem baseOf_le (L : grid0.Coords) : baseOf L + 512 ≤ 16384 := by
  have h0 : (L 0).val < 2 := (L 0).isLt
  have h1 : (L 1).val < 16 := (L 1).isLt
  unfold baseOf; omega

/-- A chunk of 64 rows of the table, copied from row `r0` on, holds at (r, c) the table's entry (r0 + r, c). -/
theorem chunk_apply (off : Fin 2 → Nat) (inb : ∀ a, off a + S64x600.size a ≤ S16384x600.size a) (hs)
    (r0 : Nat) (h0 : off = ![r0, 0]) (j : S64x600.Idx) (hr : r0 + (j 0).val < 16384) :
    ReadAs.same.apply (View.read (Elt F) ((Memref.whole (main_arg1_scv : Ref sig .scVector)).slice
        (Rect.unit (s := S16384x600) off S64x600.size inb) hs).view (m (sLoc d))) j
      = m (sLoc d) (ix2 (⟨r0 + (j 0).val, hr⟩ : Fin 16384) (⟨(j 1).val, idx2_lt1 j⟩ : Fin 600)) := by
  subst h0
  show View.read (Elt F) ((View.whole (main_arg1_scv : Ref sig .scVector)).slice (Rect.unit (s := S16384x600) ![r0, 0] S64x600.size inb)) (m (sLoc d)) j = _
  rw [View.read_apply]
  show m (sLoc d) _ = _
  refine congrArg (m (sLoc d)) ?_
  funext a; apply Fin.ext
  match a with
  | ⟨0, _⟩ => show r0 + 1 * (j 0).val = r0 + (j 0).val; omega
  | ⟨1, _⟩ => show 0 + 1 * (j 1).val = (j 1).val; omega

/-- The tile's class words, copied from entry `b0` on into the scratch and read sixteen at a time from entry `o`:
    lane `x` holds class word `b0 + o + x`. -/
theorem cols_apply (off1 : Fin 1 → Nat) (inb1 : ∀ a, off1 a + S512.size a ≤ S16384.size a) (hs1)
    (b0 : Nat) (h0 : off1 = ![b0])
    (f5 : (Memref.whole (cc0_scratch0 : Ref sig .scVector)).view.ty.Contents (Elt F))
    (o : Nat) (inbo : ∀ a, (![o] : Fin 1 → Nat) a + S16.size a ≤ S512.size a) (x : S16.Idx) (hb : b0 + o + (x 0).val < 16384) :
    View.readAt (Elt F) (Memref.whole (cc0_scratch0 : Ref sig .scVector)).view (Rect.unit (s := S512) ![o] S16.size inbo).toLoadRect
        (View.write (Elt F) (Memref.whole (cc0_scratch0 : Ref sig .scVector)).view f5
          (ReadAs.same.apply (View.read (Elt F) ((Memref.whole (main_arg2_scv : Ref sig .scVector)).slice
            (Rect.unit (s := S16384) off1 S512.size inb1) hs1).view (m (tLoc d))))
          Finset.univ) x
      = m (tLoc d) (ix1 (⟨b0 + o + (x 0).val, hb⟩ : Fin 16384)) := by
  subst h0
  rw [View.readAt_apply]
  show View.read (Elt F) (View.whole (cc0_scratch0 : Ref sig .scVector))
    (View.write (Elt F) (View.whole (cc0_scratch0 : Ref sig .scVector)) f5 _ Finset.univ) _ = _
  rw [View.write_whole_univ, View.read_whole]
  show View.read (Elt F) ((View.whole (main_arg2_scv : Ref sig .scVector)).slice (Rect.unit (s := S16384) ![b0] S512.size inb1)) (m (tLoc d)) _ = _
  rw [View.read_apply]
  show m (tLoc d) _ = _
  refine congrArg (m (tLoc d)) ?_
  funext a; apply Fin.ext
  match a with
  | ⟨0, _⟩ => show b0 + 1 * (o + 1 * (x 0).val) = b0 + o + (x 0).val; omega

/-- The row numbers of one gather: the lane number plus a constant. -/
theorem rows_apply (h : S16.Iotas .scVector 32 [0]) (c : Nat) (hc : c < 64) (x : S16.Idx) :
    ((addi (iota .scVector S16 32 [0] h) (broadcast S16 (BitVec.ofNat 32 c))) x).toNat = (x 0).val + c := by
  have hx : (x 0).val < 16 := (x 0).isLt
  show (BitVec.ofNat 32 (0 * 16 + (x 0).val) + BitVec.ofNat 32 c).toNat = _
  rw [BitVec.toNat_add, BitVec.toNat_ofNat, BitVec.toNat_ofNat]
  omega

/-- What the slice of the result holds after the one copy that fills it: the copy's payload. -/
theorem out_apply {sig' : RefSig} {κ : Kind} {sp : Space} {s : Shape} {e : EltTy} {Val : EltTy → Type}
    (v : View sig' κ sp s e) (f : v.ty.Contents Val) (P : s.Idx → Val e) (y : s.Idx) :
    v.read Val (v.writes Val f [⟨Rect.whole s, P⟩]) y = P y :=
  congrFun (View.read_writes_whole v f P) y

/-- What tile `L`'s slice of the result must hold at its own entry `y`: the picked entry of row `baseOf L + y`. -/
def Gt (L : grid0.Coords) : S512.Idx → F .f32 := fun y =>
  Gv m d (ix1 (⟨baseOf L + (y 0).val, by
    have := baseOf_le L; have hy : (y 0).val < 512 := (y 0).isLt; omega⟩ : Fin 16384))

theorem vec2_eq {a b : Nat} (h : a = b) : (![a, 0] : Fin 2 → Nat) = ![b, 0] := by rw [h]
theorem vec1_eq {a b : Nat} (h : a = b) : (![a] : Fin 1 → Nat) = ![b] := by rw [h]

/-! The offsets of the tile's copies, from its first row. -/
theorem off1_base (L : grid0.Coords) : k0_off1 L = ![baseOf L] := k0_off1_eq L
theorem off10_base (L : grid0.Coords) : k0_off10 L = ![baseOf L] := k0_off10_eq L
theorem off2_0 (L : grid0.Coords) : k0_off2 L 0#32 = ![baseOf L + 0, 0] :=
  (k0_off2_eq L ⟨0, by decide⟩).trans (vec2_eq (by unfold baseOf; show _ + 64 * 0 = _; omega))
theorem off2_1 (L : grid0.Coords) : k0_off2 L 64#32 = ![baseOf L + 64, 0] :=
  (k0_off2_eq L ⟨1, by decide⟩).trans (vec2_eq (by unfold baseOf; show _ + 64 * 1 = _; omega))
theorem off3_1 (L : grid0.Coords) : k0_off3 L 128#32 = ![baseOf L + 128, 0] :=
  (k0_off3_eq L ⟨1, by decide⟩).trans (vec2_eq (by unfold baseOf; show _ + 64 * 1 + 64 = _; omega))
theorem off4_1 (L : grid0.Coords) : k0_off4 L 192#32 = ![baseOf L + 192, 0] :=
  (k0_off4_eq L ⟨1, by decide⟩).trans (vec2_eq (by unfold baseOf; show _ + 64 * 1 + 128 = _; omega))
theorem off5_1 (L : grid0.Coords) : k0_off5 L 256#32 = ![baseOf L + 256, 0] :=
  (k0_off5_eq L ⟨1, by decide⟩).trans (vec2_eq (by unfold baseOf; show _ + 64 * 1 + 192 = _; omega))
theorem off6_1 (L : grid0.Coords) : k0_off6 L 320#32 = ![baseOf L + 320, 0] :=
  (k0_off6_eq L ⟨1, by decide⟩).trans (vec2_eq (by unfold baseOf; show _ + 64 * 1 + 256 = _; omega))
theorem off7_1 (L : grid0.Coords) : k0_off7 L 384#32 = ![baseOf L + 384, 0] :=
  (k0_off7_eq L ⟨1, by decide⟩).trans (vec2_eq (by unfold baseOf; show _ + 64 * 1 + 320 = _; omega))
theorem off8_1 (L : grid0.Coords) : k0_off8 L 448#32 = ![baseOf L + 448, 0] :=
  (k0_off8_eq L ⟨1, by decide⟩).trans (vec2_eq (by unfold baseOf; show _ + 64 * 1 + 384 = _; omega))

/-- One gathered vector of sixteen entries: from the chunk of 64 rows that starts `c0` rows into the tile, at the rows
    `jo + lane` of the chunk and the columns the class words `o + lane` of the tile name (`o = c0 + jo`), lane `x` is the
    picked entry of the tile's row `o + x`. -/
theorem piece_full (L : grid0.Coords) (hpre : ∀ j : S16384.Idx, (m (tLoc d) j).toNat < 600)
    {sp : Space} (v6 : View sig .scVector sp S64x600 .f32) (rest : List (View.Piece (Elt F) S64x600 .f32))
    (off : Fin 2 → Nat) (inb : ∀ a, off a + S64x600.size a ≤ S16384x600.size a) (hs) (c0 : Nat) (h0 : off = ![baseOf L + c0, 0])
    (hi : S16.Iotas .scVector 32 [0]) (jo : Nat) (hjo : jo < 64)
    (off1 : Fin 1 → Nat) (inb1 : ∀ a, off1 a + S512.size a ≤ S16384.size a) (hs1) (h1 : off1 = ![baseOf L])
    (f5 : (Memref.whole (cc0_scratch0 : Ref sig .scVector)).view.ty.Contents (Elt F))
    (o : Nat) (inbo : ∀ a, (![o] : Fin 1 → Nat) a + S16.size a ≤ S512.size a) (ho : o = c0 + jo) (hlt : o + 16 ≤ 512)
    (h) (x : S16.Idx) :
    loadIdx (v6.readCov (⟨Rect.whole S64x600, ReadAs.same.apply (View.read (Elt F) ((Memref.whole (main_arg1_scv : Ref sig .scVector)).slice
          (Rect.unit (s := S16384x600) off S64x600.size inb) hs).view (m (sLoc d)))⟩ :: rest) (LoadRect.whole S64x600))
        ![addi (iota .scVector S16 32 [0] hi) (broadcast S16 (BitVec.ofNat 32 jo)),
          View.readAt (Elt F) (Memref.whole (cc0_scratch0 : Ref sig .scVector)).view (Rect.unit (s := S512) ![o] S16.size inbo).toLoadRect
            (View.write (Elt F) (Memref.whole (cc0_scratch0 : Ref sig .scVector)).view f5
              (ReadAs.same.apply (View.read (Elt F) ((Memref.whole (main_arg2_scv : Ref sig .scVector)).slice
                (Rect.unit (s := S16384) off1 S512.size inb1) hs1).view (m (tLoc d))))
              Finset.univ)] h x
      = Gt m d L ((Rect.unit (s := S512) ![o] S16.size inbo).emb x) := by
  have hx : (x 0).val < 16 := (x 0).isLt
  have hbl := baseOf_le L
  have hrow := rows_apply hi jo hjo x
  have hcol := cols_apply m d off1 inb1 hs1 (baseOf L) h1 f5 o inbo x (by omega)
  unfold loadIdx idxAt
  refine (congrFun (View.readCov_cons_toLoadRect v6 (Rect.whole S64x600) _ rest) _).trans ?_
  rw [chunk_apply m d off inb hs (baseOf L + c0) h0 _ (by
    show baseOf L + c0 + ((addi (iota .scVector S16 32 [0] hi) (broadcast S16 (BitVec.ofNat 32 jo))) x).toNat < 16384
    rw [hrow]; omega)]
  unfold Gt Gv pick rowOf
  refine congrArg (m (sLoc d)) ?_
  funext a; apply Fin.ext
  match a with
  | ⟨0, _⟩ =>
    show baseOf L + c0 + ((addi (iota .scVector S16 32 [0] hi) (broadcast S16 (BitVec.ofNat 32 jo))) x).toNat
      = baseOf L + (o + 1 * (x 0).val)
    rw [hrow]; omega
  | ⟨1, _⟩ =>
    refine (congrArg BitVec.toNat hcol).trans ?_
    show _ = (Spec.col (m (tLoc d) _)).val
    rw [Spec.col_val_of_lt (hpre _)]
    refine congrArg (fun j => (m (tLoc d) j).toNat) ?_
    funext b; apply Fin.ext
    match b with
    | ⟨0, _⟩ => show baseOf L + o + (x 0).val = baseOf L + (o + 1 * (x 0).val); omega

end Cert.Proof.KB
end
-- ==== Proof.TileK.lean ====
import proofs.«215473_g55439437856794_cont_9to1_m_142_25_alg».proof.Proof.SetupK
import proofs.«215473_g55439437856794_cont_9to1_m_142_25_alg».proof.Proof.PartsK
import proofs.«215473_g55439437856794_cont_9to1_m_142_25_alg».proof.Proof.GatherK
import proofs.«215473_g55439437856794_cont_9to1_m_142_25_alg».proof.Proof.TileLemmasK

/-!
One vector subcore's task. Tile (c, s) owns rows [512 (2 s + c), 512 (2 s + c) + 512): it copies its 512 class words into
a scratch, streams its rows of the similarity table through two 64-row slots (one copy outstanding per slot's semaphore,
the other slot being read meanwhile), picks from each landed row the entry its class word names, and copies the 512 picked
entries out to its slice of the result.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT Cert.Kernel.nD Cert.Kernel.τ Cert.Kernel.sig (HIx 1) (Elt F) ℕ UU ℕ

variable (m : (ℓ : Loc nD τ sig) → Buf (Elt F) ℓ)

-- the kernel's memrefs, spelt as the body table passes them
local notation "tW" => (Memref.whole Cert.Kernel.main_arg2_scv : Memref Cert.Kernel.sig Kind.scVector Space.hbm Cert.Kernel.S16384 EltTy.i32)
local notation "sW" => (Memref.whole Cert.Kernel.main_arg1_scv : Memref Cert.Kernel.sig Kind.scVector Space.hbm Cert.Kernel.S16384x600 EltTy.f32)
local notation "oW" => (Memref.whole Cert.Kernel.main_v0_scv : Memref Cert.Kernel.sig Kind.scVector Space.hbm Cert.Kernel.S16384 EltTy.f32)
local notation "b5" => (Memref.whole Cert.Kernel.cc0_scratch0 : Memref Cert.Kernel.sig Kind.scVector Space.vmem Cert.Kernel.S512 EltTy.i32)
local notation "b6" => (Memref.whole Cert.Kernel.cc0_scratch1 : Memref Cert.Kernel.sig Kind.scVector Space.vmem Cert.Kernel.S2x64x600 EltTy.f32)
local notation "b7" => (Memref.whole Cert.Kernel.cc0_scratch2 : Memref Cert.Kernel.sig Kind.scVector Space.vmem Cert.Kernel.S512 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The tile's slice of the result, as the kernel slices it. -/
abbrev oSl (L : grid0.Coords) : Memref sig .scVector .hbm S512 .f32 :=
  (oW).slice (Rect.unit (s := S16384) (k0_off10 L) S512.size (k0_off10_inb L)) (fun _ => rfl)

/-- The four DMA semaphores of a tile: the two slots', the two one-shot copies'. -/
abbrev sem0 : DmaSem sig := ((cc0_scratch3.slice (Rect.unit (s := S2) ![0] S1.size inb_S2_S1_0)).squeeze S_ squeezes_S1_S_).sem
abbrev sem1 : DmaSem sig := ((cc0_scratch3.slice (Rect.unit (s := S2) ![1] S1.size inb_S2_S1_1)).squeeze S_ squeezes_S1_S_).sem
abbrev semA : DmaSem sig := cc0_scoped0.sem
abbrev semB : DmaSem sig := cc0_scoped1.sem
abbrev g0 (d : Dev nD) (L : grid0.Coords) : GSem nD τ sig := (thrV d L, .dma sem0)
abbrev g1 (d : Dev nD) (L : grid0.Coords) : GSem nD τ sig := (thrV d L, .dma sem1)
abbrev gA (d : Dev nD) (L : grid0.Coords) : GSem nD τ sig := (thrV d L, .dma semA)
abbrev gB (d : Dev nD) (L : grid0.Coords) : GSem nD τ sig := (thrV d L, .dma semB)

omit F in
theorem cells_ne : (sem1 : DmaSem sig) ≠ sem0 ∧ (semA : DmaSem sig) ≠ sem0 ∧ (semA : DmaSem sig) ≠ sem1
    ∧ (semB : DmaSem sig) ≠ sem0 ∧ (semB : DmaSem sig) ≠ sem1 ∧ (semB : DmaSem sig) ≠ semA := by decide

/-- The tile's four DMA semaphores are among its own cells: they are them, at zero, and the rest. -/
theorem ownSems0_V :
    (ownSems0 (thrV d L) : sProp 𝕄)
      = iprop(semVal (g0 d L) 0 ∗ semVal (g1 d L) 0 ∗ semVal (gA d L) 0 ∗ semVal (gB d L) 0
          ∗ bigSep (((((ownCells (thrV d L)).erase (g0 d L)).erase (g1 d L)).erase (gA d L)).erase (gB d L)) fun g => semVal g 0) := by
  have hne := cells_ne
  have hs : ∀ sm : DmaSem sig, (SemLoc.dma sm : SemLoc sig).isScoped .scVector = true → ((thrV d L, SemLoc.dma sm) : GSem nD τ sig) ∈ ownCells (thrV d L) :=
    fun sm h => (mem_ownCells (g := (thrV d L, SemLoc.dma sm))).mpr ⟨rfl, h⟩
  have hn : ∀ a b : DmaSem sig, a ≠ b → ((thrV d L, SemLoc.dma a) : GSem nD τ sig) ≠ (thrV d L, SemLoc.dma b) :=
    fun a b h e => h (SemLoc.dma.inj (congrArg Prod.snd e))
  unfold SparseCore.Cfg.ownSems0
  rw [SparseCore.bigSep_erase' (hs sem0 (by decide)),
    SparseCore.bigSep_erase' (Finset.mem_erase.mpr ⟨hn _ _ hne.1, hs sem1 (by decide)⟩),
    SparseCore.bigSep_erase' (Finset.mem_erase.mpr ⟨hn _ _ hne.2.2.1, Finset.mem_erase.mpr ⟨hn _ _ hne.2.1, hs semA (by decide)⟩⟩),
    SparseCore.bigSep_erase' (Finset.mem_erase.mpr ⟨hn _ _ hne.2.2.2.2.2, Finset.mem_erase.mpr ⟨hn _ _ hne.2.2.2.2.1,
      Finset.mem_erase.mpr ⟨hn _ _ hne.2.2.2.1, hs semB (by decide)⟩⟩⟩)]

/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What the proof asks of the launch memory: every class word names a column of the table. -/
def PreT : Prop := ∀ (d : Dev nD) (j : S16384.Idx), (m (tLoc d) j).toNat < 600

omit F in
/-- Every check of the body has this shape: the row words below 64, the column words below 600. -/
theorem chk_of (r tv : IVec S16 32) (hr : ∀ x, (r x).toNat < 64) (ht : ∀ x, (tv x).toNat < 600) :
    ∀ a x, ((![r, tv] : Fin 2 → IVec S16 32) a x).toNat < S64x600.size a := by
  intro a x
  match a with
  | 0 => exact hr x
  | 1 => exact ht x

omit F in
theorem set_oSl : (oSl L).view.set = oSetP (widOf L) := by
  show ((View.whole (main_v0_scv : Ref sig .scVector)).slice (Rect.unit (s := S16384) (k0_off10 L) S512.size (k0_off10_inb L))).set
    = ((View.whole (main_v0_scv : Ref sig .scVector)).slice (oPart (widOf L))).set
  rw [oRect_eq]

/-! ## The two slots of the row scratch -/

abbrev slot0 : Memref sig .scVector .vmem S64x600 .f32 :=
  ((b6).slice (Rect.unit (s := S2x64x600) ![0, 0, 0] S1x64x600.size inb_S2x64x600_S1x64x600_0_0_0) (fun _ => rfl)).squeeze S64x600 squeezes_S1x64x600_S64x600
abbrev slot1 : Memref sig .scVector .vmem S64x600 .f32 :=
  ((b6).slice (Rect.unit (s := S2x64x600) ![1, 0, 0] S1x64x600.size inb_S2x64x600_S1x64x600_1_0_0) (fun _ => rfl)).squeeze S64x600 squeezes_S1x64x600_S64x600

omit F in
theorem hdiv2 : 2 ∣ S2x64x600.size 0 := ⟨1, rfl⟩
abbrev slotRect (i : Fin 2) : Rect S2x64x600 := Rect.part (s := S2x64x600) (a₀ := 0) hdiv2 i
abbrev slotSet (i : Fin 2) : Finset S2x64x600.Idx := ((View.whole (cc0_scratch1 : Ref sig .scVector)).slice (slotRect i)).set

omit F in
theorem slotSet_eq (i : Fin 2) : slotSet i = (slotRect i).set := by
  show ((View.whole (cc0_scratch1 : Ref sig .scVector)).slice (slotRect i)).set = _
  rw [View.set_slice]; exact Finset.map_refl
omit F in
theorem slots_disjoint : ∀ i ∈ (Finset.univ : Finset (Fin 2)), ∀ j ∈ (Finset.univ : Finset (Fin 2)), i ≠ j → Disjoint (slotSet i) (slotSet j) :=
  fun i _ j _ h => by rw [slotSet_eq, slotSet_eq]; exact Rect.part_disjoint hdiv2 h
omit F in
theorem slots_cover : (Finset.univ : Finset (Fin 2)).biUnion slotSet = Finset.univ :=
  (Finset.biUnion_congr rfl fun i _ => slotSet_eq i).trans (Rect.biUnion_part hdiv2)

omit F in
theorem slotRect0_eq : Rect.unit (s := S2x64x600) ![0, 0, 0] S1x64x600.size inb_S2x64x600_S1x64x600_0_0_0 = slotRect 0 := by
  unfold slotRect Rect.part Rect.block
  congr 1 <;> funext a <;> fin_cases a <;> simp [Shape.partIx, Shape.partSize]
omit F in
theorem slotRect1_eq : Rect.unit (s := S2x64x600) ![1, 0, 0] S1x64x600.size inb_S2x64x600_S1x64x600_1_0_0 = slotRect 1 := by
  unfold slotRect Rect.part Rect.block
  congr 1 <;> funext a <;> fin_cases a <;> simp [Shape.partIx, Shape.partSize]

omit F in
theorem set_slot0 : (slot0).view.set = slotSet 0 := by
  show (((View.whole (cc0_scratch1 : Ref sig .scVector)).slice (Rect.unit (s := S2x64x600) ![0, 0, 0] S1x64x600.size inb_S2x64x600_S1x64x600_0_0_0)).reshape S64x600
      squeezes_S1x64x600_S64x600.numel_eq).set = _
  rw [View.set_reshape]
  have h : ∀ r r' : Rect S2x64x600, r = r' → ((View.whole (cc0_scratch1 : Ref sig .scVector)).slice r).set = ((View.whole (cc0_scratch1 : Ref sig .scVector)).slice r').set := by
    intro r r' e; subst e; rfl
  exact h _ _ slotRect0_eq
omit F in
theorem set_slot1 : (slot1).view.set = slotSet 1 := by
  show (((View.whole (cc0_scratch1 : Ref sig .scVector)).slice (Rect.unit (s := S2x64x600) ![1, 0, 0] S1x64x600.size inb_S2x64x600_S1x64x600_1_0_0)).reshape S64x600
      squeezes_S1x64x600_S64x600.numel_eq).set = _
  rw [View.set_reshape]
  have h : ∀ r r' : Rect S2x64x600, r = r' → ((View.whole (cc0_scratch1 : Ref sig .scVector)).slice r).set = ((View.whole (cc0_scratch1 : Ref sig .scVector)).slice r').set := by
    intro r r' e; subst e; rfl
  exact h _ _ slotRect1_eq

variable [FloatOps F]

theorem pts_t (q : PosShare TreeShare) (f : Buf (Elt F) (tLoc d)) :
    ((tW).view.loc (thrV d L) ↦{q} f : sProp 𝕄) = tLoc d ↦{q} f := rfl
theorem pts_s (q : PosShare TreeShare) (f : Buf (Elt F) (sLoc d)) :
    ((sW).view.loc (thrV d L) ↦{q} f : sProp 𝕄) = sLoc d ↦{q} f := rfl
theorem pts_o (f : Buf (Elt F) (oLoc d)) :
    ((oSl L).view.loc (thrV d L) ↦[(oSl L).view.set]{fullShare} f : sProp 𝕄) = oLoc d ↦[oSetP (widOf L)]{fullShare} f := by
  rw [set_oSl]
theorem pts_b5 (f : Buf (Elt F) ((thrV d L).loc cc0_scratch0)) :
    ((b5).view.loc (thrV d L) ↦{fullShare} f : sProp 𝕄) = (thrV d L).loc cc0_scratch0 ↦{fullShare} f := rfl
theorem pts_b6 (f : Buf (Elt F) ((thrV d L).loc cc0_scratch1)) :
    ((b6).view.loc (thrV d L) ↦{fullShare} f : sProp 𝕄) = (thrV d L).loc cc0_scratch1 ↦{fullShare} f := rfl
theorem pts_b7 (f : Buf (Elt F) ((thrV d L).loc cc0_scratch2)) :
    ((b7).view.loc (thrV d L) ↦{fullShare} f : sProp 𝕄) = (thrV d L).loc cc0_scratch2 ↦{fullShare} f := rfl

/-- The row scratch held whole is its two slots held apart, each as the kernel slices it. -/
theorem b6_split (f : Buf (Elt F) ((thrV d L).loc cc0_scratch1)) :
    ((thrV d L).loc cc0_scratch1 ↦{fullShare} f : sProp 𝕄)
      = iprop(((slot0).view.loc (thrV d L) ↦[(slot0).view.set]{fullShare} f) ∗ ((slot1).view.loc (thrV d L) ↦[(slot1).view.set]{fullShare} f)) := by
  rw [set_slot0, set_slot1]
  show ((thrV d L).loc cc0_scratch1 ↦{fullShare} f : sProp 𝕄)
      = iprop(((thrV d L).loc cc0_scratch1 ↦[slotSet 0]{fullShare} f) ∗ ((thrV d L).loc cc0_scratch1 ↦[slotSet 1]{fullShare} f))
  have h : ((thrV d L).loc cc0_scratch1 ↦{fullShare} f : sProp 𝕄) = bigSep Finset.univ fun i : Fin 2 => (thrV d L).loc cc0_scratch1 ↦[slotSet i]{fullShare} f := by
    rw [← pointsTo_biUnion Finset.univ (ℓ := (thrV d L).loc cc0_scratch1) slotSet slots_disjoint, slots_cover]; try rfl
  rw [h, show (Finset.univ : Finset (Fin 2)) = {0, 1} by decide, SparseCore.bigSep_insert' (by decide), bigSep_singleton]

/-- The two slots, whatever each holds, are the row scratch held whole at some contents. -/
theorem b6_join (fa fb : Buf (Elt F) ((thrV d L).loc cc0_scratch1)) :
    iprop(((slot0).view.loc (thrV d L) ↦[(slot0).view.set]{fullShare} fa) ∗ ((slot1).view.loc (thrV d L) ↦[(slot1).view.set]{fullShare} fb))
      ⊢ (iprop(∃ f, (thrV d L).loc cc0_scratch1 ↦{fullShare} f) : sProp 𝕄) := by
  rw [set_slot0, set_slot1]
  show iprop(((thrV d L).loc cc0_scratch1 ↦[slotSet 0]{fullShare} fa) ∗ ((thrV d L).loc cc0_scratch1 ↦[slotSet 1]{fullShare} fb)) ⊢ _
  have hb : (bigSep Finset.univ fun i : Fin 2 => ((thrV d L).loc cc0_scratch1 ↦[slotSet i]{fullShare} (![fa, fb] i) : sProp 𝕄))
      = iprop(((thrV d L).loc cc0_scratch1 ↦[slotSet 0]{fullShare} fa) ∗ ((thrV d L).loc cc0_scratch1 ↦[slotSet 1]{fullShare} fb)) := by
    rw [show (Finset.univ : Finset (Fin 2)) = {0, 1} by decide, SparseCore.bigSep_insert' (by decide), bigSep_singleton]; rfl
  rw [← hb]
  iintro H
  ihave H' := (pointsTo_biUnion_join Finset.univ slotSet (![fa, fb]) fa slots_disjoint) $$ H
  icases H' with ⟨%g, -, Hg⟩
  rw [slots_cover]
  iexists g; iexact Hg

set_option maxHeartbeats 4000000 in
theorem tile_body (hF : (K (F := F)).Facts) (hpre : PreT m) (q₂ qa qb : PosShare TreeShare)
    (O : CellTallies nD τ sig (HIx 1)) (W : Waits sig (HIx 1)) (hO : ∀ g, O g none = 0) :
    iprop(levAts (K (F := F)).L (K (F := F)).lev ∗ emp
        ∗ (((tLoc d ↦{q₂} m (tLoc d)) : sProp 𝕄) ∗ (sLoc d ↦{qa} m (sLoc d)) ∗ (sLoc d ↦{qb} m (sLoc d))
            ∗ (oLoc d ↦[oSetP (widOf L)]{fullShare} m (oLoc d)))
        ∗ scopedBufs (thrV d L) ∗ scopedSems0 (thrV d L) ∗ owes (thrV d L) O W)
      ⊢ wp frame (wpE (defs₀ (F := F)) 𝒱₀ (thrV d L) none) Set.univ
          (cc0_sc_extract L tW (Memref.isWhole_whole _) sW (Memref.isWhole_whole _) oW (Memref.isWhole_whole _)
            b5 (Memref.isWhole_whole _) b6 (Memref.isWhole_whole _) b7 (Memref.isWhole_whole _) cc0_scratch3 cc0_scoped0 cc0_scoped1)
          fun _ => iprop(((tLoc d ↦{q₂} m (tLoc d)) ∗ (sLoc d ↦{qa} m (sLoc d)) ∗ (sLoc d ↦{qb} m (sLoc d))
            ∗ (oLoc d ↦[oSetP (widOf L)]{fullShare} Gv m d))
            ∗ scopedBufs (thrV d L) ∗ scopedSems0 (thrV d L)
            ∗ ∃ W', ⌜∀ p ∈ W', p ∈ W ∨ p.2 = none⌝ ∗ owes (thrV d L) O W') := by
  simp only [cc0_sc_extract_eq_skeleton]; unfold cc0_sc_extract_skel
  rw [(K (F := F)).scopedBufs_V hF d (cV L) (jV L), SparseCore.Cfg.scopedSems0_V (Val := Elt F) d (cV L) (jV L), ownSems0_V, ownBufs_V]
  iintro ⟨#Hlv, -, ⟨Ht, Hsa, Hsb, Ho⟩, ⟨⟨%f5, H5⟩, ⟨%f6, H6⟩, ⟨%f7, H7⟩, Hbufs⟩, ⟨Hs0, Hs1, HsA, HsB, Hsems⟩, HO⟩
  ihave Hmw := ((K (F := F)).mayWaits_none (thr := thrV d L) hO) $$ Hlv
  ihave Ht' := (Entails.of_eq (pts_t (F := F) d L _ _).symm) $$ Ht
  ihave Hsa' := (Entails.of_eq (pts_s (F := F) d L _ _).symm) $$ Hsa
  ihave Hsb' := (Entails.of_eq (pts_s (F := F) d L _ _).symm) $$ Hsb
  ihave Ho' := (Entails.of_eq (pts_o (F := F) d L _).symm) $$ Ho
  ihave H5' := (Entails.of_eq (pts_b5 (F := F) d L _).symm) $$ H5
  ihave H6s := (Entails.of_eq (b6_split (F := F) d L _)) $$ H6
  icases H6s with ⟨H6a, H6b⟩
  ihave H7' := (Entails.of_eq (pts_b7 (F := F) d L _).symm) $$ H7
  sl_exec_parts
  have hdma : ∀ j, ((tile_body.sl.dma0 m d L) j).toNat < 600 := by
    intro j; unfold tile_body.sl.dma0; exact hpre d _
  have hW : ∀ i : S512.Idx,
      ((View.read (Elt F) (Memref.whole cc0_scratch0).view (View.write (Elt F) (Memref.whole cc0_scratch0).view f5 (tile_body.sl.dma0 m d L) Finset.univ)) i).toNat < 600 := by
    intro i
    show (((View.whole (cc0_scratch0 : Ref sig .scVector)).write (Elt F) f5 (tile_body.sl.dma0 m d L) Finset.univ) _).toNat < 600
    rw [View.write_whole_univ]; exact hdma _
  have hchk1 : k0_chk1 (addi tile_body.sl.v30 tile_body.sl.v31)
      (View.readAt (Elt F) (Memref.whole cc0_scratch0).view (Rect.unit (s := S512) ![0] S16.size inb_S512_S16_0).toLoadRect
        (View.write (Elt F) (Memref.whole cc0_scratch0).view f5 (tile_body.sl.dma0 m d L) Finset.univ)) :=
    chk_of _ _ (by decide +kernel) (fun x => hW _)
  sl_exec_parts (disch := (exact chk_of _ _ (by decide +kernel) (fun x => hW _)))
  repeat (rw [SparseCore.vectorLoadIdx_bind (c := thrV d L)]; sl_exec_parts (disch := (exact chk_of _ _ (by decide +kernel) (fun x => hW _))))
  -- the slice of the result now holds what the last copy carried: on the tile's part that is the picked entries
  have hval : ∀ i ∈ oSetP (widOf L),
      ((oSl L).view.writes (Elt F) (m (oLoc d)) [⟨Rect.whole S512, tile_body.sl.dma3_6 m d L f5 f7 hW hchk1⟩]) i = Gv m d i := by
    intro i hi
    rw [← set_oSl] at hi
    obtain ⟨y, -, rfl⟩ := Finset.mem_map.mp hi
    have hemb : (oSl L).view.emb y = ValueIdx.ix1 (⟨baseOf L + (y 0).val, by
        have := baseOf_le L; have hy : (y 0).val < 512 := (y 0).isLt; omega⟩ : Fin 16384) := by
      funext a; apply Fin.ext
      match a with
      | ⟨0, _⟩ =>
        show k0_off10 L 0 + 1 * (y 0).val = baseOf L + (y 0).val
        rw [off10_base]; show baseOf L + 1 * (y 0).val = _; omega
    have hP : tile_body.sl.dma3_6 m d L f5 f7 hW hchk1 y = Gt m d L y := by
      unfold tile_body.sl.dma3_6
      show View.read (Elt F) (Memref.whole cc0_scratch2).view
        ((Memref.whole cc0_scratch2).view.writes (Elt F) f7 (tile_body.sl.H7'_32 m d L f5 hW hchk1)) y = _
      refine View.read_writes_apply_of_pieces (Val := Elt F) (e := EltTy.f32) (Memref.whole cc0_scratch2).view f7 (Gt m d L) _ ?_ y ?_
      · unfold tile_body.sl.H7'_32 tile_body.sl.H7'_26 tile_body.sl.H7'_24 tile_body.sl.H7'_21 tile_body.sl.H7'_16 tile_body.sl.H7'_14 tile_body.sl.H7'_12 tile_body.sl.H7'_9 tile_body.sl.H7'_8 tile_body.sl.H7'_4 tile_body.sl.H7'_3
        simp only [List.forall_mem_cons, List.not_mem_nil, IsEmpty.forall_iff, implies_true, and_true]
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
        · intro x; exact piece_full (F := F) m d L (hpre d) _ _ _ _ _ 448 (off8_1 L) _ 48 (by decide) _ _ _ (off1_base L) _ 496 _ rfl (by decide) _ x
        · intro x; exact piece_full (F := F) m d L (hpre d) _ _ _ _ _ 448 (off8_1 L) _ 32 (by decide) _ _ _ (off1_base L) _ 480 _ rfl (by decide) _ x
        · intro x; exact piece_full (F := F) m d L (hpre d) _ _ _ _ _ 448 (off8_1 L) _ 16 (by decide) _ _ _ (off1_base L) _ 464 _ rfl (by decide) _ x
        · intro x; exact piece_full (F := F) m d L (hpre d) _ _ _ _ _ 448 (off8_1 L) _ 0 (by decide) _ _ _ (off1_base L) _ 448 _ rfl (by decide) _ x
        · intro x; exact piece_full (F := F) m d L (hpre d) _ _ _ _ _ 384 (off7_1 L) _ 48 (by decide) _ _ _ (off1_base L) _ 432 _ rfl (by decide) _ x
        · intro x; exact piece_full (F := F) m d L (hpre d) _ _ _ _ _ 384 (off7_1 L) _ 32 (by decide) _ _ _ (off1_base L) _ 416 _ rfl (by decide) _ x
        · intro x; exact piece_full (F := F) m d L (hpre d) _ _ _ _ _ 384 (off7_1 L) _ 16 (by decide) _ _ _ (off1_base L) _ 400 _ rfl (by decide) _ x
        · intro x; exact piece_full (F := F) m d L (hpre d) _ _ _ _ _ 384 (off7_1 L) _ 0 (by decide) _ _ _ (off1_base L) _ 384 _ rfl (by decide) _ x
        · intro x; exact piece_full (F := F) m d L (hpre d) _ _ _ _ _ 320 (off6_1 L) _ 48 (by decide) _ _ _ (off1_base L) _ 368 _ rfl (by decide) _ x
        · intro x; exact piece_full (F := F) m d L (hpre d) _ _ _ _ _ 320 (off6_1 L) _ 32 (by decide) _ _ _ (off1_base L) _ 352 _ rfl (by decide) _ x
        · intro x; exact piece_full (F := F) m d L (hpre d) _ _ _ _ _ 320 (off6_1 L) _ 16 (by decide) _ _ _ (off1_base L) _ 336 _ rfl (by decide) _ x
        · intro x; exact piece_full (F := F) m d L (hpre d) _ _ _ _ _ 320 (off6_1 L) _ 0 (by decide) _ _ _ (off1_base L) _ 320 _ rfl (by decide) _ x
        · intro x; exact piece_full (F := F) m d L (hpre d) _ _ _ _ _ 256 (off5_1 L) _ 48 (by decide) _ _ _ (off1_base L) _ 304 _ rfl (by decide) _ x
        · intro x; exact piece_full (F := F) m d L (hpre d) _ _ _ _ _ 256 (off5_1 L) _ 32 (by decide) _ _ _ (off1_base L) _ 288 _ rfl (by decide) _ x
        · intro x; exact piece_full (F := F) m d L (hpre d) _ _ _ _ _ 256 (off5_1 L) _ 16 (by decide) _ _ _ (off1_base L) _ 272 _ rfl (by decide) _ x
        · intro x; exact piece_full (F := F) m d L (hpre d) _ _ _ _ _ 256 (off5_1 L) _ 0 (by decide) _ _ _ (off1_base L) _ 256 _ rfl (by decide) _ x
        · intro x; exact piece_full (F := F) m d L (hpre d) _ _ _ _ _ 192 (off4_1 L) _ 48 (by decide) _ _ _ (off1_base L) _ 240 _ rfl (by decide) _ x
        · intro x; exact piece_full (F := F) m d L (hpre d) _ _ _ _ _ 192 (off4_1 L) _ 32 (by decide) _ _ _ (off1_base L) _ 224 _ rfl (by decide) _ x
        · intro x; exact piece_full (F := F) m d L (hpre d) _ _ _ _ _ 192 (off4_1 L) _ 16 (by decide) _ _ _ (off1_base L) _ 208 _ rfl (by decide) _ x
        · intro x; exact piece_full (F := F) m d L (hpre d) _ _ _ _ _ 192 (off4_1 L) _ 0 (by decide) _ _ _ (off1_base L) _ 192 _ rfl (by decide) _ x
        · intro x; exact piece_full (F := F) m d L (hpre d) _ _ _ _ _ 128 (off3_1 L) _ 48 (by decide) _ _ _ (off1_base L) _ 176 _ rfl (by decide) _ x
        · intro x; exact piece_full (F := F) m d L (hpre d) _ _ _ _ _ 128 (off3_1 L) _ 32 (by decide) _ _ _ (off1_base L) _ 160 _ rfl (by decide) _ x
        · intro x; exact piece_full (F := F) m d L (hpre d) _ _ _ _ _ 128 (off3_1 L) _ 16 (by decide) _ _ _ (off1_base L) _ 144 _ rfl (by decide) _ x
        · intro x; exact piece_full (F := F) m d L (hpre d) _ _ _ _ _ 128 (off3_1 L) _ 0 (by decide) _ _ _ (off1_base L) _ 128 _ rfl (by decide) _ x
        · intro x; exact piece_full (F := F) m d L (hpre d) _ _ _ _ _ 64 (off2_1 L) _ 48 (by decide) _ _ _ (off1_base L) _ 112 _ rfl (by decide) _ x
        · intro x; exact piece_full (F := F) m d L (hpre d) _ _ _ _ _ 64 (off2_1 L) _ 32 (by decide) _ _ _ (off1_base L) _ 96 _ rfl (by decide) _ x
        · intro x; exact piece_full (F := F) m d L (hpre d) _ _ _ _ _ 64 (off2_1 L) _ 16 (by decide) _ _ _ (off1_base L) _ 80 _ rfl (by decide) _ x
        · intro x; exact piece_full (F := F) m d L (hpre d) _ _ _ _ _ 64 (off2_1 L) _ 0 (by decide) _ _ _ (off1_base L) _ 64 _ rfl (by decide) _ x
        · intro x; exact piece_full (F := F) m d L (hpre d) _ _ _ _ _ 0 (off2_0 L) _ 48 (by decide) _ _ _ (off1_base L) _ 48 _ rfl (by decide) _ x
        · intro x; exact piece_full (F := F) m d L (hpre d) _ _ _ _ _ 0 (off2_0 L) _ 32 (by decide) _ _ _ (off1_base L) _ 32 _ rfl (by decide) _ x
        · intro x; exact piece_full (F := F) m d L (hpre d) _ _ _ _ _ 0 (off2_0 L) _ 16 (by decide) _ _ _ (off1_base L) _ 16 _ rfl (by decide) _ x
        · intro x; exact piece_full (F := F) m d L (hpre d) _ _ _ _ _ 0 (off2_0 L) _ 0 (by decide) _ _ _ (off1_base L) _ 0 _ rfl (by decide) _ x
      · exact View.cover_of_tiled _ ![16] rfl y
    refine Eq.trans (show _ = tile_body.sl.dma3_6 m d L f5 f7 hW hchk1 y from out_apply (oSl L).view (m (oLoc d)) _ y) ?_
    rw [hP]
    unfold Gt
    rw [hemb]
  sl_step
  isplitl [Ht' Hsa' Hsb' Ho']
  · isplitl [Ht']; · iapply (Entails.of_eq (pts_t (F := F) d L _ _)); iexact Ht'
    isplitl [Hsa']; · iapply (Entails.of_eq (pts_s (F := F) d L _ _)); iexact Hsa'
    isplitl [Hsb']; · iapply (Entails.of_eq (pts_s (F := F) d L _ _)); iexact Hsb'
    ihave Ho := (Entails.of_eq ((pts_o (F := F) d L _).trans (pointsTo_congr hval))) $$ Ho'
    iexact Ho
  isplitl [H5' H6a H6b H7' Hbufs]
  · isplitl [H5']; · iexists _; iapply (Entails.of_eq (pts_b5 (F := F) d L _)); iexact H5'
    isplitl [H6a H6b]
    · iapply (b6_join (F := F) d L _ _); isplitl [H6a] <;> iassumption
    isplitl [H7']; · iexists _; iapply (Entails.of_eq (pts_b7 (F := F) d L _)); iexact H7'
    iexact Hbufs
  isplitl [Hs0 Hs1 HsA HsB Hsems]
  · isplitl [Hs0]; · iexact Hs0
    isplitl [Hs1]; · iexact Hs1
    isplitl [HsA]; · iexact HsA
    isplitl [HsB]; · iexact HsB
    iexact Hsems
  iexists _; isplitr
  rotate_left
  · iexact HO
  · ipureintro; intro p hp
    repeat (rcases Finset.mem_insert.mp hp with h | hp; · exact .inr (h ▸ rfl))
    exact .inl hp

end Tile

end Cert.Proof.KB

end
-- ==== Proof.CallK.lean ====
import proofs.«215473_g55439437856794_cont_9to1_m_142_25_alg».proof.Proof.TileK

/-!
The vector-subcore call as the launch sees it: what the TensorCore hands each SparseCore (a read token of the class words
and of the similarity table, and the sixteen parts of the result its tiles write), what a SparseCore hands each tile (a
token of its tokens, and the tile's part), and what comes back (the same, the parts now holding the picked entries).
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks)

variable {F : FTy → Type}

local notation "𝕄" => MT Cert.Kernel.nD Cert.Kernel.τ Cert.Kernel.sig (HIx 1) (Elt F) ℕ UU ℕ

variable (m : (ℓ : Loc nD τ sig) → Buf (Elt F) ℓ)

/-- SparseCore `c`'s read token, and tile `i`'s token of it. -/
abbrev qCore (c : Fin 2) : PosShare TreeShare := shareTok fullShare 2 c
abbrev qTile (c : Fin 2) (i : Fin 16) : PosShare TreeShare := shareTok (qCore c) 16 i

/-- The number of the tile at SparseCore `c`, subcore `i`. -/
def wid (c : Fin 2) (i : Fin 16) : Fin 32 := ⟨2 * i.val + c.val, by have := c.isLt; have := i.isLt; omega⟩

abbrev tPts (d : Dev nD) (q : PosShare TreeShare) : sProp 𝕄 := tLoc d ↦{q} m (tLoc d)
abbrev sPts (d : Dev nD) (q : PosShare TreeShare) : sProp 𝕄 := sLoc d ↦{q} m (sLoc d)
abbrev oPts (d : Dev nD) (w : Fin 32) (f : Buf (Elt F) (oLoc d)) : sProp 𝕄 := oLoc d ↦[oSetP w]{fullShare} f

/-- What the call hands a tile, and what the tile hands back. -/
abbrev goRes (d : Dev nD) (c : Fin 2) (i : Fin 16) : sProp 𝕄 :=
  iprop(tPts m d (qTile c i) ∗ sPts m d (qTile c i) ∗ oPts d (wid c i) (m (oLoc d)))
abbrev tdRes (d : Dev nD) (c : Fin 2) (i : Fin 16) : sProp 𝕄 :=
  iprop(tPts m d (qTile c i) ∗ sPts m d (qTile c i) ∗ oPts d (wid c i) (Gv m d))
/-- What the call hands a SparseCore, and what it hands back. -/
abbrev stRes (d : Dev nD) (c : Fin 2) : sProp 𝕄 :=
  iprop(tPts m d (qCore c) ∗ sPts m d (qCore c) ∗ bigSep Finset.univ fun i : Fin 16 => oPts d (wid c i) (m (oLoc d)))
abbrev dnRes (d : Dev nD) (c : Fin 2) : sProp 𝕄 :=
  iprop(tPts m d (qCore c) ∗ sPts m d (qCore c) ∗ bigSep Finset.univ fun i : Fin 16 => oPts d (wid c i) (Gv m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdRes m d (Fin.cast nCore_zero c) (Fin.cast nSub_zero i)))

theorem P_x (q : Fin 1) (thr : Thread nD τ) : (P (F := F) m).x q thr = iprop(emp) := rfl

/-! ## The launch theorem's obligations -/

section Obl

variable [FloatOps F]

-- the kernel's memrefs, spelt as the body table passes them
local notation "tW" => (Memref.whole Cert.Kernel.main_arg2_scv : Memref Cert.Kernel.sig Kind.scVector Space.hbm Cert.Kernel.S16384 EltTy.i32)
local notation "sW" => (Memref.whole Cert.Kernel.main_arg1_scv : Memref Cert.Kernel.sig Kind.scVector Space.hbm Cert.Kernel.S16384x600 EltTy.f32)
local notation "oW" => (Memref.whole Cert.Kernel.main_v0_scv : Memref Cert.Kernel.sig Kind.scVector Space.hbm Cert.Kernel.S16384 EltTy.f32)
local notation "b5" => (Memref.whole Cert.Kernel.cc0_scratch0 : Memref Cert.Kernel.sig Kind.scVector Space.vmem Cert.Kernel.S512 EltTy.i32)
local notation "b6" => (Memref.whole Cert.Kernel.cc0_scratch1 : Memref Cert.Kernel.sig Kind.scVector Space.vmem Cert.Kernel.S2x64x600 EltTy.f32)
local notation "b7" => (Memref.whole Cert.Kernel.cc0_scratch2 : Memref Cert.Kernel.sig Kind.scVector Space.vmem Cert.Kernel.S512 EltTy.f32)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_extract (coordsV c s)
          tW (Memref.isWhole_whole _) sW (Memref.isWhole_whole _) oW (Memref.isWhole_whole _)
          b5 (Memref.isWhole_whole _) b6 (Memref.isWhole_whole _) b7 (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- A token held whole is its two halves, one for each of the two copies a tile keeps in flight. -/
theorem sPts_halves (d : Dev nD) (q : PosShare TreeShare) :
    (sPts m d q : sProp 𝕄) ⊣⊢ iprop(sPts m d q.left ∗ sPts m d q.right) :=
  pointsTo_share (PosShare.mem_left_op_right q)

theorem tileObl (hF : (K (F := F)).Facts) (hpre : PreT m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widOf (coordsV ⟨_, hc.1⟩ ⟨_, hc.2⟩) = wid (Fin.cast nCore_zero c) (Fin.cast nSub_zero i) := Fin.ext rfl
  show iprop(_ ∗ emp ∗ goRes m d (Fin.cast nCore_zero c) (Fin.cast nSub_zero i) ∗ _)
    ⊢ wp _ _ _ _ (fun _ => iprop(tdRes m d (Fin.cast nCore_zero c) (Fin.cast nSub_zero i) ∗ _))
  unfold goRes tdRes
  refine BIBase.Entails.trans ?_ ((tile_body m d (coordsV ⟨_, hc.1⟩ ⟨_, hc.2⟩) hF hpre
    (qTile (Fin.cast nCore_zero c) (Fin.cast nSub_zero i)) (qTile (Fin.cast nCore_zero c) (Fin.cast nSub_zero i)).left
    (qTile (Fin.cast nCore_zero c) (Fin.cast nSub_zero i)).right O W hO).trans (wp_mono frame _ _ fun _ => ?_))
  · rw [hw]
    iintro ⟨Hlv, Hx, ⟨Ht, Hs, Ho⟩, Hsb, Hss, HO⟩
    ihave Hs' := (sPts_halves (F := F) m d _).1 $$ Hs
    icases Hs' with ⟨Hsa, Hsb'⟩
    isplitl [Hlv]; · iexact Hlv
    isplitl [Hx]; · iexact Hx
    isplitl [Ht Hsa Hsb' Ho]
    · isplitl [Ht]; · iexact Ht
      isplitl [Hsa]; · iexact Hsa
      isplitl [Hsb']; · iexact Hsb'
      iexact Ho
    isplitl [Hsb]; · iexact Hsb
    isplitl [Hss]; · iexact Hss
    iexact HO
  · rw [hw]
    refine BIBase.Entails.trans ?_ obl_post
    iintro ⟨⟨Ht, Hsa, Hsb', Ho⟩, Hsb, Hss, HW⟩
    isplitl [Ht Hsa Hsb' Ho]
    · isplitl [Ht]; · iexact Ht
      isplitl [Hsa Hsb']
      · iapply (sPts_halves (F := F) m d _).2; isplitl [Hsa] <;> iassumption
      iexact Ho
    isplitl [Hsb]; · iexact Hsb
    isplitl [Hss]; · iexact Hss
    iexact HW

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  unfold goRes tdRes stRes dnRes
  rw [bigSep_sep', bigSep_sep', bigSep_sep', bigSep_sep']
  iintro ⟨Ht, Hs, Ho⟩
  ihave Ht2 := (pointsTo_toks (qCore (Fin.cast nCore_zero c)) 16).1 $$ Ht
  icases Ht2 with ⟨Htd, Htt⟩
  ihave Hs2 := (pointsTo_toks (qCore (Fin.cast nCore_zero c)) 16).1 $$ Hs
  icases Hs2 with ⟨Hsd, Hst⟩
  imodintro
  isplitl [Htt Hst Ho]
  · isplitl [Htt]; · iexact Htt
    isplitl [Hst]; · iexact Hst
    iexact Ho
  iintro ⟨Htt, Hst, Ho⟩
  isplitl [Htd Htt]
  · iapply (pointsTo_toks (qCore (Fin.cast nCore_zero c)) 16).2; isplitl [Htd] <;> iassumption
  isplitl [Hsd Hst]
  · iapply (pointsTo_toks (qCore (Fin.cast nCore_zero c)) 16).2; isplitl [Hsd] <;> iassumption
  iexact Ho

end Obl

end Cert.Proof.KB

end
-- ==== Proof.RegionK.lean ====
import proofs.«215473_g55439437856794_cont_9to1_m_142_25_alg».proof.Proof.SetupK
import Idealize.ShloMosaic.Lib.Pipeline.Regions
import Idealize.ShloMosaic.Lib.Pipeline.FrameBody
import Idealize.ShloMosaic.Lib.Pipeline.Value
import Idealize.ShloMosaic.Lib.Tactic

/-!
The pipelined region of the program: eight blocks of 2048 rows, each adding its weighted cross-entropy terms to a
one-word accumulator that stays in its staging word between the blocks and is written back after the last one.
-/

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => 𝕄T F

/-- The region prefetches no table. -/
abbrev adm : (p : Fin 1) → (pcfgs (F := F) p).Adm := fun p => (cfgs p).toPCfg_adm

/-- The four arrays of the region as one family over its windows: the logits, the class words as 128 × 128, the
    gathered similarities, the one-word result. -/
abbrev Arrs (F : FTy → Type) (c : Dev nD) : Type := (w : Fin cfg1.W) → Buf (Elt F) ((cfg1.win w).arr.view.loc (c.tc : Thread nD τ))

/-- Window `w`'s block at point `t`, read off its array. -/
def iblk {c : Dev nD} (A : Arrs F c) (w : Fin cfg1.W) (t : Fin cfg1.N) : ((cfg1.win w).xblock (cfg1.grid.coords t)).Idx → Elt F (cfg1.win w).elt :=
  ((cfg1.win w).blk t).view.read (Elt F) (A w)

/-- The accumulator after the first `k` blocks: zero, then one block's sum of weighted terms added per block. -/
def accA {c : Dev nD} (A : Arrs F c) : ℕ → F .f32
  | 0 => Scalar.ofBits .f32 0x00000000#32
  | k + 1 => if h : k < cfg1.N then k1_pay1 (iblk A 0 ⟨k, h⟩) (iblk A 1 ⟨k, h⟩) (iblk A 2 ⟨k, h⟩) (accA A k) else accA A k

theorem accA_zero {c : Dev nD} (A : Arrs F c) : accA A 0 = Scalar.ofBits .f32 0x00000000#32 := rfl

theorem accA_succ {c : Dev nD} (A : Arrs F c) (t : Fin cfg1.N) :
    accA A (t.val + 1) = k1_pay1 (iblk A 0 t) (iblk A 1 t) (iblk A 2 t) (accA A t.val) := by
  rw [accA, dif_pos t.isLt]

/-! ## The proof data -/

section Data

variable (O : CellTallies nD τ sig (HIx 1)) (B : Set (SemLoc sig × HIx 1)) (A : (c : Dev nD) → Arrs F c)

/-- The proof data: the arrays as the region finds them; after the body at point `t` each input's buffer at its
    block and the result's word at the accumulator after `t + 1` blocks; nothing of the body's own between points;
    the core owing `O` throughout. -/
def dats (_ : Fin 1) (c : Dev nD) : Dat τ (Elt F) (HIx 1) ℕ UU ℕ cfg1 c where
  A w := A c w
  after w t := match w with
    | ⟨0, _⟩ => iblk (A c) 0 t
    | ⟨1, _⟩ => iblk (A c) 1 t
    | ⟨2, _⟩ => iblk (A c) 2 t
    | ⟨3, _⟩ => fun _ => accA (A c) (t.val + 1)
  Φ _ := Pipeline.scopedRest (Ix := HIx 1) (Name := ℕ) (U := UU) (Lvl := ℕ) (Val := Elt F) (Pipeline.pin (pcfgs (F := F)) adm 0).spec c
  q _ := fullShare
  owed _ := O
  recorded _ := B

theorem Φ_eq (c : Dev nD) (t : Fin (cfg1.N + 1)) : (dats O B A 0 c).Φ t
    = Pipeline.scopedRest (Ix := HIx 1) (Name := ℕ) (U := UU) (Lvl := ℕ) (Val := Elt F) (Pipeline.pin (pcfgs (F := F)) adm 0).spec c := by dsimp only [dats]
theorem after_0 (c : Dev nD) (t : Fin cfg1.N) : (dats O B A 0 c).after 0 t = iblk (A c) 0 t := by dsimp only [dats]
theorem after_1 (c : Dev nD) (t : Fin cfg1.N) : (dats O B A 0 c).after 1 t = iblk (A c) 1 t := by dsimp only [dats]
theorem after_2 (c : Dev nD) (t : Fin cfg1.N) : (dats O B A 0 c).after 2 t = iblk (A c) 2 t := by dsimp only [dats]
theorem after_3 (c : Dev nD) (t : Fin cfg1.N) : (dats O B A 0 c).after 3 t = fun _ => accA (A c) (t.val + 1) := by dsimp only [dats]

theorem before_0 (c : Dev nD) (t : Fin cfg1.N) (d) : (dats O B A 0 c).before 0 t d = iblk (A c) 0 t :=
  ((dats O B A 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg1.N) (d) : (dats O B A 0 c).before 1 t d = iblk (A c) 1 t :=
  ((dats O B A 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg1.N) (d) : (dats O B A 0 c).before 2 t d = iblk (A c) 2 t :=
  ((dats O B A 0 c).before_in_eq_fetched 2 rfl (fun _ => rfl) (fun _ _ _ => rfl) (fun t => by rw [after_2]; unfold Dat.blockOf iblk; rfl) t d).trans
    (by unfold Dat.fetched Dat.blockOf iblk; rfl)

/-- At the first point the result's staging word holds anything. -/
theorem before_3_zero (c : Dev nD) (t : Fin cfg1.N) (h0 : t.val = 0) (d) : (dats O B A 0 c).before 3 t d = d :=
  (dats O B A 0 c).before_out_reset 3 rfl t (.inl h0) d

/-- At a later point it holds the accumulator the point before left: it is written back after the last point only. -/
theorem before_3_pos (c : Dev nD) (t : Fin cfg1.N) (h0 : t.val ≠ 0) (d) : (dats O B A 0 c).before 3 t d = fun _ => accA (A c) t.val := by
  have hN : t.val < 8 := lt_of_lt_of_eq t.isLt (show cfg1.N = 8 from N_1)
  rw [Dat.before_out_kept _ 3 rfl t h0 (Bool.eq_false_iff.mpr fun h => by have := (flush1_3 _).mp h; dsimp only at this; omega)
    (fun _ => rfl) (fun _ _ => rfl), after_3]
  dsimp only
  rw [Nat.sub_add_cancel (Nat.pos_of_ne_zero h0)]

end Data

/-! ## The body, once per case of its one conditional -/

/-- The condition of the body's `scf.if`: the grid coordinate is zero. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

theorem hz2 : (![0, 0] : Fin 2 → Nat) = fun _ => 0 := funext fun a => by fin_cases a <;> rfl
theorem hz1 : (![0] : Fin 1 → Nat) = fun _ => 0 := funext fun a => by fin_cases a; rfl

set_option maxHeartbeats 1000000 in
/-- At a later point the body adds the block's sum to the accumulator it finds. -/
theorem runB (c : Dev nD) (i : grid1.Coords) (arg1 : Memref sig .tc .vmem S2048x600 .f32) (harg1 : arg1.IsWhole) (arg2 : Memref sig .tc .vmem S16x128 .i32) (harg2 : arg2.IsWhole) (arg3 : Memref sig .tc .vmem S2048 .f32) (harg3 : arg3.IsWhole) (arg4 : Memref sig .tc .smem S1x1 .f32) (harg4 : arg4.IsWhole)
    (hc : ¬ cond1 i) (x0 : Vec F S2048x600 .f32) (x1 : Vec F S16x128 .i32) (x2 : Vec F S2048 .f32) (a : F .f32)
    (E : Set ℕ) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare (fun _ => a)
        ∗ (iprop(owns (c : Thread nD τ) arg1 fullShare x0 ∗ owns (c : Thread nD τ) arg2 fullShare x1 ∗ owns (c : Thread nD τ) arg3 fullShare x2
            ∗ owns (c : Thread nD τ) arg4 fullShare (fun _ => k1_pay1 x0 x1 x2 a)) -∗ Kc ⟨⟩))
      ⊢ wp frame (wpE (defs₀ (F := F)) Variants.none c none) E (cc1_body i arg1 harg1 arg2 harg2 arg3 harg3 arg4 harg4) Kc := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (fun y => ⟨_, List.Mem.head _, View.mem_set_unit_zero hz2 inb_S1x1_S1x1_0_0 y⟩)]
  rw [View.canon_unit_zero hz2]
  sl_unfold_words
  simp only [View.readAt_eq_ld, harg1.read_unread, harg2.read_unread, harg3.read_unread, harg4.read_unread, View.ld_unit_zero (S := S2048x600) hz2, View.ld_unit_zero (S := S16x128) hz2, View.ld_unit_zero (S := S2048) hz1, View.ld_unit_zero (S := S1x1) hz2]
  rfl

set_option maxHeartbeats 1000000 in
/-- At the first point the body zeroes the word, whatever it held, and adds the block's sum. -/
theorem runA (c : Dev nD) (i : grid1.Coords) (arg1 : Memref sig .tc .vmem S2048x600 .f32) (harg1 : arg1.IsWhole) (arg2 : Memref sig .tc .vmem S16x128 .i32) (harg2 : arg2.IsWhole) (arg3 : Memref sig .tc .vmem S2048 .f32) (harg3 : arg3.IsWhole) (arg4 : Memref sig .tc .smem S1x1 .f32) (harg4 : arg4.IsWhole)
    (hc : cond1 i) (x0 : Vec F S2048x600 .f32) (x1 : Vec F S16x128 .i32) (x2 : Vec F S2048 .f32) (y : Vec F S1x1 .f32)
    (E : Set ℕ) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y
        ∗ (iprop(owns (c : Thread nD τ) arg1 fullShare x0 ∗ owns (c : Thread nD τ) arg2 fullShare x1 ∗ owns (c : Thread nD τ) arg3 fullShare x2
            ∗ owns (c : Thread nD τ) arg4 fullShare (fun _ => k1_pay1 x0 x1 x2 (Scalar.ofBits .f32 0x00000000#32))) -∗ Kc ⟨⟩))
      ⊢ wp frame (wpE (defs₀ (F := F)) Variants.none c none) E (cc1_body i arg1 harg1 arg2 harg2 arg3 harg3 arg4 harg4) Kc := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (fun y => ⟨_, List.Mem.head _, View.mem_set_unit_zero hz2 inb_S1x1_S1x1_0_0 y⟩)]
  rw [View.canon_cons_unit_zero hz2]
  sl_unfold_words
  simp only [View.readAt_eq_ld, harg1.read_unread, harg2.read_unread, harg3.read_unread, View.ld_unit_zero (S := S2048x600) hz2, View.ld_unit_zero (S := S16x128) hz2, View.ld_unit_zero (S := S2048) hz1]
  rfl

/-! ## The body obligation -/

section Obligation

variable (O : CellTallies nD τ sig (HIx 1)) (B : Set (SemLoc sig × HIx 1)) (A : (c : Dev nD) → Arrs F c)

/-- What the body is called with at point `t`, the windows one by one, -/
def bodyPre (c : Dev nD) (t : Fin cfg1.N) : sProp 𝕄 :=
  iprop((dats O B A 0 c).Φ t.castSucc ∗ (dats O B A 0 c).owesAt none t.castSucc
    ∗ (∃ d, owns (c : Thread nD τ) (st1_0 t) fullShare ((dats O B A 0 c).before 0 t d))
    ∗ (∃ d, owns (c : Thread nD τ) (st1_1 t) fullShare ((dats O B A 0 c).before 1 t d))
    ∗ (∃ d, owns (c : Thread nD τ) (st1_2 t) fullShare ((dats O B A 0 c).before 2 t d))
    ∗ (∃ d, owns (c : Thread nD τ) (st1_3 t) fullShare ((dats O B A 0 c).before 3 t d)))

/-- and what it returns. -/
def bodyPost (c : Dev nD) (t : Fin cfg1.N) : sProp 𝕄 :=
  iprop((dats O B A 0 c).Φ t.succ ∗ (dats O B A 0 c).owesAt none t.succ
    ∗ owns (c : Thread nD τ) (st1_0 t) fullShare ((dats O B A 0 c).after 0 t)
    ∗ owns (c : Thread nD τ) (st1_1 t) fullShare ((dats O B A 0 c).after 1 t)
    ∗ owns (c : Thread nD τ) (st1_2 t) fullShare ((dats O B A 0 c).after 2 t)
    ∗ owns (c : Thread nD τ) (st1_3 t) fullShare ((dats O B A 0 c).after 3 t))

set_option maxHeartbeats 800000 in
/-- The body at any point: the inputs' buffers hold their blocks; at the first point the word holds anything and is
    zeroed, at a later one it holds the accumulator so far; either way it ends at the accumulator one block on. -/
theorem sound_body (c : Dev nD) (t : Fin cfg1.N) :
    bodyPre O B A c t ⊢ wp frame (wpE (defs₀ (F := F)) Variants.none c none) Set.univ (bodyAt1 t) (fun _ => bodyPost O B A c t) := by
  unfold bodyPre bodyPost bodyAt1
  simp only [before_0, before_1, before_2]
  rw [show (dats O B A 0 c).Φ t.succ = (dats O B A 0 c).Φ t.castSucc from rfl,
    show (dats O B A 0 c).owesAt none t.succ = (dats O B A 0 c).owesAt none t.castSucc from rfl,
    after_0, after_1, after_2, after_3, accA_succ]
  by_cases h0 : t.val = 0
  · simp only [before_3_zero O B A c t h0]
    rw [h0, accA_zero]
    iintro ⟨HΦ, Ho, ⟨%d0, H0⟩, ⟨%d1, H1⟩, ⟨%d2, H2⟩, ⟨%d3, H3⟩⟩
    iapply (runA c (grid1.coords t) _ _ _ _ _ _ _ _ ((hcond1 t).mpr h0) (iblk (A c) 0 t) (iblk (A c) 1 t) (iblk (A c) 2 t) d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3_pos O B A c t h0]
    iintro ⟨HΦ, Ho, ⟨%d0, H0⟩, ⟨%d1, H1⟩, ⟨%d2, H2⟩, ⟨%d3, H3⟩⟩
    iapply (runB c (grid1.coords t) _ _ _ _ _ _ _ _ (fun h => h0 ((hcond1 t).mp h)) (iblk (A c) 0 t) (iblk (A c) 1 t) (iblk (A c) 2 t) (accA (A c) t.val) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) O B A 0 c) (defs₀ (F := F)) Variants.none none Set.univ := fun t => by
  rw [bigSep_W1, bigSep_W1]
  exact sound_body O B A c t

end Obligation

/-! ## The region as a segment of @main -/

section Segment

variable (O : CellTallies nD τ sig (HIx 1)) (B : Set (SemLoc sig × HIx 1)) (A : (c : Dev nD) → Arrs F c)

/-- The arrays after the region: the three inputs as they were, the result at the accumulator after all eight blocks. -/
def Afin (c : Dev nD) : Arrs F c := fun w => match w with
  | ⟨0, _⟩ => A c 0
  | ⟨1, _⟩ => A c 1
  | ⟨2, _⟩ => A c 2
  | ⟨3, _⟩ => fun _ => accA (A c) 8

/-- The one write-back, after the last point, writes the accumulator after eight blocks. -/
theorem flushed_3 (c : Dev nD) (t : Fin cfg1.N) (hf : (cfg1.win 3).flush t = true) :
    (dats O B A 0 c).flushed 3 t = ((cfg1.win 3).blk t).view.read (Elt F) (fun _ => accA (A c) 8) := by
  have hN : cfg1.N = 8 := N_1
  have h7 : t.val = 7 := by have := (flush1_3 t).mp hf; have := t.isLt; omega
  obtain rfl : t = t1_7 := Fin.ext h7
  show (cfg1.win 3).cut (grid1.coords t1_7) ((dats O B A 0 c).after 3 t1_7) = _
  rw [after_3]
  funext j
  rw [View.read_apply]
  rfl

/-- So the result array ends holding it: the last point's block is the whole array. -/
theorem arrAt_3 (c : Dev nD) : (dats O B A 0 c).arrAt 3 cfg1.N = fun _ => accA (A c) 8 :=
  (dats O B A 0 c).arrAt_eq_of_cover 3 (fun _ => accA (A c) 8) (flushed_3 O B A c) fun i =>
    ⟨t1_7, (flush1_3 t1_7).mpr rfl, by
      show i ∈ ((View.whole main_v2).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega⟩

/-- The arrays after every write-back. -/
theorem arrAt_fin (c : Dev nD) : (fun w => (dats O B A 0 c).arrAt w cfg1.N) = Afin A c := by
  funext w
  match w with
  | ⟨0, _⟩ => exact (dats O B A 0 c).arrAt_in 0 rfl _
  | ⟨1, _⟩ => exact (dats O B A 0 c).arrAt_in 1 rfl _
  | ⟨2, _⟩ => exact (dats O B A 0 c).arrAt_in 2 rfl _
  | ⟨3, _⟩ => exact arrAt_3 O B A c

/-- What the region is entered from: the four arrays whole, and the core owing `O` with its recorded pairs in `B`. -/
def regPre (c : Dev nD) : sProp 𝕄 := iprop((dats O B A 0 c).arrays (A c) ∗ Pipeline.owesWithin c O B)
/-- What it leaves: the arrays at their final contents, the core owing `O`, its recorded pairs in `B` or the staging
    semaphores' at the index no call uses. -/
def regPost (c : Dev nD) : sProp 𝕄 := iprop((dats O B A 0 c).arrays (Afin A c) ∗ Pipeline.owesWithin c O (B ∪ cfg1.waitPairs none))

set_option backward.isDefEq.respectTransparency.types false in
/-- The region: the launch's layout of the staging storage, no semaphore of the body's own, the body obligation; the waits on the staging
    semaphores sit at the index no call uses, below everything the core owes. -/
def reg1 (hO : ∀ g, O g none = 0) (lv : GSem nD τ sig → HIx 1 → ℕ) (hlv : (K (F := F)).Refines lv) :
    Pipeline.RegionSeg (pcfgs (F := F)) adm (dats O B A) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation O B A c).loose
  hwaits c := Pipeline.cellsWaits_intro (Pipeline.pin (pcfgs (F := F)) adm) (dats O B A) none 0 c fun w s t =>
    (K (F := F)).mayWait_none _ hO lv hlv
  pre c := regPre O B A c
  post c := regPost O B A c
  X _ := iprop(emp)
  Y _ := iprop(emp)
  Z _ := iprop(emp)
  hentry c := by
    unfold regPre
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr <;> iempintro
  hin c := by
    rw [Φ_eq O B A c _]
    iintro ⟨-, -, Hr⟩
    iexact Hr
  hout c := by
    rw [Pipeline.ownSems0_none nD τ sig (Elt F) (HIx 1) ℕ UU ℕ c]
    rw [Φ_eq O B A c _]
    iintro Hr
    isplitr; · iempintro
    isplitr; · iempintro
    iexact Hr
  hexit c := by
    unfold regPost
    rw [arrAt_fin]
    iintro ⟨Ha, HO, -, -⟩
    imodintro
    isplitl [Ha]; · iexact Ha
    iexact HO

theorem reg1_pre (hO : ∀ g, O g none = 0) (lv : GSem nD τ sig → HIx 1 → ℕ) (hlv : (K (F := F)).Refines lv) (c : Dev nD) :
    (reg1 O B A hO lv hlv).pre c = regPre O B A c := rfl
theorem reg1_post (hO : ∀ g, O g none = 0) (lv : GSem nD τ sig → HIx 1 → ℕ) (hlv : (K (F := F)).Refines lv) (c : Dev nD) :
    (reg1 O B A hO lv hlv).post c = regPost O B A c := rfl

set_option backward.isDefEq.respectTransparency.types false in
/-- THE REGION inside @main: from the region boundary, the four arrays, what the core owes, the level facts and the
    staging cells' launch ghost state, the call runs to the boundary and the arrays at their final contents. -/
theorem region_wp (hO : ∀ g, O g none = 0) (lv : GSem nD τ sig → HIx 1 → ℕ) (hlv : (K (F := F)).Refines lv) (d : Dev nD) {α : Type}
    (k : PUnit → Prog (TpuEff nD τ sig (Elt F) (SparseCore.Sig (ΛP (F := F)) 1) Proc.tc) α) (Φ : α → sProp 𝕄) :
    iprop(boundary (T d : Thread nD τ) ∗ regPre O B A d ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ) ∗ regPost O B A d) -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  have h := Pipeline.RegionSeg.wp (pcfgs (F := F)) adm (dats O B A) none cellOf_inj ER defs₀ 𝒱₀ (K (F := F)).L lv
    (reg1 O B A hO lv hlv) d none (fun _ h => nomatch h) (fun r => Prog.ret r)
    (fun r => wp frame (wpE ((K (F := F)).defs (D (F := F))) 𝒱 (T d) none) Set.univ (k r) Φ)
  have hl := (K (F := F)).wp_liftProg (D (F := F)) 𝒱 (T d) (Set.univ : Set ℕ) none
    (Prog.op (TpuEff.customCall (Pipeline.entry 0) ()) fun r => Prog.ret r)
    (fun r => wp frame (wpE ((K (F := F)).defs (D (F := F))) 𝒱 (T d) none) Set.univ (k r) Φ)
  rw [reg1_pre, reg1_post] at h
  rw [show (Prog.lift (.customCall (SparseCore.inner (Pipeline.entry 0)) ()) >>= k)
      = (SparseCore.liftProg (Prog.op (TpuEff.customCall (Pipeline.entry 0) ()) fun r => Prog.ret r) >>= k) from rfl, wp_bind]
  refine BIBase.Entails.trans ?_ hl
  refine BIBase.Entails.trans ?_ h
  iintro ⟨Hb, Hpre, Hl, Hg, Ht, Hk⟩
  isplitl [Hk]
  · iintro H
    rw [wp_ret]
    imodintro
    iapply Hk
    iexact H
  isplitl [Hb]; · iexact Hb
  isplitl [Hpre]; · iexact Hpre
  isplitl [Hl]; · iexact Hl
  isplitl [Hg]; · iexact Hg
  iexact Ht

end Segment

end Cert.Proof.KB
end
-- ==== Proof.RegionUseK.lean ====
import proofs.«215473_g55439437856794_cont_9to1_m_142_25_alg».proof.Proof.RegionK

/-!
The region's lemma as @main's proof uses it: the arrays as four points-to assertions, the recorded pairs as the
handshakes' level bound, and the blocks of the arrays read at an index.
-/

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => 𝕄T F

section Use

variable (O : CellTallies nD τ sig (HIx 1)) (B : Set (SemLoc sig × HIx 1)) (A : (c : Dev nD) → Arrs F c)

/-- The pipeline's arrays, whole and at the full share, one by one. -/
theorem arrays_four (c : Dev nD) (G : Arrs F c) :
    ((dats O B A 0 c).arrays G : sProp 𝕄)
      = iprop((((c.tc : Thread nD τ).loc main_arg0) ↦{fullShare} G 0) ∗ (((c.tc : Thread nD τ).loc main_v1) ↦{fullShare} G 1)
          ∗ (((c.tc : Thread nD τ).loc main_v0) ↦{fullShare} G 2) ∗ (((c.tc : Thread nD τ).loc main_v2) ↦{fullShare} G 3)) := by
  rw [Pipeline.arrays_eq cfgs (dats O B A) 0 c launch1.arr_whole ((dats O B A 0 c).share_full fun _ => rfl) G, bigSep_W1]

/-- Recorded pairs within a level bound or at the staging semaphores' unused index are within the bound. -/
theorem wbelow_of_bound (d : Dev nD) (b : ℕ) (W : Waits sig (HIx 1))
    (h : (↑W : Set (SemLoc sig × HIx 1)) ⊆ {p | (K (F := F)).lev ((T d : Thread nD τ), p.1) p.2 ≤ b} ∪ cfg1.waitPairs none) :
    (K (F := F)).WBelow (T d) W b := by
  intro p hp
  rcases h hp with h | ⟨w, s, rfl⟩
  · exact h
  · exact Nat.zero_le _

end Use

/-! ## The blocks read at an index -/

section Blocks

variable {c : Dev nD} (A : Arrs F c)

/-- The block indices of the three inputs at point `t`: block `t` of rows. -/
theorem index_0 : ∀ t : Fin cfg1.N, (cfg1.win 0).index t = ![t.val, 0] :=
  (by decide +kernel : ∀ t : Fin grid1.N, win1_0.index t = ![t.val, 0])
theorem index_1 : ∀ t : Fin cfg1.N, (cfg1.win 1).index t = ![t.val, 0] :=
  (by decide +kernel : ∀ t : Fin grid1.N, win1_1.index t = ![t.val, 0])
theorem index_2 : ∀ t : Fin cfg1.N, (cfg1.win 2).index t = ![t.val] :=
  (by decide +kernel : ∀ t : Fin grid1.N, win1_2.index t = ![t.val])

/-- Row `j 0` of block `t` of the logits is row `2048 t + j 0` of the array. -/
theorem iblk0_apply (t : Fin cfg1.N) (j : S2048x600.Idx) (i : S16384x600.Idx)
    (h0 : (i 0 : ℕ) = 2048 * t.val + j 0) (h1 : (i 1 : ℕ) = j 1) :
    (iblk A 0 t j : F .f32) = (A 0 : S16384x600.Idx → F .f32) i := by
  unfold iblk
  rw [View.read_apply]
  show (A 0 : S16384x600.Idx → F .f32) (((cfg1.win 0).rect t).emb j) = _
  refine congrArg (A 0 : S16384x600.Idx → F .f32) ?_
  funext a
  apply Fin.ext
  have e := (cfg1.win 0).rect_emb_val t j a
  rw [index_0 t] at e
  match a with
  | ⟨0, _⟩ => exact e.trans (by show t.val * 2048 + (j 0 : ℕ) = (i 0 : ℕ); omega)
  | ⟨1, _⟩ => exact e.trans (by show 0 * 600 + (j 1 : ℕ) = (i 1 : ℕ); omega)

/-- Row `j 0` of block `t` of the class words, seen as 128 × 128, is row `16 t + j 0`. -/
theorem iblk1_apply (t : Fin cfg1.N) (j : S16x128.Idx) (i : S128x128.Idx)
    (h0 : (i 0 : ℕ) = 16 * t.val + j 0) (h1 : (i 1 : ℕ) = j 1) :
    (iblk A 1 t j : BitVec 32) = (A 1 : S128x128.Idx → BitVec 32) i := by
  unfold iblk
  rw [View.read_apply]
  show (A 1 : S128x128.Idx → BitVec 32) (((cfg1.win 1).rect t).emb j) = _
  refine congrArg (A 1 : S128x128.Idx → BitVec 32) ?_
  funext a
  apply Fin.ext
  have e := (cfg1.win 1).rect_emb_val t j a
  rw [index_1 t] at e
  match a with
  | ⟨0, _⟩ => exact e.trans (by show t.val * 16 + (j 0 : ℕ) = (i 0 : ℕ); omega)
  | ⟨1, _⟩ => exact e.trans (by show 0 * 128 + (j 1 : ℕ) = (i 1 : ℕ); omega)

/-- Entry `j 0` of block `t` of the gathered similarities is entry `2048 t + j 0`. -/
theorem iblk2_apply (t : Fin cfg1.N) (j : S2048.Idx) (i : S16384.Idx)
    (h0 : (i 0 : ℕ) = 2048 * t.val + j 0) :
    (iblk A 2 t j : F .f32) = (A 2 : S16384.Idx → F .f32) i := by
  unfold iblk
  rw [View.read_apply]
  show (A 2 : S16384.Idx → F .f32) (((cfg1.win 2).rect t).emb j) = _
  refine congrArg (A 2 : S16384.Idx → F .f32) ?_
  funext a
  apply Fin.ext
  have e := (cfg1.win 2).rect_emb_val t j a
  rw [index_2 t] at e
  match a with
  | ⟨0, _⟩ => exact e.trans (by show t.val * 2048 + (j 0 : ℕ) = (i 0 : ℕ); omega)

end Blocks

/-! ## The lemma over the TensorCore's handshake state -/

section Packaged

variable (A : (c : Dev nD) → Arrs F c)

/-- The TensorCore owes nothing at the index no call uses. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The level bound on recorded pairs, as a set. -/
abbrev Bnd (d : Dev nD) (b : ℕ) : Set (SemLoc sig × HIx 1) := {p | (K (F := F)).lev ((T d : Thread nD τ), p.1) p.2 ≤ b}

/-- THE REGION inside @main, over the TensorCore's state before call `n`: the four arrays one by one, what it owes
    with its recorded pairs at or below level `b`. -/
theorem region_wp' (lv : GSem nD τ sig → HIx 1 → ℕ) (hlv : (K (F := F)).Refines lv) (d : Dev nD) (n b : ℕ) {α : Type}
    (k : PUnit → Prog (TpuEff nD τ sig (Elt F) (SparseCore.Sig (ΛP (F := F)) 1) Proc.tc) α) (Φ : α → sProp 𝕄) :
    iprop(boundary (T d : Thread nD τ)
        ∗ ((((T d : Thread nD τ).loc main_arg0) ↦{fullShare} A d 0) ∗ (((T d : Thread nD τ).loc main_v1) ↦{fullShare} A d 1)
          ∗ (((T d : Thread nD τ).loc main_v0) ↦{fullShare} A d 2) ∗ (((T d : Thread nD τ).loc main_v2) ↦{fullShare} A d 3))
        ∗ (∃ W, ⌜(K (F := F)).WBelow (T d) W b⌝ ∗ owes (T d : Thread nD τ) ((K (F := F)).Otc d n) W)
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
            ∗ ((((T d : Thread nD τ).loc main_arg0) ↦{fullShare} A d 0) ∗ (((T d : Thread nD τ).loc main_v1) ↦{fullShare} A d 1)
              ∗ (((T d : Thread nD τ).loc main_v0) ↦{fullShare} A d 2) ∗ (((T d : Thread nD τ).loc main_v2) ↦{fullShare} (fun _ => accA (A d) 8 : Buf (Elt F) ((T d : Thread nD τ).loc main_v2))))
            ∗ (∃ W, ⌜(K (F := F)).WBelow (T d) W b⌝ ∗ owes (T d : Thread nD τ) ((K (F := F)).Otc d n) W))
          -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  refine BIBase.Entails.trans ?_ (region_wp ((K (F := F)).Otc d n) (Bnd (F := F) d b) A (Otc_none d n) lv hlv d k Φ)
  unfold regPre regPost Pipeline.owesWithin
  rw [arrays_four, arrays_four]
  iintro ⟨Hb, Ha, ⟨%W, %hW, HO⟩, Hl, Hg, Ht, Hk⟩
  isplitl [Hb]; · iexact Hb
  isplitl [Ha HO]
  · isplitl [Ha]; · iexact Ha
    iexists W; isplitr; · ipureintro; exact fun p hp => hW p (Finset.mem_coe.mp hp)
    iexact HO
  isplitl [Hl]; · iexact Hl
  isplitl [Hg]; · iexact Hg
  isplitl [Ht]; · iexact Ht
  iintro ⟨Hb, Ha, ⟨%W', %hW', HO⟩⟩
  iapply Hk
  isplitl [Hb]; · iexact Hb
  isplitl [Ha]; · iexact Ha
  iexists W'; isplitr; · ipureintro; exact wbelow_of_bound d b W' hW'
  iexact HO

end Packaged

/-! ## The staging cells' launch ghost state -/

section Ghost

/-- From the rounds library's launch element at the region's staging cells and transfers: each device's cells' launch
    state and duty tokens, as the region's lemma takes them. -/
theorem fund_region :
    BI.own ((ER : Emb UK (𝕄T F)) (initOf (Pipeline.cells (Pipeline.pin (pcfgs (F := F)) adm) cellOf_inj)
        (Pipeline.launchToks (Pipeline.pin (pcfgs (F := F)) adm) cellOf_inj)))
      ⊢ iprop(|==> bigSep Finset.univ fun d : Dev nD =>
          iprop(Pipeline.cellsGhost (Pipeline.pin (pcfgs (F := F)) adm) (ER : Emb UK (𝕄T F)) 0 d
            ∗ Pipeline.toksInit (Pipeline.pin (pcfgs (F := F)) adm) (ER : Emb UK (𝕄T F)) 0 d)) := by
  have h := Pipeline.fund_ghost (Pipeline.pin (pcfgs (F := F)) adm) (ER : Emb UK (𝕄T F)) cellOf_inj
  refine BIBase.Entails.trans h ?_
  have h1 : (Finset.univ : Finset (Fin 1)) = {0} := by decide
  simp only [h1, BI.bigSep_singleton]
  exact BIBase.Entails.refl

end Ghost

end Cert.Proof.KB

end
-- ==== Proof.MainTailK.lean ====
import proofs.«215473_g55439437856794_cont_9to1_m_142_25_alg».proof.Proof.RegionUseK
import proofs.«215473_g55439437856794_cont_9to1_m_142_25_alg».proof.Proof.GatherK

/-!
@main on the TensorCore after the vector-subcore call: the class words seen as 128 × 128, the pipelined region, and
the three host operations that turn its one-word result into the mean.
-/

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window BodyObligation cellOf)

variable {F : FTy → Type} [FloatOps F]

local notation "𝕄" => 𝕄T F

/-! ## The program after the call -/

abbrev opR1 : HloOp τ sig (Elt F) := StableHlo.reshape main_arg2 main_v1 rfl shapeCasts_S16384_S128x128
abbrev opR2 : HloOp τ sig (Elt F) := StableHlo.reshape main_v2 main_v3 rfl shapeCasts_S1x1_S_
abbrev opC : HloOp τ sig (Elt F) := StableHlo.nullary main_cst (constant S_ .f32 0x46800000#32)
abbrev opD : HloOp τ sig (Elt F) := StableHlo.binary main_v3 main_cst main_v4
  (Host.divf : (⟨S_, .f32⟩ : BufTy).Contents (Elt F) → (⟨S_, .f32⟩ : BufTy).Contents (Elt F) → (⟨S_, .f32⟩ : BufTy).Contents (Elt F))

/-- @main after its first line. -/
def mainTail (d : Dev nD) : Prog (TpuEff nD τ sig (Elt F) (SparseCore.Sig (ΛP (F := F)) 1) .tc) PUnit := do
  hlo rfl (opR1 (F := F)) (fun _ => .ret ⟨⟩)
  Prog.lift (.customCall (SparseCore.inner (Pipeline.entry 0)) ())
  hlo rfl (opR2 (F := F)) (fun _ => .ret ⟨⟩)
  hlo rfl (opC (F := F)) (fun _ => .ret ⟨⟩)
  hlo rfl (opD (F := F)) (fun _ => .ret ⟨⟩)
  pure ⟨⟩

theorem main_eq (d : Dev nD) : main (F := F) d = ((K (F := F)).run d 0 >>= fun _ => mainTail d) := rfl

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev cst' : DevRef τ sig := Proc.devRef .tc (main_cst : Ref sig .tc)
abbrev v4' : DevRef τ sig := Proc.devRef .tc (main_v4 : Ref sig .tc)

abbrev S9 : Finset (DevRef τ sig) := {a0', a1', a2', v0', v1', v2', v3', cst', v4'}

omit [FloatOps F] in
theorem held_S9 (d : Dev nD) (W : Valuation τ sig (Elt F)) :
    (held (T d) S9 W : sProp 𝕄) = iprop(((T d : Thread nD τ).loc main_arg0 ↦{fullShare} W a0') ∗ ((T d : Thread nD τ).loc main_arg1 ↦{fullShare} W a1')
      ∗ ((T d : Thread nD τ).loc main_arg2 ↦{fullShare} W a2') ∗ ((T d : Thread nD τ).loc main_v0 ↦{fullShare} W v0')
      ∗ ((T d : Thread nD τ).loc main_v1 ↦{fullShare} W v1') ∗ ((T d : Thread nD τ).loc main_v2 ↦{fullShare} W v2')
      ∗ ((T d : Thread nD τ).loc main_v3 ↦{fullShare} W v3') ∗ ((T d : Thread nD τ).loc main_cst ↦{fullShare} W cst')
      ∗ ((T d : Thread nD τ).loc main_v4 ↦{fullShare} W v4')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem hR1 : (opR1 (F := F)).bufs ⊆ S9 := show ({a2', v1'} : Finset (DevRef τ sig)) ⊆ S9 by decide
theorem hR2 : (opR2 (F := F)).bufs ⊆ S9 := show ({v2', v3'} : Finset (DevRef τ sig)) ⊆ S9 by decide
theorem hC : (opC (F := F)).bufs ⊆ S9 := show ({cst'} : Finset (DevRef τ sig)) ⊆ S9 by decide
theorem hD : (opD (F := F)).bufs ⊆ S9 := show ({v3', cst', v4'} : Finset (DevRef τ sig)) ⊆ S9 by decide

section Tail

variable (m : (ℓ : Loc nD τ sig) → Buf (Elt F) ℓ)

/-- The four arrays of the region as the class words' reshape leaves them. -/
def Atail (d : Dev nD) : (c : Dev nD) → Arrs F c := fun _ w => match w with
  | ⟨0, _⟩ => m ((T d : Thread nD τ).loc main_arg0)
  | ⟨1, _⟩ => shapeCast S128x128 (m (tLoc d)) shapeCasts_S16384_S128x128
  | ⟨2, _⟩ => Gv m d
  | ⟨3, _⟩ => m ((T d : Thread nD τ).loc main_v2)

/-- The mean the host operations compute from the region's word. -/
def meanV (d : Dev nD) : Buf (Elt F) ((T d : Thread nD τ).loc main_v4) :=
  Host.divf (F := F) (φ := .f32) (shapeCast S_ (fun _ : S1x1.Idx => accA (Atail m d d) 8) shapeCasts_S1x1_S_) (constant S_ .f32 0x46800000#32)

/-- The region's step with the rest of the program as its postcondition. -/
theorem region_step (A : (c : Dev nD) → Arrs F c) (lv : GSem nD τ sig → HIx 1 → ℕ) (hlv : (K (F := F)).Refines lv) (d : Dev nD) (n b : ℕ)
    (Ψ : PUnit → sProp 𝕄) :
    iprop(boundary (T d : Thread nD τ)
        ∗ ((((T d : Thread nD τ).loc main_arg0) ↦{fullShare} A d 0) ∗ (((T d : Thread nD τ).loc main_v1) ↦{fullShare} A d 1)
          ∗ (((T d : Thread nD τ).loc main_v0) ↦{fullShare} A d 2) ∗ (((T d : Thread nD τ).loc main_v2) ↦{fullShare} A d 3))
        ∗ (∃ W, ⌜(K (F := F)).WBelow (T d) W b⌝ ∗ owes (T d : Thread nD τ) ((K (F := F)).Otc d n) W)
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
            ∗ ((((T d : Thread nD τ).loc main_arg0) ↦{fullShare} A d 0) ∗ (((T d : Thread nD τ).loc main_v1) ↦{fullShare} A d 1)
              ∗ (((T d : Thread nD τ).loc main_v0) ↦{fullShare} A d 2) ∗ (((T d : Thread nD τ).loc main_v2) ↦{fullShare} (fun _ => accA (A d) 8 : Buf (Elt F) ((T d : Thread nD τ).loc main_v2))))
            ∗ (∃ W, ⌜(K (F := F)).WBelow (T d) W b⌝ ∗ owes (T d : Thread nD τ) ((K (F := F)).Otc d n) W))
          -∗ Ψ ⟨⟩))
      ⊢ wp frame (wpE ((K (F := F)).defs (D (F := F))) 𝒱 (T d) none) Set.univ
          (Prog.lift (.customCall (SparseCore.inner (Pipeline.entry 0)) ())) Ψ := by
  have h := region_wp' A lv hlv d n b (fun r => Prog.ret r) Ψ
  rw [show (Prog.lift (TpuEff.customCall (SparseCore.inner (Pipeline.entry 0)) ()) >>= fun r => Prog.ret r)
      = (Prog.lift (TpuEff.customCall (SparseCore.inner (Pipeline.entry 0)) ()) : Prog (TpuEff nD τ sig (Elt F) (SparseCore.Sig (ΛP (F := F)) 1) Proc.tc) PUnit) from rfl] at h
  refine BIBase.Entails.trans ?_ h
  iintro ⟨Hb, Ha, HO, Hl, Hg, Ht, Hk⟩
  isplitl [Hb]; · iexact Hb
  isplitl [Ha]; · iexact Ha
  isplitl [HO]; · iexact HO
  isplitl [Hl]; · iexact Hl
  isplitl [Hg]; · iexact Hg
  isplitl [Ht]; · iexact Ht
  iintro H
  rw [wp_ret]
  imodintro
  iapply Hk
  iexact H

end Tail

section Run

variable (m : (ℓ : Loc nD τ sig) → Buf (Elt F) ℓ)

/-- The launch valuation with the intermediate array at what the call left; -/
def W0 (d : Dev nD) : Valuation τ sig (Elt F) := Function.update (fun b => m (d, b)) v0' (Gv m d)
/-- after the class words' reshape; -/
def W1 (d : Dev nD) : Valuation τ sig (Elt F) := (opR1 (F := F)).result (W0 m d)
/-- after the region; -/
def W2 (d : Dev nD) : Valuation τ sig (Elt F) := Function.update (W1 m d) v2' (fun _ => accA (Atail m d d) 8)
/-- after the three host operations. -/
def W5 (d : Dev nD) : Valuation τ sig (Elt F) := (opD (F := F)).result ((opC (F := F)).result ((opR2 (F := F)).result (W2 m d)))

theorem W0_v0 (d : Dev nD) : W0 m d v0' = Gv m d := Function.update_self _ _ _
theorem W0_ne (d : Dev nD) (b : DevRef τ sig) (h : b ≠ v0') : W0 m d b = m (d, b) := Function.update_of_ne h _ _

theorem W1_a0 (d : Dev nD) : W1 m d a0' = m ((T d : Thread nD τ).loc main_arg0) :=
  ((opR1 (F := F)).result_of_not_mem (W0 m d) (b := a0') (show a0' ∉ ({v1'} : Finset (DevRef τ sig)) by decide)).trans (W0_ne m d a0' (by decide))
theorem W1_a1 (d : Dev nD) : W1 m d a1' = m (sLoc d) :=
  ((opR1 (F := F)).result_of_not_mem (W0 m d) (b := a1') (show a1' ∉ ({v1'} : Finset (DevRef τ sig)) by decide)).trans (W0_ne m d a1' (by decide))
theorem W1_a2 (d : Dev nD) : W1 m d a2' = m (tLoc d) :=
  ((opR1 (F := F)).result_of_not_mem (W0 m d) (b := a2') (show a2' ∉ ({v1'} : Finset (DevRef τ sig)) by decide)).trans (W0_ne m d a2' (by decide))
theorem W1_v0 (d : Dev nD) : W1 m d v0' = Gv m d :=
  ((opR1 (F := F)).result_of_not_mem (W0 m d) (b := v0') (show v0' ∉ ({v1'} : Finset (DevRef τ sig)) by decide)).trans (W0_v0 m d)
theorem W1_v2 (d : Dev nD) : W1 m d v2' = m ((T d : Thread nD τ).loc main_v2) :=
  ((opR1 (F := F)).result_of_not_mem (W0 m d) (b := v2') (show v2' ∉ ({v1'} : Finset (DevRef τ sig)) by decide)).trans (W0_ne m d v2' (by decide))
theorem W1_v1 (d : Dev nD) : W1 m d v1' = Atail m d d 1 := by
  unfold W1
  rw [StableHlo.reshape_result, W0_ne m d a2' (by decide)]
  rfl

theorem W2_v2 (d : Dev nD) : W2 m d v2' = (fun _ => accA (Atail m d d) 8) := Function.update_self _ _ _
theorem W2_ne (d : Dev nD) (b : DevRef τ sig) (h : b ≠ v2') : W2 m d b = W1 m d b := Function.update_of_ne h _ _

/-- The three host operations leave every array but their results as it was. -/
theorem W5_ne (d : Dev nD) (b : DevRef τ sig) (h4 : b ∉ ({v4'} : Finset (DevRef τ sig))) (hc : b ∉ ({cst'} : Finset (DevRef τ sig)))
    (h3 : b ∉ ({v3'} : Finset (DevRef τ sig))) : W5 m d b = W2 m d b :=
  ((opD (F := F)).result_of_not_mem _ (b := b) h4).trans (((opC (F := F)).result_of_not_mem _ (b := b) hc).trans
    ((opR2 (F := F)).result_of_not_mem _ (b := b) h3))
theorem W5_a0 (d : Dev nD) : W5 m d a0' = m ((T d : Thread nD τ).loc main_arg0) :=
  (W5_ne m d a0' (by decide) (by decide) (by decide)).trans ((W2_ne m d a0' (by decide)).trans (W1_a0 m d))
theorem W5_a1 (d : Dev nD) : W5 m d a1' = m (sLoc d) :=
  (W5_ne m d a1' (by decide) (by decide) (by decide)).trans ((W2_ne m d a1' (by decide)).trans (W1_a1 m d))
theorem W5_a2 (d : Dev nD) : W5 m d a2' = m (tLoc d) :=
  (W5_ne m d a2' (by decide) (by decide) (by decide)).trans ((W2_ne m d a2' (by decide)).trans (W1_a2 m d))
theorem W5_v4 (d : Dev nD) : W5 m d v4' = meanV m d := by
  unfold W5
  rw [StableHlo.binary_result, StableHlo.nullary_result,
    (opC (F := F)).result_of_not_mem _ (b := v3') (show v3' ∉ ({cst'} : Finset (DevRef τ sig)) by decide), StableHlo.reshape_result, W2_v2]
  rfl

/-- What @main leaves the claim: the three arguments as launched, the result at the mean. -/
def FIN (d : Dev nD) : sProp 𝕄 :=
  iprop(((T d : Thread nD τ).loc main_arg0 ↦{fullShare} m ((T d : Thread nD τ).loc main_arg0)) ∗ ((T d : Thread nD τ).loc main_arg1 ↦{fullShare} m (sLoc d))
    ∗ ((T d : Thread nD τ).loc main_arg2 ↦{fullShare} m (tLoc d)) ∗ ((T d : Thread nD τ).loc main_v4 ↦{fullShare} meanV m d))

end Run

section Main

variable (m : (ℓ : Loc nD τ sig) → Buf (Elt F) ℓ)

set_option maxHeartbeats 1000000 in
/-- @main after the call: the reshape, the region, the three host operations; the arguments kept, the mean left. -/
theorem main_tail (P : (K (F := F)).Pay (nD := nD) (Val := Elt F) (Name := ℕ) (U := UU)) (κ : GSem nD τ sig → ℕ) (d : Dev nD) :
    iprop((K (F := F)).ctx EH P κ ∗ (K (F := F)).tcSt EH d 1 ∗ boundary (T d : Thread nD τ)
        ∗ (((T d : Thread nD τ).loc main_arg0 ↦{fullShare} m ((T d : Thread nD τ).loc main_arg0)) ∗ ((T d : Thread nD τ).loc main_arg1 ↦{fullShare} m (sLoc d))
          ∗ ((T d : Thread nD τ).loc main_arg2 ↦{fullShare} m (tLoc d)) ∗ ((T d : Thread nD τ).loc main_v0 ↦{fullShare} Gv m d)
          ∗ ((T d : Thread nD τ).loc main_v1 ↦{fullShare} m ((T d : Thread nD τ).loc main_v1)) ∗ ((T d : Thread nD τ).loc main_v2 ↦{fullShare} m ((T d : Thread nD τ).loc main_v2))
          ∗ ((T d : Thread nD τ).loc main_v3 ↦{fullShare} m ((T d : Thread nD τ).loc main_v3)) ∗ ((T d : Thread nD τ).loc main_cst ↦{fullShare} m ((T d : Thread nD τ).loc main_cst))
          ∗ ((T d : Thread nD τ).loc main_v4 ↦{fullShare} m ((T d : Thread nD τ).loc main_v4)))
        ∗ Pipeline.cellsGhost (Pipeline.pin (pcfgs (F := F)) adm) ER 0 d ∗ Pipeline.toksInit (Pipeline.pin (pcfgs (F := F)) adm) ER 0 d)
      ⊢ wp frame (wpE ((K (F := F)).defs (D (F := F))) 𝒱 (T d) none) Set.univ (mainTail d)
          fun _ => iprop((K (F := F)).tcSt EH d 1 ∗ FIN m d) := by
  unfold mainTail SparseCore.Cfg.tcSt
  simp only [wp_bind, wp_pure]
  iintro ⟨#Hctx, ⟨HO, Hrest⟩, Hb, ⟨Ha0, Ha1, Ha2, Hv0, Hv1, Hv2, Hv3, Hc, Hv4⟩, Hg, Ht⟩
  ihave Hlev := (SparseCore.Cfg.ctx_levAts (K := K (F := F)) (EH := EH) (P := P) κ) $$ Hctx
  -- the class words as 128 × 128
  iapply (wp_hlo_within 𝒱 (T d) none Set.univ (op := opR1 (F := F)) (S := S9) hR1 (V := W0 m d)) $$ [Hb Ha0 Ha1 Ha2 Hv0 Hv1 Hv2 Hv3 Hc Hv4]
  · isplitl [Hb]; · iexact Hb
    rw [held_S9, W0_v0, W0_ne m d a0' (by decide), W0_ne m d a1' (by decide), W0_ne m d a2' (by decide), W0_ne m d v1' (by decide),
      W0_ne m d v2' (by decide), W0_ne m d v3' (by decide), W0_ne m d cst' (by decide), W0_ne m d v4' (by decide)]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  iintro ⟨Hb, Hheld⟩
  rw [wp_ret]; imodintro
  -- the region
  ihave Hh := (Entails.of_eq (show (held (T d) S9 ((opR1 (F := F)).result (W0 m d)) : sProp 𝕄) = _ from held_S9 (F := F) d (W1 m d))) $$ Hheld
  rw [W1_a0, W1_a1, W1_a2, W1_v0, W1_v1, W1_v2]
  icases Hh with ⟨Ha0, Ha1, Ha2, Hv0, Hv1, Hv2, Hv3, Hc, Hv4⟩
  iapply (region_step (Atail m d) (K (F := F)).lev (K (F := F)).refines_self d 1 (8 * 1) _) $$ [Hb Ha0 Hv1 Hv0 Hv2 HO Hlev Hg Ht Ha1 Ha2 Hv3 Hc Hv4 Hrest]
  isplitl [Hb]; · iexact Hb
  isplitl [Ha0 Hv1 Hv0 Hv2]
  · isplitl [Ha0]; · iexact Ha0
    isplitl [Hv1]; · iexact Hv1
    isplitl [Hv0]; · iexact Hv0
    iexact Hv2
  isplitl [HO]; · iexact HO
  isplitl [Hlev]; · iexact Hlev
  isplitl [Hg]; · iexact Hg
  isplitl [Ht]; · iexact Ht
  iintro ⟨Hb, ⟨Ha0, Hv1, Hv0, Hv2⟩, HO⟩
  -- the three host operations
  iapply (wp_hlo_within 𝒱 (T d) none Set.univ (op := opR2 (F := F)) (S := S9) hR2 (V := W2 m d)) $$ [Hb Ha0 Ha1 Ha2 Hv0 Hv1 Hv2 Hv3 Hc Hv4]
  · isplitl [Hb]; · iexact Hb
    rw [held_S9, W2_v2, W2_ne m d a0' (by decide), W2_ne m d a1' (by decide), W2_ne m d a2' (by decide), W2_ne m d v0' (by decide),
      W2_ne m d v1' (by decide), W2_ne m d v3' (by decide), W2_ne m d cst' (by decide), W2_ne m d v4' (by decide),
      W1_a0, W1_a1, W1_a2, W1_v0, W1_v1]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  iintro ⟨Hb, Hheld⟩
  rw [wp_ret]; imodintro
  iapply (wp_hlo_within 𝒱 (T d) none Set.univ (op := opC (F := F)) (S := S9) hC (V := (opR2 (F := F)).result (W2 m d))) $$ [Hb Hheld]
  · isplitl [Hb]; · iexact Hb
    iexact Hheld
  iintro ⟨Hb, Hheld⟩
  rw [wp_ret]; imodintro
  iapply (wp_hlo_within 𝒱 (T d) none Set.univ (op := opD (F := F)) (S := S9) hD (V := (opC (F := F)).result ((opR2 (F := F)).result (W2 m d)))) $$ [Hb Hheld]
  · isplitl [Hb]; · iexact Hb
    iexact Hheld
  iintro ⟨Hb, Hheld⟩
  rw [wp_ret]; imodintro; imodintro
  ihave Hh := (Entails.of_eq (show (held (T d) S9 ((opD (F := F)).result ((opC (F := F)).result ((opR2 (F := F)).result (W2 m d)))) : sProp 𝕄) = _ from held_S9 (F := F) d (W5 m d))) $$ Hheld
  rw [W5_a0, W5_a1, W5_a2, W5_v4]
  icases Hh with ⟨Ha0, Ha1, Ha2, -, -, -, -, -, Hv4⟩
  isplitl [HO Hrest]
  · isplitl [HO]; · iexact HO
    iexact Hrest
  unfold FIN
  isplitl [Ha0]; · iexact Ha0
  isplitl [Ha1]; · iexact Ha1
  isplitl [Ha2]; · iexact Ha2
  iexact Hv4

/-- What the claim reads of the final memory: the three arguments as launched, the result at the mean. -/
def fq (d : Dev nD) (s' : Phys nD τ sig (Elt F)) : Prop :=
  s'.mem.mem ((T d : Thread nD τ).loc main_arg0) = m ((T d : Thread nD τ).loc main_arg0) ∧ s'.mem.mem (sLoc d) = m (sLoc d)
    ∧ s'.mem.mem (tLoc d) = m (tLoc d) ∧ s'.mem.mem ((T d : Thread nD τ).loc main_v4) = meanV m d

theorem hfin (d : Dev nD) (s' : Phys nD τ sig (Elt F)) : iprop(FIN m d ∗ SI s') ⊢ (⌜fq m d s'⌝ : sProp 𝕄) := by
  unfold FIN
  iintro ⟨⟨H0, H1, H2, H4⟩, HSI⟩
  icombine HSI H0 gives %h0
  icombine HSI H1 gives %h1
  icombine HSI H2 gives %h2
  icombine HSI H4 gives %h4
  ipureintro
  exact ⟨funext fun i => h0 i (Finset.mem_univ i), funext fun i => h1 i (Finset.mem_univ i), funext fun i => h2 i (Finset.mem_univ i),
    funext fun i => h4 i (Finset.mem_univ i)⟩

end Main

end Cert.Proof.KB
end
-- ==== Proof.LaunchElemK.lean ====
import proofs.«215473_g55439437856794_cont_9to1_m_142_25_alg».proof.Proof.RegionUseK

/-!
The launch element: what the proof's resource algebra holds when the program starts, and how it is dealt. The
handshakes' rounds go to the launch theorem; the rounds of the region's staging cells fund, for each device, the cells'
launch state and the duties' tokens the region's lemma takes; the copy of the transfer counters starts at its unit and
is not dealt.
-/

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => 𝕄T F

/-- The launch element: every handshake cell and every staging cell at round 0 with its duties' tokens, the counters'
    copy at its unit. -/
def u₀ : UU :=
  (initOf (K (F := F)).hsCells (K (F := F)).hsToks,
    (initOf (Pipeline.cells (Pipeline.pin (pcfgs (F := F)) adm) cellOf_inj)
        (Pipeline.launchToks (Pipeline.pin (pcfgs (F := F)) adm) cellOf_inj),
      (1 : Counters)))

/-- What each device's TensorCore is dealt: its staging cells' launch state and the duties' tokens. -/
def G (d : Dev nD) : sProp 𝕄 :=
  iprop(Pipeline.cellsGhost (Pipeline.pin (pcfgs (F := F)) adm) (ER : Emb UK (𝕄T F)) 0 d
    ∗ Pipeline.toksInit (Pipeline.pin (pcfgs (F := F)) adm) (ER : Emb UK (𝕄T F)) 0 d)

omit [FloatOps F] in
/-- A triple of the three components is owned component by component: the handshakes' through the left embedding, the
    staging cells' through the left of the right. -/
theorem own_triple (h : UH) (a : UK) (c : Counters) :
    (ownU ((h, (a, c)) : UU) : sProp 𝕄) ⊢ iprop(BI.own ((EH : Emb UH (𝕄T F)) h) ∗ BI.own ((ER : Emb UK (𝕄T F)) a)) := by
  iintro Hu
  ihave H := (ownU_pair _ _) $$ Hu
  icases H with ⟨HH, HR⟩
  ihave H2 := (own_pair_emb _ _ _) $$ HR
  icases H2 with ⟨HA, -⟩
  isplitl [HH]; · iexact HH
  iexact HA

omit [FloatOps F] in
theorem bigSep_emp' {I : Type} (s : Finset I) : (bigSep s fun _ => iprop(emp)) = (iprop(emp) : sProp 𝕄) := bigSep_emp_const s

/-- The launch theorem's element obligation, for any payload record that deals the threads nothing of its own. -/
theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own ((EH : Emb UH (𝕄T F)) (initOf (K (F := F)).hsCells (K (F := F)).hsToks))
          ∗ bigSep Finset.univ (G (F := F))
          ∗ bigSep Finset.univ fun thr : Thread nD τ => bigSep Finset.univ fun q : Fin 1 => P.x q thr) := by
  unfold u₀
  iintro ⟨Hu, -, -⟩
  ihave H := (own_triple _ _ _) $$ Hu
  icases H with ⟨HH, HR⟩
  imod (fund_region (F := F)) $$ HR with HG
  imodintro
  isplitl [HH]; · iexact HH
  isplitl [HG]; · unfold G; iexact HG
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.LaunchK.lean ====
import proofs.«215473_g55439437856794_cont_9to1_m_142_25_alg».proof.Proof.SplitK
import proofs.«215473_g55439437856794_cont_9to1_m_142_25_alg».proof.Proof.CallK
import proofs.«215473_g55439437856794_cont_9to1_m_142_25_alg».proof.Proof.MainTailK
import proofs.«215473_g55439437856794_cont_9to1_m_142_25_alg».proof.Proof.LaunchElemK

/-!
@main on the TensorCore from the launch: the arrays dealt to the two SparseCores for the call and put back, then the
rest of the program; and the launch theorem applied.
-/

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => 𝕄T F

variable (m : (ℓ : Loc nD τ sig) → Buf (Elt F) ℓ) (ρ : Dev nD → PrngReg)

omit [FloatOps F] in
/-- The TensorCore's unscoped arrays, one by one. -/
theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1)
      ∗ ((T d : Thread nD τ).loc main_arg2 ↦{fullShare} W main_arg2) ∗ ((T d : Thread nD τ).loc main_v0 ↦{fullShare} W main_v0)
      ∗ ((T d : Thread nD τ).loc main_v1 ↦{fullShare} W main_v1) ∗ ((T d : Thread nD τ).loc main_v2 ↦{fullShare} W main_v2)
      ∗ ((T d : Thread nD τ).loc main_v3 ↦{fullShare} W main_v3) ∗ ((T d : Thread nD τ).loc main_cst ↦{fullShare} W main_cst)
      ∗ ((T d : Thread nD τ).loc main_v4 ↦{fullShare} W main_v4)) := by
  unfold unscopedBufs
  rw [show (Finset.univ.filter fun b : Ref sig .tc => ¬ b.isScoped) = {main_arg0, main_arg1, main_arg2, main_v0, main_v1, main_v2, main_v3, main_cst, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem wid_eq (c : Fin 2) (i : Fin 16) : wid c i = widE (c, i) := rfl

omit [FloatOps F] in
/-- What the call takes for the two SparseCores: a token of the class words and of the table each, and the result's
    32 parts; -/
theorem st0_eq (d : Dev nD) : (bigSep Finset.univ fun c : Fin ((K (F := F)).nCore 0) => (P m).st 0 d c)
    = iprop((bigSep Finset.univ fun c : Fin 2 => tPts m d (qCore c)) ∗ (bigSep Finset.univ fun c : Fin 2 => sPts m d (qCore c))
        ∗ bigSep Finset.univ fun c : Fin 2 => bigSep Finset.univ fun i : Fin 16 => oLoc d ↦[oSetP (widE (c, i))]{fullShare} m (oLoc d)) := by
  show (bigSep (Finset.univ : Finset (Fin 2)) fun c => stRes m d c) = _
  rw [bigSep_sep', bigSep_sep']
  rfl

omit [FloatOps F] in
/-- and what it hands back: the same, the parts at the picked entries. -/
theorem dn0_eq (d : Dev nD) : (bigSep Finset.univ fun c : Fin ((K (F := F)).nCore 0) => (P m).dn 0 d c)
    = iprop((bigSep Finset.univ fun c : Fin 2 => tPts m d (qCore c)) ∗ (bigSep Finset.univ fun c : Fin 2 => sPts m d (qCore c))
        ∗ bigSep Finset.univ fun c : Fin 2 => bigSep Finset.univ fun i : Fin 16 => oLoc d ↦[oSetP (widE (c, i))]{fullShare} Gv m d) := by
  show (bigSep (Finset.univ : Finset (Fin 2)) fun c => dnRes m d c) = _
  rw [bigSep_sep', bigSep_sep']
  rfl

set_option maxHeartbeats 1000000 in
/-- @main on device `d`'s TensorCore: the call from read tokens of the class words and the table and the result's parts,
    all put back after it; then the rest of the program. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d) := by
  unfold SparseCore.Cfg.tcRes G
  rw [unscopedBufs_eq, main_eq, wp_bind]
  iintro ⟨#Hctx, Hst, ⟨Hb, ⟨Ha0, Ha1, Ha2, Hv0, Hv1, Hv2, Hv3, Hc, Hv4⟩, -, -⟩, ⟨Hg, Htk⟩⟩
  ihave Ht := (pointsTo_toks_split fullShare 2) $$ Ha2
  icases Ht with ⟨Htd, Htt⟩
  ihave Hs := (pointsTo_toks_split fullShare 2) $$ Ha1
  icases Hs with ⟨Hsd, Hss⟩
  ihave Ho := (Entails.of_eq ((oPts_parts (F := F) d (m (oLoc d))).trans (parts_regroup _))) $$ Hv0
  iapply ((K (F := F)).wp_run (D (F := F)) 𝒱 (EH := EH) (P := P m) κ d 0) $$ [Hst Htt Hss Ho Hb Ha0 Hv1 Hv2 Hv3 Hc Hv4 Htd Hsd Hg Htk]
  isplitr; · iexact Hctx
  isplitl [Hst]; · iexact Hst
  isplitl [Htt Hss Ho]
  · rw [st0_eq]
    isplitl [Htt]; · iexact Htt
    isplitl [Hss]; · iexact Hss
    iexact Ho
  iintro ⟨Hst, Hdn⟩
  ihave Hdn' := (Entails.of_eq (dn0_eq m d)) $$ Hdn
  icases Hdn' with ⟨Htt, Hss, Ho⟩
  ihave Ha2 := (pointsTo_toks_join fullShare 2) $$ [Htd Htt]
  · isplitl [Htd]; · iexact Htd
    iexact Htt
  ihave Ha1 := (pointsTo_toks_join fullShare 2) $$ [Hsd Hss]
  · isplitl [Hsd]; · iexact Hsd
    iexact Hss
  ihave Hv0 := (Entails.of_eq ((oPts_parts (F := F) d (Gv m d)).trans (parts_regroup _)).symm) $$ Ho
  iapply (main_tail m (P m) κ d) $$ [Hst Hb Ha0 Ha1 Ha2 Hv0 Hv1 Hv2 Hv3 Hc Hv4 Hg Htk]
  isplitr; · iexact Hctx
  isplitl [Hst]; · iexact Hst
  isplitl [Hb]; · iexact Hb
  isplitl [Ha0 Ha1 Ha2 Hv0 Hv1 Hv2 Hv3 Hc Hv4]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hc]; · iexact Hc
    iexact Hv4
  isplitl [Hg]; · iexact Hg
  iexact Htk

/-! ## The program's run -/

/-- At the compiled mesh, from any memory whose class words name columns and whose semaphores read zero: every weakly
    fair execution of the TensorCore, the sequencers and the tiles terminates, and every final memory has the three
    arguments as launched and the result at the mean of the accumulated word. -/
theorem run_main [∀ e, Nonempty (Elt F e)] (hpre : PreT m) :
    θ_run (Cert.Kernel.defs (F := F)) (Cert.Kernel.threads (F := F)) ⟨m, fun _ => 0, ρ⟩
      (fun r => ∀ c : Dev nD, r.2.mem ((T c : Thread nD τ).loc main_arg0) = m ((T c : Thread nD τ).loc main_arg0) ∧ r.2.mem (sLoc c) = m (sLoc c)
        ∧ r.2.mem (tLoc c) = m (tLoc c) ∧ r.2.mem ((T c : Thread nD τ).loc main_v4) = meanV m c) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (hu₀ (P m) (P_x m)) (hmain m ρ) (fq m) (hfin m) _ (fun _ h => h)

end Cert.Proof.KB
end
-- ==== Proof.KerPay.lean ====
import proofs.«215473_g55439437856794_cont_9to1_m_142_25_alg».proof.Proof.Gen.KernelIdeal.Skeleton
import proofs.«215473_g55439437856794_cont_9to1_m_142_25_alg».proof.Proof.Spec
import Idealize.ShloMosaic.PureOps.Ideal.Laws
import Idealize.ShloMosaic.Lib.ValueIdx
import Idealize.ShloMosaic.Lib.ValueLayout
import Idealize.ShloMosaic.Lib.Pipeline.Value

open scoped BigOperators
open Idealize.ShloMosaic Idealize.ShloMosaic.ValueIdx Cert.KernelIdeal

noncomputable section

namespace Cert.Proof.KerPay

/-- The flat row `128 r + g` of a block of 2048 rows seen as 16 × 128. -/
def row (r : Fin 16) (g : Fin 128) : Fin 2048 := ⟨128 * r.val + g.val, by omega⟩

/-! ## Layout operations of the block, read at coordinates -/

theorem cast_x (v : S2048x600.Idx → EReal) (h : S2048x600.ShapeCasts S16x128x600) (r : Fin 16) (g : Fin 128) (k : Fin 600) :
    shapeCast S16x128x600 v h (ix3 r g k) = v (ix2 (row r g) k) :=
  shapeCast_apply v h _ _ (by
    rw [Shape.rowMajor_val_two, Shape.rowMajor_val_three]
    show (128 * r.val + g.val) * 600 + k.val = (r.val * 128 + g.val) * 600 + k.val
    omega)

theorem cast_col {α : Type} (v : S16x128.Idx → α) (h : S16x128.ShapeCasts S16x128x1) (r : Fin 16) (g : Fin 128) (u : Fin 1) :
    shapeCast S16x128x1 v h (ix3 r g u) = v (ix2 r g) :=
  shapeCast_apply v h _ _ (by
    have hu : u.val = 0 := by omega
    rw [Shape.rowMajor_val_two, Shape.rowMajor_val_three]
    show r.val * 128 + g.val = (r.val * 128 + g.val) * 1 + u.val
    omega)

theorem bcast_col {α : Type} (v : S16x128x1.Idx → α) (h : S16x128x1.Broadcasts S16x128x600) (r : Fin 16) (g : Fin 128) (k : Fin 600) :
    broadcastTo S16x128x600 v h (ix3 r g k) = v (ix3 r g (0 : Fin 1)) :=
  broadcastTo_apply v h _ _ fun a => by
    match a with
    | ⟨0, _⟩ => rfl
    | ⟨1, _⟩ => rfl
    | ⟨2, _⟩ => rfl

theorem cast_s (v : S2048.Idx → EReal) (h : S2048.ShapeCasts S16x128) (r : Fin 16) (g : Fin 128) :
    shapeCast S16x128 v h (ix2 r g) = v (ix1 (row r g)) :=
  shapeCast_apply v h _ _ (by
    rw [Shape.rowMajor_val_two, Shape.rowMajor_val_one]
    show 128 * r.val + g.val = r.val * 128 + g.val
    omega)

theorem iota_lane (h : S16x128x600.Iotas .tc 32 [2]) (r : Fin 16) (g : Fin 128) (k : Fin 600) :
    iota .tc S16x128x600 32 [2] h (ix3 r g k) = BitVec.ofNat 32 k.val :=
  iota_single_apply .tc S16x128x600 32 2 h (ix3 r g k)

/-- The lane reductions insert the lane coordinate last. -/
theorem lift_lane (h : S16x128x600.Reduces [2] S16x128) (r : Fin 16) (g : Fin 128) (k : Fin 600) :
    h.lift (ix2 r g) k = ix3 r g k := by
  funext c
  match c with
  | ⟨0, _⟩ => rfl
  | ⟨1, _⟩ => rfl
  | ⟨2, _⟩ => rfl

/-- A row's maximum: the fold of `max` from the accumulator's value over the 600 lanes. -/
theorem max_lane (src : FVec Ideal S16x128x600 .f32) (h : S16x128x600.Reduces [2] S16x128) (hφ : FKind.Formats .f32)
    (hacc : (0xFF800000#32 : BitVec 32) = 0xFF800000#32) (r : Fin 16) (g : Fin 128) :
    multiReduction .maximumf [2] S16x128 src 0xFF800000#32 h hφ hacc (ix2 r g)
      = (Finset.univ : Finset (Fin 600)).fold max (Ideal.ofBits .f32 0xFF800000#32) (fun k => src (ix3 r g k)) := by
  refine (Ideal.multiReduction_maximumf_single src _ h hφ hacc (ix2 r g)).trans ?_
  refine congrArg (fun f => (Finset.univ : Finset (Fin 600)).fold max (Ideal.ofBits .f32 0xFF800000#32) f) ?_
  funext k
  exact congrArg src (lift_lane h r g k)

/-- A row's sum over the 600 lanes. -/
theorem sum_lane (src : FVec Ideal S16x128x600 .f32) (h : S16x128x600.Reduces [2] S16x128) (hφ : FKind.Formats .f32)
    (hacc : (0x00000000#32 : BitVec 32) = 0x00000000#32) (r : Fin 16) (g : Fin 128) :
    multiReduction .add [2] S16x128 src 0x00000000#32 h hφ hacc (ix2 r g) = ∑ k : Fin 600, src (ix3 r g k) := by
  refine (Ideal.multiReduction_add_single src _ h hφ hacc (ix2 r g)).trans ?_
  exact Finset.sum_congr rfl fun k _ => congrArg src (lift_lane h r g k)

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of a whole 1 × 16 × 128 tile into its one cell. -/
theorem sum_tile (src : FVec Ideal S1x16x128 .f32) (h : S1x16x128.Reduces [1, 2] S1) (hφ : FKind.Formats .f32)
    (hacc : (0x00000000#32 : BitVec 32) = 0x00000000#32) (j : S1.Idx) :
    multiReduction .add [1, 2] S1 src 0x00000000#32 h hφ hacc j = ∑ r : Fin 16, ∑ g : Fin 128, src (ix3 (0 : Fin 1) r g) := by
  refine (Ideal.multiReduction_add_total src _ h (fun b => by match b with | ⟨0, _⟩ => rfl) hφ hacc j).trans ?_
  rw [sum_idx3 (n0 := 1) (n1 := 16) (n2 := 128) src]
  exact Fin.sum_univ_one _

/-- The one cell, seen as 1 × 1 × 1 and extracted. -/
theorem extract_cell {α : Type} (v : S1.Idx → α) (h : S1.ShapeCasts S1x1x1) (hp : ∀ a, (![0, 0, 0] : Fin 3 → Nat) a < S1x1x1.size a) :
    extractAt ![0, 0, 0] (shapeCast S1x1x1 v h) hp = v (ix1 (0 : Fin 1)) := by
  unfold extractAt
  exact shapeCast_apply v h _ _ (by
    rw [Shape.rowMajor_val_one, Shape.rowMajor_val_three]
    rfl)

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (p : CmpIPredicate) (x y : IVec s w) (i : s.Idx) : cmpi p x y i = IntOp.cmpi p (x i) (y i) := rfl
theorem ofBits_scalar (φ : FTy) (b : BitVec φ.bits) : Scalar.ofBits (F := Ideal) φ b = Ideal.ofBits φ b := rfl

open Cert.Proof

/-- Among the 600 lanes exactly the lane `t` passes the comparison with the lane number, so the masked sum picks it. -/
theorem pick (f : Fin 600 → EReal) (t : BitVec 32) (ht : t.toNat < 600) :
    ∑ k : Fin 600, Scalar.select (IntOp.cmpi .eq (BitVec.ofNat 32 k.val) t) (f k) 0 = f (Spec.col t) := by
  have hc : ∀ k : Fin 600, IntOp.cmpi .eq (BitVec.ofNat 32 k.val) t = 1 ↔ k = Spec.col t := by
    intro k
    have h1 : (IntOp.cmpi .eq (BitVec.ofNat 32 k.val) t = 1) ↔ (BitVec.ofNat 32 k.val = t) := by
      show BitVec.ofBool (BitVec.ofNat 32 k.val == t) = 1#1 ↔ _
      by_cases h : BitVec.ofNat 32 k.val = t
      · have hb : (BitVec.ofNat 32 k.val == t) = true := beq_iff_eq.mpr h
        exact iff_of_true (by rw [hb]; rfl) h
      · have hb : (BitVec.ofNat 32 k.val == t) = false := beq_eq_false_iff_ne.mpr h
        exact iff_of_false (by rw [hb]; decide) h
    rw [h1]
    have hk := k.isLt
    constructor
    · intro h
      apply Fin.ext
      rw [Spec.col_val_of_lt ht, ← h, BitVec.toNat_ofNat]
      omega
    · intro h
      subst h
      apply BitVec.eq_of_toNat_eq
      rw [BitVec.toNat_ofNat, Spec.col_val_of_lt ht]
      omega
  simp only [Scalar.select, hc]
  rw [Finset.sum_ite_eq']
  simp

/-- The largest entry of row `n` of a block (folded from `-∞`). -/
def bmax (xb : S2048x600.Idx → EReal) (n : Fin 2048) : EReal :=
  (Finset.univ : Finset (Fin 600)).fold max ⊥ (fun k => xb (ix2 n k))

/-- The sum over row `n` of a block of the exponentials of the entries less the row's largest. -/
def bsum (xb : S2048x600.Idx → EReal) (n : Fin 2048) : EReal :=
  ∑ k : Fin 600, Ideal.exp (xb (ix2 n k) - bmax xb n)

/-! ## The payload's intermediate vectors, named -/

/-- The block of logits seen as 16 × 128 × 600. -/
def X3 (xb : Vec Ideal S2048x600 .f32) : FVec Ideal S16x128x600 .f32 :=
  shapeCast S16x128x600 xb Gen.shapeCasts_S2048x600_S16x128x600

/-- The rows' maxima. -/
def MX (xb : Vec Ideal S2048x600 .f32) : FVec Ideal S16x128 .f32 :=
  multiReduction .maximumf [2] S16x128 (X3 xb) 0xFF800000#32 Gen.reduces_S16x128x600_S16x128 (.inl rfl) rfl

/-- The rows' sums of exponentials. -/
def SM (xb : Vec Ideal S2048x600 .f32) : FVec Ideal S16x128 .f32 :=
  multiReduction .add [2] S16x128
    (exp (subf (X3 xb) (broadcastTo S16x128x600 (shapeCast S16x128x1 (MX xb) Gen.shapeCasts_S16x128_S16x128x1)
      Gen.broadcasts_S16x128x1_S16x128x600)))
    0x00000000#32 Gen.reduces_S16x128x600_S16x128 (.inl rfl) rfl

/-- The rows' entries at their target columns, as masked sums. -/
def PK (xb : Vec Ideal S2048x600 .f32) (tb : Vec Ideal S16x128 .i32) : FVec Ideal S16x128 .f32 :=
  multiReduction .add [2] S16x128
    (select
      (cmpi .eq (iota .tc S16x128x600 32 [2] Gen.iota_S16x128x600_d2_w32)
        (broadcastTo S16x128x600
          (shapeCast S16x128x1 (shapeCast S16x128 tb Gen.shapeCasts_S16x128_S16x128) Gen.shapeCasts_S16x128_S16x128x1)
          Gen.broadcasts_S16x128x1_S16x128x600))
      (X3 xb) (broadcast S16x128x600 (Scalar.ofBits .f32 0x00000000#32)))
    0x00000000#32 Gen.reduces_S16x128x600_S16x128 (.inl rfl) rfl

/-- The rows' weights. -/
def WT (sb : Vec Ideal S2048 .f32) : FVec Ideal S16x128 .f32 :=
  divf (broadcast S16x128 (Scalar.ofBits .f32 0x41200000#32))
    (addf (broadcast S16x128 (Scalar.ofBits .f32 0x3F800000#32))
      (exp (mulf (broadcast S16x128 (Scalar.ofBits .f32 0x40800000#32))
        (shapeCast S16x128 (shapeCast S2048 sb Gen.shapeCasts_S2048_S2048) Gen.shapeCasts_S2048_S16x128))))

/-- The rows' terms. -/
def TM (xb : Vec Ideal S2048x600 .f32) (tb : Vec Ideal S16x128 .i32) (sb : Vec Ideal S2048 .f32) : FVec Ideal S16x128 .f32 :=
  mulf (WT sb) (subf (addf (MX xb) (log (SM xb))) (PK xb tb))

/-- The payload is the old accumulator plus the one cell of the tile's total. -/
theorem pay_unfold (xb : Vec Ideal S2048x600 .f32) (tb : Vec Ideal S16x128 .i32) (sb : Vec Ideal S2048 .f32) (a : Elt Ideal .f32) :
    Gen.k1_pay1 (F := Ideal) xb tb sb a
      = Scalar.addf a (extractAt ![0, 0, 0]
          (shapeCast S1x1x1
            (multiReduction .add [1, 2] S1 (shapeCast S1x16x128 (TM xb tb sb) Gen.shapeCasts_S16x128_S1x16x128)
              0x00000000#32 Gen.reduces_S1x16x128_S1 (.inl rfl) rfl)
            Gen.shapeCasts_S1_S1x1x1)
          Gen.inpos_S1x1x1_p0_0_0) := rfl

theorem X3_apply (xb : Vec Ideal S2048x600 .f32) (r : Fin 16) (g : Fin 128) (k : Fin 600) :
    X3 xb (ix3 r g k) = xb (ix2 (row r g) k) := cast_x xb _ r g k

theorem MX_apply (xb : Vec Ideal S2048x600 .f32) (r : Fin 16) (g : Fin 128) : MX xb (ix2 r g) = bmax xb (row r g) := by
  refine (max_lane (X3 xb) Gen.reduces_S16x128x600_S16x128 (.inl rfl) rfl r g).trans ?_
  rw [Spec.ofBits_negInf]
  unfold bmax
  simp only [X3_apply]

theorem SM_apply (xb : Vec Ideal S2048x600 .f32) (r : Fin 16) (g : Fin 128) : SM xb (ix2 r g) = bsum xb (row r g) := by
  refine (sum_lane _ Gen.reduces_S16x128x600_S16x128 (.inl rfl) rfl r g).trans ?_
  refine Finset.sum_congr rfl fun k _ => ?_
  rw [exp_apply, subf_apply, bcast_col, cast_col, MX_apply, X3_apply]

theorem PK_apply (xb : Vec Ideal S2048x600 .f32) (tb : Vec Ideal S16x128 .i32) (r : Fin 16) (g : Fin 128)
    (ht : (tb (ix2 r g)).toNat < 600) : PK xb tb (ix2 r g) = xb (ix2 (row r g) (Spec.col (tb (ix2 r g)))) := by
  refine (sum_lane _ Gen.reduces_S16x128x600_S16x128 (.inl rfl) rfl r g).trans ?_
  refine (Finset.sum_congr rfl fun k _ => ?_).trans (pick (fun k => xb (ix2 (row r g) k)) (tb (ix2 r g)) ht)
  rw [select_apply, cmpi_apply, iota_lane, bcast_col, cast_col, shapeCast_self, X3_apply, broadcast_apply, ofBits_scalar,
    Spec.ofBits_zero]

theorem WT_apply (sb : Vec Ideal S2048 .f32) (r : Fin 16) (g : Fin 128) :
    WT sb (ix2 r g) = Ideal.div 10 (1 + Ideal.exp (4 * sb (ix1 (row r g)))) := by
  simp only [WT, divf_apply, addf_apply, exp_apply, mulf_apply, broadcast_apply, cast_s, shapeCast_self, ofBits_scalar,
    Spec.ofBits_ten, Spec.ofBits_one, Spec.ofBits_four]

theorem TM_apply (xb : Vec Ideal S2048x600 .f32) (tb : Vec Ideal S16x128 .i32) (sb : Vec Ideal S2048 .f32) (j : S16x128.Idx) :
    TM xb tb sb j = WT sb j * ((MX xb j + Ideal.log (SM xb j)) - PK xb tb j) := by
  unfold TM
  rw [mulf_apply, subf_apply, addf_apply, log_apply]

/-- THE BLOCK'S STEP: the new accumulator is the old one plus, over the block's 16 × 128 rows `n = 128 r + g`, the weight
    `10 / (1 + exp (4 s n))` times (`M n + log (S n)` less the row's entry at its target column). -/
theorem pay_eq (xb : Vec Ideal S2048x600 .f32) (tb : Vec Ideal S16x128 .i32) (sb : Vec Ideal S2048 .f32) (a : Elt Ideal .f32)
    (ht : ∀ j, (tb j).toNat < 600) :
    Gen.k1_pay1 (F := Ideal) xb tb sb a
      = a + ∑ r : Fin 16, ∑ g : Fin 128,
          Ideal.div 10 (1 + Ideal.exp (4 * sb (ix1 (row r g))))
            * ((bmax xb (row r g) + Ideal.log (bsum xb (row r g))) - xb (ix2 (row r g) (Spec.col (tb (ix2 r g))))) := by
  rw [pay_unfold]
  show a + _ = a + _
  refine congrArg (a + ·) ?_
  refine (extract_cell _ _ _).trans ?_
  refine (sum_tile _ Gen.reduces_S1x16x128_S1 (.inl rfl) rfl _).trans ?_
  refine Finset.sum_congr rfl fun r _ => Finset.sum_congr rfl fun g _ => ?_
  refine (shapeCast_ab_1ab_apply _ _ _ _ _).trans ?_
  refine (TM_apply xb tb sb (ix2 r g)).trans ?_
  rw [WT_apply, MX_apply, SM_apply, PK_apply xb tb r g (ht _)]

end Cert.Proof.KerPay
-- ==== Proof.SpecReal.lean ====
import proofs.«215473_g55439437856794_cont_9to1_m_142_25_alg».proof.Proof.Spec

/-! The loss formula on real inputs: every quantity in it is a real number, and the per-row term
`−(W · ((x_t − M) − log S))` is `W · ((M + log S) − x_t)`. -/

noncomputable section

namespace Cert.Proof.Spec

open Idealize.ShloMosaic
open scoped BigOperators

theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_sum' {ι : Type*} (s : Finset ι) (f : ι → ℝ) : ∑ k ∈ s, (f k : EReal) = ((∑ k ∈ s, f k : ℝ) : EReal) := by
  induction s using Finset.cons_induction with
  | empty => simp
  | cons a s ha ih => rw [Finset.sum_cons, Finset.sum_cons, ih, EReal.coe_add]

/-- The fold of `max` from −∞ over a nonempty finite family of reals is a real. -/
theorem fold_max_real {ι : Type*} (s : Finset ι) (hs : s.Nonempty) (f : ι → EReal)
    (hf : ∀ k ∈ s, ∃ r : ℝ, f k = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, hr, max_bot_right]⟩
  | cons a s ha hs ih =>
    obtain ⟨r, hr⟩ := hf a (Finset.mem_cons_self a s)
    obtain ⟨r', hr'⟩ := ih (fun k hk => hf k (Finset.mem_cons_of_mem hk))
    exact ⟨max r r', by rw [Finset.fold_cons, hr, hr', coe_max']⟩

section
variable (x sim : Fin 16384 → Fin 600 → EReal) (t : Fin 16384 → BitVec 32)

theorem rowMax_real (hx : ∀ n k, ∃ r : ℝ, x n k = (r : EReal)) (n : Fin 16384) : ∃ r : ℝ, rowMax x n = (r : EReal) :=
  fold_max_real Finset.univ ⟨⟨0, by decide⟩, Finset.mem_univ _⟩ _ (fun k _ => hx n k)

theorem rowSum_real_pos (hx : ∀ n k, ∃ r : ℝ, x n k = (r : EReal)) (n : Fin 16384) :
    ∃ r : ℝ, 0 < r ∧ rowSum x n = (r : EReal) := by
  obtain ⟨m, hm⟩ := rowMax_real x hx n
  choose a ha using hx n
  refine ⟨∑ k : Fin 600, Real.exp (a k - m), ?_, ?_⟩
  · exact Finset.sum_pos (fun k _ => Real.exp_pos _) ⟨⟨0, by decide⟩, Finset.mem_univ _⟩
  · unfold rowSum
    rw [hm, ← coe_sum']
    refine Finset.sum_congr rfl fun k _ => ?_
    rw [ha k, ← EReal.coe_sub, Ideal.exp_coe]

theorem weight_real (hs : ∀ n k, ∃ r : ℝ, sim n k = (r : EReal)) (n : Fin 16384) :
    ∃ r : ℝ, weight sim t n = (r : EReal) := by
  obtain ⟨s, hs'⟩ := hs n (col (t n))
  have hpos : (1 + Real.exp (4 * s)) ≠ 0 := by have := Real.exp_pos (4 * s); linarith
  refine ⟨10 * (1 / (1 + Real.exp (4 * s))), ?_⟩
  unfold weight
  rw [hs', ← coe_ofNat 4, ← EReal.coe_mul, Ideal.exp_coe, ← EReal.coe_one, ← EReal.coe_add, Ideal.div_coe hpos,
    ← coe_ofNat 10, ← EReal.coe_mul]

/-- On real inputs the loss is the mean of `W · ((M + log S) − x_t)` over the rows. -/
theorem loss_alt (hx : ∀ n k, ∃ r : ℝ, x n k = (r : EReal)) (hs : ∀ n k, ∃ r : ℝ, sim n k = (r : EReal)) :
    loss x sim t
      = Ideal.div (∑ n : Fin 16384, weight sim t n * ((rowMax x n + Ideal.log (rowSum x n)) - x n (col (t n)))) 16384 := by
  unfold loss
  refine congrArg (fun s : EReal => Ideal.div s 16384) (Finset.sum_congr rfl fun n _ => ?_)
  obtain ⟨w, hw⟩ := weight_real sim t hs n
  obtain ⟨m, hm⟩ := rowMax_real x hx n
  obtain ⟨S, hSpos, hS⟩ := rowSum_real_pos x hx n
  obtain ⟨a, ha⟩ := hx n (col (t n))
  have hlog : Ideal.log (rowSum x n) = ((Real.log S : ℝ) : EReal) := by
    rw [hS, Ideal.log_coe, if_neg (not_le.2 hSpos)]
  rw [hw, hm, hlog, ha]
  rw [← EReal.coe_sub, ← EReal.coe_sub, ← EReal.coe_mul, ← EReal.coe_neg, ← EReal.coe_add, ← EReal.coe_sub, ← EReal.coe_mul]
  congr 1
  ring

end

end Cert.Proof.Spec

end
-- ==== Proof.Algebra.lean ====
import proofs.«215473_g55439437856794_cont_9to1_m_142_25_alg».proof.Proof.KerPay
import proofs.«215473_g55439437856794_cont_9to1_m_142_25_alg».proof.Proof.SpecReal

open scoped BigOperators
open Idealize.ShloMosaic Idealize.ShloMosaic.ValueIdx Cert.KernelIdeal

noncomputable section

namespace Cert.Proof.Algebra

open Cert.Proof Cert.Proof.KerPay

/-- Row `m` of block `i` is row `2048 i + m` of the whole array. -/
def glob (i : Fin 8) (m : Fin 2048) : Fin 16384 := ⟨2048 * i.val + m.val, by omega⟩

/-- Block `i` of the logits: rows `2048 i … 2048 i + 2047`. -/
def xblk (x : Fin 16384 → Fin 600 → EReal) (i : Fin 8) : S2048x600.Idx → EReal :=
  fun j => x (glob i ⟨(j 0).val, idx2_lt0 j⟩) ⟨(j 1).val, idx2_lt1 j⟩

/-- Block `i` of the targets, seen as 16 × 128: entry `(r, g)` is row `2048 i + 128 r + g`. -/
def tblk (t : Fin 16384 → BitVec 32) (i : Fin 8) : S16x128.Idx → BitVec 32 :=
  fun j => t (glob i (row ⟨(j 0).val, idx2_lt0 j⟩ ⟨(j 1).val, idx2_lt1 j⟩))

/-- Block `i` of the gathered similarities: each row's similarity at its target column. -/
def sblk (sim : Fin 16384 → Fin 600 → EReal) (t : Fin 16384 → BitVec 32) (i : Fin 8) : S2048.Idx → EReal :=
  fun j => sim (glob i ⟨(j 0).val, (j 0).isLt⟩) (Spec.col (t (glob i ⟨(j 0).val, (j 0).isLt⟩)))

theorem bmax_xblk (x : Fin 16384 → Fin 600 → EReal) (i : Fin 8) (m : Fin 2048) :
    bmax (xblk x i) m = Spec.rowMax x (glob i m) := rfl

theorem bsum_xblk (x : Fin 16384 → Fin 600 → EReal) (i : Fin 8) (m : Fin 2048) :
    bsum (xblk x i) m = Spec.rowSum x (glob i m) := rfl

theorem xblk_apply (x : Fin 16384 → Fin 600 → EReal) (i : Fin 8) (m : Fin 2048) (k : Fin 600) :
    xblk x i (ix2 m k) = x (glob i m) k := rfl

theorem tblk_apply (t : Fin 16384 → BitVec 32) (i : Fin 8) (r : Fin 16) (g : Fin 128) :
    tblk t i (ix2 r g) = t (glob i (row r g)) := rfl

theorem sblk_apply (sim : Fin 16384 → Fin 600 → EReal) (t : Fin 16384 → BitVec 32) (i : Fin 8) (m : Fin 2048) :
    sblk sim t i (ix1 m) = sim (glob i m) (Spec.col (t (glob i m))) := rfl

/-- The rows of the whole array, as block, sublane group and lane. -/
def rowEquiv : Fin 8 × Fin 16 × Fin 128 ≃ Fin 16384 where
  toFun p := glob p.1 (row p.2.1 p.2.2)
  invFun n := (⟨n.val / 2048, by have := n.isLt; omega⟩, ⟨n.val % 2048 / 128, by have := n.isLt; omega⟩,
    ⟨n.val % 128, by omega⟩)
  left_inv p := by
    obtain ⟨i, r, g⟩ := p
    have hi := i.isLt
    have hr := r.isLt
    have hg := g.isLt
    refine Prod.ext (Fin.ext ?_) (Prod.ext (Fin.ext ?_) (Fin.ext ?_))
    · show (2048 * i.val + (128 * r.val + g.val)) / 2048 = i.val
      omega
    · show (2048 * i.val + (128 * r.val + g.val)) % 2048 / 128 = r.val
      omega
    · show (2048 * i.val + (128 * r.val + g.val)) % 128 = g.val
      omega
  right_inv n := by
    have hn := n.isLt
    refine Fin.ext ?_
    show 2048 * (n.val / 2048) + (128 * (n.val % 2048 / 128) + n.val % 128) = n.val
    omega

/-- A sum over the 16384 rows, block by block. -/
theorem sum_rows (K : Fin 16384 → EReal) :
    ∑ i : Fin 8, ∑ r : Fin 16, ∑ g : Fin 128, K (glob i (row r g)) = ∑ n : Fin 16384, K n := by
  rw [← Equiv.sum_comp rowEquiv K, Fintype.sum_prod_type]
  refine Finset.sum_congr rfl fun i _ => ?_
  rw [Fintype.sum_prod_type]
  rfl

/-- One row's term, as the kernel forms it. -/
def term (x sim : Fin 16384 → Fin 600 → EReal) (t : Fin 16384 → BitVec 32) (n : Fin 16384) : EReal :=
  Spec.weight sim t n * ((Spec.rowMax x n + Ideal.log (Spec.rowSum x n)) - x n (Spec.col (t n)))

/-- One grid point: the accumulator gains the terms of the block's rows. -/
theorem step_eq (x sim : Fin 16384 → Fin 600 → EReal) (t : Fin 16384 → BitVec 32) (ht : ∀ n, (t n).toNat < 600)
    (i : Fin 8) (a : EReal) :
    Gen.k1_pay1 (F := Ideal) (xblk x i) (tblk t i) (sblk sim t i) a
      = a + ∑ r : Fin 16, ∑ g : Fin 128, term x sim t (glob i (row r g)) := by
  rw [pay_eq (xblk x i) (tblk t i) (sblk sim t i) a (fun j => ht _)]
  refine congrArg (a + ·) (Finset.sum_congr rfl fun r _ => Finset.sum_congr rfl fun g _ => ?_)
  rw [bmax_xblk, bsum_xblk, xblk_apply, tblk_apply, sblk_apply]
  rfl

/-- Eight grid points from zero: the accumulator ends as the sum of all rows' terms. -/
theorem chain_sum (x sim : Fin 16384 → Fin 600 → EReal) (t : Fin 16384 → BitVec 32) (ht : ∀ n, (t n).toNat < 600)
    (acc : ℕ → EReal) (h0 : acc 0 = Scalar.ofBits (F := Ideal) .f32 0x00000000#32)
    (hstep : ∀ i : Fin 8, acc (i.val + 1)
      = Gen.k1_pay1 (F := Ideal) (xblk x i) (tblk t i) (sblk sim t i) (acc i.val)) :
    acc 8 = ∑ n : Fin 16384, term x sim t n := by
  have s0 : acc 1 = acc 0 + _ := (hstep 0).trans (step_eq x sim t ht 0 _)
  have s1 : acc 2 = acc 1 + _ := (hstep 1).trans (step_eq x sim t ht 1 _)
  have s2 : acc 3 = acc 2 + _ := (hstep 2).trans (step_eq x sim t ht 2 _)
  have s3 : acc 4 = acc 3 + _ := (hstep 3).trans (step_eq x sim t ht 3 _)
  have s4 : acc 5 = acc 4 + _ := (hstep 4).trans (step_eq x sim t ht 4 _)
  have s5 : acc 6 = acc 5 + _ := (hstep 5).trans (step_eq x sim t ht 5 _)
  have s6 : acc 7 = acc 6 + _ := (hstep 6).trans (step_eq x sim t ht 6 _)
  have s7 : acc 8 = acc 7 + _ := (hstep 7).trans (step_eq x sim t ht 7 _)
  have z : acc 0 = 0 := h0.trans Spec.ofBits_zero
  rw [← sum_rows, Fin.sum_univ_eight, s7, s6, s5, s4, s3, s2, s1, s0, z, zero_add]

/-- THE KERNEL'S RESULT: eight accumulations of block sums, divided by 16384, are the reference's loss, for finite
    inputs and targets in range. -/
theorem chain_eq (x sim : Fin 16384 → Fin 600 → EReal) (t : Fin 16384 → BitVec 32)
    (hx : ∀ n k, ∃ r : ℝ, x n k = (r : EReal)) (hs : ∀ n k, ∃ r : ℝ, sim n k = (r : EReal))
    (ht : ∀ n, (t n).toNat < 600)
    (acc : ℕ → EReal) (h0 : acc 0 = Scalar.ofBits (F := Ideal) .f32 0x00000000#32)
    (hstep : ∀ i : Fin 8, acc (i.val + 1)
      = Gen.k1_pay1 (F := Ideal) (xblk x i) (tblk t i) (sblk sim t i) (acc i.val)) :
    Ideal.div (acc 8) 16384 = Spec.loss x sim t := by
  rw [Spec.loss_alt x sim t hx hs, chain_sum x sim t ht acc h0 hstep]
  rfl

end Cert.Proof.Algebra
-- ==== Proof.Bridge.lean ====
import proofs.«215473_g55439437856794_cont_9to1_m_142_25_alg».proof.Proof.Setup
import proofs.«215473_g55439437856794_cont_9to1_m_142_25_alg».proof.Proof.Gather
import proofs.«215473_g55439437856794_cont_9to1_m_142_25_alg».proof.Proof.Region
import proofs.«215473_g55439437856794_cont_9to1_m_142_25_alg».proof.Proof.Spec
import proofs.«215473_g55439437856794_cont_9to1_m_142_25_alg».proof.Proof.KerPay
import proofs.«215473_g55439437856794_cont_9to1_m_142_25_alg».proof.Proof.Algebra
import Idealize.ShloMosaic.Lib.Pipeline.Regions
import Idealize.ShloMosaic.Lib.Pipeline.Value
import Idealize.ShloMosaic.Lib.ValueIdx
import Idealize.ShloMosaic.Lib.ValueLayout

/-!
From the region's blocks to the loss. The region leaves in its one-word result the accumulator after eight blocks, each
block's payload applied to the blocks of its three arrays. Block `i` of the logits is rows [2048 i, 2048 i + 2048) of the
logits; block `i` of the class words, seen as 128 × 128, is their entries 2048 i + 128 r + g; block `i` of the gathered
similarities is the similarity of each of those rows at the column its class word names. With these the accumulation is
the one the algebra module sums, and its quotient by 16384 is the loss.
-/

noncomputable section

namespace Cert.Proof.Bridge

open Cert.KernelIdeal Cert.KernelIdeal.Gen
open Idealize.ShloMosaic Idealize.ShloMosaic.ValueIdx Idealize.SL.Sem
open Cert.Proof.KI Cert.Proof.KerPay Cert.Proof.Algebra

variable {F : FTy → Type} [FloatOps F]

/-- The printed index maps over the grid: point `t` takes block `t` along the rows of each input, block 0 along the rest. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 ∧ win1_2.index t (0 : Fin 1) = t.val :=
  (by decide +kernel : ∀ t : Fin grid1.N, _)

theorem iblk0_apply (c : Dev nD) (A : Arrs F c) (t : Fin cfg1.N) (j : S2048x600.Idx) :
    iblk A 0 t j = (A 0 : S16384x600.Idx → F .f32) (ix2 ⟨2048 * t.val + (j 0).val, by
      have := t.isLt; have h8 : cfg1.N = 8 := N_1; have := idx2_lt0 j; omega⟩ ⟨(j 1).val, idx2_lt1 j⟩) := by
  obtain ⟨e0, e1, e2, e3, e4⟩ := idx_facts t
  unfold iblk
  rw [View.read_apply]
  refine congrArg (A 0 : S16384x600.Idx → F .f32) ?_
  funext a; apply Fin.ext
  match a with
  | ⟨0, _⟩ => show win1_0.index t (0 : Fin 2) * 2048 + 1 * (j 0).val = 2048 * t.val + (j 0).val; omega
  | ⟨1, _⟩ => show win1_0.index t (1 : Fin 2) * 600 + 1 * (j 1).val = (j 1).val; omega

theorem iblk1_apply (c : Dev nD) (A : Arrs F c) (t : Fin cfg1.N) (j : S16x128.Idx) :
    iblk A 1 t j = (A 1 : S128x128.Idx → BitVec 32) (ix2 ⟨16 * t.val + (j 0).val, by
      have := t.isLt; have h8 : cfg1.N = 8 := N_1; have := idx2_lt0 j; omega⟩ ⟨(j 1).val, idx2_lt1 j⟩) := by
  obtain ⟨e0, e1, e2, e3, e4⟩ := idx_facts t
  unfold iblk
  rw [View.read_apply]
  refine congrArg (A 1 : S128x128.Idx → BitVec 32) ?_
  funext a; apply Fin.ext
  match a with
  | ⟨0, _⟩ => show win1_1.index t (0 : Fin 2) * 16 + 1 * (j 0).val = 16 * t.val + (j 0).val; omega
  | ⟨1, _⟩ => show win1_1.index t (1 : Fin 2) * 128 + 1 * (j 1).val = (j 1).val; omega

theorem iblk2_apply (c : Dev nD) (A : Arrs F c) (t : Fin cfg1.N) (j : S2048.Idx) :
    iblk A 2 t j = (A 2 : S16384.Idx → F .f32) (ix1 ⟨2048 * t.val + (j 0).val, by
      have := t.isLt; have h8 : cfg1.N = 8 := N_1; have hj : (j 0).val < 2048 := (j 0).isLt; omega⟩) := by
  obtain ⟨e0, e1, e2, e3, e4⟩ := idx_facts t
  unfold iblk
  rw [View.read_apply]
  refine congrArg (A 2 : S16384.Idx → F .f32) ?_
  funext a; apply Fin.ext
  match a with
  | ⟨0, _⟩ => show win1_2.index t (0 : Fin 1) * 2048 + 1 * (j 0).val = 2048 * t.val + (j 0).val; omega

/-- The 16384-array seen as 128 × 128: entry (a, b) is entry 128 a + b. -/
theorem reshape128 (h : S16384.ShapeCasts S128x128) (a b : Fin 128) :
    Shape.reshapeEquiv h (ix2 a b) = ix1 (⟨128 * a.val + b.val, by omega⟩ : Fin 16384) :=
  Shape.reshapeEquiv_eq_of_rowMajor h (by
    rw [Shape.rowMajor_val_one, Shape.rowMajor_val_two]
    show 128 * a.val + b.val = a.val * 128 + b.val
    omega)

section Bridge
variable (m : (ℓ : Loc nD τ sig) → Buf (Elt Ideal) ℓ) (d : Dev nD) (A : Arrs Ideal d)

abbrev Xm : Fin 16384 → Fin 600 → EReal := fun n k => m ((d.tc : Thread nD τ).loc main_arg0) (ix2 n k)
abbrev Sm : Fin 16384 → Fin 600 → EReal := fun n k => m ((d.tc : Thread nD τ).loc main_arg1) (ix2 n k)
abbrev Tm : Fin 16384 → BitVec 32 := fun n => m ((d.tc : Thread nD τ).loc main_arg2) (ix1 n)

theorem blk0 (hA0 : A 0 = m ((d.tc : Thread nD τ).loc main_arg0)) (i : Fin 8) :
    (iblk A 0 (i.cast N_1.symm) : S2048x600.Idx → EReal) = xblk (Xm m d) i := by
  funext j
  rw [iblk0_apply, hA0]
  rfl

theorem blk1 (hA1 : A 1 = shapeCast S128x128 (m ((d.tc : Thread nD τ).loc main_arg2)) shapeCasts_S16384_S128x128) (i : Fin 8) :
    (iblk A 1 (i.cast N_1.symm) : S16x128.Idx → BitVec 32) = tblk (Tm m d) i := by
  funext j
  rw [iblk1_apply, hA1]
  unfold shapeCast
  rw [reshape128]
  unfold tblk Tm
  refine congrArg (m ((d.tc : Thread nD τ).loc main_arg2)) (congrArg ix1 (Fin.ext ?_))
  show 128 * (16 * i.val + (j 0).val) + (j 1).val = 2048 * i.val + (128 * (j 0).val + (j 1).val)
  omega

theorem blk2 (hA2 : A 2 = Gv m d) (i : Fin 8) :
    (iblk A 2 (i.cast N_1.symm) : S2048.Idx → EReal) = sblk (Sm m d) (Tm m d) i := by
  funext j
  rw [iblk2_apply, hA2]
  rfl

/-- The kernel's final value: the eight accumulations, divided by 16384, are the loss of the three arguments. -/
theorem kernel_value_of
    (hA0 : A 0 = m ((d.tc : Thread nD τ).loc main_arg0))
    (hA1 : A 1 = shapeCast S128x128 (m ((d.tc : Thread nD τ).loc main_arg2)) shapeCasts_S16384_S128x128)
    (hA2 : A 2 = Gv m d)
    (hfin0 : ∀ i : S16384x600.Idx, ∃ r : ℝ, m ((d.tc : Thread nD τ).loc main_arg0) i = (r : EReal))
    (hfin1 : ∀ i : S16384x600.Idx, ∃ r : ℝ, m ((d.tc : Thread nD τ).loc main_arg1) i = (r : EReal))
    (hrange : ∀ i : S16384.Idx, (m ((d.tc : Thread nD τ).loc main_arg2) i).toNat < 600)
    (v3 : S_.Idx → EReal) (hv3 : ∀ i, v3 i = accA A 8) :
    Host.divf (F := Ideal) (φ := .f32) v3 (constant S_ .f32 0x46800000#32)
      = fun _ => Spec.loss (Xm m d) (Sm m d) (Tm m d) := by
  funext i
  show Ideal.div (v3 i) (Ideal.ofBits .f32 0x46800000#32) = _
  rw [hv3, Spec.ofBits_16384]
  refine Algebra.chain_eq (Xm m d) (Sm m d) (Tm m d) (fun n k => hfin0 _) (fun n k => hfin1 _) (fun n => hrange _)
    (accA A) (accA_zero A) (fun i => ?_)
  have e := accA_succ A (i.cast N_1.symm)
  rw [blk0 m d A hA0 i, blk1 m d A hA1 i, blk2 m d A hA2 i] at e
  exact e

/-- The same, with the scalar read off the one-word result array as @main's reshape reads it. -/
theorem kernel_value
    (hA0 : A 0 = m ((d.tc : Thread nD τ).loc main_arg0))
    (hA1 : A 1 = shapeCast S128x128 (m ((d.tc : Thread nD τ).loc main_arg2)) shapeCasts_S16384_S128x128)
    (hA2 : A 2 = Gv m d)
    (hfin0 : ∀ i : S16384x600.Idx, ∃ r : ℝ, m ((d.tc : Thread nD τ).loc main_arg0) i = (r : EReal))
    (hfin1 : ∀ i : S16384x600.Idx, ∃ r : ℝ, m ((d.tc : Thread nD τ).loc main_arg1) i = (r : EReal))
    (hrange : ∀ i : S16384.Idx, (m ((d.tc : Thread nD τ).loc main_arg2) i).toNat < 600) :
    Host.divf (F := Ideal) (φ := .f32) (shapeCast S_ (fun _ : S1x1.Idx => accA A 8) shapeCasts_S1x1_S_) (constant S_ .f32 0x46800000#32)
      = fun _ => Spec.loss (Xm m d) (Sm m d) (Tm m d) :=
  kernel_value_of m d A hA0 hA1 hA2 hfin0 hfin1 hrange _ (fun _ => rfl)

end Bridge

end Cert.Proof.Bridge
end
-- ==== Proof.PreFacts.lean ====
import proofs.«215473_g55439437856794_cont_9to1_m_142_25_alg».proof.Pre_input_domain
import proofs.«215473_g55439437856794_cont_9to1_m_142_25_alg».proof.Proof.Gen.Pre_input_domain
import Idealize.ShloMosaic.Lib.ReduceAll
import Idealize.ShloMosaic.Lib.Affine
import Idealize.ShloMosaic.Lib.ValueIdx
import Idealize.ShloMosaic.Lib.Pipeline.Value
import Idealize.ShloMosaic.PureOps.Ideal
import Idealize.ShloMosaic.PureOps.Ideal.Laws

/-! What the precondition says of the three inputs: every class word is below 600 (read unsigned, hence
also nonnegative read signed), and every logit and every similarity is a real number. -/

noncomputable section

namespace Cert.Proof.PreFacts

open Cert.Pre_input_domain Cert.Pre_input_domain.Gen Idealize.ShloMosaic Idealize.ShloMosaic.ValueIdx

instance : Subsingleton S_.Idx := ⟨fun _ _ => funext fun d => d.elim0⟩

/-- The precondition's three conjuncts, each an "all" over an array, read at an element. -/
theorem parts {F : FTy → Type} [FloatOps F] (a0 a1 : FVec F S16384x600 .f32) (a2 : IVec S16384 32)
    (h : fn (F := F) a0 a1 a2 = fun _ => 1#1) :
    (∀ i : S16384x600.Idx, FloatOps.cmpf .olt (FloatOps.hostAbsf (a0 i)) (FloatOps.ofBits .f32 0x7F800000#32) = 1#1)
    ∧ (∀ i : S16384x600.Idx, FloatOps.cmpf .olt (FloatOps.hostAbsf (a1 i)) (FloatOps.ofBits .f32 0x7F800000#32) = 1#1)
    ∧ (∀ i : S16384.Idx, IntOp.cmpi .sge (a2 i) 0#32 = 1#1 ∧ IntOp.cmpi .sle (a2 i) 599#32 = 1#1) := by
  have h0 := congrFun h ix0
  dsimp only [fn] at h0
  obtain ⟨h8, h14⟩ := IntOp.andi_eq_one.1 h0
  obtain ⟨h3, h7⟩ := IntOp.andi_eq_one.1 h8
  refine ⟨fun i => ?_, fun i => ?_, fun i => ?_⟩
  · have hi := Host.reduce_andi_all _ _ _ _ _ h3 i
    rw [cmpf_apply, broadcastInDim_apply _ bcast_S_S16384x600 _ i ix0 (fun a => a.elim0)] at hi
    exact hi
  · have hi := Host.reduce_andi_all _ _ _ _ _ h7 i
    rw [cmpf_apply, broadcastInDim_apply _ bcast_S_S16384x600 _ i ix0 (fun a => a.elim0)] at hi
    exact hi
  · have hi := Host.reduce_andi_all _ _ _ _ _ h14 i
    obtain ⟨hge, hle⟩ := IntOp.andi_eq_one.1 hi
    constructor
    · have := hge
      change IntOp.cmpi .sge (a2 i) (broadcastInDim S16384 ![] bcast_S_S16384 (constantI S_ 32 0#32) i) = 1#1 at this
      rw [broadcastInDim_apply _ bcast_S_S16384 _ i ix0 (fun a => a.elim0)] at this
      exact this
    · have := hle
      change IntOp.cmpi .sle (a2 i) (broadcastInDim S16384 ![] bcast_S_S16384 (constantI S_ 32 599#32) i) = 1#1 at this
      rw [broadcastInDim_apply _ bcast_S_S16384 _ i ix0 (fun a => a.elim0)] at this
      exact this

/-- Every class word is below 600. -/
theorem range_of_pre {F : FTy → Type} [FloatOps F] (a0 a1 : FVec F S16384x600 .f32) (a2 : IVec S16384 32)
    (h : fn (F := F) a0 a1 a2 = fun _ => 1#1) : ∀ i, (a2 i).toNat < 600 := by
  intro i
  obtain ⟨hge, hle⟩ := (parts a0 a1 a2 h).2.2 i
  rw [IntOp.cmpi_sge, show (0#32 : BitVec 32).toInt = 0 from by decide] at hge
  rw [IntOp.cmpi_sle, show (599#32 : BitVec 32).toInt = 599 from by decide] at hle
  have hlt : 2 * (a2 i).toNat < 2 ^ 32 := BitVec.toInt_pos_iff.1 hge
  rw [BitVec.toInt_eq_toNat_of_lt hlt] at hle
  omega

/-- An extended real whose absolute value is below +∞ is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have hT : Ideal.ofBits .f32 0x7F800000#32 = ⊤ := by simp [Ideal.ofBits, Ideal.ieee]
  induction x using EReal.rec with
  | bot =>
    exfalso
    revert h
    show Ideal.cmp .olt (max (⊥ : EReal) (-⊥)) (Ideal.ofBits .f32 0x7F800000#32) = 1#1 → False
    rw [hT]; simp [Ideal.cmp]
  | coe r => exact ⟨r, rfl⟩
  | top =>
    exfalso
    revert h
    show Ideal.cmp .olt (max (⊤ : EReal) (-⊤)) (Ideal.ofBits .f32 0x7F800000#32) = 1#1 → False
    rw [hT]; simp [Ideal.cmp]

/-- Every logit and every similarity is a real number. -/
theorem finite_of_pre (a0 a1 : FVec Ideal S16384x600 .f32) (a2 : IVec S16384 32)
    (h : fn (F := Ideal) a0 a1 a2 = fun _ => 1#1) :
    (∀ i, ∃ r : ℝ, a0 i = (r : EReal)) ∧ (∀ i, ∃ r : ℝ, a1 i = (r : EReal)) :=
  ⟨fun i => real_of_abs_lt _ ((parts a0 a1 a2 h).1 i), fun i => real_of_abs_lt _ ((parts a0 a1 a2 h).2.1 i)⟩

end Cert.Proof.PreFacts

end
-- ==== Proof.RefIdx.lean ====
import proofs.«215473_g55439437856794_cont_9to1_m_142_25_alg».proof.ReferenceIdeal
import proofs.«215473_g55439437856794_cont_9to1_m_142_25_alg».proof.Proof.Gen.ReferenceIdeal
import Idealize.ShloMosaic.Lib.ValueIdx
import Idealize.ShloMosaic.Lib.Pipeline.Value
import Idealize.ShloMosaic.PureOps.Ideal.Laws

/-! The reference's index operations read at an index: the gather and the scatter at a pair of start
indices (row, column), the pair's concatenation, and the sum over a rank-one index set. -/

noncomputable section

namespace Cert.Proof.RefIdx

open Cert.ReferenceIdeal Cert.ReferenceIdeal.Gen Idealize.ShloMosaic Idealize.ShloMosaic.ValueIdx
open scoped BigOperators

abbrev G : GatherDims S16384x600 S16384x2 S16384 := gather_S16384x600_S16384x2_S16384_n_01_n_n_01_1_11
abbrev SC : ScatterDims S16384x600 S16384x2 S16384 := scatter_S16384x600_S16384x2_S16384_n_01_01_1

/-- The start-indices index (row `n`, component `c`). -/
abbrev si (n : Fin 16384) (c : Fin 2) : S16384x2.Idx := ix2 n c

/-- The gather at row `j`: the operand at (row, column), when the two start-index components of row `j`
    read signed are `r` and `c`, both in range (so the clamp does nothing). -/
theorem gather_apply {α : Type} (x : S16384x600.Idx → α) (idx : IVec S16384x2 32) (j : S16384.Idx)
    (r : Fin 16384) (c : Fin 600)
    (h0 : (idx (si (j 0) 0)).toInt = (r.val : Int)) (h1 : (idx (si (j 0) 1)).toInt = (c.val : Int)) :
    Host.gather G x idx j = x (ix2 r c) := by
  unfold Host.gather
  congr 1
  funext a
  refine Fin.ext ?_
  match a with
  | ⟨0, _⟩ =>
    show G.start j idx 0 + G.batchCoord j 0 + G.offCoord j 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ G.startIndexMap from by decide)]
    have hsi : G.siIdx j ⟨List.idxOf (0 : Fin 2) G.startIndexMap, List.idxOf_lt_length_iff.2 (by decide)⟩ = si (j 0) 0 := by
      funext b; refine Fin.ext ?_
      match b with
      | ⟨0, _⟩ => rfl
      | ⟨1, _⟩ => rfl
    rw [hsi, h0, Int.toNat_natCast]
    show min r.val (16384 - 1) = r.val
    have := r.isLt; omega
  | ⟨1, _⟩ =>
    show G.start j idx 1 + G.batchCoord j 1 + G.offCoord j 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ G.startIndexMap from by decide)]
    have hsi : G.siIdx j ⟨List.idxOf (1 : Fin 2) G.startIndexMap, List.idxOf_lt_length_iff.2 (by decide)⟩ = si (j 0) 1 := by
      funext b; refine Fin.ext ?_
      match b with
      | ⟨0, _⟩ => rfl
      | ⟨1, _⟩ => rfl
    rw [hsi, h1, Int.toNat_natCast]
    show min c.val (600 - 1) = c.val
    have := c.isLt; omega

/-- A scatter that stores the update (its body returns the update's element) of updates that all equal `v`:
    an element some update lands on holds `v` — every store to it stores `v`, and at least one happens. -/
theorem scatter_const_of_hit {α : Type} {s sidx u : Shape} {w : Nat} (d : ScatterDims s sidx u) (x : s.Idx → α)
    (idx : IVec sidx w) (upd : u.Idx → α) (v : α) (hupd : ∀ j, upd j = v) (j : u.Idx) (i : s.Idx)
    (hj : d.resultIdx? j idx = some i) :
    Host.scatter d (fun _ b => b) x idx upd i = v := by
  unfold Host.scatter
  have key : ∀ (l : List (Fin u.numel)) (r : s.Idx → α),
      (r i = v ∨ ∃ n ∈ l, d.resultIdx? (u.rowMajor.symm n) idx = some i) →
      (l.foldl (fun r n =>
          match d.resultIdx? (u.rowMajor.symm n) idx with
          | some i => fun i' => if i' = i then (fun _ b => b) (r i) (upd (u.rowMajor.symm n)) else r i'
          | none => r) r) i = v := by
    intro l
    induction l with
    | nil =>
      intro r h
      rcases h with h | ⟨n, hn, _⟩
      · exact h
      · exact absurd hn (List.not_mem_nil)
    | cons n l ih =>
      intro r h
      rw [List.foldl_cons]
      apply ih
      rcases h with h | ⟨n', hn', hres⟩
      · left
        generalize d.resultIdx? (u.rowMajor.symm n) idx = o
        cases o with
        | none => exact h
        | some i0 =>
          show (if i = i0 then upd (u.rowMajor.symm n) else r i) = v
          by_cases e : i = i0
          · rw [if_pos e]; exact hupd _
          · rw [if_neg e]; exact h
      · rcases List.mem_cons.1 hn' with e | hl
        · left
          subst e
          rw [hres]
          show (if i = i then upd (u.rowMajor.symm n') else r i) = v
          rw [if_pos rfl]; exact hupd _
        · right; exact ⟨n', hl, hres⟩
  exact key _ x (Or.inr ⟨u.rowMajor j, List.mem_finRange _, by rw [Equiv.symm_apply_apply]; exact hj⟩)

/-- Where row `j`'s update lands: at (row, column), when the two scatter-index components of row `j` read
    signed are `r` and `c`, both in range. -/
theorem scatter_resultIdx (idx : IVec S16384x2 32) (j : S16384.Idx) (r : Fin 16384) (c : Fin 600)
    (h0 : (idx (si (j 0) 0)).toInt = (r.val : Int)) (h1 : (idx (si (j 0) 1)).toInt = (c.val : Int)) :
    SC.resultIdx? j idx = some (ix2 r c) := by
  have hs0 : SC.start j idx 0 = (r.val : Int) := by
    unfold ScatterDims.start
    rw [dif_pos (show (0 : Fin 2) ∈ SC.scatterDimsToOperandDims from by decide)]
    have hsi : SC.siIdx j ⟨List.idxOf (0 : Fin 2) SC.scatterDimsToOperandDims, List.idxOf_lt_length_iff.2 (by decide)⟩ = si (j 0) 0 := by
      funext b; refine Fin.ext ?_
      match b with
      | ⟨0, _⟩ => rfl
      | ⟨1, _⟩ => rfl
    rw [hsi, h0]
  have hs1 : SC.start j idx 1 = (c.val : Int) := by
    unfold ScatterDims.start
    rw [dif_pos (show (1 : Fin 2) ∈ SC.scatterDimsToOperandDims from by decide)]
    have hsi : SC.siIdx j ⟨List.idxOf (1 : Fin 2) SC.scatterDimsToOperandDims, List.idxOf_lt_length_iff.2 (by decide)⟩ = si (j 0) 1 := by
      funext b; refine Fin.ext ?_
      match b with
      | ⟨0, _⟩ => rfl
      | ⟨1, _⟩ => rfl
    rw [hsi, h1]
  have hw0 : SC.window j 0 = 0 := by
    unfold ScatterDims.window; rw [dif_neg (by decide)]
  have hw1 : SC.window j 1 = 0 := by
    unfold ScatterDims.window; rw [dif_neg (by decide)]
  unfold ScatterDims.resultIdx?
  have hall : ∀ a : Fin S16384x600.rank, 0 ≤ SC.start j idx a + (SC.window j a : Int)
      ∧ SC.start j idx a + (SC.window j a : Int) < (S16384x600.size a : Int) := by
    intro a
    match a with
    | ⟨0, _⟩ =>
      show 0 ≤ SC.start j idx 0 + (SC.window j 0 : Int) ∧ SC.start j idx 0 + (SC.window j 0 : Int) < ((16384 : Nat) : Int)
      rw [hs0, hw0]; have := r.isLt; omega
    | ⟨1, _⟩ =>
      show 0 ≤ SC.start j idx 1 + (SC.window j 1 : Int) ∧ SC.start j idx 1 + (SC.window j 1 : Int) < ((600 : Nat) : Int)
      rw [hs1, hw1]; have := c.isLt; omega
  rw [dif_pos hall]
  congr 1
  funext a
  refine Fin.ext ?_
  match a with
  | ⟨0, _⟩ =>
    show (SC.start j idx 0 + (SC.window j 0 : Int)).toNat = r.val
    rw [hs0, hw0]; omega
  | ⟨1, _⟩ =>
    show (SC.start j idx 1 + (SC.window j 1 : Int)).toNat = c.val
    rw [hs1, hw1]; omega

/-- The pair (row, column) of start indices, read at component 0: the row array. -/
theorem concat_apply0 {α : Type} (a b : S16384x1.Idx → α) (n : Fin 16384) :
    concatenate S16384x2 1 [⟨S16384x1, a⟩, ⟨S16384x1, b⟩] concatenates_S16384x1_S16384x1_S16384x2_d1 (si n 0)
      = a (ix2 n (0 : Fin 1)) :=
  concatenate_pair_apply_left (1 : Fin S16384x2.rank) a b concatenates_S16384x1_S16384x1_S16384x2_d1 (si n 0) rfl
    (ix2 n (0 : Fin 1)) (fun b => by match b with | ⟨0, _⟩ => rfl | ⟨1, _⟩ => rfl)

/-- The pair (row, column) of start indices, read at component 1: the column array. -/
theorem concat_apply1 {α : Type} (a b : S16384x1.Idx → α) (n : Fin 16384) :
    concatenate S16384x2 1 [⟨S16384x1, a⟩, ⟨S16384x1, b⟩] concatenates_S16384x1_S16384x1_S16384x2_d1 (si n 1)
      = b (ix2 n (0 : Fin 1)) :=
  concatenate_pair_apply_right (1 : Fin S16384x2.rank) a b concatenates_S16384x1_S16384x1_S16384x2_d1 (si n 1) rfl rfl
    (ix2 n (0 : Fin 1)) (fun b hb => by match b with | ⟨0, _⟩ => rfl | ⟨1, _⟩ => exact absurd rfl hb) rfl

/-- A rank-one index set is its one coordinate's range. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- The row maximum the reference folds: at row `i`, the fold of `max` over the row's 600 columns. -/
theorem rowMax_apply {α : Type} (f : α → α → α) [Std.Commutative f] [Std.Associative f] (x : S16384x600.Idx → α)
    (init : S_.Idx → α) (i : S16384.Idx) :
    Host.reduce f x init reducesTo_S16384x600_S16384_d1 h_S_ i
      = (Finset.univ : Finset (Fin 600)).fold f (init ix0) (fun k => x (ix2 (i 0) k)) := by
  have hR : S16384x600.Reduces [1] S16384 := by decide
  rw [Host.reduce_eq_fold_single f x init reducesTo_S16384x600_S16384_d1 hR h_S_ i]
  have e1 : init (Shape.Idx.first h_S_) = init ix0 := congrArg init (eq_ix0 _)
  have e2 : (x ∘ hR.lift i) = fun k : Fin 600 => x (ix2 (i 0) k) := by
    funext k
    show x (hR.lift i k) = _
    congr 1
    funext a; refine Fin.ext ?_
    match a with
    | ⟨0, _⟩ => rfl
    | ⟨1, _⟩ => rfl
  rw [e1, e2]
  rfl

end Cert.Proof.RefIdx

end
-- ==== Proof.RefValue.lean ====
import proofs.«215473_g55439437856794_cont_9to1_m_142_25_alg».proof.Proof.Gen.ReferenceIdeal
import proofs.«215473_g55439437856794_cont_9to1_m_142_25_alg».proof.Proof.RefStages
import proofs.«215473_g55439437856794_cont_9to1_m_142_25_alg».proof.Proof.RefIdx
import proofs.«215473_g55439437856794_cont_9to1_m_142_25_alg».proof.Proof.Spec
import Idealize.ShloMosaic.Lib.Affine

/-! The reference program's result as a function of its three argument arrays: the closed formula
`Spec.loss` of the logits, the similarities and the class words, when every class word is below 600. -/

noncomputable section

namespace Cert.Proof.RefValue

open Cert.ReferenceIdeal Cert.ReferenceIdeal.Gen Cert.ReferenceIdeal.Read Idealize.ShloMosaic Idealize.ShloMosaic.ValueIdx
  Idealize.SL.Sem Cert.Proof.RefIdx Cert.Proof
open scoped BigOperators

abbrev FV : Type := (⟨S16384x600, .f32⟩ : BufTy).Contents (Elt Ideal)
abbrev IV : Type := (⟨S16384, .i32⟩ : BufTy).Contents (Elt Ideal)

/-! ## The start indices: (row, column), each normalised as a possibly negative index -/

theorem toInt_ofNat_small (n : Nat) (h : n < 16384) : (BitVec.ofNat 32 n).toInt = (n : Int) := by
  have e : (BitVec.ofNat 32 n).toNat = n := by rw [BitVec.toNat_ofNat]; omega
  rw [BitVec.toInt_eq_toNat_of_lt (by omega), e]

/-- A row number below 16384 is not negative, so its normalisation is itself. -/
theorem norm_iota (n : Fin 16384) :
    (Scalar.select (IntOp.cmpi .slt (BitVec.ofNat 32 n.val) 0#32) (IntOp.addi (BitVec.ofNat 32 n.val) 16384#32)
      (BitVec.ofNat 32 n.val)).toInt = (n.val : Int) := by
  have hz : (0#32 : BitVec 32).toInt = 0 := by decide
  have : IntOp.cmpi .slt (BitVec.ofNat 32 n.val) 0#32 = 0#1 :=
    eq_zero_of_ne_one (fun h => by
      rw [IntOp.cmpi_slt, toInt_ofNat_small _ n.isLt, hz] at h; omega)
  rw [this, select_zero, toInt_ofNat_small _ n.isLt]

/-- A class word below 600 is not negative, so its normalisation is itself: the column it names. -/
theorem norm_t (w : BitVec 32) (h : w.toNat < 600) :
    (Scalar.select (IntOp.cmpi .slt w 0#32) (IntOp.addi w 600#32) w).toInt = ((Spec.col w).val : Int) := by
  have hz : (0#32 : BitVec 32).toInt = 0 := by decide
  have hw : w.toInt = (w.toNat : Int) := BitVec.toInt_eq_toNat_of_lt (by omega)
  have : IntOp.cmpi .slt w 0#32 = 0#1 :=
    eq_zero_of_ne_one (fun h' => by rw [IntOp.cmpi_slt, hw, hz] at h'; omega)
  rw [this, select_zero, Spec.col_val_of_lt h, hw]

theorem v21_0 (x2 : IV) (n : Fin 16384) : (val_main_v21 (F := Ideal) x2 (si n 0)).toInt = (n.val : Int) := by
  unfold val_main_v21
  rw [concat_apply0, val_main_v19_apply, val_main_v13_apply, val_main_v10_apply, val_main_v12_apply, val_main_v0_apply, val_main_v9_apply, val_main_c_2_apply, val_main_v11_apply, val_main_c_3_apply]
  exact norm_iota n

theorem v21_1 (x2 : IV) (hr : ∀ i, (x2 i).toNat < 600) (n : Fin 16384) :
    (val_main_v21 (F := Ideal) x2 (si n 1)).toInt = ((Spec.col (x2 (ix1 n))).val : Int) := by
  have e : idx_main_v20 (ix2 n (0 : Fin 1)) = ix1 n := by
    funext a; match a with | ⟨0, _⟩ => rfl
  unfold val_main_v21
  rw [concat_apply1, val_main_v20_apply, val_main_v18_apply, val_main_v15_apply, val_main_v17_apply, val_main_v14_apply, val_main_c_4_apply, val_main_v16_apply, val_main_c_5_apply, e]
  exact norm_t (x2 (ix1 n)) (hr (ix1 n))

theorem v38_0 (x2 : IV) (n : Fin 16384) : (val_main_v38 (F := Ideal) x2 (si n 0)).toInt = (n.val : Int) := by
  unfold val_main_v38
  rw [concat_apply0, val_main_v36_apply, val_main_v30_apply, val_main_v27_apply, val_main_v29_apply, val_main_v0_apply, val_main_v26_apply, val_main_c_8_apply, val_main_v28_apply, val_main_c_9_apply]
  exact norm_iota n

theorem v38_1 (x2 : IV) (hr : ∀ i, (x2 i).toNat < 600) (n : Fin 16384) :
    (val_main_v38 (F := Ideal) x2 (si n 1)).toInt = ((Spec.col (x2 (ix1 n))).val : Int) := by
  have e : idx_main_v37 (ix2 n (0 : Fin 1)) = ix1 n := by
    funext a; match a with | ⟨0, _⟩ => rfl
  unfold val_main_v38
  rw [concat_apply1, val_main_v37_apply, val_main_v35_apply, val_main_v32_apply, val_main_v34_apply, val_main_v31_apply, val_main_c_10_apply, val_main_v33_apply, val_main_c_11_apply, e]
  exact norm_t (x2 (ix1 n)) (hr (ix1 n))

theorem v52_0 (x2 : IV) (n : Fin 16384) : (val_main_v52 (F := Ideal) x2 (si n 0)).toInt = (n.val : Int) := by
  unfold val_main_v52
  rw [concat_apply0, val_main_v50_apply, val_main_v44_apply, val_main_v41_apply, val_main_v43_apply, val_main_v0_apply, val_main_v40_apply, val_main_c_12_apply, val_main_v42_apply, val_main_c_13_apply]
  exact norm_iota n

theorem v52_1 (x2 : IV) (hr : ∀ i, (x2 i).toNat < 600) (n : Fin 16384) :
    (val_main_v52 (F := Ideal) x2 (si n 1)).toInt = ((Spec.col (x2 (ix1 n))).val : Int) := by
  have e : idx_main_v51 (ix2 n (0 : Fin 1)) = ix1 n := by
    funext a; match a with | ⟨0, _⟩ => rfl
  unfold val_main_v52
  rw [concat_apply1, val_main_v51_apply, val_main_v49_apply, val_main_v46_apply, val_main_v48_apply, val_main_v45_apply, val_main_c_14_apply, val_main_v47_apply, val_main_c_15_apply, e]
  exact norm_t (x2 (ix1 n)) (hr (ix1 n))

/-! ## The row maximum, the log-softmax and the weight at an element -/

/-- The logits as a function of (row, column). -/
abbrev X (x0 : FV) : Fin 16384 → Fin 600 → EReal := fun n k => x0 (ix2 n k)

theorem rowMax_eq (x0 : FV) (n : Fin 16384) :
    val_main_call1_v2 (F := Ideal) x0 (ix1 n) = Spec.rowMax (X x0) n := by
  rw [val_main_call1_v2_apply, val_main_call1_v1_apply, val_main_call1_cst_0_apply]
  unfold val_main_call1_v0
  rw [rowMax_apply, val_main_call1_cst_apply]
  show max (Ideal.ofBits .f32 0xFF800000#32)
    ((Finset.univ : Finset (Fin 600)).fold max (Ideal.ofBits .f32 0xFF800000#32) (fun k => x0 (ix2 n k))) = _
  rw [Spec.ofBits_negInf, max_bot_left]
  rfl

theorem shifted_eq (x0 : FV) (n : Fin 16384) (k : Fin 600) :
    val_main_call1_v5 (F := Ideal) x0 (ix2 n k) = x0 (ix2 n k) - Spec.rowMax (X x0) n := by
  have e : idx_main_call1_v3 (idx_main_call1_v4 (ix2 n k)) = ix1 n := by
    funext a; match a with | ⟨0, _⟩ => rfl
  rw [val_main_call1_v5_apply, val_main_call1_v4_apply, val_main_call1_v3_apply, e, rowMax_eq]
  rfl

theorem rowSum_eq (x0 : FV) (n : Fin 16384) :
    val_main_call1_v7 (F := Ideal) x0 (ix1 n) = Spec.rowSum (X x0) n := by
  rw [val_main_call1_v7_apply, val_main_call1_cst_1_apply]
  show Ideal.ofBits .f32 0x00000000#32 + _ = _
  rw [Spec.ofBits_zero, zero_add]
  unfold Spec.rowSum
  refine Finset.sum_congr rfl fun k _ => ?_
  have e : idx_main_call1_v7 (ix1 n) k = ix2 n k := by
    funext a; match a with | ⟨0, _⟩ => rfl | ⟨1, _⟩ => rfl
  rw [e, val_main_call1_v6_apply, shifted_eq]
  rfl

theorem logp_eq (x0 : FV) (n : Fin 16384) (k : Fin 600) :
    val_main_v25 (F := Ideal) x0 (ix2 n k)
      = (x0 (ix2 n k) - Spec.rowMax (X x0) n) - Ideal.log (Spec.rowSum (X x0) n) := by
  have e : idx_main_call1_v8 (idx_main_call1_v10 (ix2 n k)) = ix1 n := by
    funext a; match a with | ⟨0, _⟩ => rfl
  rw [val_main_v25_apply, shifted_eq, val_main_call1_v10_apply, val_main_call1_v9_apply, val_main_call1_v8_apply, e, rowSum_eq]
  rfl

theorem f_eq (x1 : FV) (i : S16384x600.Idx) :
    val_main_v7 (F := Ideal) x1 i = Ideal.div 10 (1 + Ideal.exp (4 * x1 i)) := by
  rw [val_main_v7_apply, val_main_v6_apply, val_main_cst_1_apply, val_main_v5_apply, val_main_v4_apply,
    val_main_cst_0_apply, val_main_v3_apply, val_main_v2_apply, val_main_v1_apply, val_main_cst_apply]
  show Ideal.div (Ideal.ofBits .f32 0x41200000#32)
    (Ideal.ofBits .f32 0x3F800000#32 + Ideal.exp (Ideal.ofBits .f32 0x40800000#32 * x1 i)) = _
  rw [Spec.ofBits_ten, Spec.ofBits_one, Spec.ofBits_four]

/-! ## The two gathers and the scatter at row `n` -/

theorem v39_eq (x0 : FV) (x2 : IV) (hr : ∀ i, (x2 i).toNat < 600) (n : Fin 16384) :
    val_main_v39 (F := Ideal) x0 x2 (ix1 n) = val_main_v25 (F := Ideal) x0 (ix2 n (Spec.col (x2 (ix1 n)))) := by
  unfold val_main_v39
  exact gather_apply _ _ (ix1 n) n (Spec.col (x2 (ix1 n))) (v38_0 x2 n) (v38_1 x2 hr n)

theorem v53_eq (x1 : FV) (x2 : IV) (hr : ∀ i, (x2 i).toNat < 600) (n : Fin 16384) :
    val_main_v53 (F := Ideal) x1 x2 (ix1 n) = val_main_v24 (F := Ideal) x1 x2 (ix2 n (Spec.col (x2 (ix1 n)))) := by
  unfold val_main_v53
  exact gather_apply _ _ (ix1 n) n (Spec.col (x2 (ix1 n))) (v52_0 x2 n) (v52_1 x2 hr n)

/-- The scattered mask is true at (row, its class): the row's own update lands there, and every update is `true`. -/
theorem v23_eq (x2 : IV) (hr : ∀ i, (x2 i).toNat < 600) (n : Fin 16384) :
    val_main_v23 (F := Ideal) x2 (ix2 n (Spec.col (x2 (ix1 n)))) = 1#1 := by
  unfold val_main_v23
  refine scatter_const_of_hit _ _ _ _ 1#1 (fun j => ?_) (ix1 n) _
    (scatter_resultIdx _ (ix1 n) n (Spec.col (x2 (ix1 n))) (v21_0 x2 n) (v21_1 x2 hr n))
  rw [val_main_v22_apply, val_main_c_6_apply]

theorem weight_eq (x1 : FV) (x2 : IV) (hr : ∀ i, (x2 i).toNat < 600) (n : Fin 16384) :
    val_main_v53 (F := Ideal) x1 x2 (ix1 n) = Spec.weight (X x1) (fun n => x2 (ix1 n)) n := by
  rw [v53_eq x1 x2 hr, val_main_v24_apply, v23_eq x2 hr, select_one, f_eq]
  rfl

/-! ## The result -/

theorem term_eq (x0 x1 : FV) (x2 : IV) (hr : ∀ i, (x2 i).toNat < 600) (n : Fin 16384) :
    val_main_v55 (F := Ideal) x0 x1 x2 (ix1 n)
      = -(Spec.weight (X x1) (fun n => x2 (ix1 n)) n
          * ((x0 (ix2 n (Spec.col (x2 (ix1 n)))) - Spec.rowMax (X x0) n) - Ideal.log (Spec.rowSum (X x0) n))) := by
  rw [val_main_v55_apply, val_main_v54_apply, weight_eq x1 x2 hr, v39_eq x0 x2 hr, logp_eq]
  rfl

theorem val_eq (x0 x1 : FV) (x2 : IV) (hr : ∀ i, (x2 i).toNat < 600) :
    val_main_v57 (F := Ideal) x0 x1 x2 = fun _ => Spec.loss (X x0) (X x1) (fun n => x2 (ix1 n)) := by
  funext i
  rw [val_main_v57_apply, val_main_v56_apply, val_main_cst_16_apply, val_main_cst_17_apply]
  show Ideal.div (Ideal.ofBits .f32 0x00000000#32 + ∑ j : S16384.Idx, val_main_v55 (F := Ideal) x0 x1 x2 j)
    (Ideal.ofBits .f32 0x46800000#32) = _
  rw [Spec.ofBits_zero, zero_add, Spec.ofBits_16384, sum_idx1]
  unfold Spec.loss
  exact congrArg (fun s : EReal => Ideal.div s 16384) (Finset.sum_congr rfl fun n _ => term_eq x0 x1 x2 hr n)

/-- The reference's last stage, at the launch contents of its three arguments, is the closed formula of them, when every
    class word is below 600. -/
theorem ref_value (m : (ℓ : Loc Cert.ReferenceIdeal.nD Cert.ReferenceIdeal.τ Cert.ReferenceIdeal.sig) → Buf (Elt Ideal) ℓ)
    (c : Dev Cert.ReferenceIdeal.nD)
    (hrange : ∀ i : Cert.ReferenceIdeal.S16384.Idx,
      ((m ((c.tc : Thread Cert.ReferenceIdeal.nD Cert.ReferenceIdeal.τ).loc Cert.ReferenceIdeal.main_arg2)) i).toNat < 600) :
    val_main_v57 (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
      = fun _ => Spec.loss
          (fun n k => m ((c.tc : Thread Cert.ReferenceIdeal.nD Cert.ReferenceIdeal.τ).loc Cert.ReferenceIdeal.main_arg0) (ix2 n k))
          (fun n k => m ((c.tc : Thread Cert.ReferenceIdeal.nD Cert.ReferenceIdeal.τ).loc Cert.ReferenceIdeal.main_arg1) (ix2 n k))
          (fun n => m ((c.tc : Thread Cert.ReferenceIdeal.nD Cert.ReferenceIdeal.τ).loc Cert.ReferenceIdeal.main_arg2) (ix1 n)) :=
  val_eq _ _ _ hrange

end Cert.Proof.RefValue

end
-- ==== Proof.RefRun2.lean ====
import proofs.«215473_g55439437856794_cont_9to1_m_142_25_alg».proof.Proof.Gen.ReferenceIdeal
import Idealize.ShloMosaic.Lib.StableHlo.Run

/-! The reference program's @main as the list of its host operations, and its run read back as the fold of those
operations over the launch contents: the result buffer holds what the operations leave there, the arguments are
unchanged. -/

noncomputable section

namespace Cert.Proof.RefRun2

open Cert.ReferenceIdeal Cert.ReferenceIdeal.Gen Idealize.ShloMosaic Idealize.ShloMosaic.TcCoe Idealize.SL.Sem Idealize.ShloMosaic.StableHlo

variable {F : FTy → Type} [FloatOps F]

/-- @main's 93 operations, in order (a called function's operations stand in its call's place, spelt `TRef.…`). -/
abbrev ops : List (HloOp τ sig (Elt F)) :=
  [ nullary main_v0 (iotaInDim S16384 32 0),
    nullary main_cst (constant S_ .f32 0x40800000#32),
    unary main_cst main_v1 (broadcastInDim S16384x600 ![] bcast_S_S16384x600 : (⟨S_, .f32⟩ : BufTy).Contents (Elt F) → (⟨S16384x600, .f32⟩ : BufTy).Contents (Elt F)),
    binary main_v1 main_arg1 main_v2 (mulf : (⟨S16384x600, .f32⟩ : BufTy).Contents (Elt F) → (⟨S16384x600, .f32⟩ : BufTy).Contents (Elt F) → (⟨S16384x600, .f32⟩ : BufTy).Contents (Elt F)),
    unary main_v2 main_v3 (Host.exp : (⟨S16384x600, .f32⟩ : BufTy).Contents (Elt F) → (⟨S16384x600, .f32⟩ : BufTy).Contents (Elt F)),
    nullary main_cst_0 (constant S_ .f32 0x3F800000#32),
    unary main_cst_0 main_v4 (broadcastInDim S16384x600 ![] bcast_S_S16384x600 : (⟨S_, .f32⟩ : BufTy).Contents (Elt F) → (⟨S16384x600, .f32⟩ : BufTy).Contents (Elt F)),
    binary main_v4 main_v3 main_v5 (addf : (⟨S16384x600, .f32⟩ : BufTy).Contents (Elt F) → (⟨S16384x600, .f32⟩ : BufTy).Contents (Elt F) → (⟨S16384x600, .f32⟩ : BufTy).Contents (Elt F)),
    nullary main_cst_1 (constant S_ .f32 0x41200000#32),
    unary main_cst_1 main_v6 (broadcastInDim S16384x600 ![] bcast_S_S16384x600 : (⟨S_, .f32⟩ : BufTy).Contents (Elt F) → (⟨S16384x600, .f32⟩ : BufTy).Contents (Elt F)),
    binary main_v6 main_v5 main_v7 (Host.divf : (⟨S16384x600, .f32⟩ : BufTy).Contents (Elt F) → (⟨S16384x600, .f32⟩ : BufTy).Contents (Elt F) → (⟨S16384x600, .f32⟩ : BufTy).Contents (Elt F)),
    nullary main_c (constantI S_ 1 0#1),
    unary main_c main_v8 (broadcastInDim S16384x600 ![] bcast_S_S16384x600 : (⟨S_, .i1⟩ : BufTy).Contents (Elt F) → (⟨S16384x600, .i1⟩ : BufTy).Contents (Elt F)),
    nullary main_c_2 (constantI S_ 32 0#32),
    unary main_c_2 main_v9 (broadcastInDim S16384 ![] bcast_S_S16384 : (⟨S_, .i32⟩ : BufTy).Contents (Elt F) → (⟨S16384, .i32⟩ : BufTy).Contents (Elt F)),
    binary main_v0 main_v9 main_v10 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v11 (broadcastInDim S16384 ![] bcast_S_S16384 : (⟨S_, .i32⟩ : BufTy).Contents (Elt F) → (⟨S16384, .i32⟩ : BufTy).Contents (Elt F)),
    binary main_v0 main_v11 main_v12 (addi : (⟨S16384, .i32⟩ : BufTy).Contents (Elt F) → (⟨S16384, .i32⟩ : BufTy).Contents (Elt F) → (⟨S16384, .i32⟩ : BufTy).Contents (Elt F)),
    ternary main_v10 main_v12 main_v0 main_v13 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v14 (broadcastInDim S16384 ![] bcast_S_S16384 : (⟨S_, .i32⟩ : BufTy).Contents (Elt F) → (⟨S16384, .i32⟩ : BufTy).Contents (Elt F)),
    binary main_arg2 main_v14 main_v15 (cmpi .slt : (⟨S16384, .i32⟩ : BufTy).Contents (Elt F) → (⟨S16384, .i32⟩ : BufTy).Contents (Elt F) → (⟨S16384, .i1⟩ : BufTy).Contents (Elt F)),
    nullary main_c_5 (constantI S_ 32 600#32),
    unary main_c_5 main_v16 (broadcastInDim S16384 ![] bcast_S_S16384 : (⟨S_, .i32⟩ : BufTy).Contents (Elt F) → (⟨S16384, .i32⟩ : BufTy).Contents (Elt F)),
    binary main_arg2 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_arg2 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v13 main_v19 (broadcastInDim S16384x1 ![0] bcast_S16384_S16384x1_0 : (⟨S16384, .i32⟩ : BufTy).Contents (Elt F) → (⟨S16384x1, .i32⟩ : BufTy).Contents (Elt F)),
    unary main_v18 main_v20 (broadcastInDim S16384x1 ![0] bcast_S16384_S16384x1_0 : (⟨S16384, .i32⟩ : BufTy).Contents (Elt F) → (⟨S16384x1, .i32⟩ : BufTy).Contents (Elt F)),
    binary main_v19 main_v20 main_v21 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    nullary main_c_6 (constantI S_ 1 1#1),
    unary main_c_6 main_v22 (broadcastInDim S16384 ![] bcast_S_S16384 : (⟨S_, .i1⟩ : BufTy).Contents (Elt F) → (⟨S16384, .i1⟩ : BufTy).Contents (Elt F)),
    ternary main_v8 main_v21 main_v22 main_v23 ((fun x i u => Host.scatter scatter_S16384x600_S16384x2_S16384_n_01_01_1 (fun _ b => b) x i u) : (⟨S16384x600, .i1⟩ : BufTy).Contents (Elt F) → (⟨S16384x2, .i32⟩ : BufTy).Contents (Elt F) → (⟨S16384, .i1⟩ : BufTy).Contents (Elt F) → (⟨S16384x600, .i1⟩ : BufTy).Contents (Elt F)),
    nullary main_cst_7 (constant S_ .f32 0x3F800000#32),
    TRef.unary (TRef.of (T := ⟨S_, .f32⟩) main_cst_7) (TRef.of (T := ⟨S16384x600, .f32⟩) main_call0_v0) (broadcastInDim S16384x600 ![] bcast_S_S16384x600),
    TRef.ternary (TRef.of (T := ⟨S16384x600, .i1⟩) main_v23) (TRef.of (T := ⟨S16384x600, .f32⟩) main_v7) (TRef.of (T := ⟨S16384x600, .f32⟩) main_call0_v0) (TRef.of (T := ⟨S16384x600, .f32⟩) main_v24) select,
    TRef.nullary (TRef.of (T := ⟨S_, .f32⟩) main_call1_cst) (constant S_ .f32 0xFF800000#32),
    TRef.binary (TRef.of (T := ⟨S16384x600, .f32⟩) main_arg0) (TRef.of (T := ⟨S_, .f32⟩) main_call1_cst) (TRef.of (T := ⟨S16384, .f32⟩) main_call1_v0) (fun x v => Host.reduce FloatOps.maximumf x v reducesTo_S16384x600_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x600, .f32⟩) main_call1_v4) (broadcastInDim S16384x600 ![0, 1] bcast_S16384x1_S16384x600_0_1),
    TRef.binary (TRef.of (T := ⟨S16384x600, .f32⟩) main_arg0) (TRef.of (T := ⟨S16384x600, .f32⟩) main_call1_v4) (TRef.of (T := ⟨S16384x600, .f32⟩) main_call1_v5) subf,
    TRef.unary (TRef.of (T := ⟨S16384x600, .f32⟩) main_call1_v5) (TRef.of (T := ⟨S16384x600, .f32⟩) main_call1_v6) Host.exp,
    TRef.nullary (TRef.of (T := ⟨S_, .f32⟩) main_call1_cst_1) (constant S_ .f32 0x00000000#32),
    TRef.binary (TRef.of (T := ⟨S16384x600, .f32⟩) main_call1_v6) (TRef.of (T := ⟨S_, .f32⟩) main_call1_cst_1) (TRef.of (T := ⟨S16384, .f32⟩) main_call1_v7) (fun x v => Host.reduceAdd x v reducesTo_S16384x600_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x600, .f32⟩) main_call1_v10) (broadcastInDim S16384x600 ![0, 1] bcast_S16384x1_S16384x600_0_1),
    TRef.binary (TRef.of (T := ⟨S16384x600, .f32⟩) main_call1_v5) (TRef.of (T := ⟨S16384x600, .f32⟩) main_call1_v10) (TRef.of (T := ⟨S16384x600, .f32⟩) main_v25) subf,
    nullary main_c_8 (constantI S_ 32 0#32),
    unary main_c_8 main_v26 (broadcastInDim S16384 ![] bcast_S_S16384 : (⟨S_, .i32⟩ : BufTy).Contents (Elt F) → (⟨S16384, .i32⟩ : BufTy).Contents (Elt F)),
    binary main_v0 main_v26 main_v27 (cmpi .slt : (⟨S16384, .i32⟩ : BufTy).Contents (Elt F) → (⟨S16384, .i32⟩ : BufTy).Contents (Elt F) → (⟨S16384, .i1⟩ : BufTy).Contents (Elt F)),
    nullary main_c_9 (constantI S_ 32 16384#32),
    unary main_c_9 main_v28 (broadcastInDim S16384 ![] bcast_S_S16384 : (⟨S_, .i32⟩ : BufTy).Contents (Elt F) → (⟨S16384, .i32⟩ : BufTy).Contents (Elt F)),
    binary main_v0 main_v28 main_v29 (addi : (⟨S16384, .i32⟩ : BufTy).Contents (Elt F) → (⟨S16384, .i32⟩ : BufTy).Contents (Elt F) → (⟨S16384, .i32⟩ : BufTy).Contents (Elt F)),
    ternary main_v27 main_v29 main_v0 main_v30 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_10 (constantI S_ 32 0#32),
    unary main_c_10 main_v31 (broadcastInDim S16384 ![] bcast_S_S16384 : (⟨S_, .i32⟩ : BufTy).Contents (Elt F) → (⟨S16384, .i32⟩ : BufTy).Contents (Elt F)),
    binary main_arg2 main_v31 main_v32 (cmpi .slt : (⟨S16384, .i32⟩ : BufTy).Contents (Elt F) → (⟨S16384, .i32⟩ : BufTy).Contents (Elt F) → (⟨S16384, .i1⟩ : BufTy).Contents (Elt F)),
    nullary main_c_11 (constantI S_ 32 600#32),
    unary main_c_11 main_v33 (broadcastInDim S16384 ![] bcast_S_S16384 : (⟨S_, .i32⟩ : BufTy).Contents (Elt F) → (⟨S16384, .i32⟩ : BufTy).Contents (Elt F)),
    binary main_arg2 main_v33 main_v34 (addi : (⟨S16384, .i32⟩ : BufTy).Contents (Elt F) → (⟨S16384, .i32⟩ : BufTy).Contents (Elt F) → (⟨S16384, .i32⟩ : BufTy).Contents (Elt F)),
    ternary main_v32 main_v34 main_arg2 main_v35 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v30 main_v36 (broadcastInDim S16384x1 ![0] bcast_S16384_S16384x1_0 : (⟨S16384, .i32⟩ : BufTy).Contents (Elt F) → (⟨S16384x1, .i32⟩ : BufTy).Contents (Elt F)),
    unary main_v35 main_v37 (broadcastInDim S16384x1 ![0] bcast_S16384_S16384x1_0 : (⟨S16384, .i32⟩ : BufTy).Contents (Elt F) → (⟨S16384x1, .i32⟩ : BufTy).Contents (Elt F)),
    binary main_v36 main_v37 main_v38 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v25 main_v38 main_v39 ((fun x i => Host.gather gather_S16384x600_S16384x2_S16384_n_01_n_n_01_1_11 x i) : (⟨S16384x600, .f32⟩ : BufTy).Contents (Elt F) → (⟨S16384x2, .i32⟩ : BufTy).Contents (Elt F) → (⟨S16384, .f32⟩ : BufTy).Contents (Elt F)),
    nullary main_c_12 (constantI S_ 32 0#32),
    unary main_c_12 main_v40 (broadcastInDim S16384 ![] bcast_S_S16384 : (⟨S_, .i32⟩ : BufTy).Contents (Elt F) → (⟨S16384, .i32⟩ : BufTy).Contents (Elt F)),
    binary main_v0 main_v40 main_v41 (cmpi .slt : (⟨S16384, .i32⟩ : BufTy).Contents (Elt F) → (⟨S16384, .i32⟩ : BufTy).Contents (Elt F) → (⟨S16384, .i1⟩ : BufTy).Contents (Elt F)),
    nullary main_c_13 (constantI S_ 32 16384#32),
    unary main_c_13 main_v42 (broadcastInDim S16384 ![] bcast_S_S16384 : (⟨S_, .i32⟩ : BufTy).Contents (Elt F) → (⟨S16384, .i32⟩ : BufTy).Contents (Elt F)),
    binary main_v0 main_v42 main_v43 (addi : (⟨S16384, .i32⟩ : BufTy).Contents (Elt F) → (⟨S16384, .i32⟩ : BufTy).Contents (Elt F) → (⟨S16384, .i32⟩ : BufTy).Contents (Elt F)),
    ternary main_v41 main_v43 main_v0 main_v44 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_14 (constantI S_ 32 0#32),
    unary main_c_14 main_v45 (broadcastInDim S16384 ![] bcast_S_S16384 : (⟨S_, .i32⟩ : BufTy).Contents (Elt F) → (⟨S16384, .i32⟩ : BufTy).Contents (Elt F)),
    binary main_arg2 main_v45 main_v46 (cmpi .slt : (⟨S16384, .i32⟩ : BufTy).Contents (Elt F) → (⟨S16384, .i32⟩ : BufTy).Contents (Elt F) → (⟨S16384, .i1⟩ : BufTy).Contents (Elt F)),
    nullary main_c_15 (constantI S_ 32 600#32),
    unary main_c_15 main_v47 (broadcastInDim S16384 ![] bcast_S_S16384 : (⟨S_, .i32⟩ : BufTy).Contents (Elt F) → (⟨S16384, .i32⟩ : BufTy).Contents (Elt F)),
    binary main_arg2 main_v47 main_v48 (addi : (⟨S16384, .i32⟩ : BufTy).Contents (Elt F) → (⟨S16384, .i32⟩ : BufTy).Contents (Elt F) → (⟨S16384, .i32⟩ : BufTy).Contents (Elt F)),
    ternary main_v46 main_v48 main_arg2 main_v49 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v44 main_v50 (broadcastInDim S16384x1 ![0] bcast_S16384_S16384x1_0 : (⟨S16384, .i32⟩ : BufTy).Contents (Elt F) → (⟨S16384x1, .i32⟩ : BufTy).Contents (Elt F)),
    unary main_v49 main_v51 (broadcastInDim S16384x1 ![0] bcast_S16384_S16384x1_0 : (⟨S16384, .i32⟩ : BufTy).Contents (Elt F) → (⟨S16384x1, .i32⟩ : BufTy).Contents (Elt F)),
    binary main_v50 main_v51 main_v52 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v24 main_v52 main_v53 ((fun x i => Host.gather gather_S16384x600_S16384x2_S16384_n_01_n_n_01_1_11 x i) : (⟨S16384x600, .f32⟩ : BufTy).Contents (Elt F) → (⟨S16384x2, .i32⟩ : BufTy).Contents (Elt F) → (⟨S16384, .f32⟩ : BufTy).Contents (Elt F)),
    binary main_v53 main_v39 main_v54 (mulf : (⟨S16384, .f32⟩ : BufTy).Contents (Elt F) → (⟨S16384, .f32⟩ : BufTy).Contents (Elt F) → (⟨S16384, .f32⟩ : BufTy).Contents (Elt F)),
    unary main_v54 main_v55 (Host.negf : (⟨S16384, .f32⟩ : BufTy).Contents (Elt F) → (⟨S16384, .f32⟩ : BufTy).Contents (Elt F)),
    nullary main_cst_16 (constant S_ .f32 0x00000000#32),
    binary main_v55 main_cst_16 main_v56 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_17 (constant S_ .f32 0x46800000#32),
    binary main_v56 main_cst_17 main_v57 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., unary_bufs_sub .., nullary_bufs_sub .., binary_bufs_sub .., nullary_bufs_sub .., binary_bufs_sub ..⟩

/-- @main run as its list of operations: every weakly fair execution terminates, the result buffer holds what the
    operations, folded in order over the launch contents, leave there, and the three arguments are unchanged. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = after (ops (F := F)) (launchContents m c) (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v57,
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.Proof.RefRun2

end
-- ==== Proof.RefAfter.lean ====
import proofs.«215473_g55439437856794_cont_9to1_m_142_25_alg».proof.Proof.RefRun2
import proofs.«215473_g55439437856794_cont_9to1_m_142_25_alg».proof.Proof.RefStages

/-! The reference program's result as the last of its stages. The 93 operations run one at a time from any contents:
after each, the contents at the buffers still to be read are the stages of the three arguments' contents (the operation's
own stage at its result buffer, the earlier ones unchanged elsewhere), so after the last the result buffer holds the
last stage; with the run of the list this gives the reference's run. -/

noncomputable section

namespace Cert.Proof.RefAfter

open Cert.ReferenceIdeal Cert.ReferenceIdeal.Gen Idealize.ShloMosaic Idealize.ShloMosaic.TcCoe Idealize.SL.Sem Idealize.ShloMosaic.StableHlo
open Cert.Proof.RefRun2

variable {F : FTy → Type} [FloatOps F]

/-! ## One operation at a time

Each lemma runs the first operation of a line from contents `W`: the contents `W'` after it hold the operation's function
of `W`'s operands at its result buffer and `W`'s contents at every other buffer; what the rest of the line computes from
any such `W'` is what the line computes from `W`. -/

section Steps

variable {y x a b c : Ref sig .tc} {rest : List (HloOp τ sig (Elt F))} {W : Valuation τ sig (Elt F)}
  {d : DevRef τ sig} {R : d.ty.Contents (Elt F)}

omit [FloatOps F] in
theorem step0 {v : y.ty.Contents (Elt F)} {hy}
    (k : ∀ W' : Valuation τ sig (Elt F), W' (Proc.devRef .tc y) = v →
      (∀ r : Ref sig .tc, r ≠ y → W' (Proc.devRef .tc r) = W (Proc.devRef .tc r)) → after rest W' d = R) :
    after (nullary y v hy :: rest) W d = R :=
  k _ (nullary_result y v hy W) fun _ h => nullary_result_ne y v hy W h

omit [FloatOps F] in
theorem step1 {f : x.ty.Contents (Elt F) → y.ty.Contents (Elt F)} {hx hy}
    (k : ∀ W' : Valuation τ sig (Elt F), W' (Proc.devRef .tc y) = f (W (Proc.devRef .tc x)) →
      (∀ r : Ref sig .tc, r ≠ y → W' (Proc.devRef .tc r) = W (Proc.devRef .tc r)) → after rest W' d = R) :
    after (unary x y f hx hy :: rest) W d = R :=
  k _ (unary_result x y f hx hy W) fun _ h => unary_result_ne x y f hx hy W h

omit [FloatOps F] in
theorem step2 {f : a.ty.Contents (Elt F) → b.ty.Contents (Elt F) → y.ty.Contents (Elt F)} {ha hb hy}
    (k : ∀ W' : Valuation τ sig (Elt F), W' (Proc.devRef .tc y) = f (W (Proc.devRef .tc a)) (W (Proc.devRef .tc b)) →
      (∀ r : Ref sig .tc, r ≠ y → W' (Proc.devRef .tc r) = W (Proc.devRef .tc r)) → after rest W' d = R) :
    after (binary a b y f ha hb hy :: rest) W d = R :=
  k _ (binary_result a b y f ha hb hy W) fun _ h => binary_result_ne a b y f ha hb hy W h

omit [FloatOps F] in
theorem step3 {f : c.ty.Contents (Elt F) → a.ty.Contents (Elt F) → b.ty.Contents (Elt F) → y.ty.Contents (Elt F)} {hc ha hb hy}
    (k : ∀ W' : Valuation τ sig (Elt F),
      W' (Proc.devRef .tc y) = f (W (Proc.devRef .tc c)) (W (Proc.devRef .tc a)) (W (Proc.devRef .tc b)) →
      (∀ r : Ref sig .tc, r ≠ y → W' (Proc.devRef .tc r) = W (Proc.devRef .tc r)) → after rest W' d = R) :
    after (ternary c a b y f hc ha hb hy :: rest) W d = R :=
  k _ (ternary_result c a b y f hc ha hb hy W) fun _ h => ternary_result_ne a b c y f hc ha hb hy W h

end Steps

/-! ## The same for an operation of an inlined function

Its buffers are typed references; the contents are read and written through the (identity) change of type between a
buffer's own type and the value's type, which these lemmas take out once, on variables. -/

section TSteps

variable {Tx Ta Tb Tc Ty : BufTy} {rest : List (HloOp τ sig (Elt F))} {W : Valuation τ sig (Elt F)}
  {d : DevRef τ sig} {R : d.ty.Contents (Elt F)}

omit [FloatOps F] in
theorem ofBuf_toBuf (y : TRef sig Ty) (v : Ty.Contents (Elt F)) : y.ofBuf (y.toBuf v) = v := by
  obtain ⟨r, h, h2, h3⟩ := y
  subst h
  rfl

omit [FloatOps F] in
theorem tstep0 {y : TRef sig Ty} {v : Ty.Contents (Elt F)}
    (k : ∀ W' : Valuation τ sig (Elt F), y.ofBuf (W' (Proc.devRef .tc y.ref)) = v →
      (∀ r : Ref sig .tc, r ≠ y.ref → W' (Proc.devRef .tc r) = W (Proc.devRef .tc r)) → after rest W' d = R) :
    after (TRef.nullary y v :: rest) W d = R :=
  step0 (k := fun W' hy hfr => k W' (by rw [hy, ofBuf_toBuf]) hfr)

omit [FloatOps F] in
theorem tstep1 {x : TRef sig Tx} {y : TRef sig Ty} {f : Tx.Contents (Elt F) → Ty.Contents (Elt F)} {X : Tx.Contents (Elt F)}
    (hx : x.ofBuf (W (Proc.devRef .tc x.ref)) = X)
    (k : ∀ W' : Valuation τ sig (Elt F), y.ofBuf (W' (Proc.devRef .tc y.ref)) = f X →
      (∀ r : Ref sig .tc, r ≠ y.ref → W' (Proc.devRef .tc r) = W (Proc.devRef .tc r)) → after rest W' d = R) :
    after (TRef.unary x y f :: rest) W d = R :=
  step1 (k := fun W' hy hfr => k W' (by rw [hy, ofBuf_toBuf, hx]) hfr)

omit [FloatOps F] in
theorem tstep2 {a : TRef sig Ta} {b : TRef sig Tb} {y : TRef sig Ty}
    {f : Ta.Contents (Elt F) → Tb.Contents (Elt F) → Ty.Contents (Elt F)} {A : Ta.Contents (Elt F)} {B : Tb.Contents (Elt F)}
    (ha : a.ofBuf (W (Proc.devRef .tc a.ref)) = A) (hb : b.ofBuf (W (Proc.devRef .tc b.ref)) = B)
    (k : ∀ W' : Valuation τ sig (Elt F), y.ofBuf (W' (Proc.devRef .tc y.ref)) = f A B →
      (∀ r : Ref sig .tc, r ≠ y.ref → W' (Proc.devRef .tc r) = W (Proc.devRef .tc r)) → after rest W' d = R) :
    after (TRef.binary a b y f :: rest) W d = R :=
  step2 (k := fun W' hy hfr => k W' (by rw [hy, ofBuf_toBuf, ha, hb]) hfr)

omit [FloatOps F] in
theorem tstep3 {c : TRef sig Tc} {a : TRef sig Ta} {b : TRef sig Tb} {y : TRef sig Ty}
    {f : Tc.Contents (Elt F) → Ta.Contents (Elt F) → Tb.Contents (Elt F) → Ty.Contents (Elt F)}
    {C : Tc.Contents (Elt F)} {A : Ta.Contents (Elt F)} {B : Tb.Contents (Elt F)}
    (hc : c.ofBuf (W (Proc.devRef .tc c.ref)) = C) (ha : a.ofBuf (W (Proc.devRef .tc a.ref)) = A)
    (hb : b.ofBuf (W (Proc.devRef .tc b.ref)) = B)
    (k : ∀ W' : Valuation τ sig (Elt F), y.ofBuf (W' (Proc.devRef .tc y.ref)) = f C A B →
      (∀ r : Ref sig .tc, r ≠ y.ref → W' (Proc.devRef .tc r) = W (Proc.devRef .tc r)) → after rest W' d = R) :
    after (TRef.ternary c a b y f :: rest) W d = R :=
  step3 (k := fun W' hy hfr => k W' (by rw [hy, ofBuf_toBuf, hc, ha, hb]) hfr)

end TSteps

set_option maxRecDepth 65536 in
/-- What the 93 operations leave in the result buffer is the last stage, of the three arguments' contents. -/
theorem after_eq (V : Valuation τ sig (Elt F)) :
    after (ops (F := F)) V (Proc.devRef .tc main_v57)
      = Read.val_main_v57 (F := F) (V (Proc.devRef .tc main_arg0)) (V (Proc.devRef .tc main_arg1)) (V (Proc.devRef .tc main_arg2)) := by
  generalize g_main_arg0 : V (Proc.devRef .tc main_arg0) = x0
  generalize g_main_arg1 : V (Proc.devRef .tc main_arg1) = x1
  generalize g_main_arg2 : V (Proc.devRef .tc main_arg2) = x2
  -- 1: main_v0
  refine step0 (k := fun W1 hy hfr => ?_)
  have n_main_v0 : W1 (Proc.devRef .tc main_v0) = Read.val_main_v0 (F := F) := by
    (rw [hy]) <;> (unfold Read.val_main_v0) <;> rfl
  replace g_main_arg0 : W1 (Proc.devRef .tc main_arg0) = x0 := (hfr main_arg0 (by decide)).trans g_main_arg0
  replace g_main_arg1 : W1 (Proc.devRef .tc main_arg1) = x1 := (hfr main_arg1 (by decide)).trans g_main_arg1
  replace g_main_arg2 : W1 (Proc.devRef .tc main_arg2) = x2 := (hfr main_arg2 (by decide)).trans g_main_arg2
  have g_main_v0 := n_main_v0
  clear n_main_v0 hy hfr
  clear V
  -- 2: main_cst
  refine step0 (k := fun W2 hy hfr => ?_)
  have n_main_cst : W2 (Proc.devRef .tc main_cst) = Read.val_main_cst (F := F) := by
    (rw [hy]) <;> (unfold Read.val_main_cst) <;> rfl
  replace g_main_arg0 : W2 (Proc.devRef .tc main_arg0) = x0 := (hfr main_arg0 (by decide)).trans g_main_arg0
  replace g_main_arg1 : W2 (Proc.devRef .tc main_arg1) = x1 := (hfr main_arg1 (by decide)).trans g_main_arg1
  replace g_main_arg2 : W2 (Proc.devRef .tc main_arg2) = x2 := (hfr main_arg2 (by decide)).trans g_main_arg2
  replace g_main_v0 : W2 (Proc.devRef .tc main_v0) = Read.val_main_v0 (F := F) := (hfr main_v0 (by decide)).trans g_main_v0
  have g_main_cst := n_main_cst
  clear n_main_cst hy hfr
  clear W1
  -- 3: main_v1
  refine step1 (k := fun W3 hy hfr => ?_)
  have n_main_v1 : W3 (Proc.devRef .tc main_v1) = Read.val_main_v1 (F := F) := by
    (rw [hy, g_main_cst]) <;> (unfold Read.val_main_v1) <;> rfl
  replace g_main_arg0 : W3 (Proc.devRef .tc main_arg0) = x0 := (hfr main_arg0 (by decide)).trans g_main_arg0
  replace g_main_arg1 : W3 (Proc.devRef .tc main_arg1) = x1 := (hfr main_arg1 (by decide)).trans g_main_arg1
  replace g_main_arg2 : W3 (Proc.devRef .tc main_arg2) = x2 := (hfr main_arg2 (by decide)).trans g_main_arg2
  replace g_main_v0 : W3 (Proc.devRef .tc main_v0) = Read.val_main_v0 (F := F) := (hfr main_v0 (by decide)).trans g_main_v0
  have g_main_v1 := n_main_v1
  clear n_main_v1 hy hfr g_main_cst
  clear W2
  -- 4: main_v2
  refine step2 (k := fun W4 hy hfr => ?_)
  have n_main_v2 : W4 (Proc.devRef .tc main_v2) = Read.val_main_v2 (F := F) x1 := by
    (rw [hy, g_main_v1, g_main_arg1]) <;> (unfold Read.val_main_v2) <;> rfl
  replace g_main_arg0 : W4 (Proc.devRef .tc main_arg0) = x0 := (hfr main_arg0 (by decide)).trans g_main_arg0
  replace g_main_arg2 : W4 (Proc.devRef .tc main_arg2) = x2 := (hfr main_arg2 (by decide)).trans g_main_arg2
  replace g_main_v0 : W4 (Proc.devRef .tc main_v0) = Read.val_main_v0 (F := F) := (hfr main_v0 (by decide)).trans g_main_v0
  have g_main_v2 := n_main_v2
  clear n_main_v2 hy hfr g_main_arg1 g_main_v1
  clear W3
  -- 5: main_v3
  refine step1 (k := fun W5 hy hfr => ?_)
  have n_main_v3 : W5 (Proc.devRef .tc main_v3) = Read.val_main_v3 (F := F) x1 := by
    (rw [hy, g_main_v2]) <;> (unfold Read.val_main_v3) <;> rfl
  replace g_main_arg0 : W5 (Proc.devRef .tc main_arg0) = x0 := (hfr main_arg0 (by decide)).trans g_main_arg0
  replace g_main_arg2 : W5 (Proc.devRef .tc main_arg2) = x2 := (hfr main_arg2 (by decide)).trans g_main_arg2
  replace g_main_v0 : W5 (Proc.devRef .tc main_v0) = Read.val_main_v0 (F := F) := (hfr main_v0 (by decide)).trans g_main_v0
  have g_main_v3 := n_main_v3
  clear n_main_v3 hy hfr g_main_v2
  clear W4
  -- 6: main_cst_0
  refine step0 (k := fun W6 hy hfr => ?_)
  have n_main_cst_0 : W6 (Proc.devRef .tc main_cst_0) = Read.val_main_cst_0 (F := F) := by
    (rw [hy]) <;> (unfold Read.val_main_cst_0) <;> rfl
  replace g_main_arg0 : W6 (Proc.devRef .tc main_arg0) = x0 := (hfr main_arg0 (by decide)).trans g_main_arg0
  replace g_main_arg2 : W6 (Proc.devRef .tc main_arg2) = x2 := (hfr main_arg2 (by decide)).trans g_main_arg2
  replace g_main_v0 : W6 (Proc.devRef .tc main_v0) = Read.val_main_v0 (F := F) := (hfr main_v0 (by decide)).trans g_main_v0
  replace g_main_v3 : W6 (Proc.devRef .tc main_v3) = Read.val_main_v3 (F := F) x1 := (hfr main_v3 (by decide)).trans g_main_v3
  have g_main_cst_0 := n_main_cst_0
  clear n_main_cst_0 hy hfr
  clear W5
  -- 7: main_v4
  refine step1 (k := fun W7 hy hfr => ?_)
  have n_main_v4 : W7 (Proc.devRef .tc main_v4) = Read.val_main_v4 (F := F) := by
    (rw [hy, g_main_cst_0]) <;> (unfold Read.val_main_v4) <;> rfl
  replace g_main_arg0 : W7 (Proc.devRef .tc main_arg0) = x0 := (hfr main_arg0 (by decide)).trans g_main_arg0
  replace g_main_arg2 : W7 (Proc.devRef .tc main_arg2) = x2 := (hfr main_arg2 (by decide)).trans g_main_arg2
  replace g_main_v0 : W7 (Proc.devRef .tc main_v0) = Read.val_main_v0 (F := F) := (hfr main_v0 (by decide)).trans g_main_v0
  replace g_main_v3 : W7 (Proc.devRef .tc main_v3) = Read.val_main_v3 (F := F) x1 := (hfr main_v3 (by decide)).trans g_main_v3
  have g_main_v4 := n_main_v4
  clear n_main_v4 hy hfr g_main_cst_0
  clear W6
  -- 8: main_v5
  refine step2 (k := fun W8 hy hfr => ?_)
  have n_main_v5 : W8 (Proc.devRef .tc main_v5) = Read.val_main_v5 (F := F) x1 := by
    (rw [hy, g_main_v4, g_main_v3]) <;> (unfold Read.val_main_v5) <;> rfl
  replace g_main_arg0 : W8 (Proc.devRef .tc main_arg0) = x0 := (hfr main_arg0 (by decide)).trans g_main_arg0
  replace g_main_arg2 : W8 (Proc.devRef .tc main_arg2) = x2 := (hfr main_arg2 (by decide)).trans g_main_arg2
  replace g_main_v0 : W8 (Proc.devRef .tc main_v0) = Read.val_main_v0 (F := F) := (hfr main_v0 (by decide)).trans g_main_v0
  have g_main_v5 := n_main_v5
  clear n_main_v5 hy hfr g_main_v3 g_main_v4
  clear W7
  -- 9: main_cst_1
  refine step0 (k := fun W9 hy hfr => ?_)
  have n_main_cst_1 : W9 (Proc.devRef .tc main_cst_1) = Read.val_main_cst_1 (F := F) := by
    (rw [hy]) <;> (unfold Read.val_main_cst_1) <;> rfl
  replace g_main_arg0 : W9 (Proc.devRef .tc main_arg0) = x0 := (hfr main_arg0 (by decide)).trans g_main_arg0
  replace g_main_arg2 : W9 (Proc.devRef .tc main_arg2) = x2 := (hfr main_arg2 (by decide)).trans g_main_arg2
  replace g_main_v0 : W9 (Proc.devRef .tc main_v0) = Read.val_main_v0 (F := F) := (hfr main_v0 (by decide)).trans g_main_v0
  replace g_main_v5 : W9 (Proc.devRef .tc main_v5) = Read.val_main_v5 (F := F) x1 := (hfr main_v5 (by decide)).trans g_main_v5
  have g_main_cst_1 := n_main_cst_1
  clear n_main_cst_1 hy hfr
  clear W8
  -- 10: main_v6
  refine step1 (k := fun W10 hy hfr => ?_)
  have n_main_v6 : W10 (Proc.devRef .tc main_v6) = Read.val_main_v6 (F := F) := by
    (rw [hy, g_main_cst_1]) <;> (unfold Read.val_main_v6) <;> rfl
  replace g_main_arg0 : W10 (Proc.devRef .tc main_arg0) = x0 := (hfr main_arg0 (by decide)).trans g_main_arg0
  replace g_main_arg2 : W10 (Proc.devRef .tc main_arg2) = x2 := (hfr main_arg2 (by decide)).trans g_main_arg2
  replace g_main_v0 : W10 (Proc.devRef .tc main_v0) = Read.val_main_v0 (F := F) := (hfr main_v0 (by decide)).trans g_main_v0
  replace g_main_v5 : W10 (Proc.devRef .tc main_v5) = Read.val_main_v5 (F := F) x1 := (hfr main_v5 (by decide)).trans g_main_v5
  have g_main_v6 := n_main_v6
  clear n_main_v6 hy hfr g_main_cst_1
  clear W9
  -- 11: main_v7
  refine step2 (k := fun W11 hy hfr => ?_)
  have n_main_v7 : W11 (Proc.devRef .tc main_v7) = Read.val_main_v7 (F := F) x1 := by
    (rw [hy, g_main_v6, g_main_v5]) <;> (unfold Read.val_main_v7) <;> rfl
  replace g_main_arg0 : W11 (Proc.devRef .tc main_arg0) = x0 := (hfr main_arg0 (by decide)).trans g_main_arg0
  replace g_main_arg2 : W11 (Proc.devRef .tc main_arg2) = x2 := (hfr main_arg2 (by decide)).trans g_main_arg2
  replace g_main_v0 : W11 (Proc.devRef .tc main_v0) = Read.val_main_v0 (F := F) := (hfr main_v0 (by decide)).trans g_main_v0
  have g_main_v7 := n_main_v7
  clear n_main_v7 hy hfr g_main_v5 g_main_v6
  clear W10
  -- 12: main_c
  refine step0 (k := fun W12 hy hfr => ?_)
  have n_main_c : W12 (Proc.devRef .tc main_c) = Read.val_main_c (F := F) := by
    (rw [hy]) <;> (unfold Read.val_main_c) <;> rfl
  replace g_main_arg0 : W12 (Proc.devRef .tc main_arg0) = x0 := (hfr main_arg0 (by decide)).trans g_main_arg0
  replace g_main_arg2 : W12 (Proc.devRef .tc main_arg2) = x2 := (hfr main_arg2 (by decide)).trans g_main_arg2
  replace g_main_v0 : W12 (Proc.devRef .tc main_v0) = Read.val_main_v0 (F := F) := (hfr main_v0 (by decide)).trans g_main_v0
  replace g_main_v7 : W12 (Proc.devRef .tc main_v7) = Read.val_main_v7 (F := F) x1 := (hfr main_v7 (by decide)).trans g_main_v7
  have g_main_c := n_main_c
  clear n_main_c hy hfr
  clear W11
  -- 13: main_v8
  refine step1 (k := fun W13 hy hfr => ?_)
  have n_main_v8 : W13 (Proc.devRef .tc main_v8) = Read.val_main_v8 (F := F) := by
    (rw [hy, g_main_c]) <;> (unfold Read.val_main_v8) <;> rfl
  replace g_main_arg0 : W13 (Proc.devRef .tc main_arg0) = x0 := (hfr main_arg0 (by decide)).trans g_main_arg0
  replace g_main_arg2 : W13 (Proc.devRef .tc main_arg2) = x2 := (hfr main_arg2 (by decide)).trans g_main_arg2
  replace g_main_v0 : W13 (Proc.devRef .tc main_v0) = Read.val_main_v0 (F := F) := (hfr main_v0 (by decide)).trans g_main_v0
  replace g_main_v7 : W13 (Proc.devRef .tc main_v7) = Read.val_main_v7 (F := F) x1 := (hfr main_v7 (by decide)).trans g_main_v7
  have g_main_v8 := n_main_v8
  clear n_main_v8 hy hfr g_main_c
  clear W12
  -- 14: main_c_2
  refine step0 (k := fun W14 hy hfr => ?_)
  have n_main_c_2 : W14 (Proc.devRef .tc main_c_2) = Read.val_main_c_2 (F := F) := by
    (rw [hy]) <;> (unfold Read.val_main_c_2) <;> rfl
  replace g_main_arg0 : W14 (Proc.devRef .tc main_arg0) = x0 := (hfr main_arg0 (by decide)).trans g_main_arg0
  replace g_main_arg2 : W14 (Proc.devRef .tc main_arg2) = x2 := (hfr main_arg2 (by decide)).trans g_main_arg2
  replace g_main_v0 : W14 (Proc.devRef .tc main_v0) = Read.val_main_v0 (F := F) := (hfr main_v0 (by decide)).trans g_main_v0
  replace g_main_v7 : W14 (Proc.devRef .tc main_v7) = Read.val_main_v7 (F := F) x1 := (hfr main_v7 (by decide)).trans g_main_v7
  replace g_main_v8 : W14 (Proc.devRef .tc main_v8) = Read.val_main_v8 (F := F) := (hfr main_v8 (by decide)).trans g_main_v8
  have g_main_c_2 := n_main_c_2
  clear n_main_c_2 hy hfr
  clear W13
  -- 15: main_v9
  refine step1 (k := fun W15 hy hfr => ?_)
  have n_main_v9 : W15 (Proc.devRef .tc main_v9) = Read.val_main_v9 (F := F) := by
    (rw [hy, g_main_c_2]) <;> (unfold Read.val_main_v9) <;> rfl
  replace g_main_arg0 : W15 (Proc.devRef .tc main_arg0) = x0 := (hfr main_arg0 (by decide)).trans g_main_arg0
  replace g_main_arg2 : W15 (Proc.devRef .tc main_arg2) = x2 := (hfr main_arg2 (by decide)).trans g_main_arg2
  replace g_main_v0 : W15 (Proc.devRef .tc main_v0) = Read.val_main_v0 (F := F) := (hfr main_v0 (by decide)).trans g_main_v0
  replace g_main_v7 : W15 (Proc.devRef .tc main_v7) = Read.val_main_v7 (F := F) x1 := (hfr main_v7 (by decide)).trans g_main_v7
  replace g_main_v8 : W15 (Proc.devRef .tc main_v8) = Read.val_main_v8 (F := F) := (hfr main_v8 (by decide)).trans g_main_v8
  have g_main_v9 := n_main_v9
  clear n_main_v9 hy hfr g_main_c_2
  clear W14
  -- 16: main_v10
  refine step2 (k := fun W16 hy hfr => ?_)
  have n_main_v10 : W16 (Proc.devRef .tc main_v10) = Read.val_main_v10 (F := F) := by
    (rw [hy, g_main_v0, g_main_v9]) <;> (unfold Read.val_main_v10) <;> rfl
  replace g_main_arg0 : W16 (Proc.devRef .tc main_arg0) = x0 := (hfr main_arg0 (by decide)).trans g_main_arg0
  replace g_main_arg2 : W16 (Proc.devRef .tc main_arg2) = x2 := (hfr main_arg2 (by decide)).trans g_main_arg2
  replace g_main_v0 : W16 (Proc.devRef .tc main_v0) = Read.val_main_v0 (F := F) := (hfr main_v0 (by decide)).trans g_main_v0
  replace g_main_v7 : W16 (Proc.devRef .tc main_v7) = Read.val_main_v7 (F := F) x1 := (hfr main_v7 (by decide)).trans g_main_v7
  replace g_main_v8 : W16 (Proc.devRef .tc main_v8) = Read.val_main_v8 (F := F) := (hfr main_v8 (by decide)).trans g_main_v8
  have g_main_v10 := n_main_v10
  clear n_main_v10 hy hfr g_main_v9
  clear W15
  -- 17: main_c_3
  refine step0 (k := fun W17 hy hfr => ?_)
  have n_main_c_3 : W17 (Proc.devRef .tc main_c_3) = Read.val_main_c_3 (F := F) := by
    (rw [hy]) <;> (unfold Read.val_main_c_3) <;> rfl
  replace g_main_arg0 : W17 (Proc.devRef .tc main_arg0) = x0 := (hfr main_arg0 (by decide)).trans g_main_arg0
  replace g_main_arg2 : W17 (Proc.devRef .tc main_arg2) = x2 := (hfr main_arg2 (by decide)).trans g_main_arg2
  replace g_main_v0 : W17 (Proc.devRef .tc main_v0) = Read.val_main_v0 (F := F) := (hfr main_v0 (by decide)).trans g_main_v0
  replace g_main_v7 : W17 (Proc.devRef .tc main_v7) = Read.val_main_v7 (F := F) x1 := (hfr main_v7 (by decide)).trans g_main_v7
  replace g_main_v8 : W17 (Proc.devRef .tc main_v8) = Read.val_main_v8 (F := F) := (hfr main_v8 (by decide)).trans g_main_v8
  replace g_main_v10 : W17 (Proc.devRef .tc main_v10) = Read.val_main_v10 (F := F) := (hfr main_v10 (by decide)).trans g_main_v10
  have g_main_c_3 := n_main_c_3
  clear n_main_c_3 hy hfr
  clear W16
  -- 18: main_v11
  refine step1 (k := fun W18 hy hfr => ?_)
  have n_main_v11 : W18 (Proc.devRef .tc main_v11) = Read.val_main_v11 (F := F) := by
    (rw [hy, g_main_c_3]) <;> (unfold Read.val_main_v11) <;> rfl
  replace g_main_arg0 : W18 (Proc.devRef .tc main_arg0) = x0 := (hfr main_arg0 (by decide)).trans g_main_arg0
  replace g_main_arg2 : W18 (Proc.devRef .tc main_arg2) = x2 := (hfr main_arg2 (by decide)).trans g_main_arg2
  replace g_main_v0 : W18 (Proc.devRef .tc main_v0) = Read.val_main_v0 (F := F) := (hfr main_v0 (by decide)).trans g_main_v0
  replace g_main_v7 : W18 (Proc.devRef .tc main_v7) = Read.val_main_v7 (F := F) x1 := (hfr main_v7 (by decide)).trans g_main_v7
  replace g_main_v8 : W18 (Proc.devRef .tc main_v8) = Read.val_main_v8 (F := F) := (hfr main_v8 (by decide)).trans g_main_v8
  replace g_main_v10 : W18 (Proc.devRef .tc main_v10) = Read.val_main_v10 (F := F) := (hfr main_v10 (by decide)).trans g_main_v10
  have g_main_v11 := n_main_v11
  clear n_main_v11 hy hfr g_main_c_3
  clear W17
  -- 19: main_v12
  refine step2 (k := fun W19 hy hfr => ?_)
  have n_main_v12 : W19 (Proc.devRef .tc main_v12) = Read.val_main_v12 (F := F) := by
    (rw [hy, g_main_v0, g_main_v11]) <;> (unfold Read.val_main_v12) <;> rfl
  replace g_main_arg0 : W19 (Proc.devRef .tc main_arg0) = x0 := (hfr main_arg0 (by decide)).trans g_main_arg0
  replace g_main_arg2 : W19 (Proc.devRef .tc main_arg2) = x2 := (hfr main_arg2 (by decide)).trans g_main_arg2
  replace g_main_v0 : W19 (Proc.devRef .tc main_v0) = Read.val_main_v0 (F := F) := (hfr main_v0 (by decide)).trans g_main_v0
  replace g_main_v7 : W19 (Proc.devRef .tc main_v7) = Read.val_main_v7 (F := F) x1 := (hfr main_v7 (by decide)).trans g_main_v7
  replace g_main_v8 : W19 (Proc.devRef .tc main_v8) = Read.val_main_v8 (F := F) := (hfr main_v8 (by decide)).trans g_main_v8
  replace g_main_v10 : W19 (Proc.devRef .tc main_v10) = Read.val_main_v10 (F := F) := (hfr main_v10 (by decide)).trans g_main_v10
  have g_main_v12 := n_main_v12
  clear n_main_v12 hy hfr g_main_v11
  clear W18
  -- 20: main_v13
  refine step3 (k := fun W20 hy hfr => ?_)
  have n_main_v13 : W20 (Proc.devRef .tc main_v13) = Read.val_main_v13 (F := F) := by
    (rw [hy, g_main_v10, g_main_v12, g_main_v0]) <;> (unfold Read.val_main_v13) <;> rfl
  replace g_main_arg0 : W20 (Proc.devRef .tc main_arg0) = x0 := (hfr main_arg0 (by decide)).trans g_main_arg0
  replace g_main_arg2 : W20 (Proc.devRef .tc main_arg2) = x2 := (hfr main_arg2 (by decide)).trans g_main_arg2
  replace g_main_v0 : W20 (Proc.devRef .tc main_v0) = Read.val_main_v0 (F := F) := (hfr main_v0 (by decide)).trans g_main_v0
  replace g_main_v7 : W20 (Proc.devRef .tc main_v7) = Read.val_main_v7 (F := F) x1 := (hfr main_v7 (by decide)).trans g_main_v7
  replace g_main_v8 : W20 (Proc.devRef .tc main_v8) = Read.val_main_v8 (F := F) := (hfr main_v8 (by decide)).trans g_main_v8
  have g_main_v13 := n_main_v13
  clear n_main_v13 hy hfr g_main_v10 g_main_v12
  clear W19
  -- 21: main_c_4
  refine step0 (k := fun W21 hy hfr => ?_)
  have n_main_c_4 : W21 (Proc.devRef .tc main_c_4) = Read.val_main_c_4 (F := F) := by
    (rw [hy]) <;> (unfold Read.val_main_c_4) <;> rfl
  replace g_main_arg0 : W21 (Proc.devRef .tc main_arg0) = x0 := (hfr main_arg0 (by decide)).trans g_main_arg0
  replace g_main_arg2 : W21 (Proc.devRef .tc main_arg2) = x2 := (hfr main_arg2 (by decide)).trans g_main_arg2
  replace g_main_v0 : W21 (Proc.devRef .tc main_v0) = Read.val_main_v0 (F := F) := (hfr main_v0 (by decide)).trans g_main_v0
  replace g_main_v7 : W21 (Proc.devRef .tc main_v7) = Read.val_main_v7 (F := F) x1 := (hfr main_v7 (by decide)).trans g_main_v7
  replace g_main_v8 : W21 (Proc.devRef .tc main_v8) = Read.val_main_v8 (F := F) := (hfr main_v8 (by decide)).trans g_main_v8
  replace g_main_v13 : W21 (Proc.devRef .tc main_v13) = Read.val_main_v13 (F := F) := (hfr main_v13 (by decide)).trans g_main_v13
  have g_main_c_4 := n_main_c_4
  clear n_main_c_4 hy hfr
  clear W20
  -- 22: main_v14
  refine step1 (k := fun W22 hy hfr => ?_)
  have n_main_v14 : W22 (Proc.devRef .tc main_v14) = Read.val_main_v14 (F := F) := by
    (rw [hy, g_main_c_4]) <;> (unfold Read.val_main_v14) <;> rfl
  replace g_main_arg0 : W22 (Proc.devRef .tc main_arg0) = x0 := (hfr main_arg0 (by decide)).trans g_main_arg0
  replace g_main_arg2 : W22 (Proc.devRef .tc main_arg2) = x2 := (hfr main_arg2 (by decide)).trans g_main_arg2
  replace g_main_v0 : W22 (Proc.devRef .tc main_v0) = Read.val_main_v0 (F := F) := (hfr main_v0 (by decide)).trans g_main_v0
  replace g_main_v7 : W22 (Proc.devRef .tc main_v7) = Read.val_main_v7 (F := F) x1 := (hfr main_v7 (by decide)).trans g_main_v7
  replace g_main_v8 : W22 (Proc.devRef .tc main_v8) = Read.val_main_v8 (F := F) := (hfr main_v8 (by decide)).trans g_main_v8
  replace g_main_v13 : W22 (Proc.devRef .tc main_v13) = Read.val_main_v13 (F := F) := (hfr main_v13 (by decide)).trans g_main_v13
  have g_main_v14 := n_main_v14
  clear n_main_v14 hy hfr g_main_c_4
  clear W21
  -- 23: main_v15
  refine step2 (k := fun W23 hy hfr => ?_)
  have n_main_v15 : W23 (Proc.devRef .tc main_v15) = Read.val_main_v15 (F := F) x2 := by
    (rw [hy, g_main_arg2, g_main_v14]) <;> (unfold Read.val_main_v15) <;> rfl
  replace g_main_arg0 : W23 (Proc.devRef .tc main_arg0) = x0 := (hfr main_arg0 (by decide)).trans g_main_arg0
  replace g_main_arg2 : W23 (Proc.devRef .tc main_arg2) = x2 := (hfr main_arg2 (by decide)).trans g_main_arg2
  replace g_main_v0 : W23 (Proc.devRef .tc main_v0) = Read.val_main_v0 (F := F) := (hfr main_v0 (by decide)).trans g_main_v0
  replace g_main_v7 : W23 (Proc.devRef .tc main_v7) = Read.val_main_v7 (F := F) x1 := (hfr main_v7 (by decide)).trans g_main_v7
  replace g_main_v8 : W23 (Proc.devRef .tc main_v8) = Read.val_main_v8 (F := F) := (hfr main_v8 (by decide)).trans g_main_v8
  replace g_main_v13 : W23 (Proc.devRef .tc main_v13) = Read.val_main_v13 (F := F) := (hfr main_v13 (by decide)).trans g_main_v13
  have g_main_v15 := n_main_v15
  clear n_main_v15 hy hfr g_main_v14
  clear W22
  -- 24: main_c_5
  refine step0 (k := fun W24 hy hfr => ?_)
  have n_main_c_5 : W24 (Proc.devRef .tc main_c_5) = Read.val_main_c_5 (F := F) := by
    (rw [hy]) <;> (unfold Read.val_main_c_5) <;> rfl
  replace g_main_arg0 : W24 (Proc.devRef .tc main_arg0) = x0 := (hfr main_arg0 (by decide)).trans g_main_arg0
  replace g_main_arg2 : W24 (Proc.devRef .tc main_arg2) = x2 := (hfr main_arg2 (by decide)).trans g_main_arg2
  replace g_main_v0 : W24 (Proc.devRef .tc main_v0) = Read.val_main_v0 (F := F) := (hfr main_v0 (by decide)).trans g_main_v0
  replace g_main_v7 : W24 (Proc.devRef .tc main_v7) = Read.val_main_v7 (F := F) x1 := (hfr main_v7 (by decide)).trans g_main_v7
  replace g_main_v8 : W24 (Proc.devRef .tc main_v8) = Read.val_main_v8 (F := F) := (hfr main_v8 (by decide)).trans g_main_v8
  replace g_main_v13 : W24 (Proc.devRef .tc main_v13) = Read.val_main_v13 (F := F) := (hfr main_v13 (by decide)).trans g_main_v13
  replace g_main_v15 : W24 (Proc.devRef .tc main_v15) = Read.val_main_v15 (F := F) x2 := (hfr main_v15 (by decide)).trans g_main_v15
  have g_main_c_5 := n_main_c_5
  clear n_main_c_5 hy hfr
  clear W23
  -- 25: main_v16
  refine step1 (k := fun W25 hy hfr => ?_)
  have n_main_v16 : W25 (Proc.devRef .tc main_v16) = Read.val_main_v16 (F := F) := by
    (rw [hy, g_main_c_5]) <;> (unfold Read.val_main_v16) <;> rfl
  replace g_main_arg0 : W25 (Proc.devRef .tc main_arg0) = x0 := (hfr main_arg0 (by decide)).trans g_main_arg0
  replace g_main_arg2 : W25 (Proc.devRef .tc main_arg2) = x2 := (hfr main_arg2 (by decide)).trans g_main_arg2
  replace g_main_v0 : W25 (Proc.devRef .tc main_v0) = Read.val_main_v0 (F := F) := (hfr main_v0 (by decide)).trans g_main_v0
  replace g_main_v7 : W25 (Proc.devRef .tc main_v7) = Read.val_main_v7 (F := F) x1 := (hfr main_v7 (by decide)).trans g_main_v7
  replace g_main_v8 : W25 (Proc.devRef .tc main_v8) = Read.val_main_v8 (F := F) := (hfr main_v8 (by decide)).trans g_main_v8
  replace g_main_v13 : W25 (Proc.devRef .tc main_v13) = Read.val_main_v13 (F := F) := (hfr main_v13 (by decide)).trans g_main_v13
  replace g_main_v15 : W25 (Proc.devRef .tc main_v15) = Read.val_main_v15 (F := F) x2 := (hfr main_v15 (by decide)).trans g_main_v15
  have g_main_v16 := n_main_v16
  clear n_main_v16 hy hfr g_main_c_5
  clear W24
  -- 26: main_v17
  refine step2 (k := fun W26 hy hfr => ?_)
  have n_main_v17 : W26 (Proc.devRef .tc main_v17) = Read.val_main_v17 (F := F) x2 := by
    (rw [hy, g_main_arg2, g_main_v16]) <;> (unfold Read.val_main_v17) <;> rfl
  replace g_main_arg0 : W26 (Proc.devRef .tc main_arg0) = x0 := (hfr main_arg0 (by decide)).trans g_main_arg0
  replace g_main_arg2 : W26 (Proc.devRef .tc main_arg2) = x2 := (hfr main_arg2 (by decide)).trans g_main_arg2
  replace g_main_v0 : W26 (Proc.devRef .tc main_v0) = Read.val_main_v0 (F := F) := (hfr main_v0 (by decide)).trans g_main_v0
  replace g_main_v7 : W26 (Proc.devRef .tc main_v7) = Read.val_main_v7 (F := F) x1 := (hfr main_v7 (by decide)).trans g_main_v7
  replace g_main_v8 : W26 (Proc.devRef .tc main_v8) = Read.val_main_v8 (F := F) := (hfr main_v8 (by decide)).trans g_main_v8
  replace g_main_v13 : W26 (Proc.devRef .tc main_v13) = Read.val_main_v13 (F := F) := (hfr main_v13 (by decide)).trans g_main_v13
  replace g_main_v15 : W26 (Proc.devRef .tc main_v15) = Read.val_main_v15 (F := F) x2 := (hfr main_v15 (by decide)).trans g_main_v15
  have g_main_v17 := n_main_v17
  clear n_main_v17 hy hfr g_main_v16
  clear W25
  -- 27: main_v18
  refine step3 (k := fun W27 hy hfr => ?_)
  have n_main_v18 : W27 (Proc.devRef .tc main_v18) = Read.val_main_v18 (F := F) x2 := by
    (rw [hy, g_main_v15, g_main_v17, g_main_arg2]) <;> (unfold Read.val_main_v18) <;> rfl
  replace g_main_arg0 : W27 (Proc.devRef .tc main_arg0) = x0 := (hfr main_arg0 (by decide)).trans g_main_arg0
  replace g_main_arg2 : W27 (Proc.devRef .tc main_arg2) = x2 := (hfr main_arg2 (by decide)).trans g_main_arg2
  replace g_main_v0 : W27 (Proc.devRef .tc main_v0) = Read.val_main_v0 (F := F) := (hfr main_v0 (by decide)).trans g_main_v0
  replace g_main_v7 : W27 (Proc.devRef .tc main_v7) = Read.val_main_v7 (F := F) x1 := (hfr main_v7 (by decide)).trans g_main_v7
  replace g_main_v8 : W27 (Proc.devRef .tc main_v8) = Read.val_main_v8 (F := F) := (hfr main_v8 (by decide)).trans g_main_v8
  replace g_main_v13 : W27 (Proc.devRef .tc main_v13) = Read.val_main_v13 (F := F) := (hfr main_v13 (by decide)).trans g_main_v13
  have g_main_v18 := n_main_v18
  clear n_main_v18 hy hfr g_main_v15 g_main_v17
  clear W26
  -- 28: main_v19
  refine step1 (k := fun W28 hy hfr => ?_)
  have n_main_v19 : W28 (Proc.devRef .tc main_v19) = Read.val_main_v19 (F := F) := by
    (rw [hy, g_main_v13]) <;> (unfold Read.val_main_v19) <;> rfl
  replace g_main_arg0 : W28 (Proc.devRef .tc main_arg0) = x0 := (hfr main_arg0 (by decide)).trans g_main_arg0
  replace g_main_arg2 : W28 (Proc.devRef .tc main_arg2) = x2 := (hfr main_arg2 (by decide)).trans g_main_arg2
  replace g_main_v0 : W28 (Proc.devRef .tc main_v0) = Read.val_main_v0 (F := F) := (hfr main_v0 (by decide)).trans g_main_v0
  replace g_main_v7 : W28 (Proc.devRef .tc main_v7) = Read.val_main_v7 (F := F) x1 := (hfr main_v7 (by decide)).trans g_main_v7
  replace g_main_v8 : W28 (Proc.devRef .tc main_v8) = Read.val_main_v8 (F := F) := (hfr main_v8 (by decide)).trans g_main_v8
  replace g_main_v18 : W28 (Proc.devRef .tc main_v18) = Read.val_main_v18 (F := F) x2 := (hfr main_v18 (by decide)).trans g_main_v18
  have g_main_v19 := n_main_v19
  clear n_main_v19 hy hfr g_main_v13
  clear W27
  -- 29: main_v20
  refine step1 (k := fun W29 hy hfr => ?_)
  have n_main_v20 : W29 (Proc.devRef .tc main_v20) = Read.val_main_v20 (F := F) x2 := by
    (rw [hy, g_main_v18]) <;> (unfold Read.val_main_v20) <;> rfl
  replace g_main_arg0 : W29 (Proc.devRef .tc main_arg0) = x0 := (hfr main_arg0 (by decide)).trans g_main_arg0
  replace g_main_arg2 : W29 (Proc.devRef .tc main_arg2) = x2 := (hfr main_arg2 (by decide)).trans g_main_arg2
  replace g_main_v0 : W29 (Proc.devRef .tc main_v0) = Read.val_main_v0 (F := F) := (hfr main_v0 (by decide)).trans g_main_v0
  replace g_main_v7 : W29 (Proc.devRef .tc main_v7) = Read.val_main_v7 (F := F) x1 := (hfr main_v7 (by decide)).trans g_main_v7
  replace g_main_v8 : W29 (Proc.devRef .tc main_v8) = Read.val_main_v8 (F := F) := (hfr main_v8 (by decide)).trans g_main_v8
  replace g_main_v19 : W29 (Proc.devRef .tc main_v19) = Read.val_main_v19 (F := F) := (hfr main_v19 (by decide)).trans g_main_v19
  have g_main_v20 := n_main_v20
  clear n_main_v20 hy hfr g_main_v18
  clear W28
  -- 30: main_v21
  refine step2 (k := fun W30 hy hfr => ?_)
  have n_main_v21 : W30 (Proc.devRef .tc main_v21) = Read.val_main_v21 (F := F) x2 := by
    (rw [hy, g_main_v19, g_main_v20]) <;> (unfold Read.val_main_v21) <;> rfl
  replace g_main_arg0 : W30 (Proc.devRef .tc main_arg0) = x0 := (hfr main_arg0 (by decide)).trans g_main_arg0
  replace g_main_arg2 : W30 (Proc.devRef .tc main_arg2) = x2 := (hfr main_arg2 (by decide)).trans g_main_arg2
  replace g_main_v0 : W30 (Proc.devRef .tc main_v0) = Read.val_main_v0 (F := F) := (hfr main_v0 (by decide)).trans g_main_v0
  replace g_main_v7 : W30 (Proc.devRef .tc main_v7) = Read.val_main_v7 (F := F) x1 := (hfr main_v7 (by decide)).trans g_main_v7
  replace g_main_v8 : W30 (Proc.devRef .tc main_v8) = Read.val_main_v8 (F := F) := (hfr main_v8 (by decide)).trans g_main_v8
  have g_main_v21 := n_main_v21
  clear n_main_v21 hy hfr g_main_v19 g_main_v20
  clear W29
  -- 31: main_c_6
  refine step0 (k := fun W31 hy hfr => ?_)
  have n_main_c_6 : W31 (Proc.devRef .tc main_c_6) = Read.val_main_c_6 (F := F) := by
    (rw [hy]) <;> (unfold Read.val_main_c_6) <;> rfl
  replace g_main_arg0 : W31 (Proc.devRef .tc main_arg0) = x0 := (hfr main_arg0 (by decide)).trans g_main_arg0
  replace g_main_arg2 : W31 (Proc.devRef .tc main_arg2) = x2 := (hfr main_arg2 (by decide)).trans g_main_arg2
  replace g_main_v0 : W31 (Proc.devRef .tc main_v0) = Read.val_main_v0 (F := F) := (hfr main_v0 (by decide)).trans g_main_v0
  replace g_main_v7 : W31 (Proc.devRef .tc main_v7) = Read.val_main_v7 (F := F) x1 := (hfr main_v7 (by decide)).trans g_main_v7
  replace g_main_v8 : W31 (Proc.devRef .tc main_v8) = Read.val_main_v8 (F := F) := (hfr main_v8 (by decide)).trans g_main_v8
  replace g_main_v21 : W31 (Proc.devRef .tc main_v21) = Read.val_main_v21 (F := F) x2 := (hfr main_v21 (by decide)).trans g_main_v21
  have g_main_c_6 := n_main_c_6
  clear n_main_c_6 hy hfr
  clear W30
  -- 32: main_v22
  refine step1 (k := fun W32 hy hfr => ?_)
  have n_main_v22 : W32 (Proc.devRef .tc main_v22) = Read.val_main_v22 (F := F) := by
    (rw [hy, g_main_c_6]) <;> (unfold Read.val_main_v22) <;> rfl
  replace g_main_arg0 : W32 (Proc.devRef .tc main_arg0) = x0 := (hfr main_arg0 (by decide)).trans g_main_arg0
  replace g_main_arg2 : W32 (Proc.devRef .tc main_arg2) = x2 := (hfr main_arg2 (by decide)).trans g_main_arg2
  replace g_main_v0 : W32 (Proc.devRef .tc main_v0) = Read.val_main_v0 (F := F) := (hfr main_v0 (by decide)).trans g_main_v0
  replace g_main_v7 : W32 (Proc.devRef .tc main_v7) = Read.val_main_v7 (F := F) x1 := (hfr main_v7 (by decide)).trans g_main_v7
  replace g_main_v8 : W32 (Proc.devRef .tc main_v8) = Read.val_main_v8 (F := F) := (hfr main_v8 (by decide)).trans g_main_v8
  replace g_main_v21 : W32 (Proc.devRef .tc main_v21) = Read.val_main_v21 (F := F) x2 := (hfr main_v21 (by decide)).trans g_main_v21
  have g_main_v22 := n_main_v22
  clear n_main_v22 hy hfr g_main_c_6
  clear W31
  -- 33: main_v23
  refine step3 (k := fun W33 hy hfr => ?_)
  have n_main_v23 : W33 (Proc.devRef .tc main_v23) = Read.val_main_v23 (F := F) x2 := by
    (rw [hy, g_main_v8, g_main_v21, g_main_v22]) <;> (unfold Read.val_main_v23) <;> rfl
  replace g_main_arg0 : W33 (Proc.devRef .tc main_arg0) = x0 := (hfr main_arg0 (by decide)).trans g_main_arg0
  replace g_main_arg2 : W33 (Proc.devRef .tc main_arg2) = x2 := (hfr main_arg2 (by decide)).trans g_main_arg2
  replace g_main_v0 : W33 (Proc.devRef .tc main_v0) = Read.val_main_v0 (F := F) := (hfr main_v0 (by decide)).trans g_main_v0
  replace g_main_v7 : W33 (Proc.devRef .tc main_v7) = Read.val_main_v7 (F := F) x1 := (hfr main_v7 (by decide)).trans g_main_v7
  have g_main_v23 := n_main_v23
  clear n_main_v23 hy hfr g_main_v8 g_main_v21 g_main_v22
  clear W32
  -- 34: main_cst_7
  refine step0 (k := fun W34 hy hfr => ?_)
  have n_main_cst_7 : W34 (Proc.devRef .tc main_cst_7) = Read.val_main_cst_7 (F := F) := by
    (rw [hy]) <;> (unfold Read.val_main_cst_7) <;> rfl
  replace g_main_arg0 : W34 (Proc.devRef .tc main_arg0) = x0 := (hfr main_arg0 (by decide)).trans g_main_arg0
  replace g_main_arg2 : W34 (Proc.devRef .tc main_arg2) = x2 := (hfr main_arg2 (by decide)).trans g_main_arg2
  replace g_main_v0 : W34 (Proc.devRef .tc main_v0) = Read.val_main_v0 (F := F) := (hfr main_v0 (by decide)).trans g_main_v0
  replace g_main_v7 : W34 (Proc.devRef .tc main_v7) = Read.val_main_v7 (F := F) x1 := (hfr main_v7 (by decide)).trans g_main_v7
  replace g_main_v23 : W34 (Proc.devRef .tc main_v23) = Read.val_main_v23 (F := F) x2 := (hfr main_v23 (by decide)).trans g_main_v23
  have g_main_cst_7 := n_main_cst_7
  clear n_main_cst_7 hy hfr
  clear W33
  -- 35: main_call0_v0
  refine tstep1 (hx := g_main_cst_7) (k := fun W35 hy hfr => ?_)
  have n_main_call0_v0 : W35 (Proc.devRef .tc main_call0_v0) = Read.val_main_call0_v0 (F := F) := hy.trans (by unfold Read.val_main_call0_v0; rfl)
  replace g_main_arg0 : W35 (Proc.devRef .tc main_arg0) = x0 := (hfr main_arg0 (by decide)).trans g_main_arg0
  replace g_main_arg2 : W35 (Proc.devRef .tc main_arg2) = x2 := (hfr main_arg2 (by decide)).trans g_main_arg2
  replace g_main_v0 : W35 (Proc.devRef .tc main_v0) = Read.val_main_v0 (F := F) := (hfr main_v0 (by decide)).trans g_main_v0
  replace g_main_v7 : W35 (Proc.devRef .tc main_v7) = Read.val_main_v7 (F := F) x1 := (hfr main_v7 (by decide)).trans g_main_v7
  replace g_main_v23 : W35 (Proc.devRef .tc main_v23) = Read.val_main_v23 (F := F) x2 := (hfr main_v23 (by decide)).trans g_main_v23
  have g_main_call0_v0 := n_main_call0_v0
  clear n_main_call0_v0 hy hfr g_main_cst_7
  clear W34
  -- 36: main_v24
  refine tstep3 (hc := g_main_v23) (ha := g_main_v7) (hb := g_main_call0_v0) (k := fun W36 hy hfr => ?_)
  have n_main_v24 : W36 (Proc.devRef .tc main_v24) = Read.val_main_v24 (F := F) x1 x2 := hy.trans (by unfold Read.val_main_v24; rfl)
  replace g_main_arg0 : W36 (Proc.devRef .tc main_arg0) = x0 := (hfr main_arg0 (by decide)).trans g_main_arg0
  replace g_main_arg2 : W36 (Proc.devRef .tc main_arg2) = x2 := (hfr main_arg2 (by decide)).trans g_main_arg2
  replace g_main_v0 : W36 (Proc.devRef .tc main_v0) = Read.val_main_v0 (F := F) := (hfr main_v0 (by decide)).trans g_main_v0
  have g_main_v24 := n_main_v24
  clear n_main_v24 hy hfr g_main_v7 g_main_v23 g_main_call0_v0
  clear W35
  -- 37: main_call1_cst
  refine tstep0 (k := fun W37 hy hfr => ?_)
  have n_main_call1_cst : W37 (Proc.devRef .tc main_call1_cst) = Read.val_main_call1_cst (F := F) := hy.trans (by unfold Read.val_main_call1_cst; rfl)
  replace g_main_arg0 : W37 (Proc.devRef .tc main_arg0) = x0 := (hfr main_arg0 (by decide)).trans g_main_arg0
  replace g_main_arg2 : W37 (Proc.devRef .tc main_arg2) = x2 := (hfr main_arg2 (by decide)).trans g_main_arg2
  replace g_main_v0 : W37 (Proc.devRef .tc main_v0) = Read.val_main_v0 (F := F) := (hfr main_v0 (by decide)).trans g_main_v0
  replace g_main_v24 : W37 (Proc.devRef .tc main_v24) = Read.val_main_v24 (F := F) x1 x2 := (hfr main_v24 (by decide)).trans g_main_v24
  have g_main_call1_cst := n_main_call1_cst
  clear n_main_call1_cst hy hfr
  clear W36
  -- 38: main_call1_v0
  refine tstep2 (ha := g_main_arg0) (hb := g_main_call1_cst) (k := fun W38 hy hfr => ?_)
  have n_main_call1_v0 : W38 (Proc.devRef .tc main_call1_v0) = Read.val_main_call1_v0 (F := F) x0 := hy.trans (by unfold Read.val_main_call1_v0; rfl)
  replace g_main_arg0 : W38 (Proc.devRef .tc main_arg0) = x0 := (hfr main_arg0 (by decide)).trans g_main_arg0
  replace g_main_arg2 : W38 (Proc.devRef .tc main_arg2) = x2 := (hfr main_arg2 (by decide)).trans g_main_arg2
  replace g_main_v0 : W38 (Proc.devRef .tc main_v0) = Read.val_main_v0 (F := F) := (hfr main_v0 (by decide)).trans g_main_v0
  replace g_main_v24 : W38 (Proc.devRef .tc main_v24) = Read.val_main_v24 (F := F) x1 x2 := (hfr main_v24 (by decide)).trans g_main_v24
  have g_main_call1_v0 := n_main_call1_v0
  clear n_main_call1_v0 hy hfr g_main_call1_cst
  clear W37
  -- 39: main_call1_cst_0
  refine tstep0 (k := fun W39 hy hfr => ?_)
  have n_main_call1_cst_0 : W39 (Proc.devRef .tc main_call1_cst_0) = Read.val_main_call1_cst_0 (F := F) := hy.trans (by unfold Read.val_main_call1_cst_0; rfl)
  replace g_main_arg0 : W39 (Proc.devRef .tc main_arg0) = x0 := (hfr main_arg0 (by decide)).trans g_main_arg0
  replace g_main_arg2 : W39 (Proc.devRef .tc main_arg2) = x2 := (hfr main_arg2 (by decide)).trans g_main_arg2
  replace g_main_v0 : W39 (Proc.devRef .tc main_v0) = Read.val_main_v0 (F := F) := (hfr main_v0 (by decide)).trans g_main_v0
  replace g_main_v24 : W39 (Proc.devRef .tc main_v24) = Read.val_main_v24 (F := F) x1 x2 := (hfr main_v24 (by decide)).trans g_main_v24
  replace g_main_call1_v0 : W39 (Proc.devRef .tc main_call1_v0) = Read.val_main_call1_v0 (F := F) x0 := (hfr main_call1_v0 (by decide)).trans g_main_call1_v0
  have g_main_call1_cst_0 := n_main_call1_cst_0
  clear n_main_call1_cst_0 hy hfr
  clear W38
  -- 40: main_call1_v1
  refine tstep1 (hx := g_main_call1_cst_0) (k := fun W40 hy hfr => ?_)
  have n_main_call1_v1 : W40 (Proc.devRef .tc main_call1_v1) = Read.val_main_call1_v1 (F := F) := hy.trans (by unfold Read.val_main_call1_v1; rfl)
  replace g_main_arg0 : W40 (Proc.devRef .tc main_arg0) = x0 := (hfr main_arg0 (by decide)).trans g_main_arg0
  replace g_main_arg2 : W40 (Proc.devRef .tc main_arg2) = x2 := (hfr main_arg2 (by decide)).trans g_main_arg2
  replace g_main_v0 : W40 (Proc.devRef .tc main_v0) = Read.val_main_v0 (F := F) := (hfr main_v0 (by decide)).trans g_main_v0
  replace g_main_v24 : W40 (Proc.devRef .tc main_v24) = Read.val_main_v24 (F := F) x1 x2 := (hfr main_v24 (by decide)).trans g_main_v24
  replace g_main_call1_v0 : W40 (Proc.devRef .tc main_call1_v0) = Read.val_main_call1_v0 (F := F) x0 := (hfr main_call1_v0 (by decide)).trans g_main_call1_v0
  have g_main_call1_v1 := n_main_call1_v1
  clear n_main_call1_v1 hy hfr g_main_call1_cst_0
  clear W39
  -- 41: main_call1_v2
  refine tstep2 (ha := g_main_call1_v1) (hb := g_main_call1_v0) (k := fun W41 hy hfr => ?_)
  have n_main_call1_v2 : W41 (Proc.devRef .tc main_call1_v2) = Read.val_main_call1_v2 (F := F) x0 := hy.trans (by unfold Read.val_main_call1_v2; rfl)
  replace g_main_arg0 : W41 (Proc.devRef .tc main_arg0) = x0 := (hfr main_arg0 (by decide)).trans g_main_arg0
  replace g_main_arg2 : W41 (Proc.devRef .tc main_arg2) = x2 := (hfr main_arg2 (by decide)).trans g_main_arg2
  replace g_main_v0 : W41 (Proc.devRef .tc main_v0) = Read.val_main_v0 (F := F) := (hfr main_v0 (by decide)).trans g_main_v0
  replace g_main_v24 : W41 (Proc.devRef .tc main_v24) = Read.val_main_v24 (F := F) x1 x2 := (hfr main_v24 (by decide)).trans g_main_v24
  have g_main_call1_v2 := n_main_call1_v2
  clear n_main_call1_v2 hy hfr g_main_call1_v0 g_main_call1_v1
  clear W40
  -- 42: main_call1_v3
  refine tstep1 (hx := g_main_call1_v2) (k := fun W42 hy hfr => ?_)
  have n_main_call1_v3 : W42 (Proc.devRef .tc main_call1_v3) = Read.val_main_call1_v3 (F := F) x0 := hy.trans (by unfold Read.val_main_call1_v3; rfl)
  replace g_main_arg0 : W42 (Proc.devRef .tc main_arg0) = x0 := (hfr main_arg0 (by decide)).trans g_main_arg0
  replace g_main_arg2 : W42 (Proc.devRef .tc main_arg2) = x2 := (hfr main_arg2 (by decide)).trans g_main_arg2
  replace g_main_v0 : W42 (Proc.devRef .tc main_v0) = Read.val_main_v0 (F := F) := (hfr main_v0 (by decide)).trans g_main_v0
  replace g_main_v24 : W42 (Proc.devRef .tc main_v24) = Read.val_main_v24 (F := F) x1 x2 := (hfr main_v24 (by decide)).trans g_main_v24
  have g_main_call1_v3 := n_main_call1_v3
  clear n_main_call1_v3 hy hfr g_main_call1_v2
  clear W41
  -- 43: main_call1_v4
  refine tstep1 (hx := g_main_call1_v3) (k := fun W43 hy hfr => ?_)
  have n_main_call1_v4 : W43 (Proc.devRef .tc main_call1_v4) = Read.val_main_call1_v4 (F := F) x0 := hy.trans (by unfold Read.val_main_call1_v4; rfl)
  replace g_main_arg0 : W43 (Proc.devRef .tc main_arg0) = x0 := (hfr main_arg0 (by decide)).trans g_main_arg0
  replace g_main_arg2 : W43 (Proc.devRef .tc main_arg2) = x2 := (hfr main_arg2 (by decide)).trans g_main_arg2
  replace g_main_v0 : W43 (Proc.devRef .tc main_v0) = Read.val_main_v0 (F := F) := (hfr main_v0 (by decide)).trans g_main_v0
  replace g_main_v24 : W43 (Proc.devRef .tc main_v24) = Read.val_main_v24 (F := F) x1 x2 := (hfr main_v24 (by decide)).trans g_main_v24
  have g_main_call1_v4 := n_main_call1_v4
  clear n_main_call1_v4 hy hfr g_main_call1_v3
  clear W42
  -- 44: main_call1_v5
  refine tstep2 (ha := g_main_arg0) (hb := g_main_call1_v4) (k := fun W44 hy hfr => ?_)
  have n_main_call1_v5 : W44 (Proc.devRef .tc main_call1_v5) = Read.val_main_call1_v5 (F := F) x0 := hy.trans (by unfold Read.val_main_call1_v5; rfl)
  replace g_main_arg2 : W44 (Proc.devRef .tc main_arg2) = x2 := (hfr main_arg2 (by decide)).trans g_main_arg2
  replace g_main_v0 : W44 (Proc.devRef .tc main_v0) = Read.val_main_v0 (F := F) := (hfr main_v0 (by decide)).trans g_main_v0
  replace g_main_v24 : W44 (Proc.devRef .tc main_v24) = Read.val_main_v24 (F := F) x1 x2 := (hfr main_v24 (by decide)).trans g_main_v24
  have g_main_call1_v5 := n_main_call1_v5
  clear n_main_call1_v5 hy hfr g_main_arg0 g_main_call1_v4
  clear W43
  -- 45: main_call1_v6
  refine tstep1 (hx := g_main_call1_v5) (k := fun W45 hy hfr => ?_)
  have n_main_call1_v6 : W45 (Proc.devRef .tc main_call1_v6) = Read.val_main_call1_v6 (F := F) x0 := hy.trans (by unfold Read.val_main_call1_v6; rfl)
  replace g_main_arg2 : W45 (Proc.devRef .tc main_arg2) = x2 := (hfr main_arg2 (by decide)).trans g_main_arg2
  replace g_main_v0 : W45 (Proc.devRef .tc main_v0) = Read.val_main_v0 (F := F) := (hfr main_v0 (by decide)).trans g_main_v0
  replace g_main_v24 : W45 (Proc.devRef .tc main_v24) = Read.val_main_v24 (F := F) x1 x2 := (hfr main_v24 (by decide)).trans g_main_v24
  replace g_main_call1_v5 : W45 (Proc.devRef .tc main_call1_v5) = Read.val_main_call1_v5 (F := F) x0 := (hfr main_call1_v5 (by decide)).trans g_main_call1_v5
  have g_main_call1_v6 := n_main_call1_v6
  clear n_main_call1_v6 hy hfr
  clear W44
  -- 46: main_call1_cst_1
  refine tstep0 (k := fun W46 hy hfr => ?_)
  have n_main_call1_cst_1 : W46 (Proc.devRef .tc main_call1_cst_1) = Read.val_main_call1_cst_1 (F := F) := hy.trans (by unfold Read.val_main_call1_cst_1; rfl)
  replace g_main_arg2 : W46 (Proc.devRef .tc main_arg2) = x2 := (hfr main_arg2 (by decide)).trans g_main_arg2
  replace g_main_v0 : W46 (Proc.devRef .tc main_v0) = Read.val_main_v0 (F := F) := (hfr main_v0 (by decide)).trans g_main_v0
  replace g_main_v24 : W46 (Proc.devRef .tc main_v24) = Read.val_main_v24 (F := F) x1 x2 := (hfr main_v24 (by decide)).trans g_main_v24
  replace g_main_call1_v5 : W46 (Proc.devRef .tc main_call1_v5) = Read.val_main_call1_v5 (F := F) x0 := (hfr main_call1_v5 (by decide)).trans g_main_call1_v5
  replace g_main_call1_v6 : W46 (Proc.devRef .tc main_call1_v6) = Read.val_main_call1_v6 (F := F) x0 := (hfr main_call1_v6 (by decide)).trans g_main_call1_v6
  have g_main_call1_cst_1 := n_main_call1_cst_1
  clear n_main_call1_cst_1 hy hfr
  clear W45
  -- 47: main_call1_v7
  refine tstep2 (ha := g_main_call1_v6) (hb := g_main_call1_cst_1) (k := fun W47 hy hfr => ?_)
  have n_main_call1_v7 : W47 (Proc.devRef .tc main_call1_v7) = Read.val_main_call1_v7 (F := F) x0 := hy.trans (by unfold Read.val_main_call1_v7; rfl)
  replace g_main_arg2 : W47 (Proc.devRef .tc main_arg2) = x2 := (hfr main_arg2 (by decide)).trans g_main_arg2
  replace g_main_v0 : W47 (Proc.devRef .tc main_v0) = Read.val_main_v0 (F := F) := (hfr main_v0 (by decide)).trans g_main_v0
  replace g_main_v24 : W47 (Proc.devRef .tc main_v24) = Read.val_main_v24 (F := F) x1 x2 := (hfr main_v24 (by decide)).trans g_main_v24
  replace g_main_call1_v5 : W47 (Proc.devRef .tc main_call1_v5) = Read.val_main_call1_v5 (F := F) x0 := (hfr main_call1_v5 (by decide)).trans g_main_call1_v5
  have g_main_call1_v7 := n_main_call1_v7
  clear n_main_call1_v7 hy hfr g_main_call1_v6 g_main_call1_cst_1
  clear W46
  -- 48: main_call1_v8
  refine tstep1 (hx := g_main_call1_v7) (k := fun W48 hy hfr => ?_)
  have n_main_call1_v8 : W48 (Proc.devRef .tc main_call1_v8) = Read.val_main_call1_v8 (F := F) x0 := hy.trans (by unfold Read.val_main_call1_v8; rfl)
  replace g_main_arg2 : W48 (Proc.devRef .tc main_arg2) = x2 := (hfr main_arg2 (by decide)).trans g_main_arg2
  replace g_main_v0 : W48 (Proc.devRef .tc main_v0) = Read.val_main_v0 (F := F) := (hfr main_v0 (by decide)).trans g_main_v0
  replace g_main_v24 : W48 (Proc.devRef .tc main_v24) = Read.val_main_v24 (F := F) x1 x2 := (hfr main_v24 (by decide)).trans g_main_v24
  replace g_main_call1_v5 : W48 (Proc.devRef .tc main_call1_v5) = Read.val_main_call1_v5 (F := F) x0 := (hfr main_call1_v5 (by decide)).trans g_main_call1_v5
  have g_main_call1_v8 := n_main_call1_v8
  clear n_main_call1_v8 hy hfr g_main_call1_v7
  clear W47
  -- 49: main_call1_v9
  refine tstep1 (hx := g_main_call1_v8) (k := fun W49 hy hfr => ?_)
  have n_main_call1_v9 : W49 (Proc.devRef .tc main_call1_v9) = Read.val_main_call1_v9 (F := F) x0 := hy.trans (by unfold Read.val_main_call1_v9; rfl)
  replace g_main_arg2 : W49 (Proc.devRef .tc main_arg2) = x2 := (hfr main_arg2 (by decide)).trans g_main_arg2
  replace g_main_v0 : W49 (Proc.devRef .tc main_v0) = Read.val_main_v0 (F := F) := (hfr main_v0 (by decide)).trans g_main_v0
  replace g_main_v24 : W49 (Proc.devRef .tc main_v24) = Read.val_main_v24 (F := F) x1 x2 := (hfr main_v24 (by decide)).trans g_main_v24
  replace g_main_call1_v5 : W49 (Proc.devRef .tc main_call1_v5) = Read.val_main_call1_v5 (F := F) x0 := (hfr main_call1_v5 (by decide)).trans g_main_call1_v5
  have g_main_call1_v9 := n_main_call1_v9
  clear n_main_call1_v9 hy hfr g_main_call1_v8
  clear W48
  -- 50: main_call1_v10
  refine tstep1 (hx := g_main_call1_v9) (k := fun W50 hy hfr => ?_)
  have n_main_call1_v10 : W50 (Proc.devRef .tc main_call1_v10) = Read.val_main_call1_v10 (F := F) x0 := hy.trans (by unfold Read.val_main_call1_v10; rfl)
  replace g_main_arg2 : W50 (Proc.devRef .tc main_arg2) = x2 := (hfr main_arg2 (by decide)).trans g_main_arg2
  replace g_main_v0 : W50 (Proc.devRef .tc main_v0) = Read.val_main_v0 (F := F) := (hfr main_v0 (by decide)).trans g_main_v0
  replace g_main_v24 : W50 (Proc.devRef .tc main_v24) = Read.val_main_v24 (F := F) x1 x2 := (hfr main_v24 (by decide)).trans g_main_v24
  replace g_main_call1_v5 : W50 (Proc.devRef .tc main_call1_v5) = Read.val_main_call1_v5 (F := F) x0 := (hfr main_call1_v5 (by decide)).trans g_main_call1_v5
  have g_main_call1_v10 := n_main_call1_v10
  clear n_main_call1_v10 hy hfr g_main_call1_v9
  clear W49
  -- 51: main_v25
  refine tstep2 (ha := g_main_call1_v5) (hb := g_main_call1_v10) (k := fun W51 hy hfr => ?_)
  have n_main_v25 : W51 (Proc.devRef .tc main_v25) = Read.val_main_v25 (F := F) x0 := hy.trans (by unfold Read.val_main_v25; rfl)
  replace g_main_arg2 : W51 (Proc.devRef .tc main_arg2) = x2 := (hfr main_arg2 (by decide)).trans g_main_arg2
  replace g_main_v0 : W51 (Proc.devRef .tc main_v0) = Read.val_main_v0 (F := F) := (hfr main_v0 (by decide)).trans g_main_v0
  replace g_main_v24 : W51 (Proc.devRef .tc main_v24) = Read.val_main_v24 (F := F) x1 x2 := (hfr main_v24 (by decide)).trans g_main_v24
  have g_main_v25 := n_main_v25
  clear n_main_v25 hy hfr g_main_call1_v5 g_main_call1_v10
  clear W50
  -- 52: main_c_8
  refine step0 (k := fun W52 hy hfr => ?_)
  have n_main_c_8 : W52 (Proc.devRef .tc main_c_8) = Read.val_main_c_8 (F := F) := by
    (rw [hy]) <;> (unfold Read.val_main_c_8) <;> rfl
  replace g_main_arg2 : W52 (Proc.devRef .tc main_arg2) = x2 := (hfr main_arg2 (by decide)).trans g_main_arg2
  replace g_main_v0 : W52 (Proc.devRef .tc main_v0) = Read.val_main_v0 (F := F) := (hfr main_v0 (by decide)).trans g_main_v0
  replace g_main_v24 : W52 (Proc.devRef .tc main_v24) = Read.val_main_v24 (F := F) x1 x2 := (hfr main_v24 (by decide)).trans g_main_v24
  replace g_main_v25 : W52 (Proc.devRef .tc main_v25) = Read.val_main_v25 (F := F) x0 := (hfr main_v25 (by decide)).trans g_main_v25
  have g_main_c_8 := n_main_c_8
  clear n_main_c_8 hy hfr
  clear W51
  -- 53: main_v26
  refine step1 (k := fun W53 hy hfr => ?_)
  have n_main_v26 : W53 (Proc.devRef .tc main_v26) = Read.val_main_v26 (F := F) := by
    (rw [hy, g_main_c_8]) <;> (unfold Read.val_main_v26) <;> rfl
  replace g_main_arg2 : W53 (Proc.devRef .tc main_arg2) = x2 := (hfr main_arg2 (by decide)).trans g_main_arg2
  replace g_main_v0 : W53 (Proc.devRef .tc main_v0) = Read.val_main_v0 (F := F) := (hfr main_v0 (by decide)).trans g_main_v0
  replace g_main_v24 : W53 (Proc.devRef .tc main_v24) = Read.val_main_v24 (F := F) x1 x2 := (hfr main_v24 (by decide)).trans g_main_v24
  replace g_main_v25 : W53 (Proc.devRef .tc main_v25) = Read.val_main_v25 (F := F) x0 := (hfr main_v25 (by decide)).trans g_main_v25
  have g_main_v26 := n_main_v26
  clear n_main_v26 hy hfr g_main_c_8
  clear W52
  -- 54: main_v27
  refine step2 (k := fun W54 hy hfr => ?_)
  have n_main_v27 : W54 (Proc.devRef .tc main_v27) = Read.val_main_v27 (F := F) := by
    (rw [hy, g_main_v0, g_main_v26]) <;> (unfold Read.val_main_v27) <;> rfl
  replace g_main_arg2 : W54 (Proc.devRef .tc main_arg2) = x2 := (hfr main_arg2 (by decide)).trans g_main_arg2
  replace g_main_v0 : W54 (Proc.devRef .tc main_v0) = Read.val_main_v0 (F := F) := (hfr main_v0 (by decide)).trans g_main_v0
  replace g_main_v24 : W54 (Proc.devRef .tc main_v24) = Read.val_main_v24 (F := F) x1 x2 := (hfr main_v24 (by decide)).trans g_main_v24
  replace g_main_v25 : W54 (Proc.devRef .tc main_v25) = Read.val_main_v25 (F := F) x0 := (hfr main_v25 (by decide)).trans g_main_v25
  have g_main_v27 := n_main_v27
  clear n_main_v27 hy hfr g_main_v26
  clear W53
  -- 55: main_c_9
  refine step0 (k := fun W55 hy hfr => ?_)
  have n_main_c_9 : W55 (Proc.devRef .tc main_c_9) = Read.val_main_c_9 (F := F) := by
    (rw [hy]) <;> (unfold Read.val_main_c_9) <;> rfl
  replace g_main_arg2 : W55 (Proc.devRef .tc main_arg2) = x2 := (hfr main_arg2 (by decide)).trans g_main_arg2
  replace g_main_v0 : W55 (Proc.devRef .tc main_v0) = Read.val_main_v0 (F := F) := (hfr main_v0 (by decide)).trans g_main_v0
  replace g_main_v24 : W55 (Proc.devRef .tc main_v24) = Read.val_main_v24 (F := F) x1 x2 := (hfr main_v24 (by decide)).trans g_main_v24
  replace g_main_v25 : W55 (Proc.devRef .tc main_v25) = Read.val_main_v25 (F := F) x0 := (hfr main_v25 (by decide)).trans g_main_v25
  replace g_main_v27 : W55 (Proc.devRef .tc main_v27) = Read.val_main_v27 (F := F) := (hfr main_v27 (by decide)).trans g_main_v27
  have g_main_c_9 := n_main_c_9
  clear n_main_c_9 hy hfr
  clear W54
  -- 56: main_v28
  refine step1 (k := fun W56 hy hfr => ?_)
  have n_main_v28 : W56 (Proc.devRef .tc main_v28) = Read.val_main_v28 (F := F) := by
    (rw [hy, g_main_c_9]) <;> (unfold Read.val_main_v28) <;> rfl
  replace g_main_arg2 : W56 (Proc.devRef .tc main_arg2) = x2 := (hfr main_arg2 (by decide)).trans g_main_arg2
  replace g_main_v0 : W56 (Proc.devRef .tc main_v0) = Read.val_main_v0 (F := F) := (hfr main_v0 (by decide)).trans g_main_v0
  replace g_main_v24 : W56 (Proc.devRef .tc main_v24) = Read.val_main_v24 (F := F) x1 x2 := (hfr main_v24 (by decide)).trans g_main_v24
  replace g_main_v25 : W56 (Proc.devRef .tc main_v25) = Read.val_main_v25 (F := F) x0 := (hfr main_v25 (by decide)).trans g_main_v25
  replace g_main_v27 : W56 (Proc.devRef .tc main_v27) = Read.val_main_v27 (F := F) := (hfr main_v27 (by decide)).trans g_main_v27
  have g_main_v28 := n_main_v28
  clear n_main_v28 hy hfr g_main_c_9
  clear W55
  -- 57: main_v29
  refine step2 (k := fun W57 hy hfr => ?_)
  have n_main_v29 : W57 (Proc.devRef .tc main_v29) = Read.val_main_v29 (F := F) := by
    (rw [hy, g_main_v0, g_main_v28]) <;> (unfold Read.val_main_v29) <;> rfl
  replace g_main_arg2 : W57 (Proc.devRef .tc main_arg2) = x2 := (hfr main_arg2 (by decide)).trans g_main_arg2
  replace g_main_v0 : W57 (Proc.devRef .tc main_v0) = Read.val_main_v0 (F := F) := (hfr main_v0 (by decide)).trans g_main_v0
  replace g_main_v24 : W57 (Proc.devRef .tc main_v24) = Read.val_main_v24 (F := F) x1 x2 := (hfr main_v24 (by decide)).trans g_main_v24
  replace g_main_v25 : W57 (Proc.devRef .tc main_v25) = Read.val_main_v25 (F := F) x0 := (hfr main_v25 (by decide)).trans g_main_v25
  replace g_main_v27 : W57 (Proc.devRef .tc main_v27) = Read.val_main_v27 (F := F) := (hfr main_v27 (by decide)).trans g_main_v27
  have g_main_v29 := n_main_v29
  clear n_main_v29 hy hfr g_main_v28
  clear W56
  -- 58: main_v30
  refine step3 (k := fun W58 hy hfr => ?_)
  have n_main_v30 : W58 (Proc.devRef .tc main_v30) = Read.val_main_v30 (F := F) := by
    (rw [hy, g_main_v27, g_main_v29, g_main_v0]) <;> (unfold Read.val_main_v30) <;> rfl
  replace g_main_arg2 : W58 (Proc.devRef .tc main_arg2) = x2 := (hfr main_arg2 (by decide)).trans g_main_arg2
  replace g_main_v0 : W58 (Proc.devRef .tc main_v0) = Read.val_main_v0 (F := F) := (hfr main_v0 (by decide)).trans g_main_v0
  replace g_main_v24 : W58 (Proc.devRef .tc main_v24) = Read.val_main_v24 (F := F) x1 x2 := (hfr main_v24 (by decide)).trans g_main_v24
  replace g_main_v25 : W58 (Proc.devRef .tc main_v25) = Read.val_main_v25 (F := F) x0 := (hfr main_v25 (by decide)).trans g_main_v25
  have g_main_v30 := n_main_v30
  clear n_main_v30 hy hfr g_main_v27 g_main_v29
  clear W57
  -- 59: main_c_10
  refine step0 (k := fun W59 hy hfr => ?_)
  have n_main_c_10 : W59 (Proc.devRef .tc main_c_10) = Read.val_main_c_10 (F := F) := by
    (rw [hy]) <;> (unfold Read.val_main_c_10) <;> rfl
  replace g_main_arg2 : W59 (Proc.devRef .tc main_arg2) = x2 := (hfr main_arg2 (by decide)).trans g_main_arg2
  replace g_main_v0 : W59 (Proc.devRef .tc main_v0) = Read.val_main_v0 (F := F) := (hfr main_v0 (by decide)).trans g_main_v0
  replace g_main_v24 : W59 (Proc.devRef .tc main_v24) = Read.val_main_v24 (F := F) x1 x2 := (hfr main_v24 (by decide)).trans g_main_v24
  replace g_main_v25 : W59 (Proc.devRef .tc main_v25) = Read.val_main_v25 (F := F) x0 := (hfr main_v25 (by decide)).trans g_main_v25
  replace g_main_v30 : W59 (Proc.devRef .tc main_v30) = Read.val_main_v30 (F := F) := (hfr main_v30 (by decide)).trans g_main_v30
  have g_main_c_10 := n_main_c_10
  clear n_main_c_10 hy hfr
  clear W58
  -- 60: main_v31
  refine step1 (k := fun W60 hy hfr => ?_)
  have n_main_v31 : W60 (Proc.devRef .tc main_v31) = Read.val_main_v31 (F := F) := by
    (rw [hy, g_main_c_10]) <;> (unfold Read.val_main_v31) <;> rfl
  replace g_main_arg2 : W60 (Proc.devRef .tc main_arg2) = x2 := (hfr main_arg2 (by decide)).trans g_main_arg2
  replace g_main_v0 : W60 (Proc.devRef .tc main_v0) = Read.val_main_v0 (F := F) := (hfr main_v0 (by decide)).trans g_main_v0
  replace g_main_v24 : W60 (Proc.devRef .tc main_v24) = Read.val_main_v24 (F := F) x1 x2 := (hfr main_v24 (by decide)).trans g_main_v24
  replace g_main_v25 : W60 (Proc.devRef .tc main_v25) = Read.val_main_v25 (F := F) x0 := (hfr main_v25 (by decide)).trans g_main_v25
  replace g_main_v30 : W60 (Proc.devRef .tc main_v30) = Read.val_main_v30 (F := F) := (hfr main_v30 (by decide)).trans g_main_v30
  have g_main_v31 := n_main_v31
  clear n_main_v31 hy hfr g_main_c_10
  clear W59
  -- 61: main_v32
  refine step2 (k := fun W61 hy hfr => ?_)
  have n_main_v32 : W61 (Proc.devRef .tc main_v32) = Read.val_main_v32 (F := F) x2 := by
    (rw [hy, g_main_arg2, g_main_v31]) <;> (unfold Read.val_main_v32) <;> rfl
  replace g_main_arg2 : W61 (Proc.devRef .tc main_arg2) = x2 := (hfr main_arg2 (by decide)).trans g_main_arg2
  replace g_main_v0 : W61 (Proc.devRef .tc main_v0) = Read.val_main_v0 (F := F) := (hfr main_v0 (by decide)).trans g_main_v0
  replace g_main_v24 : W61 (Proc.devRef .tc main_v24) = Read.val_main_v24 (F := F) x1 x2 := (hfr main_v24 (by decide)).trans g_main_v24
  replace g_main_v25 : W61 (Proc.devRef .tc main_v25) = Read.val_main_v25 (F := F) x0 := (hfr main_v25 (by decide)).trans g_main_v25
  replace g_main_v30 : W61 (Proc.devRef .tc main_v30) = Read.val_main_v30 (F := F) := (hfr main_v30 (by decide)).trans g_main_v30
  have g_main_v32 := n_main_v32
  clear n_main_v32 hy hfr g_main_v31
  clear W60
  -- 62: main_c_11
  refine step0 (k := fun W62 hy hfr => ?_)
  have n_main_c_11 : W62 (Proc.devRef .tc main_c_11) = Read.val_main_c_11 (F := F) := by
    (rw [hy]) <;> (unfold Read.val_main_c_11) <;> rfl
  replace g_main_arg2 : W62 (Proc.devRef .tc main_arg2) = x2 := (hfr main_arg2 (by decide)).trans g_main_arg2
  replace g_main_v0 : W62 (Proc.devRef .tc main_v0) = Read.val_main_v0 (F := F) := (hfr main_v0 (by decide)).trans g_main_v0
  replace g_main_v24 : W62 (Proc.devRef .tc main_v24) = Read.val_main_v24 (F := F) x1 x2 := (hfr main_v24 (by decide)).trans g_main_v24
  replace g_main_v25 : W62 (Proc.devRef .tc main_v25) = Read.val_main_v25 (F := F) x0 := (hfr main_v25 (by decide)).trans g_main_v25
  replace g_main_v30 : W62 (Proc.devRef .tc main_v30) = Read.val_main_v30 (F := F) := (hfr main_v30 (by decide)).trans g_main_v30
  replace g_main_v32 : W62 (Proc.devRef .tc main_v32) = Read.val_main_v32 (F := F) x2 := (hfr main_v32 (by decide)).trans g_main_v32
  have g_main_c_11 := n_main_c_11
  clear n_main_c_11 hy hfr
  clear W61
  -- 63: main_v33
  refine step1 (k := fun W63 hy hfr => ?_)
  have n_main_v33 : W63 (Proc.devRef .tc main_v33) = Read.val_main_v33 (F := F) := by
    (rw [hy, g_main_c_11]) <;> (unfold Read.val_main_v33) <;> rfl
  replace g_main_arg2 : W63 (Proc.devRef .tc main_arg2) = x2 := (hfr main_arg2 (by decide)).trans g_main_arg2
  replace g_main_v0 : W63 (Proc.devRef .tc main_v0) = Read.val_main_v0 (F := F) := (hfr main_v0 (by decide)).trans g_main_v0
  replace g_main_v24 : W63 (Proc.devRef .tc main_v24) = Read.val_main_v24 (F := F) x1 x2 := (hfr main_v24 (by decide)).trans g_main_v24
  replace g_main_v25 : W63 (Proc.devRef .tc main_v25) = Read.val_main_v25 (F := F) x0 := (hfr main_v25 (by decide)).trans g_main_v25
  replace g_main_v30 : W63 (Proc.devRef .tc main_v30) = Read.val_main_v30 (F := F) := (hfr main_v30 (by decide)).trans g_main_v30
  replace g_main_v32 : W63 (Proc.devRef .tc main_v32) = Read.val_main_v32 (F := F) x2 := (hfr main_v32 (by decide)).trans g_main_v32
  have g_main_v33 := n_main_v33
  clear n_main_v33 hy hfr g_main_c_11
  clear W62
  -- 64: main_v34
  refine step2 (k := fun W64 hy hfr => ?_)
  have n_main_v34 : W64 (Proc.devRef .tc main_v34) = Read.val_main_v34 (F := F) x2 := by
    (rw [hy, g_main_arg2, g_main_v33]) <;> (unfold Read.val_main_v34) <;> rfl
  replace g_main_arg2 : W64 (Proc.devRef .tc main_arg2) = x2 := (hfr main_arg2 (by decide)).trans g_main_arg2
  replace g_main_v0 : W64 (Proc.devRef .tc main_v0) = Read.val_main_v0 (F := F) := (hfr main_v0 (by decide)).trans g_main_v0
  replace g_main_v24 : W64 (Proc.devRef .tc main_v24) = Read.val_main_v24 (F := F) x1 x2 := (hfr main_v24 (by decide)).trans g_main_v24
  replace g_main_v25 : W64 (Proc.devRef .tc main_v25) = Read.val_main_v25 (F := F) x0 := (hfr main_v25 (by decide)).trans g_main_v25
  replace g_main_v30 : W64 (Proc.devRef .tc main_v30) = Read.val_main_v30 (F := F) := (hfr main_v30 (by decide)).trans g_main_v30
  replace g_main_v32 : W64 (Proc.devRef .tc main_v32) = Read.val_main_v32 (F := F) x2 := (hfr main_v32 (by decide)).trans g_main_v32
  have g_main_v34 := n_main_v34
  clear n_main_v34 hy hfr g_main_v33
  clear W63
  -- 65: main_v35
  refine step3 (k := fun W65 hy hfr => ?_)
  have n_main_v35 : W65 (Proc.devRef .tc main_v35) = Read.val_main_v35 (F := F) x2 := by
    (rw [hy, g_main_v32, g_main_v34, g_main_arg2]) <;> (unfold Read.val_main_v35) <;> rfl
  replace g_main_arg2 : W65 (Proc.devRef .tc main_arg2) = x2 := (hfr main_arg2 (by decide)).trans g_main_arg2
  replace g_main_v0 : W65 (Proc.devRef .tc main_v0) = Read.val_main_v0 (F := F) := (hfr main_v0 (by decide)).trans g_main_v0
  replace g_main_v24 : W65 (Proc.devRef .tc main_v24) = Read.val_main_v24 (F := F) x1 x2 := (hfr main_v24 (by decide)).trans g_main_v24
  replace g_main_v25 : W65 (Proc.devRef .tc main_v25) = Read.val_main_v25 (F := F) x0 := (hfr main_v25 (by decide)).trans g_main_v25
  replace g_main_v30 : W65 (Proc.devRef .tc main_v30) = Read.val_main_v30 (F := F) := (hfr main_v30 (by decide)).trans g_main_v30
  have g_main_v35 := n_main_v35
  clear n_main_v35 hy hfr g_main_v32 g_main_v34
  clear W64
  -- 66: main_v36
  refine step1 (k := fun W66 hy hfr => ?_)
  have n_main_v36 : W66 (Proc.devRef .tc main_v36) = Read.val_main_v36 (F := F) := by
    (rw [hy, g_main_v30]) <;> (unfold Read.val_main_v36) <;> rfl
  replace g_main_arg2 : W66 (Proc.devRef .tc main_arg2) = x2 := (hfr main_arg2 (by decide)).trans g_main_arg2
  replace g_main_v0 : W66 (Proc.devRef .tc main_v0) = Read.val_main_v0 (F := F) := (hfr main_v0 (by decide)).trans g_main_v0
  replace g_main_v24 : W66 (Proc.devRef .tc main_v24) = Read.val_main_v24 (F := F) x1 x2 := (hfr main_v24 (by decide)).trans g_main_v24
  replace g_main_v25 : W66 (Proc.devRef .tc main_v25) = Read.val_main_v25 (F := F) x0 := (hfr main_v25 (by decide)).trans g_main_v25
  replace g_main_v35 : W66 (Proc.devRef .tc main_v35) = Read.val_main_v35 (F := F) x2 := (hfr main_v35 (by decide)).trans g_main_v35
  have g_main_v36 := n_main_v36
  clear n_main_v36 hy hfr g_main_v30
  clear W65
  -- 67: main_v37
  refine step1 (k := fun W67 hy hfr => ?_)
  have n_main_v37 : W67 (Proc.devRef .tc main_v37) = Read.val_main_v37 (F := F) x2 := by
    (rw [hy, g_main_v35]) <;> (unfold Read.val_main_v37) <;> rfl
  replace g_main_arg2 : W67 (Proc.devRef .tc main_arg2) = x2 := (hfr main_arg2 (by decide)).trans g_main_arg2
  replace g_main_v0 : W67 (Proc.devRef .tc main_v0) = Read.val_main_v0 (F := F) := (hfr main_v0 (by decide)).trans g_main_v0
  replace g_main_v24 : W67 (Proc.devRef .tc main_v24) = Read.val_main_v24 (F := F) x1 x2 := (hfr main_v24 (by decide)).trans g_main_v24
  replace g_main_v25 : W67 (Proc.devRef .tc main_v25) = Read.val_main_v25 (F := F) x0 := (hfr main_v25 (by decide)).trans g_main_v25
  replace g_main_v36 : W67 (Proc.devRef .tc main_v36) = Read.val_main_v36 (F := F) := (hfr main_v36 (by decide)).trans g_main_v36
  have g_main_v37 := n_main_v37
  clear n_main_v37 hy hfr g_main_v35
  clear W66
  -- 68: main_v38
  refine step2 (k := fun W68 hy hfr => ?_)
  have n_main_v38 : W68 (Proc.devRef .tc main_v38) = Read.val_main_v38 (F := F) x2 := by
    (rw [hy, g_main_v36, g_main_v37]) <;> (unfold Read.val_main_v38) <;> rfl
  replace g_main_arg2 : W68 (Proc.devRef .tc main_arg2) = x2 := (hfr main_arg2 (by decide)).trans g_main_arg2
  replace g_main_v0 : W68 (Proc.devRef .tc main_v0) = Read.val_main_v0 (F := F) := (hfr main_v0 (by decide)).trans g_main_v0
  replace g_main_v24 : W68 (Proc.devRef .tc main_v24) = Read.val_main_v24 (F := F) x1 x2 := (hfr main_v24 (by decide)).trans g_main_v24
  replace g_main_v25 : W68 (Proc.devRef .tc main_v25) = Read.val_main_v25 (F := F) x0 := (hfr main_v25 (by decide)).trans g_main_v25
  have g_main_v38 := n_main_v38
  clear n_main_v38 hy hfr g_main_v36 g_main_v37
  clear W67
  -- 69: main_v39
  refine step2 (k := fun W69 hy hfr => ?_)
  have n_main_v39 : W69 (Proc.devRef .tc main_v39) = Read.val_main_v39 (F := F) x0 x2 := by
    (rw [hy, g_main_v25, g_main_v38]) <;> (unfold Read.val_main_v39) <;> rfl
  replace g_main_arg2 : W69 (Proc.devRef .tc main_arg2) = x2 := (hfr main_arg2 (by decide)).trans g_main_arg2
  replace g_main_v0 : W69 (Proc.devRef .tc main_v0) = Read.val_main_v0 (F := F) := (hfr main_v0 (by decide)).trans g_main_v0
  replace g_main_v24 : W69 (Proc.devRef .tc main_v24) = Read.val_main_v24 (F := F) x1 x2 := (hfr main_v24 (by decide)).trans g_main_v24
  have g_main_v39 := n_main_v39
  clear n_main_v39 hy hfr g_main_v25 g_main_v38
  clear W68
  -- 70: main_c_12
  refine step0 (k := fun W70 hy hfr => ?_)
  have n_main_c_12 : W70 (Proc.devRef .tc main_c_12) = Read.val_main_c_12 (F := F) := by
    (rw [hy]) <;> (unfold Read.val_main_c_12) <;> rfl
  replace g_main_arg2 : W70 (Proc.devRef .tc main_arg2) = x2 := (hfr main_arg2 (by decide)).trans g_main_arg2
  replace g_main_v0 : W70 (Proc.devRef .tc main_v0) = Read.val_main_v0 (F := F) := (hfr main_v0 (by decide)).trans g_main_v0
  replace g_main_v24 : W70 (Proc.devRef .tc main_v24) = Read.val_main_v24 (F := F) x1 x2 := (hfr main_v24 (by decide)).trans g_main_v24
  replace g_main_v39 : W70 (Proc.devRef .tc main_v39) = Read.val_main_v39 (F := F) x0 x2 := (hfr main_v39 (by decide)).trans g_main_v39
  have g_main_c_12 := n_main_c_12
  clear n_main_c_12 hy hfr
  clear W69
  -- 71: main_v40
  refine step1 (k := fun W71 hy hfr => ?_)
  have n_main_v40 : W71 (Proc.devRef .tc main_v40) = Read.val_main_v40 (F := F) := by
    (rw [hy, g_main_c_12]) <;> (unfold Read.val_main_v40) <;> rfl
  replace g_main_arg2 : W71 (Proc.devRef .tc main_arg2) = x2 := (hfr main_arg2 (by decide)).trans g_main_arg2
  replace g_main_v0 : W71 (Proc.devRef .tc main_v0) = Read.val_main_v0 (F := F) := (hfr main_v0 (by decide)).trans g_main_v0
  replace g_main_v24 : W71 (Proc.devRef .tc main_v24) = Read.val_main_v24 (F := F) x1 x2 := (hfr main_v24 (by decide)).trans g_main_v24
  replace g_main_v39 : W71 (Proc.devRef .tc main_v39) = Read.val_main_v39 (F := F) x0 x2 := (hfr main_v39 (by decide)).trans g_main_v39
  have g_main_v40 := n_main_v40
  clear n_main_v40 hy hfr g_main_c_12
  clear W70
  -- 72: main_v41
  refine step2 (k := fun W72 hy hfr => ?_)
  have n_main_v41 : W72 (Proc.devRef .tc main_v41) = Read.val_main_v41 (F := F) := by
    (rw [hy, g_main_v0, g_main_v40]) <;> (unfold Read.val_main_v41) <;> rfl
  replace g_main_arg2 : W72 (Proc.devRef .tc main_arg2) = x2 := (hfr main_arg2 (by decide)).trans g_main_arg2
  replace g_main_v0 : W72 (Proc.devRef .tc main_v0) = Read.val_main_v0 (F := F) := (hfr main_v0 (by decide)).trans g_main_v0
  replace g_main_v24 : W72 (Proc.devRef .tc main_v24) = Read.val_main_v24 (F := F) x1 x2 := (hfr main_v24 (by decide)).trans g_main_v24
  replace g_main_v39 : W72 (Proc.devRef .tc main_v39) = Read.val_main_v39 (F := F) x0 x2 := (hfr main_v39 (by decide)).trans g_main_v39
  have g_main_v41 := n_main_v41
  clear n_main_v41 hy hfr g_main_v40
  clear W71
  -- 73: main_c_13
  refine step0 (k := fun W73 hy hfr => ?_)
  have n_main_c_13 : W73 (Proc.devRef .tc main_c_13) = Read.val_main_c_13 (F := F) := by
    (rw [hy]) <;> (unfold Read.val_main_c_13) <;> rfl
  replace g_main_arg2 : W73 (Proc.devRef .tc main_arg2) = x2 := (hfr main_arg2 (by decide)).trans g_main_arg2
  replace g_main_v0 : W73 (Proc.devRef .tc main_v0) = Read.val_main_v0 (F := F) := (hfr main_v0 (by decide)).trans g_main_v0
  replace g_main_v24 : W73 (Proc.devRef .tc main_v24) = Read.val_main_v24 (F := F) x1 x2 := (hfr main_v24 (by decide)).trans g_main_v24
  replace g_main_v39 : W73 (Proc.devRef .tc main_v39) = Read.val_main_v39 (F := F) x0 x2 := (hfr main_v39 (by decide)).trans g_main_v39
  replace g_main_v41 : W73 (Proc.devRef .tc main_v41) = Read.val_main_v41 (F := F) := (hfr main_v41 (by decide)).trans g_main_v41
  have g_main_c_13 := n_main_c_13
  clear n_main_c_13 hy hfr
  clear W72
  -- 74: main_v42
  refine step1 (k := fun W74 hy hfr => ?_)
  have n_main_v42 : W74 (Proc.devRef .tc main_v42) = Read.val_main_v42 (F := F) := by
    (rw [hy, g_main_c_13]) <;> (unfold Read.val_main_v42) <;> rfl
  replace g_main_arg2 : W74 (Proc.devRef .tc main_arg2) = x2 := (hfr main_arg2 (by decide)).trans g_main_arg2
  replace g_main_v0 : W74 (Proc.devRef .tc main_v0) = Read.val_main_v0 (F := F) := (hfr main_v0 (by decide)).trans g_main_v0
  replace g_main_v24 : W74 (Proc.devRef .tc main_v24) = Read.val_main_v24 (F := F) x1 x2 := (hfr main_v24 (by decide)).trans g_main_v24
  replace g_main_v39 : W74 (Proc.devRef .tc main_v39) = Read.val_main_v39 (F := F) x0 x2 := (hfr main_v39 (by decide)).trans g_main_v39
  replace g_main_v41 : W74 (Proc.devRef .tc main_v41) = Read.val_main_v41 (F := F) := (hfr main_v41 (by decide)).trans g_main_v41
  have g_main_v42 := n_main_v42
  clear n_main_v42 hy hfr g_main_c_13
  clear W73
  -- 75: main_v43
  refine step2 (k := fun W75 hy hfr => ?_)
  have n_main_v43 : W75 (Proc.devRef .tc main_v43) = Read.val_main_v43 (F := F) := by
    (rw [hy, g_main_v0, g_main_v42]) <;> (unfold Read.val_main_v43) <;> rfl
  replace g_main_arg2 : W75 (Proc.devRef .tc main_arg2) = x2 := (hfr main_arg2 (by decide)).trans g_main_arg2
  replace g_main_v0 : W75 (Proc.devRef .tc main_v0) = Read.val_main_v0 (F := F) := (hfr main_v0 (by decide)).trans g_main_v0
  replace g_main_v24 : W75 (Proc.devRef .tc main_v24) = Read.val_main_v24 (F := F) x1 x2 := (hfr main_v24 (by decide)).trans g_main_v24
  replace g_main_v39 : W75 (Proc.devRef .tc main_v39) = Read.val_main_v39 (F := F) x0 x2 := (hfr main_v39 (by decide)).trans g_main_v39
  replace g_main_v41 : W75 (Proc.devRef .tc main_v41) = Read.val_main_v41 (F := F) := (hfr main_v41 (by decide)).trans g_main_v41
  have g_main_v43 := n_main_v43
  clear n_main_v43 hy hfr g_main_v42
  clear W74
  -- 76: main_v44
  refine step3 (k := fun W76 hy hfr => ?_)
  have n_main_v44 : W76 (Proc.devRef .tc main_v44) = Read.val_main_v44 (F := F) := by
    (rw [hy, g_main_v41, g_main_v43, g_main_v0]) <;> (unfold Read.val_main_v44) <;> rfl
  replace g_main_arg2 : W76 (Proc.devRef .tc main_arg2) = x2 := (hfr main_arg2 (by decide)).trans g_main_arg2
  replace g_main_v24 : W76 (Proc.devRef .tc main_v24) = Read.val_main_v24 (F := F) x1 x2 := (hfr main_v24 (by decide)).trans g_main_v24
  replace g_main_v39 : W76 (Proc.devRef .tc main_v39) = Read.val_main_v39 (F := F) x0 x2 := (hfr main_v39 (by decide)).trans g_main_v39
  have g_main_v44 := n_main_v44
  clear n_main_v44 hy hfr g_main_v0 g_main_v41 g_main_v43
  clear W75
  -- 77: main_c_14
  refine step0 (k := fun W77 hy hfr => ?_)
  have n_main_c_14 : W77 (Proc.devRef .tc main_c_14) = Read.val_main_c_14 (F := F) := by
    (rw [hy]) <;> (unfold Read.val_main_c_14) <;> rfl
  replace g_main_arg2 : W77 (Proc.devRef .tc main_arg2) = x2 := (hfr main_arg2 (by decide)).trans g_main_arg2
  replace g_main_v24 : W77 (Proc.devRef .tc main_v24) = Read.val_main_v24 (F := F) x1 x2 := (hfr main_v24 (by decide)).trans g_main_v24
  replace g_main_v39 : W77 (Proc.devRef .tc main_v39) = Read.val_main_v39 (F := F) x0 x2 := (hfr main_v39 (by decide)).trans g_main_v39
  replace g_main_v44 : W77 (Proc.devRef .tc main_v44) = Read.val_main_v44 (F := F) := (hfr main_v44 (by decide)).trans g_main_v44
  have g_main_c_14 := n_main_c_14
  clear n_main_c_14 hy hfr
  clear W76
  -- 78: main_v45
  refine step1 (k := fun W78 hy hfr => ?_)
  have n_main_v45 : W78 (Proc.devRef .tc main_v45) = Read.val_main_v45 (F := F) := by
    (rw [hy, g_main_c_14]) <;> (unfold Read.val_main_v45) <;> rfl
  replace g_main_arg2 : W78 (Proc.devRef .tc main_arg2) = x2 := (hfr main_arg2 (by decide)).trans g_main_arg2
  replace g_main_v24 : W78 (Proc.devRef .tc main_v24) = Read.val_main_v24 (F := F) x1 x2 := (hfr main_v24 (by decide)).trans g_main_v24
  replace g_main_v39 : W78 (Proc.devRef .tc main_v39) = Read.val_main_v39 (F := F) x0 x2 := (hfr main_v39 (by decide)).trans g_main_v39
  replace g_main_v44 : W78 (Proc.devRef .tc main_v44) = Read.val_main_v44 (F := F) := (hfr main_v44 (by decide)).trans g_main_v44
  have g_main_v45 := n_main_v45
  clear n_main_v45 hy hfr g_main_c_14
  clear W77
  -- 79: main_v46
  refine step2 (k := fun W79 hy hfr => ?_)
  have n_main_v46 : W79 (Proc.devRef .tc main_v46) = Read.val_main_v46 (F := F) x2 := by
    (rw [hy, g_main_arg2, g_main_v45]) <;> (unfold Read.val_main_v46) <;> rfl
  replace g_main_arg2 : W79 (Proc.devRef .tc main_arg2) = x2 := (hfr main_arg2 (by decide)).trans g_main_arg2
  replace g_main_v24 : W79 (Proc.devRef .tc main_v24) = Read.val_main_v24 (F := F) x1 x2 := (hfr main_v24 (by decide)).trans g_main_v24
  replace g_main_v39 : W79 (Proc.devRef .tc main_v39) = Read.val_main_v39 (F := F) x0 x2 := (hfr main_v39 (by decide)).trans g_main_v39
  replace g_main_v44 : W79 (Proc.devRef .tc main_v44) = Read.val_main_v44 (F := F) := (hfr main_v44 (by decide)).trans g_main_v44
  have g_main_v46 := n_main_v46
  clear n_main_v46 hy hfr g_main_v45
  clear W78
  -- 80: main_c_15
  refine step0 (k := fun W80 hy hfr => ?_)
  have n_main_c_15 : W80 (Proc.devRef .tc main_c_15) = Read.val_main_c_15 (F := F) := by
    (rw [hy]) <;> (unfold Read.val_main_c_15) <;> rfl
  replace g_main_arg2 : W80 (Proc.devRef .tc main_arg2) = x2 := (hfr main_arg2 (by decide)).trans g_main_arg2
  replace g_main_v24 : W80 (Proc.devRef .tc main_v24) = Read.val_main_v24 (F := F) x1 x2 := (hfr main_v24 (by decide)).trans g_main_v24
  replace g_main_v39 : W80 (Proc.devRef .tc main_v39) = Read.val_main_v39 (F := F) x0 x2 := (hfr main_v39 (by decide)).trans g_main_v39
  replace g_main_v44 : W80 (Proc.devRef .tc main_v44) = Read.val_main_v44 (F := F) := (hfr main_v44 (by decide)).trans g_main_v44
  replace g_main_v46 : W80 (Proc.devRef .tc main_v46) = Read.val_main_v46 (F := F) x2 := (hfr main_v46 (by decide)).trans g_main_v46
  have g_main_c_15 := n_main_c_15
  clear n_main_c_15 hy hfr
  clear W79
  -- 81: main_v47
  refine step1 (k := fun W81 hy hfr => ?_)
  have n_main_v47 : W81 (Proc.devRef .tc main_v47) = Read.val_main_v47 (F := F) := by
    (rw [hy, g_main_c_15]) <;> (unfold Read.val_main_v47) <;> rfl
  replace g_main_arg2 : W81 (Proc.devRef .tc main_arg2) = x2 := (hfr main_arg2 (by decide)).trans g_main_arg2
  replace g_main_v24 : W81 (Proc.devRef .tc main_v24) = Read.val_main_v24 (F := F) x1 x2 := (hfr main_v24 (by decide)).trans g_main_v24
  replace g_main_v39 : W81 (Proc.devRef .tc main_v39) = Read.val_main_v39 (F := F) x0 x2 := (hfr main_v39 (by decide)).trans g_main_v39
  replace g_main_v44 : W81 (Proc.devRef .tc main_v44) = Read.val_main_v44 (F := F) := (hfr main_v44 (by decide)).trans g_main_v44
  replace g_main_v46 : W81 (Proc.devRef .tc main_v46) = Read.val_main_v46 (F := F) x2 := (hfr main_v46 (by decide)).trans g_main_v46
  have g_main_v47 := n_main_v47
  clear n_main_v47 hy hfr g_main_c_15
  clear W80
  -- 82: main_v48
  refine step2 (k := fun W82 hy hfr => ?_)
  have n_main_v48 : W82 (Proc.devRef .tc main_v48) = Read.val_main_v48 (F := F) x2 := by
    (rw [hy, g_main_arg2, g_main_v47]) <;> (unfold Read.val_main_v48) <;> rfl
  replace g_main_arg2 : W82 (Proc.devRef .tc main_arg2) = x2 := (hfr main_arg2 (by decide)).trans g_main_arg2
  replace g_main_v24 : W82 (Proc.devRef .tc main_v24) = Read.val_main_v24 (F := F) x1 x2 := (hfr main_v24 (by decide)).trans g_main_v24
  replace g_main_v39 : W82 (Proc.devRef .tc main_v39) = Read.val_main_v39 (F := F) x0 x2 := (hfr main_v39 (by decide)).trans g_main_v39
  replace g_main_v44 : W82 (Proc.devRef .tc main_v44) = Read.val_main_v44 (F := F) := (hfr main_v44 (by decide)).trans g_main_v44
  replace g_main_v46 : W82 (Proc.devRef .tc main_v46) = Read.val_main_v46 (F := F) x2 := (hfr main_v46 (by decide)).trans g_main_v46
  have g_main_v48 := n_main_v48
  clear n_main_v48 hy hfr g_main_v47
  clear W81
  -- 83: main_v49
  refine step3 (k := fun W83 hy hfr => ?_)
  have n_main_v49 : W83 (Proc.devRef .tc main_v49) = Read.val_main_v49 (F := F) x2 := by
    (rw [hy, g_main_v46, g_main_v48, g_main_arg2]) <;> (unfold Read.val_main_v49) <;> rfl
  replace g_main_v24 : W83 (Proc.devRef .tc main_v24) = Read.val_main_v24 (F := F) x1 x2 := (hfr main_v24 (by decide)).trans g_main_v24
  replace g_main_v39 : W83 (Proc.devRef .tc main_v39) = Read.val_main_v39 (F := F) x0 x2 := (hfr main_v39 (by decide)).trans g_main_v39
  replace g_main_v44 : W83 (Proc.devRef .tc main_v44) = Read.val_main_v44 (F := F) := (hfr main_v44 (by decide)).trans g_main_v44
  have g_main_v49 := n_main_v49
  clear n_main_v49 hy hfr g_main_arg2 g_main_v46 g_main_v48
  clear W82
  -- 84: main_v50
  refine step1 (k := fun W84 hy hfr => ?_)
  have n_main_v50 : W84 (Proc.devRef .tc main_v50) = Read.val_main_v50 (F := F) := by
    (rw [hy, g_main_v44]) <;> (unfold Read.val_main_v50) <;> rfl
  replace g_main_v24 : W84 (Proc.devRef .tc main_v24) = Read.val_main_v24 (F := F) x1 x2 := (hfr main_v24 (by decide)).trans g_main_v24
  replace g_main_v39 : W84 (Proc.devRef .tc main_v39) = Read.val_main_v39 (F := F) x0 x2 := (hfr main_v39 (by decide)).trans g_main_v39
  replace g_main_v49 : W84 (Proc.devRef .tc main_v49) = Read.val_main_v49 (F := F) x2 := (hfr main_v49 (by decide)).trans g_main_v49
  have g_main_v50 := n_main_v50
  clear n_main_v50 hy hfr g_main_v44
  clear W83
  -- 85: main_v51
  refine step1 (k := fun W85 hy hfr => ?_)
  have n_main_v51 : W85 (Proc.devRef .tc main_v51) = Read.val_main_v51 (F := F) x2 := by
    (rw [hy, g_main_v49]) <;> (unfold Read.val_main_v51) <;> rfl
  replace g_main_v24 : W85 (Proc.devRef .tc main_v24) = Read.val_main_v24 (F := F) x1 x2 := (hfr main_v24 (by decide)).trans g_main_v24
  replace g_main_v39 : W85 (Proc.devRef .tc main_v39) = Read.val_main_v39 (F := F) x0 x2 := (hfr main_v39 (by decide)).trans g_main_v39
  replace g_main_v50 : W85 (Proc.devRef .tc main_v50) = Read.val_main_v50 (F := F) := (hfr main_v50 (by decide)).trans g_main_v50
  have g_main_v51 := n_main_v51
  clear n_main_v51 hy hfr g_main_v49
  clear W84
  -- 86: main_v52
  refine step2 (k := fun W86 hy hfr => ?_)
  have n_main_v52 : W86 (Proc.devRef .tc main_v52) = Read.val_main_v52 (F := F) x2 := by
    (rw [hy, g_main_v50, g_main_v51]) <;> (unfold Read.val_main_v52) <;> rfl
  replace g_main_v24 : W86 (Proc.devRef .tc main_v24) = Read.val_main_v24 (F := F) x1 x2 := (hfr main_v24 (by decide)).trans g_main_v24
  replace g_main_v39 : W86 (Proc.devRef .tc main_v39) = Read.val_main_v39 (F := F) x0 x2 := (hfr main_v39 (by decide)).trans g_main_v39
  have g_main_v52 := n_main_v52
  clear n_main_v52 hy hfr g_main_v50 g_main_v51
  clear W85
  -- 87: main_v53
  refine step2 (k := fun W87 hy hfr => ?_)
  have n_main_v53 : W87 (Proc.devRef .tc main_v53) = Read.val_main_v53 (F := F) x1 x2 := by
    (rw [hy, g_main_v24, g_main_v52]) <;> (unfold Read.val_main_v53) <;> rfl
  replace g_main_v39 : W87 (Proc.devRef .tc main_v39) = Read.val_main_v39 (F := F) x0 x2 := (hfr main_v39 (by decide)).trans g_main_v39
  have g_main_v53 := n_main_v53
  clear n_main_v53 hy hfr g_main_v24 g_main_v52
  clear W86
  -- 88: main_v54
  refine step2 (k := fun W88 hy hfr => ?_)
  have n_main_v54 : W88 (Proc.devRef .tc main_v54) = Read.val_main_v54 (F := F) x0 x1 x2 := by
    (rw [hy, g_main_v53, g_main_v39]) <;> (unfold Read.val_main_v54) <;> rfl
  have g_main_v54 := n_main_v54
  clear n_main_v54 hy hfr g_main_v39 g_main_v53
  clear W87
  -- 89: main_v55
  refine step1 (k := fun W89 hy hfr => ?_)
  have n_main_v55 : W89 (Proc.devRef .tc main_v55) = Read.val_main_v55 (F := F) x0 x1 x2 := by
    (rw [hy, g_main_v54]) <;> (unfold Read.val_main_v55) <;> rfl
  have g_main_v55 := n_main_v55
  clear n_main_v55 hy hfr g_main_v54
  clear W88
  -- 90: main_cst_16
  refine step0 (k := fun W90 hy hfr => ?_)
  have n_main_cst_16 : W90 (Proc.devRef .tc main_cst_16) = Read.val_main_cst_16 (F := F) := by
    (rw [hy]) <;> (unfold Read.val_main_cst_16) <;> rfl
  replace g_main_v55 : W90 (Proc.devRef .tc main_v55) = Read.val_main_v55 (F := F) x0 x1 x2 := (hfr main_v55 (by decide)).trans g_main_v55
  have g_main_cst_16 := n_main_cst_16
  clear n_main_cst_16 hy hfr
  clear W89
  -- 91: main_v56
  refine step2 (k := fun W91 hy hfr => ?_)
  have n_main_v56 : W91 (Proc.devRef .tc main_v56) = Read.val_main_v56 (F := F) x0 x1 x2 := by
    (rw [hy, g_main_v55, g_main_cst_16]) <;> (unfold Read.val_main_v56) <;> rfl
  have g_main_v56 := n_main_v56
  clear n_main_v56 hy hfr g_main_v55 g_main_cst_16
  clear W90
  -- 92: main_cst_17
  refine step0 (k := fun W92 hy hfr => ?_)
  have n_main_cst_17 : W92 (Proc.devRef .tc main_cst_17) = Read.val_main_cst_17 (F := F) := by
    (rw [hy]) <;> (unfold Read.val_main_cst_17) <;> rfl
  replace g_main_v56 : W92 (Proc.devRef .tc main_v56) = Read.val_main_v56 (F := F) x0 x1 x2 := (hfr main_v56 (by decide)).trans g_main_v56
  have g_main_cst_17 := n_main_cst_17
  clear n_main_cst_17 hy hfr
  clear W91
  -- 93: main_v57
  refine step2 (k := fun W93 hy hfr => ?_)
  have n_main_v57 : W93 (Proc.devRef .tc main_v57) = Read.val_main_v57 (F := F) x0 x1 x2 := by
    (rw [hy, g_main_v56, g_main_cst_17]) <;> (unfold Read.val_main_v57) <;> rfl
  have g_main_v57 := n_main_v57
  clear n_main_v57 hy hfr g_main_v56 g_main_cst_17
  clear W92
  rw [after_nil]
  exact g_main_v57

/-- THE REFERENCE'S RUN: every weakly fair execution of @main terminates with the result buffer at the last stage of the
    three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = Read.val_main_v57 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (after_eq (launchContents m c)), (h c).2⟩) (run_after m ρ)

end Cert.Proof.RefAfter

end
-- ==== Proof.lean ====
import proofs.«215473_g55439437856794_cont_9to1_m_142_25_alg».proof.Defs
import proofs.«215473_g55439437856794_cont_9to1_m_142_25_alg».proof.Proof.Gen.Kernel
import proofs.«215473_g55439437856794_cont_9to1_m_142_25_alg».proof.Proof.Gen.KernelIdeal
import proofs.«215473_g55439437856794_cont_9to1_m_142_25_alg».proof.Proof.Gen.ReferenceIdeal
import proofs.«215473_g55439437856794_cont_9to1_m_142_25_alg».proof.Proof.Gen.Pre_input_domain
import proofs.«215473_g55439437856794_cont_9to1_m_142_25_alg».proof.Proof.Launch
import proofs.«215473_g55439437856794_cont_9to1_m_142_25_alg».proof.Proof.LaunchK
import proofs.«215473_g55439437856794_cont_9to1_m_142_25_alg».proof.Proof.Bridge
import proofs.«215473_g55439437856794_cont_9to1_m_142_25_alg».proof.Proof.PreFacts
import proofs.«215473_g55439437856794_cont_9to1_m_142_25_alg».proof.Proof.RefValue
import proofs.«215473_g55439437856794_cont_9to1_m_142_25_alg».proof.Proof.RefAfter
import Idealize.ShloMosaic.Adequacy
import Idealize.ShloMosaic.Init

/-!
The kernel computes a weighted cross-entropy in two stages. A gather on the vector subcores picks, for each of the 16384
rows `n`, the similarity `s n = sim[n, t n]` at the row's class `t n`. A pipelined region on the TensorCore then
accumulates, over eight blocks of 2048 rows, `w n · ((M n + log (S n)) − x[n, t n])` with `M n` the row's maximum,
`S n = ∑ k, exp (x[n, k] − M n)` and `w n = 10 / (1 + exp (4 · s n))`, and the host divides by 16384.
The reference computes `−(w n · ((x[n, t n] − M n) − log (S n)))` row by row, sums all rows and divides by 16384.
Over the extended reals the two agree when every input is finite and every class word names a column: each quantity is
then a real number, on the reals `w · ((M + L) − a) = −(w · ((a − M) − L))`, and a sum may be regrouped into blocks.
-/

noncomputable section

namespace Cert.Proof

open Idealize.ShloMosaic Idealize.SL.Sem

/-- Under the precondition the word-level kernel runs to its end and leaves its three arguments as they were. -/
theorem frame_k : Cert.frame_Kernel := fun m ρ hpre =>
  (θ_run (Cert.Kernel.defs (F := Bits)) _ _).mono (fun _ h c => ⟨(h c).1, (h c).2.1, (h c).2.2.1⟩)
    (Cert.Proof.KB.run_main (F := Bits) m ρ (fun d j => Cert.Proof.PreFacts.range_of_pre _ _ _ (hpre d) j))

/-- The same for the idealized kernel. -/
theorem frame_ki : Cert.frame_KernelIdeal := fun m ρ hpre =>
  (θ_run (Cert.KernelIdeal.defs (F := Ideal)) _ _).mono (fun _ h c => ⟨(h c).1, (h c).2.1, (h c).2.2.1⟩)
    (Cert.Proof.KI.run_main (F := Ideal) m ρ (fun d j => Cert.Proof.PreFacts.range_of_pre _ _ _ (hpre d) j))

/-- The idealized kernel's result is the loss of its three arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v4)
          = (fun _ => Cert.Proof.Spec.loss (Cert.Proof.Bridge.Xm m c) (Cert.Proof.Bridge.Sm m c) (Cert.Proof.Bridge.Tm m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono
    (fun _ h c => ⟨(h c).2.2.2.trans (Cert.Proof.Bridge.kernel_value m c (Cert.Proof.KI.Atail m c c) rfl rfl rfl
        (Cert.Proof.PreFacts.finite_of_pre _ _ _ (hpre c)).1 (Cert.Proof.PreFacts.finite_of_pre _ _ _ (hpre c)).2
        (Cert.Proof.PreFacts.range_of_pre _ _ _ (hpre c))), (h c).1, (h c).2.1, (h c).2.2.1⟩)
    (Cert.Proof.KI.run_main (F := Ideal) m ρ (fun d j => Cert.Proof.PreFacts.range_of_pre _ _ _ (hpre d) j))

/-- The reference runs to its end and leaves its three arguments as they were. -/
theorem frame_ri : Cert.frame_ReferenceIdeal := fun m ρ _ =>
  (θ_run (Cert.ReferenceIdeal.defs (F := Ideal)) _ _).mono (fun _ h c => (h c).2) (Cert.Proof.RefAfter.run (F := Ideal) m ρ)

/-- From memories that agree on the three arguments, both idealized programs end with the loss of those arguments. -/
theorem algebraic : Cert.algebraic_KernelIdeal_ReferenceIdeal := by
  intro m ρ m' ρ' hpre hagree
  refine ⟨fun c _ => Cert.Proof.Spec.loss (Cert.Proof.Bridge.Xm m c) (Cert.Proof.Bridge.Sm m c) (Cert.Proof.Bridge.Tm m c), kernel_run m ρ hpre, ?_⟩
  refine (θ_run (Cert.ReferenceIdeal.defs (F := Ideal)) _ _).mono (fun _ h c => ⟨(h c).1.trans ?_, (h c).2⟩) (Cert.Proof.RefAfter.run (F := Ideal) m' ρ')
  rw [(hagree c).1, (hagree c).2.1, (hagree c).2.2]
  exact Cert.Proof.RefValue.val_eq _ _ _ (Cert.Proof.PreFacts.range_of_pre _ _ _ (hpre c))

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
